-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v253)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v253) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v252) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x225x3 : Shape := ⟨3, ![8, 225, 3]⟩
abbrev S8x13 : Shape := ⟨2, ![8, 13]⟩
abbrev S1x225 : Shape := ⟨2, ![1, 225]⟩
abbrev S200x200 : Shape := ⟨2, ![200, 200]⟩
abbrev S14641x2 : Shape := ⟨2, ![14641, 2]⟩
abbrev S_ : Shape := ⟨0, ![]⟩

class Facts : Prop where
  bcast_S_S8x225x3 : S_.BroadcastsInDim S8x225x3 (![] : Fin 0 → Fin S8x225x3.rank)
  reducesTo_S8x225x3_S_d0_1_2 : S8x225x3.ReducesTo [0, 1, 2] S_
  h_S_ : 0 < S_.numel
  bcast_S_S8x13 : S_.BroadcastsInDim S8x13 (![] : Fin 0 → Fin S8x13.rank)
  reducesTo_S8x13_S_d0_1 : S8x13.ReducesTo [0, 1] S_
  bcast_S_S1x225 : S_.BroadcastsInDim S1x225 (![] : Fin 0 → Fin S1x225.rank)
  reducesTo_S1x225_S_d0_1 : S1x225.ReducesTo [0, 1] S_
  bcast_S_S200x200 : S_.BroadcastsInDim S200x200 (![] : Fin 0 → Fin S200x200.rank)
  reducesTo_S200x200_S_d0_1 : S200x200.ReducesTo [0, 1] S_
  bcast_S_S14641x2 : S_.BroadcastsInDim S14641x2 (![] : Fin 0 → Fin S14641x2.rank)
  reducesTo_S14641x2_S_d0_1 : S14641x2.ReducesTo [0, 1] S_

variable [Facts]

def fn_part1 {F : FTy → Type} [FloatOps F] (main_arg4 : FVec F S200x200 .f32) (main_arg5 : FVec F S14641x2 .f32) (main_v13 : IVec S_ 1) (main_v16 : IVec S1x225 1) : IVec S_ 1 :=
  let main_c_5 : IVec S_ 1 := constantI S_ 1 1#1
  let main_v17 : IVec S_ 1 := (fun x v => Host.reduce IntOp.andi x v reducesTo_S1x225_S_d0_1 h_S_) main_v16 main_c_5
  let main_v18 : IVec S_ 1 := andi main_v13 main_v17
  let main_v19 : FVec F S200x200 .f32 := Host.absf main_arg4
  let main_cst_6 : FVec F S_ .f32 := constant S_ .f32 0x7F800000#32
  let main_v20 : FVec F S200x200 .f32 := broadcastInDim S200x200 ![] bcast_S_S200x200 main_cst_6
  let main_v21 : IVec S200x200 1 := cmpf .olt main_v19 main_v20
  let main_c_7 : IVec S_ 1 := constantI S_ 1 1#1
  let main_v22 : IVec S_ 1 := (fun x v => Host.reduce IntOp.andi x v reducesTo_S200x200_S_d0_1 h_S_) main_v21 main_c_7
  let main_v23 : IVec S_ 1 := andi main_v18 main_v22
  let main_v24 : FVec F S14641x2 .f32 := Host.absf main_arg5
  let main_cst_8 : FVec F S_ .f32 := constant S_ .f32 0x7F800000#32
  let main_v25 : FVec F S14641x2 .f32 := broadcastInDim S14641x2 ![] bcast_S_S14641x2 main_cst_8
  let main_v26 : IVec S14641x2 1 := cmpf .olt main_v24 main_v25
  let main_c_9 : IVec S_ 1 := constantI S_ 1 1#1
  let main_v27 : IVec S_ 1 := (fun x v => Host.reduce IntOp.andi x v reducesTo_S14641x2_S_d0_1 h_S_) main_v26 main_c_9
  let main_v28 : IVec S_ 1 := andi main_v23 main_v27
  main_v28

def fn {F : FTy → Type} [FloatOps F] (main_arg0 : FVec F S8x225x3 .f32) (main_arg1 : FVec F S8x13 .f32) (main_arg2 : FVec F S1x225 .f32) (main_arg3 : FVec F S1x225 .f32) (main_arg4 : FVec F S200x200 .f32) (main_arg5 : FVec F S14641x2 .f32) : IVec S_ 1 :=
  let main_v0 : FVec F S8x225x3 .f32 := Host.absf main_arg0
  let main_cst : FVec F S_ .f32 := constant S_ .f32 0x7F800000#32
  let main_v1 : FVec F S8x225x3 .f32 := broadcastInDim S8x225x3 ![] bcast_S_S8x225x3 main_cst
  let main_v2 : IVec S8x225x3 1 := cmpf .olt main_v0 main_v1
  let main_c : IVec S_ 1 := constantI S_ 1 1#1
  let main_v3 : IVec S_ 1 := (fun x v => Host.reduce IntOp.andi x v reducesTo_S8x225x3_S_d0_1_2 h_S_) main_v2 main_c
  let main_v4 : FVec F S8x13 .f32 := Host.absf main_arg1
  let main_cst_0 : FVec F S_ .f32 := constant S_ .f32 0x7F800000#32
  let main_v5 : FVec F S8x13 .f32 := broadcastInDim S8x13 ![] bcast_S_S8x13 main_cst_0
  let main_v6 : IVec S8x13 1 := cmpf .olt main_v4 main_v5
  let main_c_1 : IVec S_ 1 := constantI S_ 1 1#1
  let main_v7 : IVec S_ 1 := (fun x v => Host.reduce IntOp.andi x v reducesTo_S8x13_S_d0_1 h_S_) main_v6 main_c_1
  let main_v8 : IVec S_ 1 := andi main_v3 main_v7
  let main_v9 : FVec F S1x225 .f32 := Host.absf main_arg2
  let main_cst_2 : FVec F S_ .f32 := constant S_ .f32 0x7F800000#32
  let main_v10 : FVec F S1x225 .f32 := broadcastInDim S1x225 ![] bcast_S_S1x225 main_cst_2
  let main_v11 : IVec S1x225 1 := cmpf .olt main_v9 main_v10
  let main_c_3 : IVec S_ 1 := constantI S_ 1 1#1
  let main_v12 : IVec S_ 1 := (fun x v => Host.reduce IntOp.andi x v reducesTo_S1x225_S_d0_1 h_S_) main_v11 main_c_3
  let main_v13 : IVec S_ 1 := andi main_v8 main_v12
  let main_v14 : FVec F S1x225 .f32 := Host.absf main_arg3
  let main_cst_4 : FVec F S_ .f32 := constant S_ .f32 0x7F800000#32
  let main_v15 : FVec F S1x225 .f32 := broadcastInDim S1x225 ![] bcast_S_S1x225 main_cst_4
  let main_v16 : IVec S1x225 1 := cmpf .olt main_v14 main_v15
  fn_part1 (F := F) main_arg4 main_arg5 main_v13 main_v16
-- ==== Kernel.lean ====
abbrev S8x225x3 : Shape := ⟨3, ![8, 225, 3]⟩
abbrev S8x13 : Shape := ⟨2, ![8, 13]⟩
abbrev S1x225 : Shape := ⟨2, ![1, 225]⟩
abbrev S200x200 : Shape := ⟨2, ![200, 200]⟩
abbrev S14641x2 : Shape := ⟨2, ![14641, 2]⟩
abbrev S8x225x1 : Shape := ⟨3, ![8, 225, 1]⟩
abbrev S8x225 : Shape := ⟨2, ![8, 225]⟩
abbrev S8x1 : Shape := ⟨2, ![8, 1]⟩
abbrev S_ : Shape := ⟨0, ![]⟩
abbrev S8x225x2 : Shape := ⟨3, ![8, 225, 2]⟩
abbrev S8x1x225 : Shape := ⟨3, ![8, 1, 225]⟩
abbrev S8x8x225 : Shape := ⟨3, ![8, 8, 225]⟩
abbrev S14848x2 : Shape := ⟨2, ![14848, 2]⟩
abbrev S8x14848 : Shape := ⟨2, ![8, 14848]⟩
abbrev S512x2 : Shape := ⟨2, ![512, 2]⟩
abbrev S8x512 : Shape := ⟨2, ![8, 512]⟩
abbrev S512x1 : Shape := ⟨2, ![512, 1]⟩
abbrev S512x8 : Shape := ⟨2, ![512, 8]⟩
abbrev S1x8x225 : Shape := ⟨3, ![1, 8, 225]⟩
abbrev S512x225 : Shape := ⟨2, ![512, 225]⟩
abbrev S512 : Shape := ⟨1, ![512]⟩
abbrev S8x14641 : Shape := ⟨2, ![8, 14641]⟩
abbrev S8x121x121 : Shape := ⟨3, ![8, 121, 121]⟩

abbrev nBuf : Space → Nat
  | .hbm => 348
  | .vmem => 6
  | .smem => 0
  | _ => 0

abbrev hbmTy0_0 (i : Nat) : BufTy := match i % 128 with
  | 0 => ⟨S8x225x3, .f32⟩
  | 1 => ⟨S8x13, .f32⟩
  | 2 => ⟨S1x225, .f32⟩
  | 3 => ⟨S1x225, .f32⟩
  | 4 => ⟨S200x200, .f32⟩
  | 5 => ⟨S14641x2, .f32⟩
  | 6 => ⟨S8x225x1, .f32⟩
  | 7 => ⟨S8x225, .f32⟩
  | 8 => ⟨S8x225x1, .f32⟩
  | 9 => ⟨S8x225, .f32⟩
  | 10 => ⟨S8x225x1, .f32⟩
  | 11 => ⟨S8x225, .f32⟩
  | 12 => ⟨S8x1, .f32⟩
  | 13 => ⟨S8x1, .f32⟩
  | 14 => ⟨S8x1, .f32⟩
  | 15 => ⟨S8x1, .f32⟩
  | 16 => ⟨S8x1, .f32⟩
  | 17 => ⟨S8x1, .f32⟩
  | 18 => ⟨S8x1, .f32⟩
  | 19 => ⟨S8x1, .f32⟩
  | 20 => ⟨S8x1, .f32⟩
  | 21 => ⟨S8x1, .f32⟩
  | 22 => ⟨S8x1, .f32⟩
  | 23 => ⟨S8x1, .f32⟩
  | 24 => ⟨S8x1, .f32⟩
  | 25 => ⟨S8x1, .f32⟩
  | 26 => ⟨S8x225, .f32⟩
  | 27 => ⟨S8x225, .f32⟩
  | 28 => ⟨S8x225, .f32⟩
  | 29 => ⟨S8x225, .f32⟩
  | 30 => ⟨S8x225, .f32⟩
  | 31 => ⟨S8x225, .f32⟩
  | 32 => ⟨S8x225, .f32⟩
  | 33 => ⟨S8x225, .f32⟩
  | 34 => ⟨S8x225, .f32⟩
  | 35 => ⟨S8x225, .f32⟩
  | 36 => ⟨S8x225, .f32⟩
  | 37 => ⟨S8x225, .f32⟩
  | 38 => ⟨S8x225, .f32⟩
  | 39 => ⟨S8x225, .f32⟩
  | 40 => ⟨S8x225, .f32⟩
  | 41 => ⟨S8x225, .f32⟩
  | 42 => ⟨S8x225, .f32⟩
  | 43 => ⟨S8x225, .f32⟩
  | 44 => ⟨S_, .f32⟩
  | 45 => ⟨S8x1, .f32⟩
  | 46 => ⟨S8x1, .f32⟩
  | 47 => ⟨S8x225, .f32⟩
  | 48 => ⟨S8x225, .f32⟩
  | 49 => ⟨S_, .f32⟩
  | 50 => ⟨S8x225, .f32⟩
  | 51 => ⟨S8x225, .f32⟩
  | 52 => ⟨S_, .f32⟩
  | 53 => ⟨S8x225, .f32⟩
  | 54 => ⟨S8x225, .f32⟩
  | 55 => ⟨S_, .f32⟩
  | 56 => ⟨S8x225, .f32⟩
  | 57 => ⟨S8x225, .f32⟩
  | 58 => ⟨S_, .f32⟩
  | 59 => ⟨S8x225, .f32⟩
  | 60 => ⟨S8x225, .f32⟩
  | 61 => ⟨S8x225, .f32⟩
  | 62 => ⟨S_, .f32⟩
  | 63 => ⟨S_, .i32⟩
  | 64 => ⟨S_, .f32⟩
  | 65 => ⟨S8x225, .f32⟩
  | 66 => ⟨S8x225, .f32⟩
  | 67 => ⟨S_, .f32⟩
  | 68 => ⟨S8x225, .f32⟩
  | 69 => ⟨S8x225, .f32⟩
  | 70 => ⟨S8x225, .f32⟩
  | 71 => ⟨S_, .f32⟩
  | 72 => ⟨S_, .i32⟩
  | 73 => ⟨S_, .f32⟩
  | 74 => ⟨S8x225, .f32⟩
  | 75 => ⟨S8x225, .f32⟩
  | 76 => ⟨S_, .f32⟩
  | 77 => ⟨S8x225, .f32⟩
  | 78 => ⟨S8x225, .f32⟩
  | 79 => ⟨S8x225, .i32⟩
  | 80 => ⟨S8x225, .i32⟩
  | 81 => ⟨S8x225, .f32⟩
  | 82 => ⟨S_, .f32⟩
  | 83 => ⟨S_, .f32⟩
  | 84 => ⟨S_, .f32⟩
  | 85 => ⟨S8x225, .f32⟩
  | 86 => ⟨S8x225, .f32⟩
  | 87 => ⟨S_, .f32⟩
  | 88 => ⟨S8x225, .f32⟩
  | 89 => ⟨S8x225, .f32⟩
  | 90 => ⟨S8x225, .f32⟩
  | 91 => ⟨S_, .f32⟩
  | 92 => ⟨S_, .f32⟩
  | 93 => ⟨S_, .f32⟩
  | 94 => ⟨S8x225, .f32⟩
  | 95 => ⟨S8x225, .f32⟩
  | 96 => ⟨S_, .f32⟩
  | 97 => ⟨S8x225, .f32⟩
  | 98 => ⟨S8x225, .f32⟩
  | 99 => ⟨S_, .i32⟩
  | 100 => ⟨S8x225, .i32⟩
  | 101 => ⟨S8x225, .i1⟩
  | 102 => ⟨S_, .i32⟩
  | 103 => ⟨S8x225, .i32⟩
  | 104 => ⟨S8x225, .i32⟩
  | 105 => ⟨S8x225, .i32⟩
  | 106 => ⟨S_, .i32⟩
  | 107 => ⟨S8x225, .i32⟩
  | 108 => ⟨S8x225, .i1⟩
  | 109 => ⟨S_, .i32⟩
  | 110 => ⟨S8x225, .i32⟩
  | 111 => ⟨S8x225, .i32⟩
  | 112 => ⟨S8x225, .i32⟩
  | 113 => ⟨S8x225x1, .i32⟩
  | 114 => ⟨S8x225x1, .i32⟩
  | 115 => ⟨S8x225x2, .i32⟩
  | 116 => ⟨S8x225, .f32⟩
  | 117 => ⟨S_, .i32⟩
  | 118 => ⟨S8x225, .i32⟩
  | 119 => ⟨S8x225, .i32⟩
  | 120 => ⟨S_, .i32⟩
  | 121 => ⟨S8x225, .i32⟩
  | 122 => ⟨S8x225, .i1⟩
  | 123 => ⟨S_, .i32⟩
  | 124 => ⟨S8x225, .i32⟩
  | 125 => ⟨S8x225, .i32⟩
  | 126 => ⟨S8x225, .i32⟩
  | 127 => ⟨S_, .i32⟩
  | _ => ⟨S8x225x3, .f32⟩

abbrev hbmTy0_1 (i : Nat) : BufTy := match i % 128 with
  | 0 => ⟨S8x225, .i32⟩
  | 1 => ⟨S8x225, .i1⟩
  | 2 => ⟨S_, .i32⟩
  | 3 => ⟨S8x225, .i32⟩
  | 4 => ⟨S8x225, .i32⟩
  | 5 => ⟨S8x225, .i32⟩
  | 6 => ⟨S8x225x1, .i32⟩
  | 7 => ⟨S8x225x1, .i32⟩
  | 8 => ⟨S8x225x2, .i32⟩
  | 9 => ⟨S8x225, .f32⟩
  | 10 => ⟨S_, .i32⟩
  | 11 => ⟨S8x225, .i32⟩
  | 12 => ⟨S8x225, .i32⟩
  | 13 => ⟨S_, .i32⟩
  | 14 => ⟨S8x225, .i32⟩
  | 15 => ⟨S8x225, .i1⟩
  | 16 => ⟨S_, .i32⟩
  | 17 => ⟨S8x225, .i32⟩
  | 18 => ⟨S8x225, .i32⟩
  | 19 => ⟨S8x225, .i32⟩
  | 20 => ⟨S_, .i32⟩
  | 21 => ⟨S8x225, .i32⟩
  | 22 => ⟨S8x225, .i1⟩
  | 23 => ⟨S_, .i32⟩
  | 24 => ⟨S8x225, .i32⟩
  | 25 => ⟨S8x225, .i32⟩
  | 26 => ⟨S8x225, .i32⟩
  | 27 => ⟨S8x225x1, .i32⟩
  | 28 => ⟨S8x225x1, .i32⟩
  | 29 => ⟨S8x225x2, .i32⟩
  | 30 => ⟨S8x225, .f32⟩
  | 31 => ⟨S_, .i32⟩
  | 32 => ⟨S8x225, .i32⟩
  | 33 => ⟨S8x225, .i32⟩
  | 34 => ⟨S_, .i32⟩
  | 35 => ⟨S8x225, .i32⟩
  | 36 => ⟨S8x225, .i32⟩
  | 37 => ⟨S_, .i32⟩
  | 38 => ⟨S8x225, .i32⟩
  | 39 => ⟨S8x225, .i1⟩
  | 40 => ⟨S_, .i32⟩
  | 41 => ⟨S8x225, .i32⟩
  | 42 => ⟨S8x225, .i32⟩
  | 43 => ⟨S8x225, .i32⟩
  | 44 => ⟨S_, .i32⟩
  | 45 => ⟨S8x225, .i32⟩
  | 46 => ⟨S8x225, .i1⟩
  | 47 => ⟨S_, .i32⟩
  | 48 => ⟨S8x225, .i32⟩
  | 49 => ⟨S8x225, .i32⟩
  | 50 => ⟨S8x225, .i32⟩
  | 51 => ⟨S8x225x1, .i32⟩
  | 52 => ⟨S8x225x1, .i32⟩
  | 53 => ⟨S8x225x2, .i32⟩
  | 54 => ⟨S8x225, .f32⟩
  | 55 => ⟨S8x225, .f32⟩
  | 56 => ⟨S8x225, .f32⟩
  | 57 => ⟨S8x225, .f32⟩
  | 58 => ⟨S8x225, .f32⟩
  | 59 => ⟨S8x225, .f32⟩
  | 60 => ⟨S8x225, .f32⟩
  | 61 => ⟨S8x225, .f32⟩
  | 62 => ⟨S8x225, .f32⟩
  | 63 => ⟨S8x225, .f32⟩
  | 64 => ⟨S_, .f32⟩
  | 65 => ⟨S8x225, .f32⟩
  | 66 => ⟨S8x225, .i1⟩
  | 67 => ⟨S_, .f32⟩
  | 68 => ⟨S8x225, .f32⟩
  | 69 => ⟨S8x225, .f32⟩
  | 70 => ⟨S8x225, .f32⟩
  | 71 => ⟨S8x225, .f32⟩
  | 72 => ⟨S8x225, .f32⟩
  | 73 => ⟨S8x225, .f32⟩
  | 74 => ⟨S8x225, .f32⟩
  | 75 => ⟨S8x225, .f32⟩
  | 76 => ⟨S8x225, .f32⟩
  | 77 => ⟨S_, .f32⟩
  | 78 => ⟨S8x225, .f32⟩
  | 79 => ⟨S8x225, .f32⟩
  | 80 => ⟨S8x1, .f32⟩
  | 81 => ⟨S_, .f32⟩
  | 82 => ⟨S8x1, .f32⟩
  | 83 => ⟨S8x1, .f32⟩
  | 84 => ⟨S8x1, .f32⟩
  | 85 => ⟨S8x225, .f32⟩
  | 86 => ⟨S8x225, .f32⟩
  | 87 => ⟨S8x225, .f32⟩
  | 88 => ⟨S8x225, .f32⟩
  | 89 => ⟨S_, .f32⟩
  | 90 => ⟨S_, .f32⟩
  | 91 => ⟨S_, .f32⟩
  | 92 => ⟨S8x225, .f32⟩
  | 93 => ⟨S8x225, .f32⟩
  | 94 => ⟨S_, .f32⟩
  | 95 => ⟨S8x225, .f32⟩
  | 96 => ⟨S8x225, .f32⟩
  | 97 => ⟨S_, .f32⟩
  | 98 => ⟨S8x225, .f32⟩
  | 99 => ⟨S8x225, .i1⟩
  | 100 => ⟨S_, .f32⟩
  | 101 => ⟨S8x225, .f32⟩
  | 102 => ⟨S8x225, .f32⟩
  | 103 => ⟨S8x225, .f32⟩
  | 104 => ⟨S8x225, .f32⟩
  | 105 => ⟨S8x225, .f32⟩
  | 106 => ⟨S8x225, .f32⟩
  | 107 => ⟨S8x225, .f32⟩
  | 108 => ⟨S8x225, .f32⟩
  | 109 => ⟨S8x225, .f32⟩
  | 110 => ⟨S_, .f32⟩
  | 111 => ⟨S_, .f32⟩
  | 112 => ⟨S8x225, .f32⟩
  | 113 => ⟨S8x225, .f32⟩
  | 114 => ⟨S8x225, .f32⟩
  | 115 => ⟨S_, .f32⟩
  | 116 => ⟨S8x225, .f32⟩
  | 117 => ⟨S8x225, .f32⟩
  | 118 => ⟨S8x225, .f32⟩
  | 119 => ⟨S_, .f32⟩
  | 120 => ⟨S8x225, .f32⟩
  | 121 => ⟨S8x225, .f32⟩
  | 122 => ⟨S8x225, .f32⟩
  | 123 => ⟨S8x225, .f32⟩
  | 124 => ⟨S_, .f32⟩
  | 125 => ⟨S8x225, .f32⟩
  | 126 => ⟨S8x225, .f32⟩
  | 127 => ⟨S8x225, .f32⟩
  | _ => ⟨S8x225x3, .f32⟩

abbrev hbmTy0_2 (i : Nat) : BufTy := match i % 128 with
  | 0 => ⟨S8x225, .f32⟩
  | 1 => ⟨S8x225, .f32⟩
  | 2 => ⟨S8x225, .f32⟩
  | 3 => ⟨S8x225, .f32⟩
  | 4 => ⟨S8x225, .f32⟩
  | 5 => ⟨S8x225, .f32⟩
  | 6 => ⟨S8x225, .f32⟩
  | 7 => ⟨S8x225, .f32⟩
  | 8 => ⟨S8x225, .f32⟩
  | 9 => ⟨S8x225, .f32⟩
  | 10 => ⟨S8x225, .f32⟩
  | 11 => ⟨S8x225, .f32⟩
  | 12 => ⟨S8x225, .f32⟩
  | 13 => ⟨S8x225, .f32⟩
  | 14 => ⟨S8x225, .f32⟩
  | 15 => ⟨S8x225, .f32⟩
  | 16 => ⟨S8x225, .f32⟩
  | 17 => ⟨S8x225, .f32⟩
  | 18 => ⟨S8x225, .f32⟩
  | 19 => ⟨S8x225, .f32⟩
  | 20 => ⟨S8x225, .f32⟩
  | 21 => ⟨S_, .f32⟩
  | 22 => ⟨S8x225, .f32⟩
  | 23 => ⟨S8x225, .f32⟩
  | 24 => ⟨S_, .f32⟩
  | 25 => ⟨S8x225, .f32⟩
  | 26 => ⟨S8x225, .f32⟩
  | 27 => ⟨S_, .f32⟩
  | 28 => ⟨S8x225, .f32⟩
  | 29 => ⟨S8x225, .f32⟩
  | 30 => ⟨S_, .f32⟩
  | 31 => ⟨S8x225, .f32⟩
  | 32 => ⟨S8x225, .f32⟩
  | 33 => ⟨S_, .f32⟩
  | 34 => ⟨S8x225, .f32⟩
  | 35 => ⟨S8x225, .f32⟩
  | 36 => ⟨S_, .f32⟩
  | 37 => ⟨S8x225, .f32⟩
  | 38 => ⟨S8x225, .f32⟩
  | 39 => ⟨S_, .f32⟩
  | 40 => ⟨S8x225, .f32⟩
  | 41 => ⟨S8x225, .f32⟩
  | 42 => ⟨S_, .f32⟩
  | 43 => ⟨S8x225, .f32⟩
  | 44 => ⟨S8x225, .f32⟩
  | 45 => ⟨S_, .f32⟩
  | 46 => ⟨S8x225, .f32⟩
  | 47 => ⟨S8x225, .f32⟩
  | 48 => ⟨S8x225, .f32⟩
  | 49 => ⟨S_, .f32⟩
  | 50 => ⟨S8x225, .f32⟩
  | 51 => ⟨S8x225, .f32⟩
  | 52 => ⟨S8x225, .f32⟩
  | 53 => ⟨S8x225, .f32⟩
  | 54 => ⟨S_, .f32⟩
  | 55 => ⟨S8x225, .f32⟩
  | 56 => ⟨S8x225, .f32⟩
  | 57 => ⟨S8x225, .f32⟩
  | 58 => ⟨S_, .f32⟩
  | 59 => ⟨S8x225, .f32⟩
  | 60 => ⟨S8x225, .f32⟩
  | 61 => ⟨S8x225, .f32⟩
  | 62 => ⟨S8x225, .f32⟩
  | 63 => ⟨S8x225, .f32⟩
  | 64 => ⟨S8x225, .f32⟩
  | 65 => ⟨S_, .f32⟩
  | 66 => ⟨S8x225, .f32⟩
  | 67 => ⟨S8x225, .f32⟩
  | 68 => ⟨S8x225, .f32⟩
  | 69 => ⟨S8x225, .f32⟩
  | 70 => ⟨S8x225, .f32⟩
  | 71 => ⟨S8x225, .f32⟩
  | 72 => ⟨S8x225, .f32⟩
  | 73 => ⟨S8x225, .f32⟩
  | 74 => ⟨S_, .f32⟩
  | 75 => ⟨S8x225, .f32⟩
  | 76 => ⟨S8x1x225, .f32⟩
  | 77 => ⟨S8x1x225, .f32⟩
  | 78 => ⟨S8x1x225, .f32⟩
  | 79 => ⟨S8x1x225, .f32⟩
  | 80 => ⟨S8x1x225, .f32⟩
  | 81 => ⟨S8x1x225, .f32⟩
  | 82 => ⟨S8x1x225, .f32⟩
  | 83 => ⟨S8x1x225, .f32⟩
  | 84 => ⟨S8x8x225, .f32⟩
  | 85 => ⟨S_, .i32⟩
  | 86 => ⟨S_, .f32⟩
  | 87 => ⟨S14848x2, .f32⟩
  | 88 => ⟨S8x14848, .f32⟩
  | 89 => ⟨S8x14641, .f32⟩
  | 90 => ⟨S8x121x121, .f32⟩
  | 91 => ⟨S8x121x121, .f32⟩
  | _ => ⟨S8x225x3, .f32⟩

abbrev hbmTy (i : Nat) : BufTy := match i / 128 with
  | 0 => hbmTy0_0 i
  | 1 => hbmTy0_1 i
  | 2 => hbmTy0_2 i
  | _ => ⟨S8x225x3, .f32⟩

abbrev bufTy : (tb : Table) → Fin (tcTables nBuf tb) → BufTy
  | .hbm, ⟨i, _⟩ => hbmTy i
  | .local _ .vmem, ⟨0, _⟩ => ⟨S512x2, .f32⟩
  | .local _ .vmem, ⟨1, _⟩ => ⟨S512x2, .f32⟩
  | .local _ .vmem, ⟨2, _⟩ => ⟨S8x8x225, .f32⟩
  | .local _ .vmem, ⟨3, _⟩ => ⟨S8x225, .f32⟩
  | .local _ .vmem, ⟨4, _⟩ => ⟨S8x512, .f32⟩
  | .local _ .vmem, ⟨5, _⟩ => ⟨S8x512, .f32⟩
  | _, _ => ⟨S8x225x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_cst_0 : Ref sig .tc := ⟨.hbm, 49, rfl⟩
abbrev main_v42 : Ref sig .tc := ⟨.hbm, 50, rfl⟩
abbrev main_v43 : Ref sig .tc := ⟨.hbm, 51, rfl⟩
abbrev main_cst_1 : Ref sig .tc := ⟨.hbm, 52, rfl⟩
abbrev main_v44 : Ref sig .tc := ⟨.hbm, 53, rfl⟩
abbrev main_v45 : Ref sig .tc := ⟨.hbm, 54, rfl⟩
abbrev main_cst_2 : Ref sig .tc := ⟨.hbm, 55, rfl⟩
abbrev main_v46 : Ref sig .tc := ⟨.hbm, 56, rfl⟩
abbrev main_v47 : Ref sig .tc := ⟨.hbm, 57, rfl⟩
abbrev main_cst_3 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_4 : Ref sig .tc := ⟨.hbm, 62, rfl⟩
abbrev main_c : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_v51 : Ref sig .tc := ⟨.hbm, 69, rfl⟩
abbrev main_v52 : Ref sig .tc := ⟨.hbm, 70, rfl⟩
abbrev main_cst_5 : Ref sig .tc := ⟨.hbm, 71, rfl⟩
abbrev main_c_6 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_7 : Ref sig .tc := ⟨.hbm, 82, rfl⟩
abbrev main_cst_8 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_v57 : Ref sig .tc := ⟨.hbm, 89, rfl⟩
abbrev main_v58 : Ref sig .tc := ⟨.hbm, 90, rfl⟩
abbrev main_cst_9 : Ref sig .tc := ⟨.hbm, 91, rfl⟩
abbrev main_cst_10 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_call3_v3 : Ref sig .tc := ⟨.hbm, 96, rfl⟩
abbrev main_call3_v4 : Ref sig .tc := ⟨.hbm, 97, rfl⟩
abbrev main_v59 : Ref sig .tc := ⟨.hbm, 98, rfl⟩
abbrev main_c_11 : Ref sig .tc := ⟨.hbm, 99, rfl⟩
abbrev main_v60 : Ref sig .tc := ⟨.hbm, 100, rfl⟩
abbrev main_v61 : Ref sig .tc := ⟨.hbm, 101, rfl⟩
abbrev main_c_12 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_c_13 : Ref sig .tc := ⟨.hbm, 106, rfl⟩
abbrev main_v65 : Ref sig .tc := ⟨.hbm, 107, rfl⟩
abbrev main_v66 : Ref sig .tc := ⟨.hbm, 108, rfl⟩
abbrev main_c_14 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_c_15 : Ref sig .tc := ⟨.hbm, 117, rfl⟩
abbrev main_v74 : Ref sig .tc := ⟨.hbm, 118, rfl⟩
abbrev main_v75 : Ref sig .tc := ⟨.hbm, 119, rfl⟩
abbrev main_c_16 : Ref sig .tc := ⟨.hbm, 120, rfl⟩
abbrev main_v76 : Ref sig .tc := ⟨.hbm, 121, rfl⟩
abbrev main_v77 : Ref sig .tc := ⟨.hbm, 122, rfl⟩
abbrev main_c_17 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_c_18 : Ref sig .tc := ⟨.hbm, 127, rfl⟩
abbrev main_v81 : Ref sig .tc := ⟨.hbm, 128, rfl⟩
abbrev main_v82 : Ref sig .tc := ⟨.hbm, 129, rfl⟩
abbrev main_c_19 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_c_20 : Ref sig .tc := ⟨.hbm, 138, rfl⟩
abbrev main_v90 : Ref sig .tc := ⟨.hbm, 139, rfl⟩
abbrev main_v91 : Ref sig .tc := ⟨.hbm, 140, rfl⟩
abbrev main_c_21 : Ref sig .tc := ⟨.hbm, 141, rfl⟩
abbrev main_v92 : Ref sig .tc := ⟨.hbm, 142, rfl⟩
abbrev main_v93 : Ref sig .tc := ⟨.hbm, 143, rfl⟩
abbrev main_c_22 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_c_23 : Ref sig .tc := ⟨.hbm, 148, rfl⟩
abbrev main_v97 : Ref sig .tc := ⟨.hbm, 149, rfl⟩
abbrev main_v98 : Ref sig .tc := ⟨.hbm, 150, rfl⟩
abbrev main_c_24 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_c_25 : Ref sig .tc := ⟨.hbm, 159, rfl⟩
abbrev main_v106 : Ref sig .tc := ⟨.hbm, 160, rfl⟩
abbrev main_v107 : Ref sig .tc := ⟨.hbm, 161, rfl⟩
abbrev main_c_26 : Ref sig .tc := ⟨.hbm, 162, rfl⟩
abbrev main_v108 : Ref sig .tc := ⟨.hbm, 163, rfl⟩
abbrev main_v109 : Ref sig .tc := ⟨.hbm, 164, rfl⟩
abbrev main_c_27 : Ref sig .tc := ⟨.hbm, 165, rfl⟩
abbrev main_v110 : Ref sig .tc := ⟨.hbm, 166, rfl⟩
abbrev main_v111 : Ref sig .tc := ⟨.hbm, 167, rfl⟩
abbrev main_c_28 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_c_29 : Ref sig .tc := ⟨.hbm, 172, rfl⟩
abbrev main_v115 : Ref sig .tc := ⟨.hbm, 173, rfl⟩
abbrev main_v116 : Ref sig .tc := ⟨.hbm, 174, rfl⟩
abbrev main_c_30 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_cst_31 : Ref sig .tc := ⟨.hbm, 192, rfl⟩
abbrev main_v133 : Ref sig .tc := ⟨.hbm, 193, rfl⟩
abbrev main_v134 : Ref sig .tc := ⟨.hbm, 194, rfl⟩
abbrev main_cst_32 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_cst_33 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_cst_34 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_cst_35 : Ref sig .tc := ⟨.hbm, 217, rfl⟩
abbrev main_cst_36 : Ref sig .tc := ⟨.hbm, 218, rfl⟩
abbrev main_call5_v0 : Ref sig .tc := ⟨.hbm, 219, rfl⟩
abbrev main_call5_v1 : Ref sig .tc := ⟨.hbm, 220, rfl⟩
abbrev main_call5_v2 : Ref sig .tc := ⟨.hbm, 221, rfl⟩
abbrev main_call5_v3 : Ref sig .tc := ⟨.hbm, 222, rfl⟩
abbrev main_call5_v4 : Ref sig .tc := ⟨.hbm, 223, rfl⟩
abbrev main_v154 : Ref sig .tc := ⟨.hbm, 224, rfl⟩
abbrev main_cst_37 : Ref sig .tc := ⟨.hbm, 225, rfl⟩
abbrev main_v155 : Ref sig .tc := ⟨.hbm, 226, rfl⟩
abbrev main_v156 : Ref sig .tc := ⟨.hbm, 227, rfl⟩
abbrev main_cst_38 : Ref sig .tc := ⟨.hbm, 228, rfl⟩
abbrev main_v157 : Ref sig .tc := ⟨.hbm, 229, rfl⟩
abbrev main_v158 : Ref sig .tc := ⟨.hbm, 230, rfl⟩
abbrev main_v159 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_v163 : Ref sig .tc := ⟨.hbm, 235, rfl⟩
abbrev main_v164 : Ref sig .tc := ⟨.hbm, 236, rfl⟩
abbrev main_v165 : Ref sig .tc := ⟨.hbm, 237, rfl⟩
abbrev main_cst_39 : Ref sig .tc := ⟨.hbm, 238, rfl⟩
abbrev main_call6_v0 : Ref sig .tc := ⟨.hbm, 239, rfl⟩
abbrev main_call6_v1 : Ref sig .tc := ⟨.hbm, 240, rfl⟩
abbrev main_v166 : Ref sig .tc := ⟨.hbm, 241, rfl⟩
abbrev main_v167 : Ref sig .tc := ⟨.hbm, 242, rfl⟩
abbrev main_cst_40 : Ref sig .tc := ⟨.hbm, 243, rfl⟩
abbrev main_v168 : Ref sig .tc := ⟨.hbm, 244, rfl⟩
abbrev main_v169 : Ref sig .tc := ⟨.hbm, 245, rfl⟩
abbrev main_v170 : Ref sig .tc := ⟨.hbm, 246, rfl⟩
abbrev main_cst_41 : Ref sig .tc := ⟨.hbm, 247, rfl⟩
abbrev main_v171 : Ref sig .tc := ⟨.hbm, 248, rfl⟩
abbrev main_v172 : Ref sig .tc := ⟨.hbm, 249, rfl⟩
abbrev main_v173 : Ref sig .tc := ⟨.hbm, 250, rfl⟩
abbrev main_v174 : Ref sig .tc := ⟨.hbm, 251, rfl⟩
abbrev main_cst_42 : Ref sig .tc := ⟨.hbm, 252, rfl⟩
abbrev main_v175 : Ref sig .tc := ⟨.hbm, 253, rfl⟩
abbrev main_v176 : Ref sig .tc := ⟨.hbm, 254, rfl⟩
abbrev main_v177 : Ref sig .tc := ⟨.hbm, 255, rfl⟩
abbrev main_v178 : Ref sig .tc := ⟨.hbm, 256, rfl⟩
abbrev main_v179 : Ref sig .tc := ⟨.hbm, 257, rfl⟩
abbrev main_v180 : Ref sig .tc := ⟨.hbm, 258, rfl⟩
abbrev main_v181 : Ref sig .tc := ⟨.hbm, 259, rfl⟩
abbrev main_v182 : Ref sig .tc := ⟨.hbm, 260, rfl⟩
abbrev main_v183 : Ref sig .tc := ⟨.hbm, 261, rfl⟩
abbrev main_v184 : Ref sig .tc := ⟨.hbm, 262, rfl⟩
abbrev main_v185 : Ref sig .tc := ⟨.hbm, 263, rfl⟩
abbrev main_v186 : Ref sig .tc := ⟨.hbm, 264, rfl⟩
abbrev main_v187 : Ref sig .tc := ⟨.hbm, 265, rfl⟩
abbrev main_v188 : Ref sig .tc := ⟨.hbm, 266, rfl⟩
abbrev main_v189 : Ref sig .tc := ⟨.hbm, 267, rfl⟩
abbrev main_v190 : Ref sig .tc := ⟨.hbm, 268, rfl⟩
abbrev main_v191 : Ref sig .tc := ⟨.hbm, 269, rfl⟩
abbrev main_v192 : Ref sig .tc := ⟨.hbm, 270, rfl⟩
abbrev main_v193 : Ref sig .tc := ⟨.hbm, 271, rfl⟩
abbrev main_v194 : Ref sig .tc := ⟨.hbm, 272, rfl⟩
abbrev main_v195 : Ref sig .tc := ⟨.hbm, 273, rfl⟩
abbrev main_v196 : Ref sig .tc := ⟨.hbm, 274, rfl⟩
abbrev main_v197 : Ref sig .tc := ⟨.hbm, 275, rfl⟩
abbrev main_v198 : Ref sig .tc := ⟨.hbm, 276, rfl⟩
abbrev main_cst_43 : Ref sig .tc := ⟨.hbm, 277, rfl⟩
abbrev main_v199 : Ref sig .tc := ⟨.hbm, 278, rfl⟩
abbrev main_v200 : Ref sig .tc := ⟨.hbm, 279, rfl⟩
abbrev main_cst_44 : Ref sig .tc := ⟨.hbm, 280, rfl⟩
abbrev main_v201 : Ref sig .tc := ⟨.hbm, 281, rfl⟩
abbrev main_v202 : Ref sig .tc := ⟨.hbm, 282, rfl⟩
abbrev main_cst_45 : Ref sig .tc := ⟨.hbm, 283, rfl⟩
abbrev main_v203 : Ref sig .tc := ⟨.hbm, 284, rfl⟩
abbrev main_v204 : Ref sig .tc := ⟨.hbm, 285, rfl⟩
abbrev main_cst_46 : Ref sig .tc := ⟨.hbm, 286, rfl⟩
abbrev main_v205 : Ref sig .tc := ⟨.hbm, 287, rfl⟩
abbrev main_v206 : Ref sig .tc := ⟨.hbm, 288, rfl⟩
abbrev main_cst_47 : Ref sig .tc := ⟨.hbm, 289, rfl⟩
abbrev main_v207 : Ref sig .tc := ⟨.hbm, 290, rfl⟩
abbrev main_v208 : Ref sig .tc := ⟨.hbm, 291, rfl⟩
abbrev main_cst_48 : Ref sig .tc := ⟨.hbm, 292, rfl⟩
abbrev main_v209 : Ref sig .tc := ⟨.hbm, 293, rfl⟩
abbrev main_v210 : Ref sig .tc := ⟨.hbm, 294, rfl⟩
abbrev main_cst_49 : Ref sig .tc := ⟨.hbm, 295, rfl⟩
abbrev main_v211 : Ref sig .tc := ⟨.hbm, 296, rfl⟩
abbrev main_v212 : Ref sig .tc := ⟨.hbm, 297, rfl⟩
abbrev main_cst_50 : Ref sig .tc := ⟨.hbm, 298, rfl⟩
abbrev main_v213 : Ref sig .tc := ⟨.hbm, 299, rfl⟩
abbrev main_v214 : Ref sig .tc := ⟨.hbm, 300, rfl⟩
abbrev main_cst_51 : Ref sig .tc := ⟨.hbm, 301, rfl⟩
abbrev main_v215 : Ref sig .tc := ⟨.hbm, 302, rfl⟩
abbrev main_v216 : Ref sig .tc := ⟨.hbm, 303, rfl⟩
abbrev main_v217 : Ref sig .tc := ⟨.hbm, 304, rfl⟩
abbrev main_cst_52 : Ref sig .tc := ⟨.hbm, 305, rfl⟩
abbrev main_v218 : Ref sig .tc := ⟨.hbm, 306, rfl⟩
abbrev main_v219 : Ref sig .tc := ⟨.hbm, 307, rfl⟩
abbrev main_v220 : Ref sig .tc := ⟨.hbm, 308, rfl⟩
abbrev main_v221 : Ref sig .tc := ⟨.hbm, 309, rfl⟩
abbrev main_cst_53 : Ref sig .tc := ⟨.hbm, 310, rfl⟩
abbrev main_v222 : Ref sig .tc := ⟨.hbm, 311, rfl⟩
abbrev main_v223 : Ref sig .tc := ⟨.hbm, 312, rfl⟩
abbrev main_v224 : Ref sig .tc := ⟨.hbm, 313, rfl⟩
abbrev main_cst_54 : Ref sig .tc := ⟨.hbm, 314, rfl⟩
abbrev main_v225 : Ref sig .tc := ⟨.hbm, 315, rfl⟩
abbrev main_v226 : Ref sig .tc := ⟨.hbm, 316, rfl⟩
abbrev main_v227 : Ref sig .tc := ⟨.hbm, 317, rfl⟩
abbrev main_v228 : Ref sig .tc := ⟨.hbm, 318, rfl⟩
abbrev main_v229 : Ref sig .tc := ⟨.hbm, 319, rfl⟩
abbrev main_v230 : Ref sig .tc := ⟨.hbm, 320, rfl⟩
abbrev main_cst_55 : Ref sig .tc := ⟨.hbm, 321, rfl⟩
abbrev main_v231 : Ref sig .tc := ⟨.hbm, 322, rfl⟩
abbrev main_v232 : Ref sig .tc := ⟨.hbm, 323, rfl⟩
abbrev main_v233 : Ref sig .tc := ⟨.hbm, 324, rfl⟩
abbrev main_v234 : Ref sig .tc := ⟨.hbm, 325, rfl⟩
abbrev main_v235 : Ref sig .tc := ⟨.hbm, 326, rfl⟩
abbrev main_v236 : Ref sig .tc := ⟨.hbm, 327, rfl⟩
abbrev main_v237 : Ref sig .tc := ⟨.hbm, 328, rfl⟩
abbrev main_v238 : Ref sig .tc := ⟨.hbm, 329, rfl⟩
abbrev main_cst_56 : Ref sig .tc := ⟨.hbm, 330, rfl⟩
abbrev main_v239 : Ref sig .tc := ⟨.hbm, 331, rfl⟩
abbrev main_v240 : Ref sig .tc := ⟨.hbm, 332, rfl⟩
abbrev main_v241 : Ref sig .tc := ⟨.hbm, 333, rfl⟩
abbrev main_v242 : Ref sig .tc := ⟨.hbm, 334, rfl⟩
abbrev main_v243 : Ref sig .tc := ⟨.hbm, 335, rfl⟩
abbrev main_v244 : Ref sig .tc := ⟨.hbm, 336, rfl⟩
abbrev main_v245 : Ref sig .tc := ⟨.hbm, 337, rfl⟩
abbrev main_v246 : Ref sig .tc := ⟨.hbm, 338, rfl⟩
abbrev main_v247 : Ref sig .tc := ⟨.hbm, 339, rfl⟩
abbrev main_v248 : Ref sig .tc := ⟨.hbm, 340, rfl⟩
abbrev main_c_57 : Ref sig .tc := ⟨.hbm, 341, rfl⟩
abbrev main_call7_v0 : Ref sig .tc := ⟨.hbm, 342, rfl⟩
abbrev main_v249 : Ref sig .tc := ⟨.hbm, 343, rfl⟩
abbrev main_v250 : Ref sig .tc := ⟨.hbm, 344, rfl⟩
abbrev main_v251 : Ref sig .tc := ⟨.hbm, 345, rfl⟩
abbrev main_v252 : Ref sig .tc := ⟨.hbm, 346, rfl⟩
abbrev main_v253 : Ref sig .tc := ⟨.hbm, 347, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![29], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x8x225 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x225 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S8x225x3_S8x225x1_0_0_0 : S8x225x3.Slices ![0, 0, 0] S8x225x1
  shapeCasts_S8x225x1_S8x225 : S8x225x1.ShapeCasts S8x225
  slices_S8x225x3_S8x225x1_0_0_1 : S8x225x3.Slices ![0, 0, 1] S8x225x1
  slices_S8x225x3_S8x225x1_0_0_2 : S8x225x3.Slices ![0, 0, 2] S8x225x1
  slices_S8x13_S8x1_0_0 : S8x13.Slices ![0, 0] S8x1
  slices_S8x13_S8x1_0_1 : S8x13.Slices ![0, 1] S8x1
  slices_S8x13_S8x1_0_2 : S8x13.Slices ![0, 2] S8x1
  slices_S8x13_S8x1_0_3 : S8x13.Slices ![0, 3] S8x1
  slices_S8x13_S8x1_0_4 : S8x13.Slices ![0, 4] S8x1
  slices_S8x13_S8x1_0_5 : S8x13.Slices ![0, 5] S8x1
  slices_S8x13_S8x1_0_6 : S8x13.Slices ![0, 6] S8x1
  slices_S8x13_S8x1_0_7 : S8x13.Slices ![0, 7] S8x1
  slices_S8x13_S8x1_0_8 : S8x13.Slices ![0, 8] S8x1
  slices_S8x13_S8x1_0_9 : S8x13.Slices ![0, 9] S8x1
  slices_S8x13_S8x1_0_10 : S8x13.Slices ![0, 10] S8x1
  slices_S8x13_S8x1_0_11 : S8x13.Slices ![0, 11] S8x1
  bcast_S1x225_S8x225_0_1 : S1x225.BroadcastsInDim S8x225 (![0, 1] : Fin 2 → Fin S8x225.rank)
  bcast_S8x1_S8x225_0_1 : S8x1.BroadcastsInDim S8x225 (![0, 1] : Fin 2 → Fin S8x225.rank)
  bcast_S_S8x1 : S_.BroadcastsInDim S8x1 (![] : Fin 0 → Fin S8x1.rank)
  bcast_S_S8x225 : S_.BroadcastsInDim S8x225 (![] : Fin 0 → Fin S8x225.rank)
  bcast_S8x225_S8x225x1_0_1 : S8x225.BroadcastsInDim S8x225x1 (![0, 1] : Fin 2 → Fin S8x225x1.rank)
  concatenates_S8x225x1_S8x225x1_S8x225x2_d2 : Shape.Concatenates [S8x225x1, S8x225x1] S8x225x2 2
  bcast_S8x225_S8x1x225_0_2 : S8x225.BroadcastsInDim S8x1x225 (![0, 2] : Fin 2 → Fin S8x1x225.rank)
  concatenates_S8x1x225_S8x1x225_S8x1x225_S8x1x225_S8x1x225_S8x1x225_S8x1x225_S8x1x225_S8x8x225_d1 : Shape.Concatenates [S8x1x225, S8x1x225, S8x1x225, S8x1x225, S8x1x225, S8x1x225, S8x1x225, S8x1x225] S8x8x225 1
  pads_S14641x2_S14848x2_02070_000 : S14641x2.Pads (![0, 0] : Fin 2 → Nat) ![207, 0] ![0, 0] S14848x2
  h_S_ : 0 < S_.numel
  inb_S512x2_S512x1_0_0 : ∀ a, (![0, 0] : Fin 2 → Nat) a + S512x1.size a ≤ S512x2.size a
  h_S512x1 : 0 < S512x1.numel
  shapeCasts_S512x1_S512x1 : S512x1.ShapeCasts S512x1
  inb_S512x2_S512x1_0_1 : ∀ a, (![0, 1] : Fin 2 → Nat) a + S512x1.size a ≤ S512x2.size a
  concatenates_S512x1_S512x1_S512x1_S512x1_S512x1_S512x1_S512x1_S512x1_S512x8_d1 : Shape.Concatenates [S512x1, S512x1, S512x1, S512x1, S512x1, S512x1, S512x1, S512x1] S512x8 1
  inb_S8x8x225_S1x8x225_0_0_0 : ∀ a, (![0, 0, 0] : Fin 3 → Nat) a + S1x8x225.size a ≤ S8x8x225.size a
  h_S1x8x225 : 0 < S1x8x225.numel
  shapeCasts_S1x8x225_S8x225 : S1x8x225.ShapeCasts S8x225
  inb_S8x225_S1x225_0_0 : ∀ a, (![0, 0] : Fin 2 → Nat) a + S1x225.size a ≤ S8x225.size a
  h_S1x225 : 0 < S1x225.numel
  shapeCasts_S1x225_S1x225 : S1x225.ShapeCasts S1x225
  broadcasts_S1x225_S512x225 : S1x225.Broadcasts S512x225
  reduces_S512x225_S512 : S512x225.Reduces [1] S512
  shapeCasts_S512_S512x1 : S512.ShapeCasts S512x1
  inb_S8x8x225_S1x8x225_1_0_0 : ∀ a, (![1, 0, 0] : Fin 3 → Nat) a + S1x8x225.size a ≤ S8x8x225.size a
  inb_S8x225_S1x225_1_0 : ∀ a, (![1, 0] : Fin 2 → Nat) a + S1x225.size a ≤ S8x225.size a
  inb_S8x8x225_S1x8x225_2_0_0 : ∀ a, (![2, 0, 0] : Fin 3 → Nat) a + S1x8x225.size a ≤ S8x8x225.size a
  inb_S8x225_S1x225_2_0 : ∀ a, (![2, 0] : Fin 2 → Nat) a + S1x225.size a ≤ S8x225.size a
  inb_S8x8x225_S1x8x225_3_0_0 : ∀ a, (![3, 0, 0] : Fin 3 → Nat) a + S1x8x225.size a ≤ S8x8x225.size a
  inb_S8x225_S1x225_3_0 : ∀ a, (![3, 0] : Fin 2 → Nat) a + S1x225.size a ≤ S8x225.size a
  inb_S8x8x225_S1x8x225_4_0_0 : ∀ a, (![4, 0, 0] : Fin 3 → Nat) a + S1x8x225.size a ≤ S8x8x225.size a
  inb_S8x225_S1x225_4_0 : ∀ a, (![4, 0] : Fin 2 → Nat) a + S1x225.size a ≤ S8x225.size a
  inb_S8x8x225_S1x8x225_5_0_0 : ∀ a, (![5, 0, 0] : Fin 3 → Nat) a + S1x8x225.size a ≤ S8x8x225.size a
  inb_S8x225_S1x225_5_0 : ∀ a, (![5, 0] : Fin 2 → Nat) a + S1x225.size a ≤ S8x225.size a
  inb_S8x8x225_S1x8x225_6_0_0 : ∀ a, (![6, 0, 0] : Fin 3 → Nat) a + S1x8x225.size a ≤ S8x8x225.size a
  inb_S8x225_S1x225_6_0 : ∀ a, (![6, 0] : Fin 2 → Nat) a + S1x225.size a ≤ S8x225.size a
  inb_S8x8x225_S1x8x225_7_0_0 : ∀ a, (![7, 0, 0] : Fin 3 → Nat) a + S1x8x225.size a ≤ S8x8x225.size a
  inb_S8x225_S1x225_7_0 : ∀ a, (![7, 0] : Fin 2 → Nat) a + S1x225.size a ≤ S8x225.size a
  transposes_S512x8_p1_0_S8x512 : S512x8.Transposes [1, 0] S8x512
  inb_S8x512_S8x512_0_0 : ∀ a, (![0, 0] : Fin 2 → Nat) a + S8x512.size a ≤ S8x512.size a
  h_S8x512 : 0 < S8x512.numel
  slices_S8x14848_S8x14641_0_0 : S8x14848.Slices ![0, 0] S8x14641
  shapeCasts_S8x14641_S8x121x121 : S8x14641.ShapeCasts S8x121x121
  gather_S200x200_S8x225x2_S8x225_n_01_n_n_01_2_11_wf : GatherDims.WF S200x200 S8x225x2 S8x225 [] [0, 1] [] [0, 1] [] 2 ![1, 1]
  dot_S512x8_S8x225_S512x225_1_0_0_1_n_n_wf : DotDims.WF S512x8 S8x225 S512x225 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2.size a ≤ S14848x2.size a
  hwx0_0 : ∀ i : grid0.Coords, EltTy.bits .f32 = 32 ∨ (Rect.block (s := S14848x2) S512x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x8x225.size a ≤ S8x8x225.size a
  hwx0_1 : ∀ i : grid0.Coords, EltTy.bits .f32 = 32 ∨ (Rect.block (s := S8x8x225) S8x8x225.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x225.size a ≤ S8x225.size a
  hwx0_2 : ∀ i : grid0.Coords, EltTy.bits .f32 = 32 ∨ (Rect.block (s := S8x225) S8x225.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x512.size a ≤ S8x14848.size a
  hwx0_3 : ∀ i : grid0.Coords, EltTy.bits .f32 = 32 ∨ (Rect.block (s := S8x14848) S8x512.size (cc0_transform_3 i) (hinb0_3 i)).WholeWords (EltTy.packing .f32)

variable [Facts₀]

def gather_S200x200_S8x225x2_S8x225_n_01_n_n_01_2_11 : GatherDims S200x200 S8x225x2 S8x225 where
  offsetDims := []
  collapsedSliceDims := [0, 1]
  operandBatchingDims := []
  startIndicesBatchingDims := []
  startIndexMap := [0, 1]
  indexVectorDim := 2
  sliceSizes := ![1, 1]
  wf := gather_S200x200_S8x225x2_S8x225_n_01_n_n_01_2_11_wf
def dot_S512x8_S8x225_S512x225_1_0_0_1_n_n : DotDims S512x8 S8x225 S512x225 where
  lhsContracting := [1]
  rhsContracting := [0]
  lhsNonContracting := [0]
  rhsNonContracting := [1]
  lhsBatch := []
  rhsBatch := []
  wf := dot_S512x8_S8x225_S512x225_1_0_0_1_n_n_wf

abbrev win0_0 : Pipeline.Window sig grid0 :=
  Pipeline.Window.ofSpec (Memref.whole main_v249) S512x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v248) S8x8x225.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v166) S8x225.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v250) S8x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x225x3 : Shape := ⟨3, ![8, 225, 3]⟩
abbrev S8x13 : Shape := ⟨2, ![8, 13]⟩
abbrev S1x225 : Shape := ⟨2, ![1, 225]⟩
abbrev S200x200 : Shape := ⟨2, ![200, 200]⟩
abbrev S14641x2 : Shape := ⟨2, ![14641, 2]⟩
abbrev S8x225x1 : Shape := ⟨3, ![8, 225, 1]⟩
abbrev S8x225 : Shape := ⟨2, ![8, 225]⟩
abbrev S8x1 : Shape := ⟨2, ![8, 1]⟩
abbrev S_ : Shape := ⟨0, ![]⟩
abbrev S8x225x2 : Shape := ⟨3, ![8, 225, 2]⟩
abbrev S14641x1 : Shape := ⟨2, ![14641, 1]⟩
abbrev S14641 : Shape := ⟨1, ![14641]⟩
abbrev S14641x1x1 : Shape := ⟨3, ![14641, 1, 1]⟩
abbrev S1x8x225 : Shape := ⟨3, ![1, 8, 225]⟩
abbrev S14641x8x225 : Shape := ⟨3, ![14641, 8, 225]⟩
abbrev S14641x8 : Shape := ⟨2, ![14641, 8]⟩
abbrev S8x14641 : Shape := ⟨2, ![8, 14641]⟩
abbrev S8x121x121 : Shape := ⟨3, ![8, 121, 121]⟩

abbrev nBuf : Space → Nat
  | .hbm => 341
  | .vmem => 0
  | .smem => 0
  | _ => 0

abbrev hbmTy0_0 (i : Nat) : BufTy := match i % 128 with
  | 0 => ⟨S8x225x3, .f32⟩
  | 1 => ⟨S8x13, .f32⟩
  | 2 => ⟨S1x225, .f32⟩
  | 3 => ⟨S1x225, .f32⟩
  | 4 => ⟨S200x200, .f32⟩
  | 5 => ⟨S14641x2, .f32⟩
  | 6 => ⟨S8x225x1, .f32⟩
  | 7 => ⟨S8x225, .f32⟩
  | 8 => ⟨S8x225x1, .f32⟩
  | 9 => ⟨S8x225, .f32⟩
  | 10 => ⟨S8x225x1, .f32⟩
  | 11 => ⟨S8x225, .f32⟩
  | 12 => ⟨S8x1, .f32⟩
  | 13 => ⟨S8x1, .f32⟩
  | 14 => ⟨S8x1, .f32⟩
  | 15 => ⟨S8x1, .f32⟩
  | 16 => ⟨S8x1, .f32⟩
  | 17 => ⟨S8x1, .f32⟩
  | 18 => ⟨S8x1, .f32⟩
  | 19 => ⟨S8x1, .f32⟩
  | 20 => ⟨S8x1, .f32⟩
  | 21 => ⟨S8x1, .f32⟩
  | 22 => ⟨S8x1, .f32⟩
  | 23 => ⟨S8x1, .f32⟩
  | 24 => ⟨S8x1, .f32⟩
  | 25 => ⟨S8x1, .f32⟩
  | 26 => ⟨S8x225, .f32⟩
  | 27 => ⟨S8x225, .f32⟩
  | 28 => ⟨S8x225, .f32⟩
  | 29 => ⟨S8x225, .f32⟩
  | 30 => ⟨S8x225, .f32⟩
  | 31 => ⟨S8x225, .f32⟩
  | 32 => ⟨S8x225, .f32⟩
  | 33 => ⟨S8x225, .f32⟩
  | 34 => ⟨S8x225, .f32⟩
  | 35 => ⟨S8x225, .f32⟩
  | 36 => ⟨S8x225, .f32⟩
  | 37 => ⟨S8x225, .f32⟩
  | 38 => ⟨S8x225, .f32⟩
  | 39 => ⟨S8x225, .f32⟩
  | 40 => ⟨S8x225, .f32⟩
  | 41 => ⟨S8x225, .f32⟩
  | 42 => ⟨S8x225, .f32⟩
  | 43 => ⟨S8x225, .f32⟩
  | 44 => ⟨S_, .f32⟩
  | 45 => ⟨S8x1, .f32⟩
  | 46 => ⟨S8x1, .f32⟩
  | 47 => ⟨S8x225, .f32⟩
  | 48 => ⟨S8x225, .f32⟩
  | 49 => ⟨S_, .f32⟩
  | 50 => ⟨S8x225, .f32⟩
  | 51 => ⟨S8x225, .f32⟩
  | 52 => ⟨S_, .f32⟩
  | 53 => ⟨S8x225, .f32⟩
  | 54 => ⟨S8x225, .f32⟩
  | 55 => ⟨S_, .f32⟩
  | 56 => ⟨S8x225, .f32⟩
  | 57 => ⟨S8x225, .f32⟩
  | 58 => ⟨S_, .f32⟩
  | 59 => ⟨S8x225, .f32⟩
  | 60 => ⟨S8x225, .f32⟩
  | 61 => ⟨S8x225, .f32⟩
  | 62 => ⟨S_, .f32⟩
  | 63 => ⟨S_, .i32⟩
  | 64 => ⟨S_, .f32⟩
  | 65 => ⟨S8x225, .f32⟩
  | 66 => ⟨S8x225, .f32⟩
  | 67 => ⟨S_, .f32⟩
  | 68 => ⟨S8x225, .f32⟩
  | 69 => ⟨S8x225, .f32⟩
  | 70 => ⟨S8x225, .f32⟩
  | 71 => ⟨S_, .f32⟩
  | 72 => ⟨S_, .i32⟩
  | 73 => ⟨S_, .f32⟩
  | 74 => ⟨S8x225, .f32⟩
  | 75 => ⟨S8x225, .f32⟩
  | 76 => ⟨S_, .f32⟩
  | 77 => ⟨S8x225, .f32⟩
  | 78 => ⟨S8x225, .f32⟩
  | 79 => ⟨S8x225, .i32⟩
  | 80 => ⟨S8x225, .i32⟩
  | 81 => ⟨S8x225, .f32⟩
  | 82 => ⟨S_, .f32⟩
  | 83 => ⟨S_, .f32⟩
  | 84 => ⟨S_, .f32⟩
  | 85 => ⟨S8x225, .f32⟩
  | 86 => ⟨S8x225, .f32⟩
  | 87 => ⟨S_, .f32⟩
  | 88 => ⟨S8x225, .f32⟩
  | 89 => ⟨S8x225, .f32⟩
  | 90 => ⟨S8x225, .f32⟩
  | 91 => ⟨S_, .f32⟩
  | 92 => ⟨S_, .f32⟩
  | 93 => ⟨S_, .f32⟩
  | 94 => ⟨S8x225, .f32⟩
  | 95 => ⟨S8x225, .f32⟩
  | 96 => ⟨S_, .f32⟩
  | 97 => ⟨S8x225, .f32⟩
  | 98 => ⟨S8x225, .f32⟩
  | 99 => ⟨S_, .i32⟩
  | 100 => ⟨S8x225, .i32⟩
  | 101 => ⟨S8x225, .i1⟩
  | 102 => ⟨S_, .i32⟩
  | 103 => ⟨S8x225, .i32⟩
  | 104 => ⟨S8x225, .i32⟩
  | 105 => ⟨S8x225, .i32⟩
  | 106 => ⟨S_, .i32⟩
  | 107 => ⟨S8x225, .i32⟩
  | 108 => ⟨S8x225, .i1⟩
  | 109 => ⟨S_, .i32⟩
  | 110 => ⟨S8x225, .i32⟩
  | 111 => ⟨S8x225, .i32⟩
  | 112 => ⟨S8x225, .i32⟩
  | 113 => ⟨S8x225x1, .i32⟩
  | 114 => ⟨S8x225x1, .i32⟩
  | 115 => ⟨S8x225x2, .i32⟩
  | 116 => ⟨S8x225, .f32⟩
  | 117 => ⟨S_, .i32⟩
  | 118 => ⟨S8x225, .i32⟩
  | 119 => ⟨S8x225, .i32⟩
  | 120 => ⟨S_, .i32⟩
  | 121 => ⟨S8x225, .i32⟩
  | 122 => ⟨S8x225, .i1⟩
  | 123 => ⟨S_, .i32⟩
  | 124 => ⟨S8x225, .i32⟩
  | 125 => ⟨S8x225, .i32⟩
  | 126 => ⟨S8x225, .i32⟩
  | 127 => ⟨S_, .i32⟩
  | _ => ⟨S8x225x3, .f32⟩

abbrev hbmTy0_1 (i : Nat) : BufTy := match i % 128 with
  | 0 => ⟨S8x225, .i32⟩
  | 1 => ⟨S8x225, .i1⟩
  | 2 => ⟨S_, .i32⟩
  | 3 => ⟨S8x225, .i32⟩
  | 4 => ⟨S8x225, .i32⟩
  | 5 => ⟨S8x225, .i32⟩
  | 6 => ⟨S8x225x1, .i32⟩
  | 7 => ⟨S8x225x1, .i32⟩
  | 8 => ⟨S8x225x2, .i32⟩
  | 9 => ⟨S8x225, .f32⟩
  | 10 => ⟨S_, .i32⟩
  | 11 => ⟨S8x225, .i32⟩
  | 12 => ⟨S8x225, .i32⟩
  | 13 => ⟨S_, .i32⟩
  | 14 => ⟨S8x225, .i32⟩
  | 15 => ⟨S8x225, .i1⟩
  | 16 => ⟨S_, .i32⟩
  | 17 => ⟨S8x225, .i32⟩
  | 18 => ⟨S8x225, .i32⟩
  | 19 => ⟨S8x225, .i32⟩
  | 20 => ⟨S_, .i32⟩
  | 21 => ⟨S8x225, .i32⟩
  | 22 => ⟨S8x225, .i1⟩
  | 23 => ⟨S_, .i32⟩
  | 24 => ⟨S8x225, .i32⟩
  | 25 => ⟨S8x225, .i32⟩
  | 26 => ⟨S8x225, .i32⟩
  | 27 => ⟨S8x225x1, .i32⟩
  | 28 => ⟨S8x225x1, .i32⟩
  | 29 => ⟨S8x225x2, .i32⟩
  | 30 => ⟨S8x225, .f32⟩
  | 31 => ⟨S_, .i32⟩
  | 32 => ⟨S8x225, .i32⟩
  | 33 => ⟨S8x225, .i32⟩
  | 34 => ⟨S_, .i32⟩
  | 35 => ⟨S8x225, .i32⟩
  | 36 => ⟨S8x225, .i32⟩
  | 37 => ⟨S_, .i32⟩
  | 38 => ⟨S8x225, .i32⟩
  | 39 => ⟨S8x225, .i1⟩
  | 40 => ⟨S_, .i32⟩
  | 41 => ⟨S8x225, .i32⟩
  | 42 => ⟨S8x225, .i32⟩
  | 43 => ⟨S8x225, .i32⟩
  | 44 => ⟨S_, .i32⟩
  | 45 => ⟨S8x225, .i32⟩
  | 46 => ⟨S8x225, .i1⟩
  | 47 => ⟨S_, .i32⟩
  | 48 => ⟨S8x225, .i32⟩
  | 49 => ⟨S8x225, .i32⟩
  | 50 => ⟨S8x225, .i32⟩
  | 51 => ⟨S8x225x1, .i32⟩
  | 52 => ⟨S8x225x1, .i32⟩
  | 53 => ⟨S8x225x2, .i32⟩
  | 54 => ⟨S8x225, .f32⟩
  | 55 => ⟨S8x225, .f32⟩
  | 56 => ⟨S8x225, .f32⟩
  | 57 => ⟨S8x225, .f32⟩
  | 58 => ⟨S8x225, .f32⟩
  | 59 => ⟨S8x225, .f32⟩
  | 60 => ⟨S8x225, .f32⟩
  | 61 => ⟨S8x225, .f32⟩
  | 62 => ⟨S8x225, .f32⟩
  | 63 => ⟨S8x225, .f32⟩
  | 64 => ⟨S_, .f32⟩
  | 65 => ⟨S8x225, .f32⟩
  | 66 => ⟨S8x225, .i1⟩
  | 67 => ⟨S_, .f32⟩
  | 68 => ⟨S8x225, .f32⟩
  | 69 => ⟨S8x225, .f32⟩
  | 70 => ⟨S8x225, .f32⟩
  | 71 => ⟨S8x225, .f32⟩
  | 72 => ⟨S8x225, .f32⟩
  | 73 => ⟨S8x225, .f32⟩
  | 74 => ⟨S8x225, .f32⟩
  | 75 => ⟨S8x225, .f32⟩
  | 76 => ⟨S8x225, .f32⟩
  | 77 => ⟨S_, .f32⟩
  | 78 => ⟨S8x225, .f32⟩
  | 79 => ⟨S8x225, .f32⟩
  | 80 => ⟨S8x1, .f32⟩
  | 81 => ⟨S_, .f32⟩
  | 82 => ⟨S8x1, .f32⟩
  | 83 => ⟨S8x1, .f32⟩
  | 84 => ⟨S8x1, .f32⟩
  | 85 => ⟨S8x225, .f32⟩
  | 86 => ⟨S8x225, .f32⟩
  | 87 => ⟨S8x225, .f32⟩
  | 88 => ⟨S8x225, .f32⟩
  | 89 => ⟨S_, .f32⟩
  | 90 => ⟨S_, .f32⟩
  | 91 => ⟨S_, .f32⟩
  | 92 => ⟨S8x225, .f32⟩
  | 93 => ⟨S8x225, .f32⟩
  | 94 => ⟨S_, .f32⟩
  | 95 => ⟨S8x225, .f32⟩
  | 96 => ⟨S8x225, .f32⟩
  | 97 => ⟨S_, .f32⟩
  | 98 => ⟨S8x225, .f32⟩
  | 99 => ⟨S8x225, .i1⟩
  | 100 => ⟨S_, .f32⟩
  | 101 => ⟨S8x225, .f32⟩
  | 102 => ⟨S8x225, .f32⟩
  | 103 => ⟨S8x225, .f32⟩
  | 104 => ⟨S8x225, .f32⟩
  | 105 => ⟨S8x225, .f32⟩
  | 106 => ⟨S8x225, .f32⟩
  | 107 => ⟨S8x225, .f32⟩
  | 108 => ⟨S8x225, .f32⟩
  | 109 => ⟨S8x225, .f32⟩
  | 110 => ⟨S_, .f32⟩
  | 111 => ⟨S_, .f32⟩
  | 112 => ⟨S8x225, .f32⟩
  | 113 => ⟨S8x225, .f32⟩
  | 114 => ⟨S8x225, .f32⟩
  | 115 => ⟨S_, .f32⟩
  | 116 => ⟨S8x225, .f32⟩
  | 117 => ⟨S8x225, .f32⟩
  | 118 => ⟨S8x225, .f32⟩
  | 119 => ⟨S_, .f32⟩
  | 120 => ⟨S8x225, .f32⟩
  | 121 => ⟨S8x225, .f32⟩
  | 122 => ⟨S8x225, .f32⟩
  | 123 => ⟨S8x225, .f32⟩
  | 124 => ⟨S_, .f32⟩
  | 125 => ⟨S8x225, .f32⟩
  | 126 => ⟨S8x225, .f32⟩
  | 127 => ⟨S8x225, .f32⟩
  | _ => ⟨S8x225x3, .f32⟩

abbrev hbmTy0_2 (i : Nat) : BufTy := match i % 128 with
  | 0 => ⟨S8x225, .f32⟩
  | 1 => ⟨S8x225, .f32⟩
  | 2 => ⟨S8x225, .f32⟩
  | 3 => ⟨S8x225, .f32⟩
  | 4 => ⟨S8x225, .f32⟩
  | 5 => ⟨S8x225, .f32⟩
  | 6 => ⟨S8x225, .f32⟩
  | 7 => ⟨S8x225, .f32⟩
  | 8 => ⟨S8x225, .f32⟩
  | 9 => ⟨S8x225, .f32⟩
  | 10 => ⟨S8x225, .f32⟩
  | 11 => ⟨S8x225, .f32⟩
  | 12 => ⟨S8x225, .f32⟩
  | 13 => ⟨S8x225, .f32⟩
  | 14 => ⟨S8x225, .f32⟩
  | 15 => ⟨S8x225, .f32⟩
  | 16 => ⟨S8x225, .f32⟩
  | 17 => ⟨S8x225, .f32⟩
  | 18 => ⟨S8x225, .f32⟩
  | 19 => ⟨S8x225, .f32⟩
  | 20 => ⟨S8x225, .f32⟩
  | 21 => ⟨S_, .f32⟩
  | 22 => ⟨S8x225, .f32⟩
  | 23 => ⟨S8x225, .f32⟩
  | 24 => ⟨S_, .f32⟩
  | 25 => ⟨S8x225, .f32⟩
  | 26 => ⟨S8x225, .f32⟩
  | 27 => ⟨S_, .f32⟩
  | 28 => ⟨S8x225, .f32⟩
  | 29 => ⟨S8x225, .f32⟩
  | 30 => ⟨S_, .f32⟩
  | 31 => ⟨S8x225, .f32⟩
  | 32 => ⟨S8x225, .f32⟩
  | 33 => ⟨S_, .f32⟩
  | 34 => ⟨S8x225, .f32⟩
  | 35 => ⟨S8x225, .f32⟩
  | 36 => ⟨S_, .f32⟩
  | 37 => ⟨S8x225, .f32⟩
  | 38 => ⟨S8x225, .f32⟩
  | 39 => ⟨S_, .f32⟩
  | 40 => ⟨S8x225, .f32⟩
  | 41 => ⟨S8x225, .f32⟩
  | 42 => ⟨S14641x1, .f32⟩
  | 43 => ⟨S14641, .f32⟩
  | 44 => ⟨S14641x1x1, .f32⟩
  | 45 => ⟨S1x8x225, .f32⟩
  | 46 => ⟨S14641x8x225, .f32⟩
  | 47 => ⟨S14641x8x225, .f32⟩
  | 48 => ⟨S14641x8x225, .f32⟩
  | 49 => ⟨S14641x1, .f32⟩
  | 50 => ⟨S14641, .f32⟩
  | 51 => ⟨S14641x1x1, .f32⟩
  | 52 => ⟨S1x8x225, .f32⟩
  | 53 => ⟨S14641x8x225, .f32⟩
  | 54 => ⟨S14641x8x225, .f32⟩
  | 55 => ⟨S14641x8x225, .f32⟩
  | 56 => ⟨S14641x8x225, .f32⟩
  | 57 => ⟨S1x8x225, .f32⟩
  | 58 => ⟨S14641x8x225, .f32⟩
  | 59 => ⟨S14641x8x225, .f32⟩
  | 60 => ⟨S_, .f32⟩
  | 61 => ⟨S14641x8x225, .f32⟩
  | 62 => ⟨S14641x8x225, .f32⟩
  | 63 => ⟨S14641x8x225, .f32⟩
  | 64 => ⟨S1x8x225, .f32⟩
  | 65 => ⟨S14641x8x225, .f32⟩
  | 66 => ⟨S14641x8x225, .f32⟩
  | 67 => ⟨S14641x8x225, .f32⟩
  | 68 => ⟨S14641x8x225, .f32⟩
  | 69 => ⟨S1x8x225, .f32⟩
  | 70 => ⟨S14641x8x225, .f32⟩
  | 71 => ⟨S14641x8x225, .f32⟩
  | 72 => ⟨S14641x8x225, .f32⟩
  | 73 => ⟨S_, .f32⟩
  | 74 => ⟨S14641x8x225, .f32⟩
  | 75 => ⟨S14641x8x225, .f32⟩
  | 76 => ⟨S14641x8x225, .f32⟩
  | 77 => ⟨S1x8x225, .f32⟩
  | 78 => ⟨S14641x8x225, .f32⟩
  | 79 => ⟨S14641x8x225, .f32⟩
  | 80 => ⟨S_, .f32⟩
  | 81 => ⟨S14641x8, .f32⟩
  | 82 => ⟨S8x14641, .f32⟩
  | 83 => ⟨S8x121x121, .f32⟩
  | 84 => ⟨S8x121x121, .f32⟩
  | _ => ⟨S8x225x3, .f32⟩

abbrev hbmTy (i : Nat) : BufTy := match i / 128 with
  | 0 => hbmTy0_0 i
  | 1 => hbmTy0_1 i
  | 2 => hbmTy0_2 i
  | _ => ⟨S8x225x3, .f32⟩

abbrev bufTy : (tb : Table) → Fin (tcTables nBuf tb) → BufTy
  | .hbm, ⟨i, _⟩ => hbmTy i
  | _, _ => ⟨S8x225x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_cst_0 : Ref sig .tc := ⟨.hbm, 49, rfl⟩
abbrev main_v42 : Ref sig .tc := ⟨.hbm, 50, rfl⟩
abbrev main_v43 : Ref sig .tc := ⟨.hbm, 51, rfl⟩
abbrev main_cst_1 : Ref sig .tc := ⟨.hbm, 52, rfl⟩
abbrev main_v44 : Ref sig .tc := ⟨.hbm, 53, rfl⟩
abbrev main_v45 : Ref sig .tc := ⟨.hbm, 54, rfl⟩
abbrev main_cst_2 : Ref sig .tc := ⟨.hbm, 55, rfl⟩
abbrev main_v46 : Ref sig .tc := ⟨.hbm, 56, rfl⟩
abbrev main_v47 : Ref sig .tc := ⟨.hbm, 57, rfl⟩
abbrev main_cst_3 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_4 : Ref sig .tc := ⟨.hbm, 62, rfl⟩
abbrev main_c : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_v51 : Ref sig .tc := ⟨.hbm, 69, rfl⟩
abbrev main_v52 : Ref sig .tc := ⟨.hbm, 70, rfl⟩
abbrev main_cst_5 : Ref sig .tc := ⟨.hbm, 71, rfl⟩
abbrev main_c_6 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_7 : Ref sig .tc := ⟨.hbm, 82, rfl⟩
abbrev main_cst_8 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_v57 : Ref sig .tc := ⟨.hbm, 89, rfl⟩
abbrev main_v58 : Ref sig .tc := ⟨.hbm, 90, rfl⟩
abbrev main_cst_9 : Ref sig .tc := ⟨.hbm, 91, rfl⟩
abbrev main_cst_10 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_call3_v3 : Ref sig .tc := ⟨.hbm, 96, rfl⟩
abbrev main_call3_v4 : Ref sig .tc := ⟨.hbm, 97, rfl⟩
abbrev main_v59 : Ref sig .tc := ⟨.hbm, 98, rfl⟩
abbrev main_c_11 : Ref sig .tc := ⟨.hbm, 99, rfl⟩
abbrev main_v60 : Ref sig .tc := ⟨.hbm, 100, rfl⟩
abbrev main_v61 : Ref sig .tc := ⟨.hbm, 101, rfl⟩
abbrev main_c_12 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_c_13 : Ref sig .tc := ⟨.hbm, 106, rfl⟩
abbrev main_v65 : Ref sig .tc := ⟨.hbm, 107, rfl⟩
abbrev main_v66 : Ref sig .tc := ⟨.hbm, 108, rfl⟩
abbrev main_c_14 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_c_15 : Ref sig .tc := ⟨.hbm, 117, rfl⟩
abbrev main_v74 : Ref sig .tc := ⟨.hbm, 118, rfl⟩
abbrev main_v75 : Ref sig .tc := ⟨.hbm, 119, rfl⟩
abbrev main_c_16 : Ref sig .tc := ⟨.hbm, 120, rfl⟩
abbrev main_v76 : Ref sig .tc := ⟨.hbm, 121, rfl⟩
abbrev main_v77 : Ref sig .tc := ⟨.hbm, 122, rfl⟩
abbrev main_c_17 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_c_18 : Ref sig .tc := ⟨.hbm, 127, rfl⟩
abbrev main_v81 : Ref sig .tc := ⟨.hbm, 128, rfl⟩
abbrev main_v82 : Ref sig .tc := ⟨.hbm, 129, rfl⟩
abbrev main_c_19 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_c_20 : Ref sig .tc := ⟨.hbm, 138, rfl⟩
abbrev main_v90 : Ref sig .tc := ⟨.hbm, 139, rfl⟩
abbrev main_v91 : Ref sig .tc := ⟨.hbm, 140, rfl⟩
abbrev main_c_21 : Ref sig .tc := ⟨.hbm, 141, rfl⟩
abbrev main_v92 : Ref sig .tc := ⟨.hbm, 142, rfl⟩
abbrev main_v93 : Ref sig .tc := ⟨.hbm, 143, rfl⟩
abbrev main_c_22 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_c_23 : Ref sig .tc := ⟨.hbm, 148, rfl⟩
abbrev main_v97 : Ref sig .tc := ⟨.hbm, 149, rfl⟩
abbrev main_v98 : Ref sig .tc := ⟨.hbm, 150, rfl⟩
abbrev main_c_24 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_c_25 : Ref sig .tc := ⟨.hbm, 159, rfl⟩
abbrev main_v106 : Ref sig .tc := ⟨.hbm, 160, rfl⟩
abbrev main_v107 : Ref sig .tc := ⟨.hbm, 161, rfl⟩
abbrev main_c_26 : Ref sig .tc := ⟨.hbm, 162, rfl⟩
abbrev main_v108 : Ref sig .tc := ⟨.hbm, 163, rfl⟩
abbrev main_v109 : Ref sig .tc := ⟨.hbm, 164, rfl⟩
abbrev main_c_27 : Ref sig .tc := ⟨.hbm, 165, rfl⟩
abbrev main_v110 : Ref sig .tc := ⟨.hbm, 166, rfl⟩
abbrev main_v111 : Ref sig .tc := ⟨.hbm, 167, rfl⟩
abbrev main_c_28 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_c_29 : Ref sig .tc := ⟨.hbm, 172, rfl⟩
abbrev main_v115 : Ref sig .tc := ⟨.hbm, 173, rfl⟩
abbrev main_v116 : Ref sig .tc := ⟨.hbm, 174, rfl⟩
abbrev main_c_30 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_cst_31 : Ref sig .tc := ⟨.hbm, 192, rfl⟩
abbrev main_v133 : Ref sig .tc := ⟨.hbm, 193, rfl⟩
abbrev main_v134 : Ref sig .tc := ⟨.hbm, 194, rfl⟩
abbrev main_cst_32 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_cst_33 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_cst_34 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_cst_35 : Ref sig .tc := ⟨.hbm, 217, rfl⟩
abbrev main_cst_36 : Ref sig .tc := ⟨.hbm, 218, rfl⟩
abbrev main_call5_v0 : Ref sig .tc := ⟨.hbm, 219, rfl⟩
abbrev main_call5_v1 : Ref sig .tc := ⟨.hbm, 220, rfl⟩
abbrev main_call5_v2 : Ref sig .tc := ⟨.hbm, 221, rfl⟩
abbrev main_call5_v3 : Ref sig .tc := ⟨.hbm, 222, rfl⟩
abbrev main_call5_v4 : Ref sig .tc := ⟨.hbm, 223, rfl⟩
abbrev main_v154 : Ref sig .tc := ⟨.hbm, 224, rfl⟩
abbrev main_cst_37 : Ref sig .tc := ⟨.hbm, 225, rfl⟩
abbrev main_v155 : Ref sig .tc := ⟨.hbm, 226, rfl⟩
abbrev main_v156 : Ref sig .tc := ⟨.hbm, 227, rfl⟩
abbrev main_cst_38 : Ref sig .tc := ⟨.hbm, 228, rfl⟩
abbrev main_v157 : Ref sig .tc := ⟨.hbm, 229, rfl⟩
abbrev main_v158 : Ref sig .tc := ⟨.hbm, 230, rfl⟩
abbrev main_v159 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_v163 : Ref sig .tc := ⟨.hbm, 235, rfl⟩
abbrev main_v164 : Ref sig .tc := ⟨.hbm, 236, rfl⟩
abbrev main_v165 : Ref sig .tc := ⟨.hbm, 237, rfl⟩
abbrev main_cst_39 : Ref sig .tc := ⟨.hbm, 238, rfl⟩
abbrev main_call6_v0 : Ref sig .tc := ⟨.hbm, 239, rfl⟩
abbrev main_call6_v1 : Ref sig .tc := ⟨.hbm, 240, rfl⟩
abbrev main_v166 : Ref sig .tc := ⟨.hbm, 241, rfl⟩
abbrev main_v167 : Ref sig .tc := ⟨.hbm, 242, rfl⟩
abbrev main_cst_40 : Ref sig .tc := ⟨.hbm, 243, rfl⟩
abbrev main_v168 : Ref sig .tc := ⟨.hbm, 244, rfl⟩
abbrev main_v169 : Ref sig .tc := ⟨.hbm, 245, rfl⟩
abbrev main_v170 : Ref sig .tc := ⟨.hbm, 246, rfl⟩
abbrev main_cst_41 : Ref sig .tc := ⟨.hbm, 247, rfl⟩
abbrev main_v171 : Ref sig .tc := ⟨.hbm, 248, rfl⟩
abbrev main_v172 : Ref sig .tc := ⟨.hbm, 249, rfl⟩
abbrev main_v173 : Ref sig .tc := ⟨.hbm, 250, rfl⟩
abbrev main_v174 : Ref sig .tc := ⟨.hbm, 251, rfl⟩
abbrev main_cst_42 : Ref sig .tc := ⟨.hbm, 252, rfl⟩
abbrev main_v175 : Ref sig .tc := ⟨.hbm, 253, rfl⟩
abbrev main_v176 : Ref sig .tc := ⟨.hbm, 254, rfl⟩
abbrev main_v177 : Ref sig .tc := ⟨.hbm, 255, rfl⟩
abbrev main_v178 : Ref sig .tc := ⟨.hbm, 256, rfl⟩
abbrev main_v179 : Ref sig .tc := ⟨.hbm, 257, rfl⟩
abbrev main_v180 : Ref sig .tc := ⟨.hbm, 258, rfl⟩
abbrev main_v181 : Ref sig .tc := ⟨.hbm, 259, rfl⟩
abbrev main_v182 : Ref sig .tc := ⟨.hbm, 260, rfl⟩
abbrev main_v183 : Ref sig .tc := ⟨.hbm, 261, rfl⟩
abbrev main_v184 : Ref sig .tc := ⟨.hbm, 262, rfl⟩
abbrev main_v185 : Ref sig .tc := ⟨.hbm, 263, rfl⟩
abbrev main_v186 : Ref sig .tc := ⟨.hbm, 264, rfl⟩
abbrev main_v187 : Ref sig .tc := ⟨.hbm, 265, rfl⟩
abbrev main_v188 : Ref sig .tc := ⟨.hbm, 266, rfl⟩
abbrev main_v189 : Ref sig .tc := ⟨.hbm, 267, rfl⟩
abbrev main_v190 : Ref sig .tc := ⟨.hbm, 268, rfl⟩
abbrev main_v191 : Ref sig .tc := ⟨.hbm, 269, rfl⟩
abbrev main_v192 : Ref sig .tc := ⟨.hbm, 270, rfl⟩
abbrev main_v193 : Ref sig .tc := ⟨.hbm, 271, rfl⟩
abbrev main_v194 : Ref sig .tc := ⟨.hbm, 272, rfl⟩
abbrev main_v195 : Ref sig .tc := ⟨.hbm, 273, rfl⟩
abbrev main_v196 : Ref sig .tc := ⟨.hbm, 274, rfl⟩
abbrev main_v197 : Ref sig .tc := ⟨.hbm, 275, rfl⟩
abbrev main_v198 : Ref sig .tc := ⟨.hbm, 276, rfl⟩
abbrev main_cst_43 : Ref sig .tc := ⟨.hbm, 277, rfl⟩
abbrev main_v199 : Ref sig .tc := ⟨.hbm, 278, rfl⟩
abbrev main_v200 : Ref sig .tc := ⟨.hbm, 279, rfl⟩
abbrev main_cst_44 : Ref sig .tc := ⟨.hbm, 280, rfl⟩
abbrev main_v201 : Ref sig .tc := ⟨.hbm, 281, rfl⟩
abbrev main_v202 : Ref sig .tc := ⟨.hbm, 282, rfl⟩
abbrev main_cst_45 : Ref sig .tc := ⟨.hbm, 283, rfl⟩
abbrev main_v203 : Ref sig .tc := ⟨.hbm, 284, rfl⟩
abbrev main_v204 : Ref sig .tc := ⟨.hbm, 285, rfl⟩
abbrev main_cst_46 : Ref sig .tc := ⟨.hbm, 286, rfl⟩
abbrev main_v205 : Ref sig .tc := ⟨.hbm, 287, rfl⟩
abbrev main_v206 : Ref sig .tc := ⟨.hbm, 288, rfl⟩
abbrev main_cst_47 : Ref sig .tc := ⟨.hbm, 289, rfl⟩
abbrev main_v207 : Ref sig .tc := ⟨.hbm, 290, rfl⟩
abbrev main_v208 : Ref sig .tc := ⟨.hbm, 291, rfl⟩
abbrev main_cst_48 : Ref sig .tc := ⟨.hbm, 292, rfl⟩
abbrev main_v209 : Ref sig .tc := ⟨.hbm, 293, rfl⟩
abbrev main_v210 : Ref sig .tc := ⟨.hbm, 294, rfl⟩
abbrev main_cst_49 : Ref sig .tc := ⟨.hbm, 295, rfl⟩
abbrev main_v211 : Ref sig .tc := ⟨.hbm, 296, rfl⟩
abbrev main_v212 : Ref sig .tc := ⟨.hbm, 297, rfl⟩
abbrev main_v213 : Ref sig .tc := ⟨.hbm, 298, rfl⟩
abbrev main_v214 : Ref sig .tc := ⟨.hbm, 299, rfl⟩
abbrev main_v215 : Ref sig .tc := ⟨.hbm, 300, rfl⟩
abbrev main_v216 : Ref sig .tc := ⟨.hbm, 301, rfl⟩
abbrev main_v217 : Ref sig .tc := ⟨.hbm, 302, rfl⟩
abbrev main_v218 : Ref sig .tc := ⟨.hbm, 303, rfl⟩
abbrev main_v219 : Ref sig .tc := ⟨.hbm, 304, rfl⟩
abbrev main_v220 : Ref sig .tc := ⟨.hbm, 305, rfl⟩
abbrev main_v221 : Ref sig .tc := ⟨.hbm, 306, rfl⟩
abbrev main_v222 : Ref sig .tc := ⟨.hbm, 307, rfl⟩
abbrev main_v223 : Ref sig .tc := ⟨.hbm, 308, rfl⟩
abbrev main_v224 : Ref sig .tc := ⟨.hbm, 309, rfl⟩
abbrev main_v225 : Ref sig .tc := ⟨.hbm, 310, rfl⟩
abbrev main_v226 : Ref sig .tc := ⟨.hbm, 311, rfl⟩
abbrev main_v227 : Ref sig .tc := ⟨.hbm, 312, rfl⟩
abbrev main_v228 : Ref sig .tc := ⟨.hbm, 313, rfl⟩
abbrev main_v229 : Ref sig .tc := ⟨.hbm, 314, rfl⟩
abbrev main_v230 : Ref sig .tc := ⟨.hbm, 315, rfl⟩
abbrev main_cst_50 : Ref sig .tc := ⟨.hbm, 316, rfl⟩
abbrev main_v231 : Ref sig .tc := ⟨.hbm, 317, rfl⟩
abbrev main_v232 : Ref sig .tc := ⟨.hbm, 318, rfl⟩
abbrev main_v233 : Ref sig .tc := ⟨.hbm, 319, rfl⟩
abbrev main_v234 : Ref sig .tc := ⟨.hbm, 320, rfl⟩
abbrev main_v235 : Ref sig .tc := ⟨.hbm, 321, rfl⟩
abbrev main_v236 : Ref sig .tc := ⟨.hbm, 322, rfl⟩
abbrev main_v237 : Ref sig .tc := ⟨.hbm, 323, rfl⟩
abbrev main_v238 : Ref sig .tc := ⟨.hbm, 324, rfl⟩
abbrev main_v239 : Ref sig .tc := ⟨.hbm, 325, rfl⟩
abbrev main_v240 : Ref sig .tc := ⟨.hbm, 326, rfl⟩
abbrev main_v241 : Ref sig .tc := ⟨.hbm, 327, rfl⟩
abbrev main_v242 : Ref sig .tc := ⟨.hbm, 328, rfl⟩
abbrev main_cst_51 : Ref sig .tc := ⟨.hbm, 329, rfl⟩
abbrev main_v243 : Ref sig .tc := ⟨.hbm, 330, rfl⟩
abbrev main_v244 : Ref sig .tc := ⟨.hbm, 331, rfl⟩
abbrev main_v245 : Ref sig .tc := ⟨.hbm, 332, rfl⟩
abbrev main_v246 : Ref sig .tc := ⟨.hbm, 333, rfl⟩
abbrev main_v247 : Ref sig .tc := ⟨.hbm, 334, rfl⟩
abbrev main_v248 : Ref sig .tc := ⟨.hbm, 335, rfl⟩
abbrev main_cst_52 : Ref sig .tc := ⟨.hbm, 336, rfl⟩
abbrev main_v249 : Ref sig .tc := ⟨.hbm, 337, rfl⟩
abbrev main_v250 : Ref sig .tc := ⟨.hbm, 338, rfl⟩
abbrev main_v251 : Ref sig .tc := ⟨.hbm, 339, rfl⟩
abbrev main_v252 : Ref sig .tc := ⟨.hbm, 340, rfl⟩

abbrev nD : Nat := 1
abbrev τ : Topo := Topo.v7x

variable {F : FTy → Type} [FloatOps F]

class Facts₀ : Prop where
  slices_S8x225x3_S8x225x1_0_0_0 : S8x225x3.Slices ![0, 0, 0] S8x225x1
  shapeCasts_S8x225x1_S8x225 : S8x225x1.ShapeCasts S8x225
  slices_S8x225x3_S8x225x1_0_0_1 : S8x225x3.Slices ![0, 0, 1] S8x225x1
  slices_S8x225x3_S8x225x1_0_0_2 : S8x225x3.Slices ![0, 0, 2] S8x225x1
  slices_S8x13_S8x1_0_0 : S8x13.Slices ![0, 0] S8x1
  slices_S8x13_S8x1_0_1 : S8x13.Slices ![0, 1] S8x1
  slices_S8x13_S8x1_0_2 : S8x13.Slices ![0, 2] S8x1
  slices_S8x13_S8x1_0_3 : S8x13.Slices ![0, 3] S8x1
  slices_S8x13_S8x1_0_4 : S8x13.Slices ![0, 4] S8x1
  slices_S8x13_S8x1_0_5 : S8x13.Slices ![0, 5] S8x1
  slices_S8x13_S8x1_0_6 : S8x13.Slices ![0, 6] S8x1
  slices_S8x13_S8x1_0_7 : S8x13.Slices ![0, 7] S8x1
  slices_S8x13_S8x1_0_8 : S8x13.Slices ![0, 8] S8x1
  slices_S8x13_S8x1_0_9 : S8x13.Slices ![0, 9] S8x1
  slices_S8x13_S8x1_0_10 : S8x13.Slices ![0, 10] S8x1
  slices_S8x13_S8x1_0_11 : S8x13.Slices ![0, 11] S8x1
  bcast_S1x225_S8x225_0_1 : S1x225.BroadcastsInDim S8x225 (![0, 1] : Fin 2 → Fin S8x225.rank)
  bcast_S8x1_S8x225_0_1 : S8x1.BroadcastsInDim S8x225 (![0, 1] : Fin 2 → Fin S8x225.rank)
  bcast_S_S8x1 : S_.BroadcastsInDim S8x1 (![] : Fin 0 → Fin S8x1.rank)
  bcast_S_S8x225 : S_.BroadcastsInDim S8x225 (![] : Fin 0 → Fin S8x225.rank)
  bcast_S8x225_S8x225x1_0_1 : S8x225.BroadcastsInDim S8x225x1 (![0, 1] : Fin 2 → Fin S8x225x1.rank)
  concatenates_S8x225x1_S8x225x1_S8x225x2_d2 : Shape.Concatenates [S8x225x1, S8x225x1] S8x225x2 2
  slices_S14641x2_S14641x1_0_0 : S14641x2.Slices ![0, 0] S14641x1
  shapeCasts_S14641x1_S14641 : S14641x1.ShapeCasts S14641
  bcast_S14641_S14641x1x1_0 : S14641.BroadcastsInDim S14641x1x1 (![0] : Fin 1 → Fin S14641x1x1.rank)
  bcast_S8x225_S1x8x225_1_2 : S8x225.BroadcastsInDim S1x8x225 (![1, 2] : Fin 2 → Fin S1x8x225.rank)
  bcast_S14641x1x1_S14641x8x225_0_1_2 : S14641x1x1.BroadcastsInDim S14641x8x225 (![0, 1, 2] : Fin 3 → Fin S14641x8x225.rank)
  bcast_S1x8x225_S14641x8x225_0_1_2 : S1x8x225.BroadcastsInDim S14641x8x225 (![0, 1, 2] : Fin 3 → Fin S14641x8x225.rank)
  slices_S14641x2_S14641x1_0_1 : S14641x2.Slices ![0, 1] S14641x1
  bcast_S_S14641x8x225 : S_.BroadcastsInDim S14641x8x225 (![] : Fin 0 → Fin S14641x8x225.rank)
  reducesTo_S14641x8x225_S14641x8_d2 : S14641x8x225.ReducesTo [2] S14641x8
  h_S_ : 0 < S_.numel
  transposes_S14641x8_S8x14641_1_0 : S14641x8.Transposes [1, 0] S8x14641
  shapeCasts_S8x14641_S8x121x121 : S8x14641.ShapeCasts S8x121x121
  gather_S200x200_S8x225x2_S8x225_n_01_n_n_01_2_11_wf : GatherDims.WF S200x200 S8x225x2 S8x225 [] [0, 1] [] [0, 1] [] 2 ![1, 1]

variable [Facts₀]

def gather_S200x200_S8x225x2_S8x225_n_01_n_n_01_2_11 : GatherDims S200x200 S8x225x2 S8x225 where
  offsetDims := []
  collapsedSliceDims := [0, 1]
  operandBatchingDims := []
  startIndicesBatchingDims := []
  startIndexMap := [0, 1]
  indexVectorDim := 2
  sliceSizes := ![1, 1]
  wf := gather_S200x200_S8x225x2_S8x225_n_01_n_n_01_2_11_wf

class Facts : Prop extends Facts₀ where

variable [Facts]
-- ==== Proof.FrameIdealHost.lean ====
/-
  The frame of the kernel program, host side: @main is sixteen stretches of host operations, one pipelined region, and
  two more stretches. This module states what the core's buffers hold when the region is entered (the fold of the
  sixteen stretches over the launch contents), that @main reduces to the region continued by the two later stretches,
  that no host operation writes any of the six argument arrays (so each is found, and left, as launched), the
  windows' blocks at a grid point, and how the frame claim's post follows from a run of the pipeline's frame.
-/
import proofs.«134758_j41807211659417_2_alg».proof.Proof.Gen.KernelIdeal.Launch
import proofs.«134758_j41807211659417_2_alg».proof.Proof.Gen.KernelIdeal.Skeleton
import proofs.«134758_j41807211659417_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- the longest stretch is a literal list of about a hundred operations: the elaborator recurses once per entry
set_option maxRecDepth 16384

noncomputable section

namespace Cert.KernelIdeal.HFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered, as a valuation: the launch contents taken through
    the sixteen stretches of host operations before the region, in order. -/
abbrev V0 (c : Dev nD) : Valuation τ sig (Elt F) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]) (fun b => m (c, b))
/-- The same read at a TensorCore reference. -/
abbrev V (c : Dev nD) (b : Ref sig .tc) : Buf (Elt F) ((c : Thread nD τ).loc b) := V0 m c (Proc.devRef .tc b)

/-! ### No host operation leaves a buffer undetermined -/

set_option maxHeartbeats 4000000 in
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
set_option maxHeartbeats 4000000 in
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
set_option maxHeartbeats 4000000 in
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

/-! ### No host operation writes an argument array

Every host operation writes exactly its own result buffer, and no result buffer is an argument array: told apart as
references, stretch by stretch. -/

/-- `op` writes none of the six argument arrays. -/
def KeepsArgs (op : HloOp τ sig (Elt F)) : Prop :=
  Proc.devRef .tc main_arg0 ∉ op.writes ∧ Proc.devRef .tc main_arg1 ∉ op.writes ∧ Proc.devRef .tc main_arg2 ∉ op.writes ∧ Proc.devRef .tc main_arg3 ∉ op.writes ∧ Proc.devRef .tc main_arg4 ∉ op.writes ∧ Proc.devRef .tc main_arg5 ∉ op.writes

set_option maxHeartbeats 8000000 in
theorem hostOps0_keeps : (hostOps0 : List (HloOp τ sig (Elt F))).Forall KeepsArgs := by
  simp only [hostOps0, List.Forall, KeepsArgs, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps0_1_keeps : (hostOps0_1 : List (HloOp τ sig (Elt F))).Forall KeepsArgs := by
  simp only [hostOps0_1, List.Forall, KeepsArgs, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps0_2_keeps : (hostOps0_2 : List (HloOp τ sig (Elt F))).Forall KeepsArgs := by
  simp only [hostOps0_2, List.Forall, KeepsArgs, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps0_3_keeps : (hostOps0_3 : List (HloOp τ sig (Elt F))).Forall KeepsArgs := by
  simp only [hostOps0_3, List.Forall, KeepsArgs, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps0_4_keeps : (hostOps0_4 : List (HloOp τ sig (Elt F))).Forall KeepsArgs := by
  simp only [hostOps0_4, List.Forall, KeepsArgs, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps0_5_keeps : (hostOps0_5 : List (HloOp τ sig (Elt F))).Forall KeepsArgs := by
  simp only [hostOps0_5, List.Forall, KeepsArgs, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps0_6_keeps : (hostOps0_6 : List (HloOp τ sig (Elt F))).Forall KeepsArgs := by
  simp only [hostOps0_6, List.Forall, KeepsArgs, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps0_7_keeps : (hostOps0_7 : List (HloOp τ sig (Elt F))).Forall KeepsArgs := by
  simp only [hostOps0_7, List.Forall, KeepsArgs, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 8000000 in
theorem hostOps0_8_keeps : (hostOps0_8 : List (HloOp τ sig (Elt F))).Forall KeepsArgs := by
  simp only [hostOps0_8, List.Forall, KeepsArgs, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps0_9_keeps : (hostOps0_9 : List (HloOp τ sig (Elt F))).Forall KeepsArgs := by
  simp only [hostOps0_9, List.Forall, KeepsArgs, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps0_10_keeps : (hostOps0_10 : List (HloOp τ sig (Elt F))).Forall KeepsArgs := by
  simp only [hostOps0_10, List.Forall, KeepsArgs, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps0_11_keeps : (hostOps0_11 : List (HloOp τ sig (Elt F))).Forall KeepsArgs := by
  simp only [hostOps0_11, List.Forall, KeepsArgs, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps0_12_keeps : (hostOps0_12 : List (HloOp τ sig (Elt F))).Forall KeepsArgs := by
  simp only [hostOps0_12, List.Forall, KeepsArgs, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps0_13_keeps : (hostOps0_13 : List (HloOp τ sig (Elt F))).Forall KeepsArgs := by
  simp only [hostOps0_13, List.Forall, KeepsArgs, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 8000000 in
theorem hostOps0_14_keeps : (hostOps0_14 : List (HloOp τ sig (Elt F))).Forall KeepsArgs := by
  simp only [hostOps0_14, List.Forall, KeepsArgs, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps0_15_keeps : (hostOps0_15 : List (HloOp τ sig (Elt F))).Forall KeepsArgs := by
  simp only [hostOps0_15, List.Forall, KeepsArgs, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_keeps : (hostOps1 : List (HloOp τ sig (Elt F))).Forall KeepsArgs := by
  simp only [hostOps1, List.Forall, KeepsArgs, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_1_keeps : (hostOps1_1 : List (HloOp τ sig (Elt F))).Forall KeepsArgs := by
  simp only [hostOps1_1, List.Forall, KeepsArgs, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)

/-- The stretches before the region write no argument array. -/
theorem pre_keeps : ∀ op ∈ List.flatten ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15] : List (List (HloOp τ sig (Elt F)))), KeepsArgs op := by
  intro op hop
  obtain ⟨ops, hops, hop⟩ := List.mem_flatten.mp hop
  simp only [List.mem_cons, List.mem_nil_iff, or_false] at hops
  rcases hops with rfl | rfl | rfl | rfl | rfl | rfl | rfl | rfl | rfl | rfl | rfl | rfl | rfl | rfl | rfl | rfl
  · exact (List.forall_iff_forall_mem.mp hostOps0_keeps) op hop
  · exact (List.forall_iff_forall_mem.mp hostOps0_1_keeps) op hop
  · exact (List.forall_iff_forall_mem.mp hostOps0_2_keeps) op hop
  · exact (List.forall_iff_forall_mem.mp hostOps0_3_keeps) op hop
  · exact (List.forall_iff_forall_mem.mp hostOps0_4_keeps) op hop
  · exact (List.forall_iff_forall_mem.mp hostOps0_5_keeps) op hop
  · exact (List.forall_iff_forall_mem.mp hostOps0_6_keeps) op hop
  · exact (List.forall_iff_forall_mem.mp hostOps0_7_keeps) op hop
  · exact (List.forall_iff_forall_mem.mp hostOps0_8_keeps) op hop
  · exact (List.forall_iff_forall_mem.mp hostOps0_9_keeps) op hop
  · exact (List.forall_iff_forall_mem.mp hostOps0_10_keeps) op hop
  · exact (List.forall_iff_forall_mem.mp hostOps0_11_keeps) op hop
  · exact (List.forall_iff_forall_mem.mp hostOps0_12_keeps) op hop
  · exact (List.forall_iff_forall_mem.mp hostOps0_13_keeps) op hop
  · exact (List.forall_iff_forall_mem.mp hostOps0_14_keeps) op hop
  · exact (List.forall_iff_forall_mem.mp hostOps0_15_keeps) op hop

/-- Nor do the stretches after it. -/
theorem suf_keeps : ∀ op ∈ List.flatten ([hostOps1, hostOps1_1] : List (List (HloOp τ sig (Elt F)))), KeepsArgs op := by
  intro op hop
  obtain ⟨ops, hops, hop⟩ := List.mem_flatten.mp hop
  simp only [List.mem_cons, List.mem_nil_iff, or_false] at hops
  rcases hops with rfl | rfl
  · exact (List.forall_iff_forall_mem.mp hostOps1_keeps) op hop
  · exact (List.forall_iff_forall_mem.mp hostOps1_1_keeps) op hop

/-! ### @main reduces to the region continued by the later stretches -/

/-- @main around the region, at the certificate's variants `𝒱₀`: the sixteen stretches before it, the region, the two
    stretches after it. Holding the boundary and the unscoped buffers at the launch contents, @main reduces to the
    region continued by the later stretches, the buffers then at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1]) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15] [hostOps1, hostOps1_1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh⟩) main_chain

/-- The stretches after the region touch the pipeline's arrays and the bypassing buffers only: each operation's buffers
    are unscoped TensorCore references, and with nothing prefetched every such reference is one or the other. -/
theorem sfx_sub : ∀ ops ∈ ([hostOps1, hostOps1_1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl
  · exact Pipeline.sub_ucRefs op ((List.forall_iff_forall_mem.mp hostOps1_sub) op hop)
  · exact Pipeline.sub_ucRefs op ((List.forall_iff_forall_mem.mp hostOps1_1_sub) op hop)
/-- They leave no buffer undetermined. -/
theorem sfx_fresh : ∀ ops ∈ ([hostOps1, hostOps1_1] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp hostOps1_fresh) op hop
  · exact (List.forall_iff_forall_mem.mp hostOps1_1_fresh) op hop
/-- And they write no array of the pipeline: each writes only its own result buffer, which is no window's array. -/
theorem sfx_keeps : ∀ ops ∈ ([hostOps1, hostOps1_1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)
  · simp only [hostOps1_1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

/-! ### The argument arrays, as the region finds them and as @main leaves them -/

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (fun op hop => (pre_keeps op hop).1)

/-- No host operation after the region writes `main_arg0`, and it is no window's array: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg0 = m ((c : Thread nD τ).loc main_arg0) := by
  unfold Pipeline.afterTail₀
  rw [StableHlo.after_of_forall_not_mem (b := Proc.devRef .tc main_arg0) _ _ (fun op hop => (suf_keeps op hop).1),
    Pipeline.withArrays_of_ne _ c (V0 m c) _ main_arg0 (by exact (by decide : ∀ w, Pipeline.arrRef spec0 w ≠ main_arg0))]
  exact V_main_arg0 m c

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (fun op hop => (pre_keeps op hop).2.1)

/-- No host operation after the region writes `main_arg1`, and it is no window's array: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg1 = m ((c : Thread nD τ).loc main_arg1) := by
  unfold Pipeline.afterTail₀
  rw [StableHlo.after_of_forall_not_mem (b := Proc.devRef .tc main_arg1) _ _ (fun op hop => (suf_keeps op hop).2.1),
    Pipeline.withArrays_of_ne _ c (V0 m c) _ main_arg1 (by exact (by decide : ∀ w, Pipeline.arrRef spec0 w ≠ main_arg1))]
  exact V_main_arg1 m c

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (fun op hop => (pre_keeps op hop).2.2.1)

/-- No host operation after the region writes `main_arg2`, and it is no window's array: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg2 = m ((c : Thread nD τ).loc main_arg2) := by
  unfold Pipeline.afterTail₀
  rw [StableHlo.after_of_forall_not_mem (b := Proc.devRef .tc main_arg2) _ _ (fun op hop => (suf_keeps op hop).2.2.1),
    Pipeline.withArrays_of_ne _ c (V0 m c) _ main_arg2 (by exact (by decide : ∀ w, Pipeline.arrRef spec0 w ≠ main_arg2))]
  exact V_main_arg2 m c

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (fun op hop => (pre_keeps op hop).2.2.2.1)

/-- No host operation after the region writes `main_arg3`, and it is no window's array: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg3 = m ((c : Thread nD τ).loc main_arg3) := by
  unfold Pipeline.afterTail₀
  rw [StableHlo.after_of_forall_not_mem (b := Proc.devRef .tc main_arg3) _ _ (fun op hop => (suf_keeps op hop).2.2.2.1),
    Pipeline.withArrays_of_ne _ c (V0 m c) _ main_arg3 (by exact (by decide : ∀ w, Pipeline.arrRef spec0 w ≠ main_arg3))]
  exact V_main_arg3 m c

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (fun op hop => (pre_keeps op hop).2.2.2.2.1)

/-- No host operation after the region writes `main_arg4`, and it is no window's array: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg4 = m ((c : Thread nD τ).loc main_arg4) := by
  unfold Pipeline.afterTail₀
  rw [StableHlo.after_of_forall_not_mem (b := Proc.devRef .tc main_arg4) _ _ (fun op hop => (suf_keeps op hop).2.2.2.2.1),
    Pipeline.withArrays_of_ne _ c (V0 m c) _ main_arg4 (by exact (by decide : ∀ w, Pipeline.arrRef spec0 w ≠ main_arg4))]
  exact V_main_arg4 m c

/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (fun op hop => (pre_keeps op hop).2.2.2.2.2)

/-- No host operation after the region writes `main_arg5`, and it is no window's array: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg5 = m ((c : Thread nD τ).loc main_arg5) := by
  unfold Pipeline.afterTail₀
  rw [StableHlo.after_of_forall_not_mem (b := Proc.devRef .tc main_arg5) _ _ (fun op hop => (suf_keeps op hop).2.2.2.2.2),
    Pipeline.withArrays_of_ne _ c (V0 m c) _ main_arg5 (by exact (by decide : ∀ w, Pipeline.arrRef spec0 w ≠ main_arg5))]
  exact V_main_arg5 m c

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is `V`'s (`hA`) and whose body leaves the block in place (`hafter`): where the window is not fetched its
    block index has not moved, so the block of the point before is this point's. The window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is `V`'s (`hA`) and whose body leaves the block in place (`hafter`): where the window is not fetched its
    block index has not moved, so the block of the point before is this point's. The window is uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is `V`'s (`hA`) and whose body leaves the block in place (`hafter`): where the window is not fetched its
    block index has not moved, so the block of the point before is this point's. The window is uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data, a run whose final state has every unscoped buffer that is no
    window's array at what the stretches after the region leave there, read at the six argument arrays — none of them
    a window's array, none written by any host operation — is the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1, hostOps1_1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c)⟩) h

end Cert.KernelIdeal.HFrame

end
-- ==== Proof.BodyDefIdeal.lean ====
/-
  What the kernel body stores, as one pure function of its three input blocks.

  The body reads the pixel block's two columns (x-coordinates and y-coordinates of 512 pixels), and for each of
  the eight batch rows b the coefficient slab G[b] (8 × 225) and the brightness row bright[b] (1 × 225); it forms the
  monomial matrix of the pixel block once, and per batch row the weighted sum over the 225 electrodes; the eight
  resulting columns are joined and transposed into the 8 × 512 output block, which is stored whole.
-/
import proofs.«134758_j41807211659417_2_alg».proof.Proof.Gen.KernelIdeal.Skeleton
import Idealize.ShloMosaic.Lib.Pipeline.FrameBody

noncomputable section

namespace Cert.KernelIdeal.HBody

open Idealize.ShloMosaic Idealize.SL.Sem Cert.KernelIdeal Cert.KernelIdeal.Gen

variable {F : FTy → Type} [FloatOps F]

/-- column 0 / column 1 of the 512 × 2 pixel block -/
abbrev rP0 : Rect S512x2 := Rect.unit (s := S512x2) ![0, 0] S512x1.size inb_S512x2_S512x1_0_0
abbrev rP1 : Rect S512x2 := Rect.unit (s := S512x2) ![0, 1] S512x1.size inb_S512x2_S512x1_0_1
/-- batch row b of the coefficient block -/
abbrev rG0 : Rect S8x8x225 := Rect.unit (s := S8x8x225) ![0, 0, 0] S1x8x225.size inb_S8x8x225_S1x8x225_0_0_0
abbrev rG1 : Rect S8x8x225 := Rect.unit (s := S8x8x225) ![1, 0, 0] S1x8x225.size inb_S8x8x225_S1x8x225_1_0_0
abbrev rG2 : Rect S8x8x225 := Rect.unit (s := S8x8x225) ![2, 0, 0] S1x8x225.size inb_S8x8x225_S1x8x225_2_0_0
abbrev rG3 : Rect S8x8x225 := Rect.unit (s := S8x8x225) ![3, 0, 0] S1x8x225.size inb_S8x8x225_S1x8x225_3_0_0
abbrev rG4 : Rect S8x8x225 := Rect.unit (s := S8x8x225) ![4, 0, 0] S1x8x225.size inb_S8x8x225_S1x8x225_4_0_0
abbrev rG5 : Rect S8x8x225 := Rect.unit (s := S8x8x225) ![5, 0, 0] S1x8x225.size inb_S8x8x225_S1x8x225_5_0_0
abbrev rG6 : Rect S8x8x225 := Rect.unit (s := S8x8x225) ![6, 0, 0] S1x8x225.size inb_S8x8x225_S1x8x225_6_0_0
abbrev rG7 : Rect S8x8x225 := Rect.unit (s := S8x8x225) ![7, 0, 0] S1x8x225.size inb_S8x8x225_S1x8x225_7_0_0
/-- batch row b of the brightness block -/
abbrev rB0 : Rect S8x225 := Rect.unit (s := S8x225) ![0, 0] S1x225.size inb_S8x225_S1x225_0_0
abbrev rB1 : Rect S8x225 := Rect.unit (s := S8x225) ![1, 0] S1x225.size inb_S8x225_S1x225_1_0
abbrev rB2 : Rect S8x225 := Rect.unit (s := S8x225) ![2, 0] S1x225.size inb_S8x225_S1x225_2_0
abbrev rB3 : Rect S8x225 := Rect.unit (s := S8x225) ![3, 0] S1x225.size inb_S8x225_S1x225_3_0
abbrev rB4 : Rect S8x225 := Rect.unit (s := S8x225) ![4, 0] S1x225.size inb_S8x225_S1x225_4_0
abbrev rB5 : Rect S8x225 := Rect.unit (s := S8x225) ![5, 0] S1x225.size inb_S8x225_S1x225_5_0
abbrev rB6 : Rect S8x225 := Rect.unit (s := S8x225) ![6, 0] S1x225.size inb_S8x225_S1x225_6_0
abbrev rB7 : Rect S8x225 := Rect.unit (s := S8x225) ![7, 0] S1x225.size inb_S8x225_S1x225_7_0
/-- the whole 8 × 512 output block -/
abbrev rOut : Rect S8x512 := Rect.unit (s := S8x512) ![0, 0] S8x512.size inb_S8x512_S8x512_0_0

/-- The monomial matrix of the pixel block (512 × 8). -/
def monomials (x0 : Vec F S512x2 .f32) : FVec F S512x8 .f32 := k0_pay1 (View.ld x0 rP0) (View.ld x0 rP1)

/-- The value the body stores into the output block, from the pixel block x0, the coefficient block x1 and the
    brightness block x2. -/
def bodyVal (x0 : Vec F S512x2 .f32) (x1 : Vec F S8x8x225 .f32) (x2 : Vec F S8x225 .f32) : FVec F S8x512 .f32 :=
  k0_pay7 (monomials x0)
    (k0_pay2 (View.ld x0 rP0) (View.ld x0 rP1) (View.ld x1 rG0) (View.ld x2 rB0))
    (k0_pay3 (View.ld x0 rP0) (View.ld x0 rP1) (View.ld x1 rG1) (View.ld x2 rB1))
    (k0_pay4 (monomials x0) (View.ld x1 rG2) (View.ld x2 rB2))
    (k0_pay5 (monomials x0) (View.ld x1 rG3) (View.ld x2 rB3))
    (k0_pay6 (monomials x0) (View.ld x1 rG4) (View.ld x2 rB4))
    (View.ld x1 rG5) (View.ld x2 rB5) (View.ld x1 rG6) (View.ld x2 rB6) (View.ld x1 rG7) (View.ld x2 rB7)

/-- The output block's staging buffer after the body: its one whole-block store. -/
def out0_3 (x0 : Vec F S512x2 .f32) (x1 : Vec F S8x8x225 .f32) (x2 : Vec F S8x225 .f32) : Vec F S8x512 .f32 :=
  View.canon [⟨rOut, bodyVal x0 x1 x2⟩]

end Cert.KernelIdeal.HBody

end
-- ==== Proof.FrameIdealBody.lean ====
/-
  The frame of the kernel program, body side: the kernel body's triple. On whole staging memrefs — the three inputs' at
  read contents, the output's at anything — the body runs to its continuation with the inputs' as they were and the
  output's holding its one whole-block store over the input blocks.
-/
import proofs.«134758_j41807211659417_2_alg».proof.Proof.BodyDefIdeal
import proofs.«134758_j41807211659417_2_alg».proof.Proof.Gen.KernelIdeal.Launch
import proofs.«134758_j41807211659417_2_alg».proof.Proof.Gen.KernelIdeal.Skeleton
import proofs.«134758_j41807211659417_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of the output block's extents: the elaborator recurses once per coordinate of the long axis
set_option maxRecDepth 16384

noncomputable section

namespace Cert.KernelIdeal.HFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.HBody

variable {F : FTy → Type} [FloatOps F]

local notation "𝕄" => MT nD τ sig Unit (Elt F) ℕ (UR sig nD τ) ℕ

/-- The body's one store is of the whole output block, so it covers the buffer. -/
theorem cover0_3 (p0 : Vec F S8x512 .f32) (y : S8x512.Idx) :
    ∃ pc ∈ ([⟨rOut, p0⟩] : List (View.Piece (Elt F) S8x512 .f32)), y ∈ pc.1.set :=
  View.cover_of_tiled [⟨rOut, p0⟩] S8x512.size (by rfl) y

set_option maxHeartbeats 1000000 in
/-- The kernel body on whole staging memrefs, the inputs' at read contents `x0`, `x1`, `x2` and the output's at
    anything, runs to the continuation holding the inputs' as they were and the output's at `out0_3 x0 x1 x2`: the
    printed functions are their skeletons, run through the three part calls; the load of the output buffer reads a
    value nothing uses; the last operation stores the whole block. -/
theorem sound_kernel (c : Dev nD) (E : Set ℕ) (i : grid0.Coords)
    (arg1 : Memref sig .tc .vmem S512x2 .f32) (harg1 : arg1.IsWhole)
    (arg2 : Memref sig .tc .vmem S8x8x225 .f32) (harg2 : arg2.IsWhole)
    (arg3 : Memref sig .tc .vmem S8x225 .f32) (harg3 : arg3.IsWhole)
    (arg4 : Memref sig .tc .vmem S8x512 .f32) (harg4 : arg4.IsWhole)
    (x0 : Vec F S512x2 .f32) (x1 : Vec F S8x8x225 .f32) (x2 : Vec F S8x225 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__percept_kernel i arg1 harg1 arg2 harg2 arg3 harg3 arg4 harg4) K := by
  simp only [cc0__percept_kernel_eq_skeleton]; unfold cc0__percept_kernel_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _)

end Cert.KernelIdeal.HFrame

end
-- ==== Proof.FrameIdeal.lean ====
/-
  The frame of the kernel program: the pipeline's proof data (the windows' arrays as the region finds them; after the
  body at a grid point each input's staging buffer at its block and the output's at the body's store over the input
  blocks), the body obligation at every point, the run of @main to the pipeline's frame post, and the frame claim —
  @main terminates and leaves its six argument arrays as launched — at any float instance.
-/
import proofs.«134758_j41807211659417_2_alg».proof.Proof.FrameIdealHost
import proofs.«134758_j41807211659417_2_alg».proof.Proof.FrameIdealBody

set_option maxRecDepth 16384

noncomputable section

namespace Cert.KernelIdeal.HFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.HBody

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`: the arrays as the region finds them (`V`); after the body at point
    `t` each input's buffer at its block and the output's at `out0_3` of the three input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

/-- The proof data's arrays are the region-entry contents: the definition projected, so that `V` — a fold over the
    sixteen stretches — is never unfolded to check it. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the body's triple applies; the invariant and the
    core's owed transfers pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the frame run's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the library computes from the
    proof data and every other unscoped buffer as the two stretches after the region leave it. -/
theorem run_main : θ_run defs (onTc (τ := τ) (main (F := F))) (s₀ m ρ) (Pipeline.FramePost cfgs (dats m) 0 (Pipeline.afterTail₀ cfgs (dats m) 0 (V0 m) [hostOps1, hostOps1_1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m) (hΦ := fun _ _ => rfl)

/-- info: 'Cert.KernelIdeal.HFrame.run_main' depends on axioms: [propext, Classical.choice, Quot.sound] -/
#guard_msgs in #print axioms run_main

/-- The frame claim's statement at any float instance: @main runs, and its six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (run_main m ρ)

end Cert.KernelIdeal.HFrame

end
-- ==== Proof.FrameBitsHost.lean ====
/-
  The frame of the kernel program, host side: @main is sixteen stretches of host operations, one pipelined region, and
  two more stretches. This module states what the core's buffers hold when the region is entered (the fold of the
  sixteen stretches over the launch contents), that @main reduces to the region continued by the two later stretches,
  that no host operation writes any of the six argument arrays (so each is found, and left, as launched), the
  windows' blocks at a grid point, and how the frame claim's post follows from a run of the pipeline's frame.
-/
import proofs.«134758_j41807211659417_2_alg».proof.Proof.Gen.Kernel.Launch
import proofs.«134758_j41807211659417_2_alg».proof.Proof.Gen.Kernel.Skeleton
import proofs.«134758_j41807211659417_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- the longest stretch is a literal list of about a hundred operations: the elaborator recurses once per entry
set_option maxRecDepth 16384

noncomputable section

namespace Cert.Kernel.HFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered, as a valuation: the launch contents taken through
    the sixteen stretches of host operations before the region, in order. -/
abbrev V0 (c : Dev nD) : Valuation τ sig (Elt F) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]) (fun b => m (c, b))
/-- The same read at a TensorCore reference. -/
abbrev V (c : Dev nD) (b : Ref sig .tc) : Buf (Elt F) ((c : Thread nD τ).loc b) := V0 m c (Proc.devRef .tc b)

/-! ### No host operation leaves a buffer undetermined -/

set_option maxHeartbeats 4000000 in
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
set_option maxHeartbeats 4000000 in
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
set_option maxHeartbeats 4000000 in
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

/-! ### No host operation writes an argument array

Every host operation writes exactly its own result buffer, and no result buffer is an argument array: told apart as
references, stretch by stretch. -/

/-- `op` writes none of the six argument arrays. -/
def KeepsArgs (op : HloOp τ sig (Elt F)) : Prop :=
  Proc.devRef .tc main_arg0 ∉ op.writes ∧ Proc.devRef .tc main_arg1 ∉ op.writes ∧ Proc.devRef .tc main_arg2 ∉ op.writes ∧ Proc.devRef .tc main_arg3 ∉ op.writes ∧ Proc.devRef .tc main_arg4 ∉ op.writes ∧ Proc.devRef .tc main_arg5 ∉ op.writes

set_option maxHeartbeats 8000000 in
theorem hostOps0_keeps : (hostOps0 : List (HloOp τ sig (Elt F))).Forall KeepsArgs := by
  simp only [hostOps0, List.Forall, KeepsArgs, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps0_1_keeps : (hostOps0_1 : List (HloOp τ sig (Elt F))).Forall KeepsArgs := by
  simp only [hostOps0_1, List.Forall, KeepsArgs, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps0_2_keeps : (hostOps0_2 : List (HloOp τ sig (Elt F))).Forall KeepsArgs := by
  simp only [hostOps0_2, List.Forall, KeepsArgs, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps0_3_keeps : (hostOps0_3 : List (HloOp τ sig (Elt F))).Forall KeepsArgs := by
  simp only [hostOps0_3, List.Forall, KeepsArgs, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps0_4_keeps : (hostOps0_4 : List (HloOp τ sig (Elt F))).Forall KeepsArgs := by
  simp only [hostOps0_4, List.Forall, KeepsArgs, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps0_5_keeps : (hostOps0_5 : List (HloOp τ sig (Elt F))).Forall KeepsArgs := by
  simp only [hostOps0_5, List.Forall, KeepsArgs, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps0_6_keeps : (hostOps0_6 : List (HloOp τ sig (Elt F))).Forall KeepsArgs := by
  simp only [hostOps0_6, List.Forall, KeepsArgs, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps0_7_keeps : (hostOps0_7 : List (HloOp τ sig (Elt F))).Forall KeepsArgs := by
  simp only [hostOps0_7, List.Forall, KeepsArgs, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 8000000 in
theorem hostOps0_8_keeps : (hostOps0_8 : List (HloOp τ sig (Elt F))).Forall KeepsArgs := by
  simp only [hostOps0_8, List.Forall, KeepsArgs, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps0_9_keeps : (hostOps0_9 : List (HloOp τ sig (Elt F))).Forall KeepsArgs := by
  simp only [hostOps0_9, List.Forall, KeepsArgs, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps0_10_keeps : (hostOps0_10 : List (HloOp τ sig (Elt F))).Forall KeepsArgs := by
  simp only [hostOps0_10, List.Forall, KeepsArgs, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps0_11_keeps : (hostOps0_11 : List (HloOp τ sig (Elt F))).Forall KeepsArgs := by
  simp only [hostOps0_11, List.Forall, KeepsArgs, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps0_12_keeps : (hostOps0_12 : List (HloOp τ sig (Elt F))).Forall KeepsArgs := by
  simp only [hostOps0_12, List.Forall, KeepsArgs, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps0_13_keeps : (hostOps0_13 : List (HloOp τ sig (Elt F))).Forall KeepsArgs := by
  simp only [hostOps0_13, List.Forall, KeepsArgs, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
set_option maxHeartbeats 8000000 in
theorem hostOps0_14_keeps : (hostOps0_14 : List (HloOp τ sig (Elt F))).Forall KeepsArgs := by
  simp only [hostOps0_14, List.Forall, KeepsArgs, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps0_15_keeps : (hostOps0_15 : List (HloOp τ sig (Elt F))).Forall KeepsArgs := by
  simp only [hostOps0_15, List.Forall, KeepsArgs, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_keeps : (hostOps1 : List (HloOp τ sig (Elt F))).Forall KeepsArgs := by
  simp only [hostOps1, List.Forall, KeepsArgs, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem hostOps1_1_keeps : (hostOps1_1 : List (HloOp τ sig (Elt F))).Forall KeepsArgs := by
  simp only [hostOps1_1, List.Forall, KeepsArgs, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)

/-- The stretches before the region write no argument array. -/
theorem pre_keeps : ∀ op ∈ List.flatten ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15] : List (List (HloOp τ sig (Elt F)))), KeepsArgs op := by
  intro op hop
  obtain ⟨ops, hops, hop⟩ := List.mem_flatten.mp hop
  simp only [List.mem_cons, List.mem_nil_iff, or_false] at hops
  rcases hops with rfl | rfl | rfl | rfl | rfl | rfl | rfl | rfl | rfl | rfl | rfl | rfl | rfl | rfl | rfl | rfl
  · exact (List.forall_iff_forall_mem.mp hostOps0_keeps) op hop
  · exact (List.forall_iff_forall_mem.mp hostOps0_1_keeps) op hop
  · exact (List.forall_iff_forall_mem.mp hostOps0_2_keeps) op hop
  · exact (List.forall_iff_forall_mem.mp hostOps0_3_keeps) op hop
  · exact (List.forall_iff_forall_mem.mp hostOps0_4_keeps) op hop
  · exact (List.forall_iff_forall_mem.mp hostOps0_5_keeps) op hop
  · exact (List.forall_iff_forall_mem.mp hostOps0_6_keeps) op hop
  · exact (List.forall_iff_forall_mem.mp hostOps0_7_keeps) op hop
  · exact (List.forall_iff_forall_mem.mp hostOps0_8_keeps) op hop
  · exact (List.forall_iff_forall_mem.mp hostOps0_9_keeps) op hop
  · exact (List.forall_iff_forall_mem.mp hostOps0_10_keeps) op hop
  · exact (List.forall_iff_forall_mem.mp hostOps0_11_keeps) op hop
  · exact (List.forall_iff_forall_mem.mp hostOps0_12_keeps) op hop
  · exact (List.forall_iff_forall_mem.mp hostOps0_13_keeps) op hop
  · exact (List.forall_iff_forall_mem.mp hostOps0_14_keeps) op hop
  · exact (List.forall_iff_forall_mem.mp hostOps0_15_keeps) op hop

/-- Nor do the stretches after it. -/
theorem suf_keeps : ∀ op ∈ List.flatten ([hostOps1, hostOps1_1] : List (List (HloOp τ sig (Elt F)))), KeepsArgs op := by
  intro op hop
  obtain ⟨ops, hops, hop⟩ := List.mem_flatten.mp hop
  simp only [List.mem_cons, List.mem_nil_iff, or_false] at hops
  rcases hops with rfl | rfl
  · exact (List.forall_iff_forall_mem.mp hostOps1_keeps) op hop
  · exact (List.forall_iff_forall_mem.mp hostOps1_1_keeps) op hop

/-! ### @main reduces to the region continued by the later stretches -/

/-- @main around the region, at the certificate's variants `𝒱₀`: the sixteen stretches before it, the region, the two
    stretches after it. Holding the boundary and the unscoped buffers at the launch contents, @main reduces to the
    region continued by the later stretches, the buffers then at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1]) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15] [hostOps1, hostOps1_1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh⟩) main_chain

/-- The stretches after the region touch the pipeline's arrays and the bypassing buffers only: each operation's buffers
    are unscoped TensorCore references, and with nothing prefetched every such reference is one or the other. -/
theorem sfx_sub : ∀ ops ∈ ([hostOps1, hostOps1_1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl
  · exact Pipeline.sub_ucRefs op ((List.forall_iff_forall_mem.mp hostOps1_sub) op hop)
  · exact Pipeline.sub_ucRefs op ((List.forall_iff_forall_mem.mp hostOps1_1_sub) op hop)
/-- They leave no buffer undetermined. -/
theorem sfx_fresh : ∀ ops ∈ ([hostOps1, hostOps1_1] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp hostOps1_fresh) op hop
  · exact (List.forall_iff_forall_mem.mp hostOps1_1_fresh) op hop
/-- And they write no array of the pipeline: each writes only its own result buffer, which is no window's array. -/
theorem sfx_keeps : ∀ ops ∈ ([hostOps1, hostOps1_1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)
  · simp only [hostOps1_1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

/-! ### The argument arrays, as the region finds them and as @main leaves them -/

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (fun op hop => (pre_keeps op hop).1)

/-- No host operation after the region writes `main_arg0`, and it is no window's array: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg0 = m ((c : Thread nD τ).loc main_arg0) := by
  unfold Pipeline.afterTail₀
  rw [StableHlo.after_of_forall_not_mem (b := Proc.devRef .tc main_arg0) _ _ (fun op hop => (suf_keeps op hop).1),
    Pipeline.withArrays_of_ne _ c (V0 m c) _ main_arg0 (by exact (by decide : ∀ w, Pipeline.arrRef spec0 w ≠ main_arg0))]
  exact V_main_arg0 m c

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (fun op hop => (pre_keeps op hop).2.1)

/-- No host operation after the region writes `main_arg1`, and it is no window's array: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg1 = m ((c : Thread nD τ).loc main_arg1) := by
  unfold Pipeline.afterTail₀
  rw [StableHlo.after_of_forall_not_mem (b := Proc.devRef .tc main_arg1) _ _ (fun op hop => (suf_keeps op hop).2.1),
    Pipeline.withArrays_of_ne _ c (V0 m c) _ main_arg1 (by exact (by decide : ∀ w, Pipeline.arrRef spec0 w ≠ main_arg1))]
  exact V_main_arg1 m c

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (fun op hop => (pre_keeps op hop).2.2.1)

/-- No host operation after the region writes `main_arg2`, and it is no window's array: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg2 = m ((c : Thread nD τ).loc main_arg2) := by
  unfold Pipeline.afterTail₀
  rw [StableHlo.after_of_forall_not_mem (b := Proc.devRef .tc main_arg2) _ _ (fun op hop => (suf_keeps op hop).2.2.1),
    Pipeline.withArrays_of_ne _ c (V0 m c) _ main_arg2 (by exact (by decide : ∀ w, Pipeline.arrRef spec0 w ≠ main_arg2))]
  exact V_main_arg2 m c

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (fun op hop => (pre_keeps op hop).2.2.2.1)

/-- No host operation after the region writes `main_arg3`, and it is no window's array: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg3 = m ((c : Thread nD τ).loc main_arg3) := by
  unfold Pipeline.afterTail₀
  rw [StableHlo.after_of_forall_not_mem (b := Proc.devRef .tc main_arg3) _ _ (fun op hop => (suf_keeps op hop).2.2.2.1),
    Pipeline.withArrays_of_ne _ c (V0 m c) _ main_arg3 (by exact (by decide : ∀ w, Pipeline.arrRef spec0 w ≠ main_arg3))]
  exact V_main_arg3 m c

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (fun op hop => (pre_keeps op hop).2.2.2.2.1)

/-- No host operation after the region writes `main_arg4`, and it is no window's array: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg4 = m ((c : Thread nD τ).loc main_arg4) := by
  unfold Pipeline.afterTail₀
  rw [StableHlo.after_of_forall_not_mem (b := Proc.devRef .tc main_arg4) _ _ (fun op hop => (suf_keeps op hop).2.2.2.2.1),
    Pipeline.withArrays_of_ne _ c (V0 m c) _ main_arg4 (by exact (by decide : ∀ w, Pipeline.arrRef spec0 w ≠ main_arg4))]
  exact V_main_arg4 m c

/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (fun op hop => (pre_keeps op hop).2.2.2.2.2)

/-- No host operation after the region writes `main_arg5`, and it is no window's array: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1, hostOps1_1] c main_arg5 = m ((c : Thread nD τ).loc main_arg5) := by
  unfold Pipeline.afterTail₀
  rw [StableHlo.after_of_forall_not_mem (b := Proc.devRef .tc main_arg5) _ _ (fun op hop => (suf_keeps op hop).2.2.2.2.2),
    Pipeline.withArrays_of_ne _ c (V0 m c) _ main_arg5 (by exact (by decide : ∀ w, Pipeline.arrRef spec0 w ≠ main_arg5))]
  exact V_main_arg5 m c

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is `V`'s (`hA`) and whose body leaves the block in place (`hafter`): where the window is not fetched its
    block index has not moved, so the block of the point before is this point's. The window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is `V`'s (`hA`) and whose body leaves the block in place (`hafter`): where the window is not fetched its
    block index has not moved, so the block of the point before is this point's. The window is uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is `V`'s (`hA`) and whose body leaves the block in place (`hafter`): where the window is not fetched its
    block index has not moved, so the block of the point before is this point's. The window is uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data, a run whose final state has every unscoped buffer that is no
    window's array at what the stretches after the region leave there, read at the six argument arrays — none of them
    a window's array, none written by any host operation — is the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1, hostOps1_1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c)⟩) h

end Cert.Kernel.HFrame

end
-- ==== Proof.BodyDefBits.lean ====
/-
  What the kernel body stores, as one pure function of its three input blocks.

  The body reads the pixel block's two columns (x-coordinates and y-coordinates of 512 pixels), and for each of
  the eight batch rows b the coefficient slab G[b] (8 × 225) and the brightness row bright[b] (1 × 225); it forms the
  monomial matrix of the pixel block once, and per batch row the weighted sum over the 225 electrodes; the eight
  resulting columns are joined and transposed into the 8 × 512 output block, which is stored whole.
-/
import proofs.«134758_j41807211659417_2_alg».proof.Proof.Gen.Kernel.Skeleton
import Idealize.ShloMosaic.Lib.Pipeline.FrameBody

noncomputable section

namespace Cert.Kernel.HBody

open Idealize.ShloMosaic Idealize.SL.Sem Cert.Kernel Cert.Kernel.Gen

variable {F : FTy → Type} [FloatOps F]

/-- column 0 / column 1 of the 512 × 2 pixel block -/
abbrev rP0 : Rect S512x2 := Rect.unit (s := S512x2) ![0, 0] S512x1.size inb_S512x2_S512x1_0_0
abbrev rP1 : Rect S512x2 := Rect.unit (s := S512x2) ![0, 1] S512x1.size inb_S512x2_S512x1_0_1
/-- batch row b of the coefficient block -/
abbrev rG0 : Rect S8x8x225 := Rect.unit (s := S8x8x225) ![0, 0, 0] S1x8x225.size inb_S8x8x225_S1x8x225_0_0_0
abbrev rG1 : Rect S8x8x225 := Rect.unit (s := S8x8x225) ![1, 0, 0] S1x8x225.size inb_S8x8x225_S1x8x225_1_0_0
abbrev rG2 : Rect S8x8x225 := Rect.unit (s := S8x8x225) ![2, 0, 0] S1x8x225.size inb_S8x8x225_S1x8x225_2_0_0
abbrev rG3 : Rect S8x8x225 := Rect.unit (s := S8x8x225) ![3, 0, 0] S1x8x225.size inb_S8x8x225_S1x8x225_3_0_0
abbrev rG4 : Rect S8x8x225 := Rect.unit (s := S8x8x225) ![4, 0, 0] S1x8x225.size inb_S8x8x225_S1x8x225_4_0_0
abbrev rG5 : Rect S8x8x225 := Rect.unit (s := S8x8x225) ![5, 0, 0] S1x8x225.size inb_S8x8x225_S1x8x225_5_0_0
abbrev rG6 : Rect S8x8x225 := Rect.unit (s := S8x8x225) ![6, 0, 0] S1x8x225.size inb_S8x8x225_S1x8x225_6_0_0
abbrev rG7 : Rect S8x8x225 := Rect.unit (s := S8x8x225) ![7, 0, 0] S1x8x225.size inb_S8x8x225_S1x8x225_7_0_0
/-- batch row b of the brightness block -/
abbrev rB0 : Rect S8x225 := Rect.unit (s := S8x225) ![0, 0] S1x225.size inb_S8x225_S1x225_0_0
abbrev rB1 : Rect S8x225 := Rect.unit (s := S8x225) ![1, 0] S1x225.size inb_S8x225_S1x225_1_0
abbrev rB2 : Rect S8x225 := Rect.unit (s := S8x225) ![2, 0] S1x225.size inb_S8x225_S1x225_2_0
abbrev rB3 : Rect S8x225 := Rect.unit (s := S8x225) ![3, 0] S1x225.size inb_S8x225_S1x225_3_0
abbrev rB4 : Rect S8x225 := Rect.unit (s := S8x225) ![4, 0] S1x225.size inb_S8x225_S1x225_4_0
abbrev rB5 : Rect S8x225 := Rect.unit (s := S8x225) ![5, 0] S1x225.size inb_S8x225_S1x225_5_0
abbrev rB6 : Rect S8x225 := Rect.unit (s := S8x225) ![6, 0] S1x225.size inb_S8x225_S1x225_6_0
abbrev rB7 : Rect S8x225 := Rect.unit (s := S8x225) ![7, 0] S1x225.size inb_S8x225_S1x225_7_0
/-- the whole 8 × 512 output block -/
abbrev rOut : Rect S8x512 := Rect.unit (s := S8x512) ![0, 0] S8x512.size inb_S8x512_S8x512_0_0

/-- The monomial matrix of the pixel block (512 × 8). -/
def monomials (x0 : Vec F S512x2 .f32) : FVec F S512x8 .f32 := k0_pay1 (View.ld x0 rP0) (View.ld x0 rP1)

/-- The value the body stores into the output block, from the pixel block x0, the coefficient block x1 and the
    brightness block x2. -/
def bodyVal (x0 : Vec F S512x2 .f32) (x1 : Vec F S8x8x225 .f32) (x2 : Vec F S8x225 .f32) : FVec F S8x512 .f32 :=
  k0_pay7 (monomials x0)
    (k0_pay2 (View.ld x0 rP0) (View.ld x0 rP1) (View.ld x1 rG0) (View.ld x2 rB0))
    (k0_pay3 (View.ld x0 rP0) (View.ld x0 rP1) (View.ld x1 rG1) (View.ld x2 rB1))
    (k0_pay4 (monomials x0) (View.ld x1 rG2) (View.ld x2 rB2))
    (k0_pay5 (monomials x0) (View.ld x1 rG3) (View.ld x2 rB3))
    (k0_pay6 (monomials x0) (View.ld x1 rG4) (View.ld x2 rB4))
    (View.ld x1 rG5) (View.ld x2 rB5) (View.ld x1 rG6) (View.ld x2 rB6) (View.ld x1 rG7) (View.ld x2 rB7)

/-- The output block's staging buffer after the body: its one whole-block store. -/
def out0_3 (x0 : Vec F S512x2 .f32) (x1 : Vec F S8x8x225 .f32) (x2 : Vec F S8x225 .f32) : Vec F S8x512 .f32 :=
  View.canon [⟨rOut, bodyVal x0 x1 x2⟩]

end Cert.Kernel.HBody

end
-- ==== Proof.FrameBitsBody.lean ====
/-
  The frame of the kernel program, body side: the kernel body's triple. On whole staging memrefs — the three inputs' at
  read contents, the output's at anything — the body runs to its continuation with the inputs' as they were and the
  output's holding its one whole-block store over the input blocks.
-/
import proofs.«134758_j41807211659417_2_alg».proof.Proof.BodyDefBits
import proofs.«134758_j41807211659417_2_alg».proof.Proof.Gen.Kernel.Launch
import proofs.«134758_j41807211659417_2_alg».proof.Proof.Gen.Kernel.Skeleton
import proofs.«134758_j41807211659417_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of the output block's extents: the elaborator recurses once per coordinate of the long axis
set_option maxRecDepth 16384

noncomputable section

namespace Cert.Kernel.HFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.HBody

variable {F : FTy → Type} [FloatOps F]

local notation "𝕄" => MT nD τ sig Unit (Elt F) ℕ (UR sig nD τ) ℕ

/-- The body's one store is of the whole output block, so it covers the buffer. -/
theorem cover0_3 (p0 : Vec F S8x512 .f32) (y : S8x512.Idx) :
    ∃ pc ∈ ([⟨rOut, p0⟩] : List (View.Piece (Elt F) S8x512 .f32)), y ∈ pc.1.set :=
  View.cover_of_tiled [⟨rOut, p0⟩] S8x512.size (by rfl) y

set_option maxHeartbeats 1000000 in
/-- The kernel body on whole staging memrefs, the inputs' at read contents `x0`, `x1`, `x2` and the output's at
    anything, runs to the continuation holding the inputs' as they were and the output's at `out0_3 x0 x1 x2`: the
    printed functions are their skeletons, run through the three part calls; the load of the output buffer reads a
    value nothing uses; the last operation stores the whole block. -/
theorem sound_kernel (c : Dev nD) (E : Set ℕ) (i : grid0.Coords)
    (arg1 : Memref sig .tc .vmem S512x2 .f32) (harg1 : arg1.IsWhole)
    (arg2 : Memref sig .tc .vmem S8x8x225 .f32) (harg2 : arg2.IsWhole)
    (arg3 : Memref sig .tc .vmem S8x225 .f32) (harg3 : arg3.IsWhole)
    (arg4 : Memref sig .tc .vmem S8x512 .f32) (harg4 : arg4.IsWhole)
    (x0 : Vec F S512x2 .f32) (x1 : Vec F S8x8x225 .f32) (x2 : Vec F S8x225 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__percept_kernel i arg1 harg1 arg2 harg2 arg3 harg3 arg4 harg4) K := by
  simp only [cc0__percept_kernel_eq_skeleton]; unfold cc0__percept_kernel_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _)

end Cert.Kernel.HFrame

end
-- ==== Proof.FrameBits.lean ====
/-
  The frame of the kernel program: the pipeline's proof data (the windows' arrays as the region finds them; after the
  body at a grid point each input's staging buffer at its block and the output's at the body's store over the input
  blocks), the body obligation at every point, the run of @main to the pipeline's frame post, and the frame claim —
  @main terminates and leaves its six argument arrays as launched — at any float instance.
-/
import proofs.«134758_j41807211659417_2_alg».proof.Proof.FrameBitsHost
import proofs.«134758_j41807211659417_2_alg».proof.Proof.FrameBitsBody

set_option maxRecDepth 16384

noncomputable section

namespace Cert.Kernel.HFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.HBody

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`: the arrays as the region finds them (`V`); after the body at point
    `t` each input's buffer at its block and the output's at `out0_3` of the three input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

/-- The proof data's arrays are the region-entry contents: the definition projected, so that `V` — a fold over the
    sixteen stretches — is never unfolded to check it. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the body's triple applies; the invariant and the
    core's owed transfers pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the frame run's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the library computes from the
    proof data and every other unscoped buffer as the two stretches after the region leave it. -/
theorem run_main : θ_run defs (onTc (τ := τ) (main (F := F))) (s₀ m ρ) (Pipeline.FramePost cfgs (dats m) 0 (Pipeline.afterTail₀ cfgs (dats m) 0 (V0 m) [hostOps1, hostOps1_1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m) (hΦ := fun _ _ => rfl)

/-- info: 'Cert.Kernel.HFrame.run_main' depends on axioms: [propext, Classical.choice, Quot.sound] -/
#guard_msgs in #print axioms run_main

/-- The frame claim's statement at any float instance: @main runs, and its six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (run_main m ρ)

end Cert.Kernel.HFrame

end
-- ==== Proof.BodyMono.lean ====
/-
  The monomial matrix of the pixel block, read at an index.

  Row q of the 512 × 8 matrix is [px², py², px·py, px, py, 1, 0, 0] for the pixel (px, py) of row q: the matrix is
  eight 512 × 1 columns joined along axis 1, and a join of unit-width columns reads, at (q, k), column k at (q, 0).
-/
import proofs.«134758_j41807211659417_2_alg».proof.Proof.Gen.KernelIdeal.Skeleton
import Idealize.ShloMosaic.Lib.ValueLayout
import Idealize.ShloMosaic.PureOps.Ideal.Laws

noncomputable section

namespace Cert.Percept.Body

open Idealize.ShloMosaic Idealize.ShloMosaic.ValueIdx Cert.KernelIdeal Cert.KernelIdeal.Gen
open scoped BigOperators

/-- The monomial row of a pixel with coordinates px, py: the eight columns of the monomial matrix. -/
def mono (px py : EReal) : Fin 8 → EReal := ![px * px, py * py, px * py, px, py, 1, 0, 0]

/-- The f32 word of 1.0 is the extended real 1. -/
theorem one_f32 : Ideal.ofBits .f32 0x3F800000#32 = 1 := by
  simp [Ideal.ofBits, Ideal.ieee, -EReal.coe_mul]; norm_num

/-- Eight columns joined along axis 1 read, at (q, k), column k at (q, 0). -/
theorem concat8_col_apply {α : Type} (p0 p1 p2 p3 p4 p5 p6 p7 : S512x1.Idx → α)
    (h : Shape.Concatenates [S512x1, S512x1, S512x1, S512x1, S512x1, S512x1, S512x1, S512x1] S512x8 1)
    (q : Fin 512) (k : Fin 8) :
    concatenate S512x8 1 [⟨S512x1, p0⟩, ⟨S512x1, p1⟩, ⟨S512x1, p2⟩, ⟨S512x1, p3⟩, ⟨S512x1, p4⟩, ⟨S512x1, p5⟩, ⟨S512x1, p6⟩, ⟨S512x1, p7⟩] h (ix2 q k)
      = (![p0, p1, p2, p3, p4, p5, p6, p7] k) (ix2 q (0 : Fin 1)) :=
  concatenate_ofFn_unit_apply (t := S512x8) (s₁ := S512x1) (1 : Fin 2) ![p0, p1, p2, p3, p4, p5, p6, p7] h rfl rfl (ix2 q k) k rfl
    (ix2 q (0 : Fin 1)) (fun b hb => match b, hb with | ⟨0, _⟩, _ => rfl | ⟨1, _⟩, hb => absurd rfl hb)

/-- The monomial matrix at (q, k): monomial k of the pixel whose coordinates the two columns hold at row q. -/
theorem monoRow_apply (v0 v2 : Vec Ideal S512x1 .f32) (q : Fin 512) (k : Fin 8) :
    k0_pay1 (F := Ideal) v0 v2 (ix2 q k) = mono (v0 (ix2 q (0 : Fin 1))) (v2 (ix2 q (0 : Fin 1))) k := by
  unfold k0_pay1
  rw [shapeCast_self v0, shapeCast_self v2]
  refine (concat8_col_apply _ _ _ _ _ _ _ _ _ q k).trans ?_
  fin_cases k
  · rfl
  · rfl
  · rfl
  · rfl
  · rfl
  · exact one_f32
  · exact Ideal.ofBits_zero_f32
  · exact Ideal.ofBits_zero_f32

end Cert.Percept.Body

end
-- ==== Proof.BodyColumn.lean ====
/-
  One batch row's column of the kernel's result, read at a pixel.

  From the monomial matrix F9 (512 × 8), the batch row's coefficient slab g (1 × 8 × 225) and its brightness row br
  (1 × 225), the body forms exp(−½ · (F9 · g)) ⊙ br and sums it over the 225 lanes. Read at pixel q this is
  ∑ₑ exp(−½ · ∑ₖ F9[q,k] · g[0,k,e]) · br[0,e]: the matrix product into the zero accumulator is the sum over its one
  contracted axis, the lane reduction the sum over the lanes, and the layout operations read one operand index each.
-/
import proofs.«134758_j41807211659417_2_alg».proof.Proof.Gen.KernelIdeal.Skeleton
import Idealize.ShloMosaic.Lib.ValueLayout
import Idealize.ShloMosaic.PureOps.Ideal.Laws

noncomputable section

namespace Cert.Percept.Body

open Idealize.ShloMosaic Idealize.ShloMosaic.ValueIdx Cert.KernelIdeal Cert.KernelIdeal.Gen
open scoped BigOperators

/-- A vector of length a viewed as a column [a, 1] reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The product of the monomial matrix with one batch row's coefficient slab, read at (q, e):
    the sum over the eight monomials. -/
theorem matmul_apply_ix (A : FVec Ideal S512x8 .f32) (B : FVec Ideal S8x225 .f32) (q : Fin 512) (e : Fin 225) :
    matmul dot_S512x8_S8x225_S512x225_1_0_0_1_n_n (some .fp32) A B (constant (F := Ideal) S512x225 .f32 0x00000000#32) (ix2 q e)
      = ∑ k : Fin 8, A (ix2 q k) * B (ix2 k e) := by
  show FloatOps.matmul dot_S512x8_S8x225_S512x225_1_0_0_1_n_n (some .fp32) A B (constant (F := Ideal) S512x225 .f32 0x00000000#32) (ix2 q e) = _
  rw [Ideal.matmul_constant_zero_apply,
    ← Equiv.sum_comp (contrEquiv1 dot_S512x8_S8x225_S512x225_1_0_0_1_n_n 8 rfl rfl).symm]
  refine Finset.sum_congr rfl fun c _ => ?_
  have c2 := contrEquiv1_symm_val dot_S512x8_S8x225_S512x225_1_0_0_1_n_n 8 rfl rfl c
  have l2 : dot_S512x8_S8x225_S512x225_1_0_0_1_n_n.lhsIdx (ix2 q e)
      ((contrEquiv1 dot_S512x8_S8x225_S512x225_1_0_0_1_n_n 8 rfl rfl).symm c) = ix2 q c := by
    funext ax; apply Fin.ext
    match ax with
    | ⟨0, _⟩ => simp [DotDims.lhsIdx, dot_S512x8_S8x225_S512x225_1_0_0_1_n_n]; rfl
    | ⟨1, _⟩ => simp [DotDims.lhsIdx, dot_S512x8_S8x225_S512x225_1_0_0_1_n_n]; exact c2
  have r2 : dot_S512x8_S8x225_S512x225_1_0_0_1_n_n.rhsIdx (ix2 q e)
      ((contrEquiv1 dot_S512x8_S8x225_S512x225_1_0_0_1_n_n 8 rfl rfl).symm c) = ix2 c e := by
    funext ax; apply Fin.ext
    match ax with
    | ⟨0, _⟩ => simp [DotDims.rhsIdx, dot_S512x8_S8x225_S512x225_1_0_0_1_n_n]; exact c2
    | ⟨1, _⟩ => simp [DotDims.rhsIdx, dot_S512x8_S8x225_S512x225_1_0_0_1_n_n]; rfl
  rw [l2, r2]

/-- Inserting the lane coordinate e into the row index q gives (q, e). -/
theorem lift_ix (h : S512x225.Reduces [1] S512) (q : Fin 512) (e : Fin 225) : h.lift (ix1 q) e = ix2 q e := by
  funext ax; apply Fin.ext
  match ax with
  | ⟨0, _⟩ => rfl
  | ⟨1, _⟩ => rfl

/-- One batch row's column of the result: at pixel q, the sum over the 225 electrodes of the exponential of
    minus one half times the quadratic form, weighted by the brightness. -/
theorem column_apply (F9 : FVec Ideal S512x8 .f32) (g : Vec Ideal S1x8x225 .f32) (br : Vec Ideal S1x225 .f32) (q : Fin 512) :
    k0_pay4 (F := Ideal) F9 g br (ix2 q (0 : Fin 1))
      = ∑ e : Fin 225, Ideal.exp (Ideal.ofBits .f32 0xBF000000#32 * ∑ k : Fin 8, F9 (ix2 q k) * g (ix3 (0 : Fin 1) k e))
          * br (ix2 (0 : Fin 1) e) := by
  unfold k0_pay4
  refine (shapeCast_a_a1_apply _ _ q 0).trans ?_
  refine (Ideal.multiReduction_add_single _ _ _ _ _ (ix1 q)).trans ?_
  refine Finset.sum_congr rfl fun e _ => ?_
  rw [lift_ix _ q e]
  refine (mulf_apply _ _ _).trans ?_
  refine congrArg₂ (fun a b : EReal => a * b) ?_ ?_
  · refine congrArg Ideal.exp ?_
    refine congrArg (fun t : EReal => Ideal.ofBits .f32 0xBF000000#32 * t) ?_
    refine (matmul_apply_ix _ _ q e).trans ?_
    refine Finset.sum_congr rfl fun k _ => ?_
    refine congrArg (fun t : EReal => F9 (ix2 q k) * t) ?_
    exact shapeCast_1ab_ab_apply g _ k e
  · refine (broadcastTo_1b_ab_apply _ _ q e).trans ?_
    exact congrFun (shapeCast_self br _) (ix2 (0 : Fin 1) e)

end Cert.Percept.Body

end
-- ==== Proof.BodyValue.lean ====
/-
  The value the kernel body stores, read at an index (b, q) of the 8 × 512 output block.

  The stored block is the transpose of eight 512 × 1 columns joined along axis 1, one per batch row b; column b is the
  lane sum, over the 225 electrodes e, of exp(−½ · t(q, b, e)) · bright[b, e], where t(q, b, e) = ∑ₖ mono(q)ₖ · G[b, k, e]
  is the product of the pixel's monomial row [px², py², px·py, px, py, 1, 0, 0] with batch row b's coefficient slab.
  Each load reads its block where its rectangle says: offset plus coordinate on every axis.
-/
import proofs.«134758_j41807211659417_2_alg».proof.Proof.BodyDefIdeal
import proofs.«134758_j41807211659417_2_alg».proof.Proof.BodyMono
import proofs.«134758_j41807211659417_2_alg».proof.Proof.BodyColumn

noncomputable section

namespace Cert.Percept.Body

open Idealize.ShloMosaic Idealize.ShloMosaic.ValueIdx Cert.KernelIdeal Cert.KernelIdeal.Gen
open scoped BigOperators

/-- A load of column 0 of the pixel block reads, at (q, 0), the block at (q, 0). -/
theorem ld_px (x0 : Vec Ideal S512x2 .f32) (o : ℕ) (c : Fin 2) (hc : c.val = o)
    (inb : ∀ a, (![0, o] : Fin 2 → ℕ) a + S512x1.size a ≤ S512x2.size a) (q : Fin 512) :
    View.ld x0 (Rect.unit (s := S512x2) ![0, o] S512x1.size inb) (ix2 q (0 : Fin 1)) = x0 (ix2 q c) := by
  refine congrArg x0 (funext fun a => Fin.ext ?_)
  match a with
  | ⟨0, _⟩ => show 0 + 1 * q.val = q.val; omega
  | ⟨1, _⟩ => show o + 1 * 0 = c.val; omega

/-- A load of batch row b of the coefficient block reads, at (0, k, e), the block at (b, k, e). -/
theorem ld_G (x1 : Vec Ideal S8x8x225 .f32) (o : ℕ) (b : Fin 8) (hb : b.val = o)
    (inb : ∀ a, (![o, 0, 0] : Fin 3 → ℕ) a + S1x8x225.size a ≤ S8x8x225.size a) (k : Fin 8) (e : Fin 225) :
    View.ld x1 (Rect.unit (s := S8x8x225) ![o, 0, 0] S1x8x225.size inb) (ix3 (0 : Fin 1) k e) = x1 (ix3 b k e) := by
  refine congrArg x1 (funext fun a => Fin.ext ?_)
  match a with
  | ⟨0, _⟩ => show o + 1 * 0 = b.val; omega
  | ⟨1, _⟩ => show 0 + 1 * k.val = k.val; omega
  | ⟨2, _⟩ => show 0 + 1 * e.val = e.val; omega

/-- A load of batch row b of the brightness block reads, at (0, e), the block at (b, e). -/
theorem ld_B (x2 : Vec Ideal S8x225 .f32) (o : ℕ) (b : Fin 8) (hb : b.val = o)
    (inb : ∀ a, (![o, 0] : Fin 2 → ℕ) a + S1x225.size a ≤ S8x225.size a) (e : Fin 225) :
    View.ld x2 (Rect.unit (s := S8x225) ![o, 0] S1x225.size inb) (ix2 (0 : Fin 1) e) = x2 (ix2 b e) := by
  refine congrArg x2 (funext fun a => Fin.ext ?_)
  match a with
  | ⟨0, _⟩ => show o + 1 * 0 = b.val; omega
  | ⟨1, _⟩ => show 0 + 1 * e.val = e.val; omega

/-- One batch row's column at pixel q, with the loads read through: the monomials of the pixel block's row q against
    batch row b of the coefficient block, weighted by batch row b of the brightness block. -/
theorem piece_apply (x0 : Vec Ideal S512x2 .f32) (x1 : Vec Ideal S8x8x225 .f32) (x2 : Vec Ideal S8x225 .f32)
    (o : ℕ) (b : Fin 8) (hb : b.val = o)
    (inbG : ∀ a, (![o, 0, 0] : Fin 3 → ℕ) a + S1x8x225.size a ≤ S8x8x225.size a)
    (inbB : ∀ a, (![o, 0] : Fin 2 → ℕ) a + S1x225.size a ≤ S8x225.size a) (q : Fin 512) :
    k0_pay4 (F := Ideal) (k0_pay1 (View.ld x0 HBody.rP0) (View.ld x0 HBody.rP1))
        (View.ld x1 (Rect.unit (s := S8x8x225) ![o, 0, 0] S1x8x225.size inbG))
        (View.ld x2 (Rect.unit (s := S8x225) ![o, 0] S1x225.size inbB)) (ix2 q (0 : Fin 1))
      = ∑ e : Fin 225, Ideal.exp (Ideal.ofBits .f32 0xBF000000#32
            * ∑ k : Fin 8, mono (x0 (ix2 q (0 : Fin 2))) (x0 (ix2 q (1 : Fin 2))) k * x1 (ix3 b k e)) * x2 (ix2 b e) := by
  refine (column_apply _ _ _ q).trans ?_
  refine Finset.sum_congr rfl fun e _ => ?_
  rw [ld_B x2 o b hb inbB e]
  refine congrArg (fun t : EReal => Ideal.exp (Ideal.ofBits .f32 0xBF000000#32 * t) * x2 (ix2 b e)) ?_
  refine Finset.sum_congr rfl fun k _ => ?_
  rw [ld_G x1 o b hb inbG k e, monoRow_apply, ld_px x0 0 0 rfl, ld_px x0 1 1 rfl]

/-- THE BODY'S STORED VALUE AT (b, q): the sum over the 225 electrodes of the exponential of minus one half times the
    quadratic form of pixel q against batch row b's coefficients, weighted by batch row b's brightness. -/
theorem bodyVal_apply (x0 : Vec Ideal S512x2 .f32) (x1 : Vec Ideal S8x8x225 .f32) (x2 : Vec Ideal S8x225 .f32)
    (b : Fin 8) (q : Fin 512) :
    Cert.KernelIdeal.HBody.bodyVal (F := Ideal) x0 x1 x2 (ix2 b q)
      = ∑ e : Fin 225, Ideal.exp (Ideal.ofBits .f32 0xBF000000#32
            * ∑ k : Fin 8, mono (x0 (ix2 q (0 : Fin 2))) (x0 (ix2 q (1 : Fin 2))) k * x1 (ix3 b k e)) * x2 (ix2 b e) := by
  unfold HBody.bodyVal HBody.monomials k0_pay7
  refine (transpose_ix2_apply _ _ b q).trans ?_
  refine (concat8_col_apply _ _ _ _ _ _ _ _ _ q b).trans ?_
  fin_cases b
  · exact piece_apply x0 x1 x2 0 0 rfl _ _ q
  · exact piece_apply x0 x1 x2 1 1 rfl _ _ q
  · exact piece_apply x0 x1 x2 2 2 rfl _ _ q
  · exact piece_apply x0 x1 x2 3 3 rfl _ _ q
  · exact piece_apply x0 x1 x2 4 4 rfl _ _ q
  · exact piece_apply x0 x1 x2 5 5 rfl _ _ q
  · exact piece_apply x0 x1 x2 6 6 rfl _ _ q
  · exact piece_apply x0 x1 x2 7 7 rfl _ _ q

end Cert.Percept.Body

end
-- ==== Proof.KValue.lean ====
/-
  The kernel's result as one function of the arrays its region is handed.

  At grid point t the body is given rows 512·t … 512·t + 511 of the padded pixel grid and the whole coefficient and
  brightness arrays, and writes back columns 512·t … 512·t + 511 of the [8,14848] output. Entry (b, q) of what it writes is the
  sum over the electrodes of exp(−½ · ⟨monomials of pixel 512·t + q, coefficients of (b, e)⟩) · brightness (b, e): so the 29
  blocks are the restrictions of ONE function of the three arrays, the blocks tile the output, and after the run the
  output array is that function. The two host stretches after the region slice off the padding, reshape and flip.
-/
import proofs.«134758_j41807211659417_2_alg».proof.Proof.FrameIdeal
import proofs.«134758_j41807211659417_2_alg».proof.Proof.BodyValue
import Idealize.ShloMosaic.Lib.Pipeline.Value
import Idealize.ShloMosaic.Lib.StableHlo.Run

set_option maxRecDepth 16384

noncomputable section

namespace Cert.Percept.KVal

open Cert.KernelIdeal Cert.KernelIdeal.Gen Cert.KernelIdeal.HFrame Cert.KernelIdeal.HBody
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Entry (b, P) of the output from the three input arrays: P a row of the padded pixel grid. -/
def outAt (A0 : S14848x2.Idx → Elt Ideal .f32) (A1 : S8x8x225.Idx → Elt Ideal .f32) (A2 : S8x225.Idx → Elt Ideal .f32)
    (b : Fin 8) (P : Fin 14848) : Elt Ideal .f32 :=
  ∑ e : Fin 225, Ideal.exp (Ideal.ofBits .f32 0xBF000000#32 *
      ∑ k : Fin 8, Cert.Percept.Body.mono (A0 (ix2 P (0 : Fin 2))) (A0 (ix2 P (1 : Fin 2))) k * A1 (ix3 b k e)) * A2 (ix2 b e)

/-- The whole output array. -/
def outArr (A0 : S14848x2.Idx → Elt Ideal .f32) (A1 : S8x8x225.Idx → Elt Ideal .f32) (A2 : S8x225.Idx → Elt Ideal .f32) :
    S8x14848.Idx → Elt Ideal .f32 :=
  fun i => outAt A0 A1 A2 ⟨(i 0).val, idx2_lt0 i⟩ ⟨(i 1).val, idx2_lt1 i⟩

theorem hz : (![0, 0] : Fin 2 → Nat) = fun _ => 0 := funext fun a => by fin_cases a <;> rfl

/-- The printed index maps over the grid: the pixel window and the output window move with the point, the other two stay. -/
theorem idx_facts : ∀ t : Fin cfg0.N, win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = t.val :=
  (by decide +kernel : ∀ t : Fin grid0.N, _)

/-- The pixel window's block at point t is rows 512·t … of the padded pixel grid. -/
theorem iblk0_apply (c : Dev nD) (t : Fin cfg0.N) (q : Fin 512) (j : Fin 2) (P : Fin 14848) (hP : P.val = t.val * 512 + q.val) :
    (iblk m c 0 t : Vec Ideal S512x2 .f32) (ix2 q j) = (V m c main_v249 : S14848x2.Idx → Elt Ideal .f32) (ix2 P j) := by
  obtain ⟨e0, e1, -⟩ := idx_facts t
  unfold iblk
  rw [View.read_apply]
  show V m c main_v249 _ = V m c main_v249 _
  refine congrArg _ (funext fun a => Fin.ext ?_)
  match a with
  | ⟨0, _⟩ => show win0_0.index t 0 * 512 + 1 * q.val = P.val; rw [e0, hP]; omega
  | ⟨1, _⟩ => show win0_0.index t 1 * 2 + 1 * j.val = j.val; rw [e1]; omega

/-- The coefficient window's block is the whole coefficient array. -/
theorem iblk1_apply (c : Dev nD) (t : Fin cfg0.N) (b k : Fin 8) (e : Fin 225) :
    (iblk m c 1 t : Vec Ideal S8x8x225 .f32) (ix3 b k e) = (V m c main_v248 : S8x8x225.Idx → Elt Ideal .f32) (ix3 b k e) := by
  obtain ⟨-, -, e2, e3, e4, -⟩ := idx_facts t
  unfold iblk
  rw [View.read_apply]
  show V m c main_v248 _ = V m c main_v248 _
  refine congrArg _ (funext fun a => Fin.ext ?_)
  match a with
  | ⟨0, _⟩ => show win0_1.index t 0 * 8 + 1 * b.val = b.val; rw [e2]; omega
  | ⟨1, _⟩ => show win0_1.index t 1 * 8 + 1 * k.val = k.val; rw [e3]; omega
  | ⟨2, _⟩ => show win0_1.index t 2 * 225 + 1 * e.val = e.val; rw [e4]; omega

/-- The brightness window's block is the whole brightness array. -/
theorem iblk2_apply (c : Dev nD) (t : Fin cfg0.N) (b : Fin 8) (e : Fin 225) :
    (iblk m c 2 t : Vec Ideal S8x225 .f32) (ix2 b e) = (V m c main_v166 : S8x225.Idx → Elt Ideal .f32) (ix2 b e) := by
  obtain ⟨-, -, -, -, -, e5, e6, -⟩ := idx_facts t
  unfold iblk
  rw [View.read_apply]
  show V m c main_v166 _ = V m c main_v166 _
  refine congrArg _ (funext fun a => Fin.ext ?_)
  match a with
  | ⟨0, _⟩ => show win0_2.index t 0 * 8 + 1 * b.val = b.val; rw [e5]; omega
  | ⟨1, _⟩ => show win0_2.index t 1 * 225 + 1 * e.val = e.val; rw [e6]; omega

/-- What the body stores at point t, entry (b, q): the output function at (b, 512·t + q). -/
theorem stored_at (c : Dev nD) (t : Fin cfg0.N) (b : Fin 8) (q : Fin 512) (P : Fin 14848) (hP : P.val = t.val * 512 + q.val) :
    bodyVal (F := Ideal) (iblk m c 0 t) (iblk m c 1 t) (iblk m c 2 t) (ix2 b q)
      = outAt (V m c main_v249) (V m c main_v248) (V m c main_v166) b P := by
  rw [Cert.Percept.Body.bodyVal_apply]
  unfold outAt
  refine Finset.sum_congr rfl fun e _ => ?_
  rw [iblk0_apply m c t q 0 P hP, iblk0_apply m c t q 1 P hP, iblk2_apply m c t b e]
  refine congrArg (fun z => Ideal.exp (Ideal.ofBits .f32 0xBF000000#32 * z) * _) (Finset.sum_congr rfl fun k _ => ?_)
  rw [iblk1_apply m c t b k e]

/-- WHAT POINT t WRITES BACK is block t of the output function of the arrays as the region finds them. -/
theorem flushed3_eq (c : Dev nD) (t : Fin cfg0.N) :
    (dats m 0 c).flushed 3 t
      = ((cfg0.win 3).blk t).view.read (Elt Ideal) (outArr (V m c main_v249) (V m c main_v248) (V m c main_v166)) := by
  show (cfg0.win 3).cut (grid0.coords t) ((dats m 0 c).after 3 t) = _
  rw [after0_3]
  unfold out0_3
  rw [View.canon_unit_zero hz]
  obtain ⟨-, -, -, -, -, -, -, e7, e8⟩ := idx_facts t
  funext j
  obtain ⟨b, q, rfl⟩ : ∃ (b : Fin 8) (q : Fin 512), j = ix2 b q := ⟨j 0, j 1, eq_ix2 j⟩
  rw [View.read_apply]
  have hb : (((cfg0.win 3).blk t).view.emb (ix2 b q) 0).val = b.val := by
    show win0_3.index t 0 * 8 + 1 * b.val = b.val; rw [e7]; omega
  have hq : (((cfg0.win 3).blk t).view.emb (ix2 b q) 1).val = t.val * 512 + q.val := by
    show win0_3.index t 1 * 512 + 1 * q.val = _; rw [e8]; omega
  show bodyVal (F := Ideal) (iblk m c 0 t) (iblk m c 1 t) (iblk m c 2 t) (ix2 b q) = outAt _ _ _ ⟨_, _⟩ ⟨_, _⟩
  rw [stored_at m c t b q ⟨(((cfg0.win 3).blk t).view.emb (ix2 b q) 1).val, idx2_lt1 _⟩ hq]
  exact congrArg (fun z => outAt _ _ _ z _) (Fin.ext hb.symm)

/-- An index of the output array is in point t's block iff each coordinate is in the block's range on its axis. -/
theorem mem_blk3 (t : Fin cfg0.N) (i : S8x14848.Idx) :
    i ∈ ((cfg0.win 3).blk t).view.set ↔ ∀ a : Fin 2, win0_3.index t a * S8x512.size a ≤ (i a).val ∧ (i a).val < win0_3.index t a * S8x512.size a + S8x512.size a := by
  show i ∈ ((View.whole main_v250).slice (win0_3.rect t)).set ↔ _
  rw [View.set_slice_whole, Rect.mem_set_unit]
  exact Iff.rfl

/-- The 29 blocks tile the output array: column j lies in block j / 512. -/
theorem cover3 (i : S8x14848.Idx) : ∃ t : Fin cfg0.N, (cfg0.win 3).flush t = true ∧ i ∈ ((cfg0.win 3).blk t).view.set := by
  have hN : cfg0.N = 29 := N_0
  have h0 : (i 0).val < 8 := idx2_lt0 i
  have h1 : (i 1).val < 14848 := idx2_lt1 i
  refine ⟨⟨(i 1).val / 512, by rw [hN]; omega⟩, flush0_3 _, ?_⟩
  obtain ⟨-, -, -, -, -, -, -, e7, e8⟩ := idx_facts ⟨(i 1).val / 512, by rw [hN]; omega⟩
  rw [mem_blk3]
  intro a
  match a with
  | ⟨0, _⟩ => show win0_3.index _ 0 * 8 ≤ (i 0).val ∧ (i 0).val < win0_3.index _ 0 * 8 + 8; rw [e7]; omega
  | ⟨1, _⟩ => show win0_3.index _ 1 * 512 ≤ (i 1).val ∧ (i 1).val < win0_3.index _ 1 * 512 + 512; rw [e8]; show (i 1).val / 512 * 512 ≤ (i 1).val ∧ (i 1).val < (i 1).val / 512 * 512 + 512; omega

/-- THE OUTPUT ARRAY after the run. -/
theorem final3 (c : Dev nD) :
    (dats m 0 c).arrAt 3 cfg0.N = outArr (V m c main_v249) (V m c main_v248) (V m c main_v166) :=
  (dats m 0 c).arrAt_eq_of_cover 3 _ (fun t _ => flushed3_eq m c t) cover3

end Cert.Percept.KVal

end
-- ==== Proof.KTail.lean ====
/-
  The kernel program's result: after the region the host slices the 14641 real columns out of the padded output,
  reshapes them to 121 × 121 and flips the rows.
-/
import proofs.«134758_j41807211659417_2_alg».proof.Proof.KValue

set_option maxRecDepth 16384

noncomputable section

namespace Cert.Percept.KVal

open Cert.KernelIdeal Cert.KernelIdeal.Gen Cert.KernelIdeal.HFrame
open Idealize.ShloMosaic Idealize.ShloMosaic.TcCoe Idealize.SL.Sem Idealize.ShloMosaic.StableHlo

variable (m : (ℓ : Loc nD τ sig) → Buf (Elt Ideal) ℓ)

/-- The two host stretches after the region, as one function of the output array. -/
def tail (X : S8x14641.Idx → Elt Ideal .f32) : S8x121x121.Idx → Elt Ideal .f32 :=
  Host.reverse [1] (shapeCast S8x121x121 X shapeCasts_S8x14641_S8x121x121)

/-- The result buffer after the whole program. -/
theorem result_eq (c : Dev nD) :
    Pipeline.afterTail₀ cfgs (dats m) 0 (V0 m) [hostOps1, hostOps1_1] c main_v253
      = tail (extractStridedSlice S8x14641 ![0, 0] (outArr (V m c main_v249) (V m c main_v248) (V m c main_v166)) slices_S8x14848_S8x14641_0_0) := by
  unfold Pipeline.afterTail₀
  show StableHlo.after (List.flatten [hostOps1, hostOps1_1]) _ (Proc.devRef .tc main_v253) = _
  simp only [hostOps1, hostOps1_1, List.flatten_cons, List.flatten_nil, List.append_nil, List.cons_append, List.nil_append]
  after_results
  rw [Pipeline.withArrays_arr spec0 launch0.win.arr_inj c _ _ 3, final3]
  rfl

end Cert.Percept.KVal

end
-- ==== Proof.HostKDef.lean ====
/-
  The three arrays the kernel's region is handed, as functions of the program's arguments.

  Before the region the host code computes, exactly as the reference does, the per-(batch, electrode) arrays
  inv00, inv01, inv11 (the inverse covariance), cx, cy (the electrode centres in pixel coordinates) and the brightness;
  then — the kernel's own part — the eight coefficient rows [inv00, inv11, 2·inv01, −2·cx·inv00 − 2·inv01·cy,
  −2·cy·inv11 − 2·inv01·cx, inv00·cx² + 2·inv01·cx·cy + inv11·cy², 0, 0], each laid as an [8,1,225] slab and joined
  along the middle axis into the coefficient array [8,8,225]; and the pixel grid padded by 207 zero rows to 14848 rows.
  This module holds the definitions; the equations with the program's buffers are in the next one.
-/
import proofs.«134758_j41807211659417_2_alg».proof.Proof.Gen.KernelIdeal.Launch
import Idealize.ShloMosaic.Lib.StableHlo.Run

set_option maxRecDepth 16384

noncomputable section

namespace Cert.Percept.HostK

open Cert.KernelIdeal Cert.KernelIdeal.Gen Idealize.ShloMosaic Idealize.ShloMosaic.TcCoe Idealize.SL.Sem Idealize.ShloMosaic.StableHlo

section Nary
variable {nD : Nat} {τ : Topo} {sig : RefSig} {Val : EltTy → Type}
variable {x0 x1 x2 x3 x4 x5 x6 x7 y : Ref sig .tc}

/-- The result of a host operation of eight operands, each operand's contents at its own reference. -/
theorem nary8_result
    (f : ((k : Fin 8) → ((![x0, x1, x2, x3, x4, x5, x6, x7] : Fin 8 → Ref sig .tc) k).ty.Contents Val) → y.ty.Contents Val) (hxs hy)
    (F : Valuation τ sig Val) :
    (nary (τ := τ) ![x0, x1, x2, x3, x4, x5, x6, x7] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
          (Fin.cons (F (Proc.devRef .tc x6)) (Fin.cons (F (Proc.devRef .tc x7)) (fun i => i.elim0))))))))) := by
  rw [nary_result]; congr 1; funext k; fin_cases k <;> rfl

theorem nary8_result'
    (f : ((k : Fin 8) → ((![x0, x1, x2, x3, x4, x5, x6, x7] : Fin 8 → Ref sig .tc) k).ty.Contents Val) → y.ty.Contents Val) (hxs hy)
    (F : Valuation τ sig Val) :
    (nary (τ := τ) ![x0, x1, x2, x3, x4, x5, x6, x7] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
          (Fin.cons (F (Proc.devRef .tc x6)) (Fin.cons (F (Proc.devRef .tc x7)) (fun i => i.elim0))))))))) :=
  nary8_result f hxs hy F
end Nary

variable {F : FTy → Type} [FloatOps F]

/-- Every host operation before the region, in order. -/
abbrev preOps : List (HloOp τ sig (Elt F)) := List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]

/-- an [8,225] array laid as an [8,1,225] slab -/
abbrev slab (x : FVec F S8x225 .f32) : FVec F S8x1x225 .f32 := broadcastInDim S8x1x225 ![0, 2] bcast_S8x225_S8x1x225_0_2 x
/-- a float literal repeated over [8,225] -/
abbrev lit (w : BitVec 32) : FVec F S8x225 .f32 := broadcastInDim S8x225 ![] bcast_S_S8x225 (constant S_ .f32 w)

/-- The coefficient array from the inverse covariance entries and the centres. -/
def coefArr (a b c cx cy : FVec F S8x225 .f32) : FVec F S8x8x225 .f32 :=
  concatenate S8x8x225 1
    [⟨S8x1x225, slab a⟩, ⟨S8x1x225, slab c⟩, ⟨S8x1x225, slab (mulf (lit 0x40000000#32) b)⟩,
     ⟨S8x1x225, slab (subf (mulf (mulf (lit 0xC0000000#32) cx) a) (mulf (mulf (lit 0x40000000#32) b) cy))⟩,
     ⟨S8x1x225, slab (subf (mulf (mulf (lit 0xC0000000#32) cy) c) (mulf (mulf (lit 0x40000000#32) b) cx))⟩,
     ⟨S8x1x225, slab (addf (addf (mulf a (mulf cx cx)) (mulf (mulf (mulf (lit 0x40000000#32) b) cx) cy)) (mulf c (mulf cy cy)))⟩,
     ⟨S8x1x225, slab (lit 0x00000000#32)⟩, ⟨S8x1x225, slab (lit 0x00000000#32)⟩]
    concatenates_S8x1x225_S8x1x225_S8x1x225_S8x1x225_S8x1x225_S8x1x225_S8x1x225_S8x1x225_S8x8x225_d1

/-- The padded pixel grid. -/
def padPix (x5 : FVec F S14641x2 .f32) : FVec F S14848x2 .f32 :=
  pad S14848x2 ![0, 0] ![207, 0] ![0, 0] x5 (sitofp .f32 (constantI S_ 32 0#32)) pads_S14641x2_S14848x2_02070_000 h_S_

end Cert.Percept.HostK

end
-- ==== Proof.HostKChunks1.lean ====
/-
  The host operations before the region, cut into short runs, and how one buffer is read after them.

  The 338 operations are straight-line: each writes one buffer of its own. After a run of operations that does not
  write a buffer r, r holds what it held before (skip); after a run that does, r holds what the run's own operations
  leave (open), and those read their operands from the valuation before the run. The operations up to the inverse
  covariance and the centres are the reference's own, so each buffer they write that a later run reads holds, right
  after its run, the reference's stage of the same name applied to the argument arrays (st_…): one run is opened per
  buffer, and what it reads from earlier runs is already a stage.
  (Runs 1 to 6 of 38.)
-/
import proofs.«134758_j41807211659417_2_alg».proof.Proof.HostKDef
import proofs.«134758_j41807211659417_2_alg».proof.Proof.RefRead

set_option maxRecDepth 16384

noncomputable section

namespace Cert.Percept.HostK

open Cert.KernelIdeal Cert.KernelIdeal.Gen Idealize.ShloMosaic Idealize.ShloMosaic.TcCoe Idealize.SL.Sem Idealize.ShloMosaic.StableHlo

variable {F : FTy → Type} [FloatOps F]

/-- A reference of a list is, as a device buffer, in the list's set of device buffers. -/
theorem sub_of_mem {τ : Topo} {sig : RefSig} {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.2 (List.mem_toFinset.2 (List.mem_map_of_mem h))

set_option maxHeartbeats 4000000 in
abbrev L0_0 : List (HloOp τ sig (Elt F)) :=
  [ StableHlo.unary main_arg0 main_v0 ((extractStridedSlice S8x225x1 ![0, 0, 0] · slices_S8x225x3_S8x225x1_0_0_0) : (⟨S8x225x3, .f32⟩ : BufTy).Contents (Elt F) → (⟨S8x225x1, .f32⟩ : BufTy).Contents (Elt F)),
    StableHlo.reshape main_v0 main_v1 rfl shapeCasts_S8x225x1_S8x225,
    StableHlo.unary main_arg0 main_v2 ((extractStridedSlice S8x225x1 ![0, 0, 1] · slices_S8x225x3_S8x225x1_0_0_1) : (⟨S8x225x3, .f32⟩ : BufTy).Contents (Elt F) → (⟨S8x225x1, .f32⟩ : BufTy).Contents (Elt F)),
    StableHlo.reshape main_v2 main_v3 rfl shapeCasts_S8x225x1_S8x225,
    StableHlo.unary main_arg0 main_v4 ((extractStridedSlice S8x225x1 ![0, 0, 2] · slices_S8x225x3_S8x225x1_0_0_2) : (⟨S8x225x3, .f32⟩ : BufTy).Contents (Elt F) → (⟨S8x225x1, .f32⟩ : BufTy).Contents (Elt F)),
    StableHlo.reshape main_v4 main_v5 rfl shapeCasts_S8x225x1_S8x225,
    StableHlo.unary main_arg1 main_v6 ((extractStridedSlice S8x1 ![0, 0] · slices_S8x13_S8x1_0_0) : (⟨S8x13, .f32⟩ : BufTy).Contents (Elt F) → (⟨S8x1, .f32⟩ : BufTy).Contents (Elt F)),
    StableHlo.unary main_arg1 main_v7 ((extractStridedSlice S8x1 ![0, 1] · slices_S8x13_S8x1_0_1) : (⟨S8x13, .f32⟩ : BufTy).Contents (Elt F) → (⟨S8x1, .f32⟩ : BufTy).Contents (Elt F)),
    StableHlo.unary main_arg1 main_v8 ((extractStridedSlice S8x1 ![0, 2] · slices_S8x13_S8x1_0_2) : (⟨S8x13, .f32⟩ : BufTy).Contents (Elt F) → (⟨S8x1, .f32⟩ : BufTy).Contents (Elt F)),
    StableHlo.unary main_arg1 main_v9 ((extractStridedSlice S8x1 ![0, 3] · slices_S8x13_S8x1_0_3) : (⟨S8x13, .f32⟩ : BufTy).Contents (Elt F) → (⟨S8x1, .f32⟩ : BufTy).Contents (Elt F)),
    StableHlo.unary main_arg1 main_v10 ((extractStridedSlice S8x1 ![0, 4] · slices_S8x13_S8x1_0_4) : (⟨S8x13, .f32⟩ : BufTy).Contents (Elt F) → (⟨S8x1, .f32⟩ : BufTy).Contents (Elt F)),
    StableHlo.unary main_arg1 main_v11 ((extractStridedSlice S8x1 ![0, 5] · slices_S8x13_S8x1_0_5) : (⟨S8x13, .f32⟩ : BufTy).Contents (Elt F) → (⟨S8x1, .f32⟩ : BufTy).Contents (Elt F)) ]
def C0_0 : List (HloOp τ sig (Elt F)) := L0_0
noncomputable def W0_0 : List (Ref sig .tc) := [main_v0, main_v1, main_v2, main_v3, main_v4, main_v5, main_v6, main_v7, main_v8, main_v9, main_v10, main_v11]
set_option maxHeartbeats 4000000 in
theorem writes0_0 : (C0_0 (F := F)).Forall fun op => op.writes ⊆ (W0_0.map (Proc.devRef (τ := τ) .tc)).toFinset := by
  simp only [C0_0, L0_0, List.Forall, nullary_writes, unary_writes, binary_writes, ternary_writes, quaternary_writes, reshape_writes, nary_writes, unaryIndexed_writes, binaryIndexed_writes]
  repeat' apply And.intro
  all_goals exact sub_of_mem (by decide)
theorem skip0_0 (V : Valuation τ sig (Elt F)) {r : Ref sig .tc} (h : r ∉ W0_0) :
    StableHlo.after (C0_0 (F := F)) V (no_index (Proc.devRef .tc r)) = V (Proc.devRef .tc r) :=
  after_of_writes_sub _ V writes0_0 h
theorem open0_0 (V : Valuation τ sig (Elt F)) {r : Ref sig .tc} (h : r ∈ W0_0) :
    StableHlo.after (C0_0 (F := F)) V (no_index (Proc.devRef .tc r)) = StableHlo.after (L0_0 (F := F)) V (Proc.devRef .tc r) := rfl
noncomputable def U0_0 : List (Ref sig .tc) := [main_v0, main_v2, main_v4]
theorem openU0_0 (V : Valuation τ sig (Elt F)) {r : Ref sig .tc} (h : r ∈ U0_0) :
    StableHlo.after (C0_0 (F := F)) V (no_index (Proc.devRef .tc r)) = StableHlo.after (L0_0 (F := F)) V (Proc.devRef .tc r) := rfl
set_option maxHeartbeats 4000000 in
theorem st_main_v1 (V : Valuation τ sig (Elt F)) :
    StableHlo.after (C0_0 (F := F)) V (no_index (Proc.devRef .tc main_v1))
      = Cert.ReferenceIdeal.Read.val_main_v1 (F := F) (V (Proc.devRef .tc main_arg0)) := by
  simp (disch := decide) only [open0_0, L0_0, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v3 (V : Valuation τ sig (Elt F)) :
    StableHlo.after (C0_0 (F := F)) V (no_index (Proc.devRef .tc main_v3))
      = Cert.ReferenceIdeal.Read.val_main_v3 (F := F) (V (Proc.devRef .tc main_arg0)) := by
  simp (disch := decide) only [open0_0, L0_0, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v5 (V : Valuation τ sig (Elt F)) :
    StableHlo.after (C0_0 (F := F)) V (no_index (Proc.devRef .tc main_v5))
      = Cert.ReferenceIdeal.Read.val_main_v5 (F := F) (V (Proc.devRef .tc main_arg0)) := by
  simp (disch := decide) only [open0_0, L0_0, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v6 (V : Valuation τ sig (Elt F)) :
    StableHlo.after (C0_0 (F := F)) V (no_index (Proc.devRef .tc main_v6))
      = Cert.ReferenceIdeal.Read.val_main_v6 (F := F) (V (Proc.devRef .tc main_arg1)) := by
  simp (disch := decide) only [open0_0, L0_0, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v7 (V : Valuation τ sig (Elt F)) :
    StableHlo.after (C0_0 (F := F)) V (no_index (Proc.devRef .tc main_v7))
      = Cert.ReferenceIdeal.Read.val_main_v7 (F := F) (V (Proc.devRef .tc main_arg1)) := by
  simp (disch := decide) only [open0_0, L0_0, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v8 (V : Valuation τ sig (Elt F)) :
    StableHlo.after (C0_0 (F := F)) V (no_index (Proc.devRef .tc main_v8))
      = Cert.ReferenceIdeal.Read.val_main_v8 (F := F) (V (Proc.devRef .tc main_arg1)) := by
  simp (disch := decide) only [open0_0, L0_0, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v9 (V : Valuation τ sig (Elt F)) :
    StableHlo.after (C0_0 (F := F)) V (no_index (Proc.devRef .tc main_v9))
      = Cert.ReferenceIdeal.Read.val_main_v9 (F := F) (V (Proc.devRef .tc main_arg1)) := by
  simp (disch := decide) only [open0_0, L0_0, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v10 (V : Valuation τ sig (Elt F)) :
    StableHlo.after (C0_0 (F := F)) V (no_index (Proc.devRef .tc main_v10))
      = Cert.ReferenceIdeal.Read.val_main_v10 (F := F) (V (Proc.devRef .tc main_arg1)) := by
  simp (disch := decide) only [open0_0, L0_0, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v11 (V : Valuation τ sig (Elt F)) :
    StableHlo.after (C0_0 (F := F)) V (no_index (Proc.devRef .tc main_v11))
      = Cert.ReferenceIdeal.Read.val_main_v11 (F := F) (V (Proc.devRef .tc main_arg1)) := by
  simp (disch := decide) only [open0_0, L0_0, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L0_1 : List (HloOp τ sig (Elt F)) :=
  [ StableHlo.unary main_arg1 main_v12 ((extractStridedSlice S8x1 ![0, 6] · slices_S8x13_S8x1_0_6) : (⟨S8x13, .f32⟩ : BufTy).Contents (Elt F) → (⟨S8x1, .f32⟩ : BufTy).Contents (Elt F)),
    StableHlo.unary main_arg1 main_v13 ((extractStridedSlice S8x1 ![0, 7] · slices_S8x13_S8x1_0_7) : (⟨S8x13, .f32⟩ : BufTy).Contents (Elt F) → (⟨S8x1, .f32⟩ : BufTy).Contents (Elt F)),
    StableHlo.unary main_arg1 main_v14 ((extractStridedSlice S8x1 ![0, 8] · slices_S8x13_S8x1_0_8) : (⟨S8x13, .f32⟩ : BufTy).Contents (Elt F) → (⟨S8x1, .f32⟩ : BufTy).Contents (Elt F)),
    StableHlo.unary main_arg1 main_v15 ((extractStridedSlice S8x1 ![0, 9] · slices_S8x13_S8x1_0_9) : (⟨S8x13, .f32⟩ : BufTy).Contents (Elt F) → (⟨S8x1, .f32⟩ : BufTy).Contents (Elt F)),
    StableHlo.unary main_arg1 main_v16 ((extractStridedSlice S8x1 ![0, 10] · slices_S8x13_S8x1_0_10) : (⟨S8x13, .f32⟩ : BufTy).Contents (Elt F) → (⟨S8x1, .f32⟩ : BufTy).Contents (Elt F)),
    StableHlo.unary main_arg1 main_v17 ((extractStridedSlice S8x1 ![0, 11] · slices_S8x13_S8x1_0_11) : (⟨S8x13, .f32⟩ : BufTy).Contents (Elt F) → (⟨S8x1, .f32⟩ : BufTy).Contents (Elt F)),
    StableHlo.unary main_v16 main_v18 (Host.cos : (⟨S8x1, .f32⟩ : BufTy).Contents (Elt F) → (⟨S8x1, .f32⟩ : BufTy).Contents (Elt F)),
    StableHlo.unary main_v16 main_v19 (Host.sin : (⟨S8x1, .f32⟩ : BufTy).Contents (Elt F) → (⟨S8x1, .f32⟩ : BufTy).Contents (Elt F)),
    StableHlo.unary main_arg2 main_v20 (broadcastInDim S8x225 ![0, 1] bcast_S1x225_S8x225_0_1 : (⟨S1x225, .f32⟩ : BufTy).Contents (Elt F) → (⟨S8x225, .f32⟩ : BufTy).Contents (Elt F)),
    StableHlo.unary main_v18 main_v21 (broadcastInDim S8x225 ![0, 1] bcast_S8x1_S8x225_0_1 : (⟨S8x1, .f32⟩ : BufTy).Contents (Elt F) → (⟨S8x225, .f32⟩ : BufTy).Contents (Elt F)),
    StableHlo.binary main_v20 main_v21 main_v22 (mulf : (⟨S8x225, .f32⟩ : BufTy).Contents (Elt F) → (⟨S8x225, .f32⟩ : BufTy).Contents (Elt F) → (⟨S8x225, .f32⟩ : BufTy).Contents (Elt F)),
    StableHlo.unary main_arg3 main_v23 (broadcastInDim S8x225 ![0, 1] bcast_S1x225_S8x225_0_1 : (⟨S1x225, .f32⟩ : BufTy).Contents (Elt F) → (⟨S8x225, .f32⟩ : BufTy).Contents (Elt F)) ]
def C0_1 : List (HloOp τ sig (Elt F)) := L0_1
noncomputable def W0_1 : List (Ref sig .tc) := [main_v12, main_v13, main_v14, main_v15, main_v16, main_v17, main_v18, main_v19, main_v20, main_v21, main_v22, main_v23]
set_option maxHeartbeats 4000000 in
theorem writes0_1 : (C0_1 (F := F)).Forall fun op => op.writes ⊆ (W0_1.map (Proc.devRef (τ := τ) .tc)).toFinset := by
  simp only [C0_1, L0_1, List.Forall, nullary_writes, unary_writes, binary_writes, ternary_writes, quaternary_writes, reshape_writes, nary_writes, unaryIndexed_writes, binaryIndexed_writes]
  repeat' apply And.intro
  all_goals exact sub_of_mem (by decide)
theorem skip0_1 (V : Valuation τ sig (Elt F)) {r : Ref sig .tc} (h : r ∉ W0_1) :
    StableHlo.after (C0_1 (F := F)) V (no_index (Proc.devRef .tc r)) = V (Proc.devRef .tc r) :=
  after_of_writes_sub _ V writes0_1 h
theorem open0_1 (V : Valuation τ sig (Elt F)) {r : Ref sig .tc} (h : r ∈ W0_1) :
    StableHlo.after (C0_1 (F := F)) V (no_index (Proc.devRef .tc r)) = StableHlo.after (L0_1 (F := F)) V (Proc.devRef .tc r) := rfl
noncomputable def U0_1 : List (Ref sig .tc) := [main_v16, main_v20, main_v21]
theorem openU0_1 (V : Valuation τ sig (Elt F)) {r : Ref sig .tc} (h : r ∈ U0_1) :
    StableHlo.after (C0_1 (F := F)) V (no_index (Proc.devRef .tc r)) = StableHlo.after (L0_1 (F := F)) V (Proc.devRef .tc r) := rfl
set_option maxHeartbeats 4000000 in
theorem st_main_v12 (V : Valuation τ sig (Elt F)) :
    StableHlo.after (C0_1 (F := F)) (StableHlo.after (C0_0 (F := F)) V) (no_index (Proc.devRef .tc main_v12))
      = Cert.ReferenceIdeal.Read.val_main_v12 (F := F) (V (Proc.devRef .tc main_arg1)) := by
  simp (disch := decide) only [skip0_0, open0_1, L0_1, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v13 (V : Valuation τ sig (Elt F)) :
    StableHlo.after (C0_1 (F := F)) (StableHlo.after (C0_0 (F := F)) V) (no_index (Proc.devRef .tc main_v13))
      = Cert.ReferenceIdeal.Read.val_main_v13 (F := F) (V (Proc.devRef .tc main_arg1)) := by
  simp (disch := decide) only [skip0_0, open0_1, L0_1, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v14 (V : Valuation τ sig (Elt F)) :
    StableHlo.after (C0_1 (F := F)) (StableHlo.after (C0_0 (F := F)) V) (no_index (Proc.devRef .tc main_v14))
      = Cert.ReferenceIdeal.Read.val_main_v14 (F := F) (V (Proc.devRef .tc main_arg1)) := by
  simp (disch := decide) only [skip0_0, open0_1, L0_1, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v15 (V : Valuation τ sig (Elt F)) :
    StableHlo.after (C0_1 (F := F)) (StableHlo.after (C0_0 (F := F)) V) (no_index (Proc.devRef .tc main_v15))
      = Cert.ReferenceIdeal.Read.val_main_v15 (F := F) (V (Proc.devRef .tc main_arg1)) := by
  simp (disch := decide) only [skip0_0, open0_1, L0_1, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v17 (V : Valuation τ sig (Elt F)) :
    StableHlo.after (C0_1 (F := F)) (StableHlo.after (C0_0 (F := F)) V) (no_index (Proc.devRef .tc main_v17))
      = Cert.ReferenceIdeal.Read.val_main_v17 (F := F) (V (Proc.devRef .tc main_arg1)) := by
  simp (disch := decide) only [skip0_0, open0_1, L0_1, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v18 (V : Valuation τ sig (Elt F)) :
    StableHlo.after (C0_1 (F := F)) (StableHlo.after (C0_0 (F := F)) V) (no_index (Proc.devRef .tc main_v18))
      = Cert.ReferenceIdeal.Read.val_main_v18 (F := F) (V (Proc.devRef .tc main_arg1)) := by
  simp (disch := decide) only [skip0_0, open0_1, L0_1, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v19 (V : Valuation τ sig (Elt F)) :
    StableHlo.after (C0_1 (F := F)) (StableHlo.after (C0_0 (F := F)) V) (no_index (Proc.devRef .tc main_v19))
      = Cert.ReferenceIdeal.Read.val_main_v19 (F := F) (V (Proc.devRef .tc main_arg1)) := by
  simp (disch := decide) only [skip0_0, open0_1, L0_1, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v22 (V : Valuation τ sig (Elt F)) :
    StableHlo.after (C0_1 (F := F)) (StableHlo.after (C0_0 (F := F)) V) (no_index (Proc.devRef .tc main_v22))
      = Cert.ReferenceIdeal.Read.val_main_v22 (F := F) (V (Proc.devRef .tc main_arg1)) (V (Proc.devRef .tc main_arg2)) := by
  simp (disch := decide) only [skip0_0, open0_1, L0_1, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v23 (V : Valuation τ sig (Elt F)) :
    StableHlo.after (C0_1 (F := F)) (StableHlo.after (C0_0 (F := F)) V) (no_index (Proc.devRef .tc main_v23))
      = Cert.ReferenceIdeal.Read.val_main_v23 (F := F) (V (Proc.devRef .tc main_arg3)) := by
  simp (disch := decide) only [skip0_0, open0_1, L0_1, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L0_2 : List (HloOp τ sig (Elt F)) :=
  [ StableHlo.unary main_v19 main_v24 (broadcastInDim S8x225 ![0, 1] bcast_S8x1_S8x225_0_1 : (⟨S8x1, .f32⟩ : BufTy).Contents (Elt F) → (⟨S8x225, .f32⟩ : BufTy).Contents (Elt F)),
    StableHlo.binary main_v23 main_v24 main_v25 (mulf : (⟨S8x225, .f32⟩ : BufTy).Contents (Elt F) → (⟨S8x225, .f32⟩ : BufTy).Contents (Elt F) → (⟨S8x225, .f32⟩ : BufTy).Contents (Elt F)),
    StableHlo.binary main_v22 main_v25 main_v26 (subf : (⟨S8x225, .f32⟩ : BufTy).Contents (Elt F) → (⟨S8x225, .f32⟩ : BufTy).Contents (Elt F) → (⟨S8x225, .f32⟩ : BufTy).Contents (Elt F)),
    StableHlo.unary main_v14 main_v27 (broadcastInDim S8x225 ![0, 1] bcast_S8x1_S8x225_0_1 : (⟨S8x1, .f32⟩ : BufTy).Contents (Elt F) → (⟨S8x225, .f32⟩ : BufTy).Contents (Elt F)),
    StableHlo.binary main_v26 main_v27 main_v28 (addf : (⟨S8x225, .f32⟩ : BufTy).Contents (Elt F) → (⟨S8x225, .f32⟩ : BufTy).Contents (Elt F) → (⟨S8x225, .f32⟩ : BufTy).Contents (Elt F)),
    StableHlo.unary main_arg2 main_v29 (broadcastInDim S8x225 ![0, 1] bcast_S1x225_S8x225_0_1 : (⟨S1x225, .f32⟩ : BufTy).Contents (Elt F) → (⟨S8x225, .f32⟩ : BufTy).Contents (Elt F)),
    StableHlo.unary main_v19 main_v30 (broadcastInDim S8x225 ![0, 1] bcast_S8x1_S8x225_0_1 : (⟨S8x1, .f32⟩ : BufTy).Contents (Elt F) → (⟨S8x225, .f32⟩ : BufTy).Contents (Elt F)),
    StableHlo.binary main_v29 main_v30 main_v31 (mulf : (⟨S8x225, .f32⟩ : BufTy).Contents (Elt F) → (⟨S8x225, .f32⟩ : BufTy).Contents (Elt F) → (⟨S8x225, .f32⟩ : BufTy).Contents (Elt F)),
    StableHlo.unary main_arg3 main_v32 (broadcastInDim S8x225 ![0, 1] bcast_S1x225_S8x225_0_1 : (⟨S1x225, .f32⟩ : BufTy).Contents (Elt F) → (⟨S8x225, .f32⟩ : BufTy).Contents (Elt F)),
    StableHlo.unary main_v18 main_v33 (broadcastInDim S8x225 ![0, 1] bcast_S8x1_S8x225_0_1 : (⟨S8x1, .f32⟩ : BufTy).Contents (Elt F) → (⟨S8x225, .f32⟩ : BufTy).Contents (Elt F)),
    StableHlo.binary main_v32 main_v33 main_v34 (mulf : (⟨S8x225, .f32⟩ : BufTy).Contents (Elt F) → (⟨S8x225, .f32⟩ : BufTy).Contents (Elt F) → (⟨S8x225, .f32⟩ : BufTy).Contents (Elt F)),
    StableHlo.binary main_v31 main_v34 main_v35 (addf : (⟨S8x225, .f32⟩ : BufTy).Contents (Elt F) → (⟨S8x225, .f32⟩ : BufTy).Contents (Elt F) → (⟨S8x225, .f32⟩ : BufTy).Contents (Elt F)) ]
def C0_2 : List (HloOp τ sig (Elt F)) := L0_2
noncomputable def W0_2 : List (Ref sig .tc) := [main_v24, main_v25, main_v26, main_v27, main_v28, main_v29, main_v30, main_v31, main_v32, main_v33, main_v34, main_v35]
set_option maxHeartbeats 4000000 in
theorem writes0_2 : (C0_2 (F := F)).Forall fun op => op.writes ⊆ (W0_2.map (Proc.devRef (τ := τ) .tc)).toFinset := by
  simp only [C0_2, L0_2, List.Forall, nullary_writes, unary_writes, binary_writes, ternary_writes, quaternary_writes, reshape_writes, nary_writes, unaryIndexed_writes, binaryIndexed_writes]
  repeat' apply And.intro
  all_goals exact sub_of_mem (by decide)
theorem skip0_2 (V : Valuation τ sig (Elt F)) {r : Ref sig .tc} (h : r ∉ W0_2) :
    StableHlo.after (C0_2 (F := F)) V (no_index (Proc.devRef .tc r)) = V (Proc.devRef .tc r) :=
  after_of_writes_sub _ V writes0_2 h
theorem open0_2 (V : Valuation τ sig (Elt F)) {r : Ref sig .tc} (h : r ∈ W0_2) :
    StableHlo.after (C0_2 (F := F)) V (no_index (Proc.devRef .tc r)) = StableHlo.after (L0_2 (F := F)) V (Proc.devRef .tc r) := rfl
noncomputable def U0_2 : List (Ref sig .tc) := [main_v24, main_v25, main_v26, main_v27, main_v29, main_v30, main_v31, main_v32, main_v33, main_v34]
theorem openU0_2 (V : Valuation τ sig (Elt F)) {r : Ref sig .tc} (h : r ∈ U0_2) :
    StableHlo.after (C0_2 (F := F)) V (no_index (Proc.devRef .tc r)) = StableHlo.after (L0_2 (F := F)) V (Proc.devRef .tc r) := rfl
set_option maxHeartbeats 4000000 in
theorem st_main_v28 (V : Valuation τ sig (Elt F)) :
    StableHlo.after (C0_2 (F := F)) (StableHlo.after (C0_1 (F := F)) (StableHlo.after (C0_0 (F := F)) V)) (no_index (Proc.devRef .tc main_v28))
      = Cert.ReferenceIdeal.Read.val_main_v28 (F := F) (V (Proc.devRef .tc main_arg1)) (V (Proc.devRef .tc main_arg2)) (V (Proc.devRef .tc main_arg3)) := by
  simp (disch := decide) only [skip0_0, skip0_1, open0_2, L0_2, st_main_v22, st_main_v23, st_main_v19, st_main_v14, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v35 (V : Valuation τ sig (Elt F)) :
    StableHlo.after (C0_2 (F := F)) (StableHlo.after (C0_1 (F := F)) (StableHlo.after (C0_0 (F := F)) V)) (no_index (Proc.devRef .tc main_v35))
      = Cert.ReferenceIdeal.Read.val_main_v35 (F := F) (V (Proc.devRef .tc main_arg1)) (V (Proc.devRef .tc main_arg2)) (V (Proc.devRef .tc main_arg3)) := by
  simp (disch := decide) only [skip0_0, skip0_1, open0_2, L0_2, st_main_v19, st_main_v18, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L0_3 : List (HloOp τ sig (Elt F)) :=
  [ StableHlo.unary main_v15 main_v36 (broadcastInDim S8x225 ![0, 1] bcast_S8x1_S8x225_0_1 : (⟨S8x1, .f32⟩ : BufTy).Contents (Elt F) → (⟨S8x225, .f32⟩ : BufTy).Contents (Elt F)),
    StableHlo.binary main_v35 main_v36 main_v37 (addf : (⟨S8x225, .f32⟩ : BufTy).Contents (Elt F) → (⟨S8x225, .f32⟩ : BufTy).Contents (Elt F) → (⟨S8x225, .f32⟩ : BufTy).Contents (Elt F)),
    StableHlo.nullary main_cst (constant S_ .f32 0x4587A000#32),
    StableHlo.unary main_cst main_v38 (broadcastInDim S8x1 ![] bcast_S_S8x1 : (⟨S_, .f32⟩ : BufTy).Contents (Elt F) → (⟨S8x1, .f32⟩ : BufTy).Contents (Elt F)),
    StableHlo.binary main_v17 main_v38 main_v39 (subf : (⟨S8x1, .f32⟩ : BufTy).Contents (Elt F) → (⟨S8x1, .f32⟩ : BufTy).Contents (Elt F) → (⟨S8x1, .f32⟩ : BufTy).Contents (Elt F)),
    StableHlo.unary main_v39 main_v40 (broadcastInDim S8x225 ![0, 1] bcast_S8x1_S8x225_0_1 : (⟨S8x1, .f32⟩ : BufTy).Contents (Elt F) → (⟨S8x225, .f32⟩ : BufTy).Contents (Elt F)),
    StableHlo.binary main_v28 main_v40 main_v41 (subf : (⟨S8x225, .f32⟩ : BufTy).Contents (Elt F) → (⟨S8x225, .f32⟩ : BufTy).Contents (Elt F) → (⟨S8x225, .f32⟩ : BufTy).Contents (Elt F)),
    StableHlo.nullary main_cst_0 (constant S_ .f32 0xC5834000#32),
    StableHlo.unary main_cst_0 main_v42 (broadcastInDim S8x225 ![] bcast_S_S8x225 : (⟨S_, .f32⟩ : BufTy).Contents (Elt F) → (⟨S8x225, .f32⟩ : BufTy).Contents (Elt F)),
    StableHlo.binary main_v41 main_v42 main_v43 (subf : (⟨S8x225, .f32⟩ : BufTy).Contents (Elt F) → (⟨S8x225, .f32⟩ : BufTy).Contents (Elt F) → (⟨S8x225, .f32⟩ : BufTy).Contents (Elt F)),
    StableHlo.nullary main_cst_1 (constant S_ .f32 0x4228D81F#32),
    StableHlo.unary main_cst_1 main_v44 (broadcastInDim S8x225 ![] bcast_S_S8x225 : (⟨S_, .f32⟩ : BufTy).Contents (Elt F) → (⟨S8x225, .f32⟩ : BufTy).Contents (Elt F)) ]
def C0_3 : List (HloOp τ sig (Elt F)) := L0_3
noncomputable def W0_3 : List (Ref sig .tc) := [main_v36, main_v37, main_cst, main_v38, main_v39, main_v40, main_v41, main_cst_0, main_v42, main_v43, main_cst_1, main_v44]
set_option maxHeartbeats 4000000 in
theorem writes0_3 : (C0_3 (F := F)).Forall fun op => op.writes ⊆ (W0_3.map (Proc.devRef (τ := τ) .tc)).toFinset := by
  simp only [C0_3, L0_3, List.Forall, nullary_writes, unary_writes, binary_writes, ternary_writes, quaternary_writes, reshape_writes, nary_writes, unaryIndexed_writes, binaryIndexed_writes]
  repeat' apply And.intro
  all_goals exact sub_of_mem (by decide)
theorem skip0_3 (V : Valuation τ sig (Elt F)) {r : Ref sig .tc} (h : r ∉ W0_3) :
    StableHlo.after (C0_3 (F := F)) V (no_index (Proc.devRef .tc r)) = V (Proc.devRef .tc r) :=
  after_of_writes_sub _ V writes0_3 h
theorem open0_3 (V : Valuation τ sig (Elt F)) {r : Ref sig .tc} (h : r ∈ W0_3) :
    StableHlo.after (C0_3 (F := F)) V (no_index (Proc.devRef .tc r)) = StableHlo.after (L0_3 (F := F)) V (Proc.devRef .tc r) := rfl
noncomputable def U0_3 : List (Ref sig .tc) := [main_v36, main_cst, main_v38, main_v39, main_v40, main_v41, main_cst_0, main_v42, main_cst_1]
theorem openU0_3 (V : Valuation τ sig (Elt F)) {r : Ref sig .tc} (h : r ∈ U0_3) :
    StableHlo.after (C0_3 (F := F)) V (no_index (Proc.devRef .tc r)) = StableHlo.after (L0_3 (F := F)) V (Proc.devRef .tc r) := rfl
set_option maxHeartbeats 4000000 in
theorem st_main_v37 (V : Valuation τ sig (Elt F)) :
    StableHlo.after (C0_3 (F := F)) (StableHlo.after (C0_2 (F := F)) (StableHlo.after (C0_1 (F := F)) (StableHlo.after (C0_0 (F := F)) V))) (no_index (Proc.devRef .tc main_v37))
      = Cert.ReferenceIdeal.Read.val_main_v37 (F := F) (V (Proc.devRef .tc main_arg1)) (V (Proc.devRef .tc main_arg2)) (V (Proc.devRef .tc main_arg3)) := by
  simp (disch := decide) only [skip0_0, skip0_1, skip0_2, open0_3, L0_3, st_main_v35, st_main_v15, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v43 (V : Valuation τ sig (Elt F)) :
    StableHlo.after (C0_3 (F := F)) (StableHlo.after (C0_2 (F := F)) (StableHlo.after (C0_1 (F := F)) (StableHlo.after (C0_0 (F := F)) V))) (no_index (Proc.devRef .tc main_v43))
      = Cert.ReferenceIdeal.Read.val_main_v43 (F := F) (V (Proc.devRef .tc main_arg1)) (V (Proc.devRef .tc main_arg2)) (V (Proc.devRef .tc main_arg3)) := by
  simp (disch := decide) only [skip0_0, skip0_1, skip0_2, open0_3, L0_3, st_main_v28, st_main_v17, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v44 (V : Valuation τ sig (Elt F)) :
    StableHlo.after (C0_3 (F := F)) (StableHlo.after (C0_2 (F := F)) (StableHlo.after (C0_1 (F := F)) (StableHlo.after (C0_0 (F := F)) V))) (no_index (Proc.devRef .tc main_v44))
      = Cert.ReferenceIdeal.Read.val_main_v44 (F := F) := by
  simp (disch := decide) only [skip0_0, skip0_1, skip0_2, open0_3, L0_3, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L0_4 : List (HloOp τ sig (Elt F)) :=
  [ StableHlo.binary main_v43 main_v44 main_v45 (Host.divf : (⟨S8x225, .f32⟩ : BufTy).Contents (Elt F) → (⟨S8x225, .f32⟩ : BufTy).Contents (Elt F) → (⟨S8x225, .f32⟩ : BufTy).Contents (Elt F)),
    StableHlo.nullary main_cst_2 (constant S_ .f32 0xC5834000#32),
    StableHlo.unary main_cst_2 main_v46 (broadcastInDim S8x225 ![] bcast_S_S8x225 : (⟨S_, .f32⟩ : BufTy).Contents (Elt F) → (⟨S8x225, .f32⟩ : BufTy).Contents (Elt F)),
    StableHlo.binary main_v37 main_v46 main_v47 (subf : (⟨S8x225, .f32⟩ : BufTy).Contents (Elt F) → (⟨S8x225, .f32⟩ : BufTy).Contents (Elt F) → (⟨S8x225, .f32⟩ : BufTy).Contents (Elt F)),
    StableHlo.nullary main_cst_3 (constant S_ .f32 0x4228D81F#32),
    StableHlo.unary main_cst_3 main_v48 (broadcastInDim S8x225 ![] bcast_S_S8x225 : (⟨S_, .f32⟩ : BufTy).Contents (Elt F) → (⟨S8x225, .f32⟩ : BufTy).Contents (Elt F)),
    StableHlo.binary main_v47 main_v48 main_v49 (Host.divf : (⟨S8x225, .f32⟩ : BufTy).Contents (Elt F) → (⟨S8x225, .f32⟩ : BufTy).Contents (Elt F) → (⟨S8x225, .f32⟩ : BufTy).Contents (Elt F)),
    StableHlo.unary main_v45 main_v50 (Host.floor : (⟨S8x225, .f32⟩ : BufTy).Contents (Elt F) → (⟨S8x225, .f32⟩ : BufTy).Contents (Elt F)),
    StableHlo.nullary main_cst_4 (constant S_ .f32 0x00000000#32),
    StableHlo.nullary main_c (constantI S_ 32 198#32) ]
def C0_4 : List (HloOp τ sig (Elt F)) := L0_4
noncomputable def W0_4 : List (Ref sig .tc) := [main_v45, main_cst_2, main_v46, main_v47, main_cst_3, main_v48, main_v49, main_v50, main_cst_4, main_c]
set_option maxHeartbeats 4000000 in
theorem writes0_4 : (C0_4 (F := F)).Forall fun op => op.writes ⊆ (W0_4.map (Proc.devRef (τ := τ) .tc)).toFinset := by
  simp only [C0_4, L0_4, List.Forall, nullary_writes, unary_writes, binary_writes, ternary_writes, quaternary_writes, reshape_writes, nary_writes, unaryIndexed_writes, binaryIndexed_writes]
  repeat' apply And.intro
  all_goals exact sub_of_mem (by decide)
theorem skip0_4 (V : Valuation τ sig (Elt F)) {r : Ref sig .tc} (h : r ∉ W0_4) :
    StableHlo.after (C0_4 (F := F)) V (no_index (Proc.devRef .tc r)) = V (Proc.devRef .tc r) :=
  after_of_writes_sub _ V writes0_4 h
theorem open0_4 (V : Valuation τ sig (Elt F)) {r : Ref sig .tc} (h : r ∈ W0_4) :
    StableHlo.after (C0_4 (F := F)) V (no_index (Proc.devRef .tc r)) = StableHlo.after (L0_4 (F := F)) V (Proc.devRef .tc r) := rfl
noncomputable def U0_4 : List (Ref sig .tc) := [main_cst_2, main_v46, main_v47, main_cst_3, main_v48]
theorem openU0_4 (V : Valuation τ sig (Elt F)) {r : Ref sig .tc} (h : r ∈ U0_4) :
    StableHlo.after (C0_4 (F := F)) V (no_index (Proc.devRef .tc r)) = StableHlo.after (L0_4 (F := F)) V (Proc.devRef .tc r) := rfl
set_option maxHeartbeats 4000000 in
theorem st_main_v45 (V : Valuation τ sig (Elt F)) :
    StableHlo.after (C0_4 (F := F)) (StableHlo.after (C0_3 (F := F)) (StableHlo.after (C0_2 (F := F)) (StableHlo.after (C0_1 (F := F)) (StableHlo.after (C0_0 (F := F)) V)))) (no_index (Proc.devRef .tc main_v45))
      = Cert.ReferenceIdeal.Read.val_main_v45 (F := F) (V (Proc.devRef .tc main_arg1)) (V (Proc.devRef .tc main_arg2)) (V (Proc.devRef .tc main_arg3)) := by
  simp (disch := decide) only [skip0_0, skip0_1, skip0_2, skip0_3, open0_4, L0_4, st_main_v43, st_main_v44, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v49 (V : Valuation τ sig (Elt F)) :
    StableHlo.after (C0_4 (F := F)) (StableHlo.after (C0_3 (F := F)) (StableHlo.after (C0_2 (F := F)) (StableHlo.after (C0_1 (F := F)) (StableHlo.after (C0_0 (F := F)) V)))) (no_index (Proc.devRef .tc main_v49))
      = Cert.ReferenceIdeal.Read.val_main_v49 (F := F) (V (Proc.devRef .tc main_arg1)) (V (Proc.devRef .tc main_arg2)) (V (Proc.devRef .tc main_arg3)) := by
  simp (disch := decide) only [skip0_0, skip0_1, skip0_2, skip0_3, open0_4, L0_4, st_main_v37, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v50 (V : Valuation τ sig (Elt F)) :
    StableHlo.after (C0_4 (F := F)) (StableHlo.after (C0_3 (F := F)) (StableHlo.after (C0_2 (F := F)) (StableHlo.after (C0_1 (F := F)) (StableHlo.after (C0_0 (F := F)) V)))) (no_index (Proc.devRef .tc main_v50))
      = Cert.ReferenceIdeal.Read.val_main_v50 (F := F) (V (Proc.devRef .tc main_arg1)) (V (Proc.devRef .tc main_arg2)) (V (Proc.devRef .tc main_arg3)) := by
  simp (disch := decide) only [skip0_0, skip0_1, skip0_2, skip0_3, open0_4, L0_4, st_main_v43, st_main_v44, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_cst_4 (V : Valuation τ sig (Elt F)) :
    StableHlo.after (C0_4 (F := F)) (StableHlo.after (C0_3 (F := F)) (StableHlo.after (C0_2 (F := F)) (StableHlo.after (C0_1 (F := F)) (StableHlo.after (C0_0 (F := F)) V)))) (no_index (Proc.devRef .tc main_cst_4))
      = Cert.ReferenceIdeal.Read.val_main_cst_4 (F := F) := by
  simp (disch := decide) only [skip0_0, skip0_1, skip0_2, skip0_3, open0_4, L0_4, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_c (V : Valuation τ sig (Elt F)) :
    StableHlo.after (C0_4 (F := F)) (StableHlo.after (C0_3 (F := F)) (StableHlo.after (C0_2 (F := F)) (StableHlo.after (C0_1 (F := F)) (StableHlo.after (C0_0 (F := F)) V)))) (no_index (Proc.devRef .tc main_c))
      = Cert.ReferenceIdeal.Read.val_main_c (F := F) := by
  simp (disch := decide) only [skip0_0, skip0_1, skip0_2, skip0_3, open0_4, L0_4, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L1_0 : List (HloOp τ sig (Elt F)) :=
  [ StableHlo.TRef.unary (.of main_cst_4 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S8x225, .f32⟩) (broadcastInDim S8x225 ![] bcast_S_S8x225),
    StableHlo.TRef.binary (.of main_call0_v1 : StableHlo.TRef sig ⟨S8x225, .f32⟩) (.of main_v50 : StableHlo.TRef sig ⟨S8x225, .f32⟩) (.of main_call0_v2 : StableHlo.TRef sig ⟨S8x225, .f32⟩) maximumf,
    StableHlo.TRef.unary (.of main_c : StableHlo.TRef sig ⟨S_, .i32⟩) (.of main_call0_v3 : StableHlo.TRef sig ⟨S_, .f32⟩) (sitofp .f32),
    StableHlo.TRef.unary (.of main_call0_v3 : StableHlo.TRef sig ⟨S_, .f32⟩) (.of main_call0_v4 : StableHlo.TRef sig ⟨S8x225, .f32⟩) (broadcastInDim S8x225 ![] bcast_S_S8x225),
    StableHlo.TRef.binary (.of main_call0_v4 : StableHlo.TRef sig ⟨S8x225, .f32⟩) (.of main_call0_v2 : StableHlo.TRef sig ⟨S8x225, .f32⟩) (.of main_v51 : StableHlo.TRef sig ⟨S8x225, .f32⟩) minimumf ]
def C1_0 : List (HloOp τ sig (Elt F)) := L1_0
noncomputable def W1_0 : List (Ref sig .tc) := [main_call0_v0, main_call0_v1, main_call0_v2, main_call0_v3, main_call0_v4, main_v51]
set_option maxHeartbeats 4000000 in
theorem writes1_0 : (C1_0 (F := F)).Forall fun op => op.writes ⊆ (W1_0.map (Proc.devRef (τ := τ) .tc)).toFinset := by
  simp only [C1_0, L1_0, List.Forall, nullary_writes, unary_writes, binary_writes, ternary_writes, quaternary_writes, reshape_writes, nary_writes, unaryIndexed_writes, binaryIndexed_writes]
  repeat' apply And.intro
  all_goals exact sub_of_mem (by decide)
theorem skip1_0 (V : Valuation τ sig (Elt F)) {r : Ref sig .tc} (h : r ∉ W1_0) :
    StableHlo.after (C1_0 (F := F)) V (no_index (Proc.devRef .tc r)) = V (Proc.devRef .tc r) :=
  after_of_writes_sub _ V writes1_0 h
theorem open1_0 (V : Valuation τ sig (Elt F)) {r : Ref sig .tc} (h : r ∈ W1_0) :
    StableHlo.after (C1_0 (F := F)) V (no_index (Proc.devRef .tc r)) = StableHlo.after (L1_0 (F := F)) V (Proc.devRef .tc r) := rfl
noncomputable def U1_0 : List (Ref sig .tc) := [main_call0_v0, main_call0_v1, main_call0_v2, main_call0_v3, main_call0_v4]
theorem openU1_0 (V : Valuation τ sig (Elt F)) {r : Ref sig .tc} (h : r ∈ U1_0) :
    StableHlo.after (C1_0 (F := F)) V (no_index (Proc.devRef .tc r)) = StableHlo.after (L1_0 (F := F)) V (Proc.devRef .tc r) := rfl
set_option maxHeartbeats 4000000 in
theorem st_main_v51 (V : Valuation τ sig (Elt F)) :
    StableHlo.after (C1_0 (F := F)) (StableHlo.after (C0_4 (F := F)) (StableHlo.after (C0_3 (F := F)) (StableHlo.after (C0_2 (F := F)) (StableHlo.after (C0_1 (F := F)) (StableHlo.after (C0_0 (F := F)) V))))) (no_index (Proc.devRef .tc main_v51))
      = Cert.ReferenceIdeal.Read.val_main_v51 (F := F) (V (Proc.devRef .tc main_arg1)) (V (Proc.devRef .tc main_arg2)) (V (Proc.devRef .tc main_arg3)) := by
  simp (disch := decide) only [skip0_0, skip0_1, skip0_2, skip0_3, skip0_4, open1_0, L1_0, st_main_c, st_main_cst_4, st_main_v50, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

end Cert.Percept.HostK

end
-- ==== Proof.HostKChunks2.lean ====
/-
  The host operations before the region, cut into short runs, and how one buffer is read after them.

  The 338 operations are straight-line: each writes one buffer of its own. After a run of operations that does not
  write a buffer r, r holds what it held before (skip); after a run that does, r holds what the run's own operations
  leave (open), and those read their operands from the valuation before the run. The operations up to the inverse
  covariance and the centres are the reference's own, so each buffer they write that a later run reads holds, right
  after its run, the reference's stage of the same name applied to the argument arrays (st_…): one run is opened per
  buffer, and what it reads from earlier runs is already a stage.
  (Runs 7 to 12 of 38.)
-/
import proofs.«134758_j41807211659417_2_alg».proof.Proof.HostKChunks1

set_option maxRecDepth 16384

noncomputable section

namespace Cert.Percept.HostK

open Cert.KernelIdeal Cert.KernelIdeal.Gen Idealize.ShloMosaic Idealize.ShloMosaic.TcCoe Idealize.SL.Sem Idealize.ShloMosaic.StableHlo

variable {F : FTy → Type} [FloatOps F]

set_option maxHeartbeats 4000000 in
abbrev L2_0 : List (HloOp τ sig (Elt F)) :=
  [ StableHlo.unary main_v49 main_v52 (Host.floor : (⟨S8x225, .f32⟩ : BufTy).Contents (Elt F) → (⟨S8x225, .f32⟩ : BufTy).Contents (Elt F)),
    StableHlo.nullary main_cst_5 (constant S_ .f32 0x00000000#32),
    StableHlo.nullary main_c_6 (constantI S_ 32 198#32) ]
def C2_0 : List (HloOp τ sig (Elt F)) := L2_0
noncomputable def W2_0 : List (Ref sig .tc) := [main_v52, main_cst_5, main_c_6]
set_option maxHeartbeats 4000000 in
theorem writes2_0 : (C2_0 (F := F)).Forall fun op => op.writes ⊆ (W2_0.map (Proc.devRef (τ := τ) .tc)).toFinset := by
  simp only [C2_0, L2_0, List.Forall, nullary_writes, unary_writes, binary_writes, ternary_writes, quaternary_writes, reshape_writes, nary_writes, unaryIndexed_writes, binaryIndexed_writes]
  repeat' apply And.intro
  all_goals exact sub_of_mem (by decide)
theorem skip2_0 (V : Valuation τ sig (Elt F)) {r : Ref sig .tc} (h : r ∉ W2_0) :
    StableHlo.after (C2_0 (F := F)) V (no_index (Proc.devRef .tc r)) = V (Proc.devRef .tc r) :=
  after_of_writes_sub _ V writes2_0 h
theorem open2_0 (V : Valuation τ sig (Elt F)) {r : Ref sig .tc} (h : r ∈ W2_0) :
    StableHlo.after (C2_0 (F := F)) V (no_index (Proc.devRef .tc r)) = StableHlo.after (L2_0 (F := F)) V (Proc.devRef .tc r) := rfl
set_option maxHeartbeats 4000000 in
theorem st_main_v52 (V : Valuation τ sig (Elt F)) :
    StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V)))))) (no_index (Proc.devRef .tc main_v52))
      = Cert.ReferenceIdeal.Read.val_main_v52 (F := F) (V (Proc.devRef .tc main_arg1)) (V (Proc.devRef .tc main_arg2)) (V (Proc.devRef .tc main_arg3)) := by
  simp (disch := decide) only [skip0_0, skip0_1, skip0_2, skip0_3, skip0_4, skip1_0, open2_0, L2_0, st_main_v49, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_cst_5 (V : Valuation τ sig (Elt F)) :
    StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V)))))) (no_index (Proc.devRef .tc main_cst_5))
      = Cert.ReferenceIdeal.Read.val_main_cst_5 (F := F) := by
  simp (disch := decide) only [skip0_0, skip0_1, skip0_2, skip0_3, skip0_4, skip1_0, open2_0, L2_0, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_c_6 (V : Valuation τ sig (Elt F)) :
    StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V)))))) (no_index (Proc.devRef .tc main_c_6))
      = Cert.ReferenceIdeal.Read.val_main_c_6 (F := F) := by
  simp (disch := decide) only [skip0_0, skip0_1, skip0_2, skip0_3, skip0_4, skip1_0, open2_0, L2_0, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L3_0 : List (HloOp τ sig (Elt F)) :=
  [ StableHlo.TRef.unary (.of main_cst_5 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S8x225, .f32⟩) (broadcastInDim S8x225 ![] bcast_S_S8x225),
    StableHlo.TRef.binary (.of main_call1_v1 : StableHlo.TRef sig ⟨S8x225, .f32⟩) (.of main_v52 : StableHlo.TRef sig ⟨S8x225, .f32⟩) (.of main_call1_v2 : StableHlo.TRef sig ⟨S8x225, .f32⟩) maximumf,
    StableHlo.TRef.unary (.of main_c_6 : StableHlo.TRef sig ⟨S_, .i32⟩) (.of main_call1_v3 : StableHlo.TRef sig ⟨S_, .f32⟩) (sitofp .f32),
    StableHlo.TRef.unary (.of main_call1_v3 : StableHlo.TRef sig ⟨S_, .f32⟩) (.of main_call1_v4 : StableHlo.TRef sig ⟨S8x225, .f32⟩) (broadcastInDim S8x225 ![] bcast_S_S8x225),
    StableHlo.TRef.binary (.of main_call1_v4 : StableHlo.TRef sig ⟨S8x225, .f32⟩) (.of main_call1_v2 : StableHlo.TRef sig ⟨S8x225, .f32⟩) (.of main_v53 : StableHlo.TRef sig ⟨S8x225, .f32⟩) minimumf ]
def C3_0 : List (HloOp τ sig (Elt F)) := L3_0
noncomputable def W3_0 : List (Ref sig .tc) := [main_call1_v0, main_call1_v1, main_call1_v2, main_call1_v3, main_call1_v4, main_v53]
set_option maxHeartbeats 4000000 in
theorem writes3_0 : (C3_0 (F := F)).Forall fun op => op.writes ⊆ (W3_0.map (Proc.devRef (τ := τ) .tc)).toFinset := by
  simp only [C3_0, L3_0, List.Forall, nullary_writes, unary_writes, binary_writes, ternary_writes, quaternary_writes, reshape_writes, nary_writes, unaryIndexed_writes, binaryIndexed_writes]
  repeat' apply And.intro
  all_goals exact sub_of_mem (by decide)
theorem skip3_0 (V : Valuation τ sig (Elt F)) {r : Ref sig .tc} (h : r ∉ W3_0) :
    StableHlo.after (C3_0 (F := F)) V (no_index (Proc.devRef .tc r)) = V (Proc.devRef .tc r) :=
  after_of_writes_sub _ V writes3_0 h
theorem open3_0 (V : Valuation τ sig (Elt F)) {r : Ref sig .tc} (h : r ∈ W3_0) :
    StableHlo.after (C3_0 (F := F)) V (no_index (Proc.devRef .tc r)) = StableHlo.after (L3_0 (F := F)) V (Proc.devRef .tc r) := rfl
noncomputable def U3_0 : List (Ref sig .tc) := [main_call1_v0, main_call1_v1, main_call1_v2, main_call1_v3, main_call1_v4]
theorem openU3_0 (V : Valuation τ sig (Elt F)) {r : Ref sig .tc} (h : r ∈ U3_0) :
    StableHlo.after (C3_0 (F := F)) V (no_index (Proc.devRef .tc r)) = StableHlo.after (L3_0 (F := F)) V (Proc.devRef .tc r) := rfl
set_option maxHeartbeats 4000000 in
theorem st_main_v53 (V : Valuation τ sig (Elt F)) :
    StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V))))))) (no_index (Proc.devRef .tc main_v53))
      = Cert.ReferenceIdeal.Read.val_main_v53 (F := F) (V (Proc.devRef .tc main_arg1)) (V (Proc.devRef .tc main_arg2)) (V (Proc.devRef .tc main_arg3)) := by
  simp (disch := decide) only [skip0_0, skip0_1, skip0_2, skip0_3, skip0_4, skip1_0, skip2_0, open3_0, L3_0, st_main_c_6, st_main_cst_5, st_main_v52, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L4_0 : List (HloOp τ sig (Elt F)) :=
  [ StableHlo.unary main_v51 main_v54 (fptosi 32 : (⟨S8x225, .f32⟩ : BufTy).Contents (Elt F) → (⟨S8x225, .i32⟩ : BufTy).Contents (Elt F)),
    StableHlo.unary main_v53 main_v55 (fptosi 32 : (⟨S8x225, .f32⟩ : BufTy).Contents (Elt F) → (⟨S8x225, .i32⟩ : BufTy).Contents (Elt F)),
    StableHlo.binary main_v45 main_v51 main_v56 (subf : (⟨S8x225, .f32⟩ : BufTy).Contents (Elt F) → (⟨S8x225, .f32⟩ : BufTy).Contents (Elt F) → (⟨S8x225, .f32⟩ : BufTy).Contents (Elt F)),
    StableHlo.nullary main_cst_7 (constant S_ .f32 0x00000000#32),
    StableHlo.nullary main_cst_8 (constant S_ .f32 0x3F800000#32) ]
def C4_0 : List (HloOp τ sig (Elt F)) := L4_0
noncomputable def W4_0 : List (Ref sig .tc) := [main_v54, main_v55, main_v56, main_cst_7, main_cst_8]
set_option maxHeartbeats 4000000 in
theorem writes4_0 : (C4_0 (F := F)).Forall fun op => op.writes ⊆ (W4_0.map (Proc.devRef (τ := τ) .tc)).toFinset := by
  simp only [C4_0, L4_0, List.Forall, nullary_writes, unary_writes, binary_writes, ternary_writes, quaternary_writes, reshape_writes, nary_writes, unaryIndexed_writes, binaryIndexed_writes]
  repeat' apply And.intro
  all_goals exact sub_of_mem (by decide)
theorem skip4_0 (V : Valuation τ sig (Elt F)) {r : Ref sig .tc} (h : r ∉ W4_0) :
    StableHlo.after (C4_0 (F := F)) V (no_index (Proc.devRef .tc r)) = V (Proc.devRef .tc r) :=
  after_of_writes_sub _ V writes4_0 h
theorem open4_0 (V : Valuation τ sig (Elt F)) {r : Ref sig .tc} (h : r ∈ W4_0) :
    StableHlo.after (C4_0 (F := F)) V (no_index (Proc.devRef .tc r)) = StableHlo.after (L4_0 (F := F)) V (Proc.devRef .tc r) := rfl
set_option maxHeartbeats 4000000 in
theorem st_main_v54 (V : Valuation τ sig (Elt F)) :
    StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V)))))))) (no_index (Proc.devRef .tc main_v54))
      = Cert.ReferenceIdeal.Read.val_main_v54 (F := F) (V (Proc.devRef .tc main_arg1)) (V (Proc.devRef .tc main_arg2)) (V (Proc.devRef .tc main_arg3)) := by
  simp (disch := decide) only [skip0_0, skip0_1, skip0_2, skip0_3, skip0_4, skip1_0, skip2_0, skip3_0, open4_0, L4_0, st_main_v51, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v55 (V : Valuation τ sig (Elt F)) :
    StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V)))))))) (no_index (Proc.devRef .tc main_v55))
      = Cert.ReferenceIdeal.Read.val_main_v55 (F := F) (V (Proc.devRef .tc main_arg1)) (V (Proc.devRef .tc main_arg2)) (V (Proc.devRef .tc main_arg3)) := by
  simp (disch := decide) only [skip0_0, skip0_1, skip0_2, skip0_3, skip0_4, skip1_0, skip2_0, skip3_0, open4_0, L4_0, st_main_v53, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v56 (V : Valuation τ sig (Elt F)) :
    StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V)))))))) (no_index (Proc.devRef .tc main_v56))
      = Cert.ReferenceIdeal.Read.val_main_v56 (F := F) (V (Proc.devRef .tc main_arg1)) (V (Proc.devRef .tc main_arg2)) (V (Proc.devRef .tc main_arg3)) := by
  simp (disch := decide) only [skip0_0, skip0_1, skip0_2, skip0_3, skip0_4, skip1_0, skip2_0, skip3_0, open4_0, L4_0, st_main_v45, st_main_v51, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_cst_7 (V : Valuation τ sig (Elt F)) :
    StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V)))))))) (no_index (Proc.devRef .tc main_cst_7))
      = Cert.ReferenceIdeal.Read.val_main_cst_7 (F := F) := by
  simp (disch := decide) only [skip0_0, skip0_1, skip0_2, skip0_3, skip0_4, skip1_0, skip2_0, skip3_0, open4_0, L4_0, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_cst_8 (V : Valuation τ sig (Elt F)) :
    StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V)))))))) (no_index (Proc.devRef .tc main_cst_8))
      = Cert.ReferenceIdeal.Read.val_main_cst_8 (F := F) := by
  simp (disch := decide) only [skip0_0, skip0_1, skip0_2, skip0_3, skip0_4, skip1_0, skip2_0, skip3_0, open4_0, L4_0, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L5_0 : List (HloOp τ sig (Elt F)) :=
  [ StableHlo.TRef.unary (.of main_cst_7 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S8x225, .f32⟩) (broadcastInDim S8x225 ![] bcast_S_S8x225),
    StableHlo.TRef.binary (.of main_call2_v1 : StableHlo.TRef sig ⟨S8x225, .f32⟩) (.of main_v56 : StableHlo.TRef sig ⟨S8x225, .f32⟩) (.of main_call2_v2 : StableHlo.TRef sig ⟨S8x225, .f32⟩) maximumf,
    StableHlo.TRef.unary (.of main_cst_8 : StableHlo.TRef sig ⟨S_, .f32⟩) (.of main_call2_v3 : StableHlo.TRef sig ⟨S_, .f32⟩) id,
    StableHlo.TRef.unary (.of main_call2_v3 : StableHlo.TRef sig ⟨S_, .f32⟩) (.of main_call2_v4 : StableHlo.TRef sig ⟨S8x225, .f32⟩) (broadcastInDim S8x225 ![] bcast_S_S8x225),
    StableHlo.TRef.binary (.of main_call2_v4 : StableHlo.TRef sig ⟨S8x225, .f32⟩) (.of main_call2_v2 : StableHlo.TRef sig ⟨S8x225, .f32⟩) (.of main_v57 : StableHlo.TRef sig ⟨S8x225, .f32⟩) minimumf ]
def C5_0 : List (HloOp τ sig (Elt F)) := L5_0
noncomputable def W5_0 : List (Ref sig .tc) := [main_call2_v0, main_call2_v1, main_call2_v2, main_call2_v3, main_call2_v4, main_v57]
set_option maxHeartbeats 4000000 in
theorem writes5_0 : (C5_0 (F := F)).Forall fun op => op.writes ⊆ (W5_0.map (Proc.devRef (τ := τ) .tc)).toFinset := by
  simp only [C5_0, L5_0, List.Forall, nullary_writes, unary_writes, binary_writes, ternary_writes, quaternary_writes, reshape_writes, nary_writes, unaryIndexed_writes, binaryIndexed_writes]
  repeat' apply And.intro
  all_goals exact sub_of_mem (by decide)
theorem skip5_0 (V : Valuation τ sig (Elt F)) {r : Ref sig .tc} (h : r ∉ W5_0) :
    StableHlo.after (C5_0 (F := F)) V (no_index (Proc.devRef .tc r)) = V (Proc.devRef .tc r) :=
  after_of_writes_sub _ V writes5_0 h
theorem open5_0 (V : Valuation τ sig (Elt F)) {r : Ref sig .tc} (h : r ∈ W5_0) :
    StableHlo.after (C5_0 (F := F)) V (no_index (Proc.devRef .tc r)) = StableHlo.after (L5_0 (F := F)) V (Proc.devRef .tc r) := rfl
noncomputable def U5_0 : List (Ref sig .tc) := [main_call2_v0, main_call2_v1, main_call2_v2, main_call2_v3, main_call2_v4]
theorem openU5_0 (V : Valuation τ sig (Elt F)) {r : Ref sig .tc} (h : r ∈ U5_0) :
    StableHlo.after (C5_0 (F := F)) V (no_index (Proc.devRef .tc r)) = StableHlo.after (L5_0 (F := F)) V (Proc.devRef .tc r) := rfl
set_option maxHeartbeats 4000000 in
theorem st_main_v57 (V : Valuation τ sig (Elt F)) :
    StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V))))))))) (no_index (Proc.devRef .tc main_v57))
      = Cert.ReferenceIdeal.Read.val_main_v57 (F := F) (V (Proc.devRef .tc main_arg1)) (V (Proc.devRef .tc main_arg2)) (V (Proc.devRef .tc main_arg3)) := by
  simp (disch := decide) only [skip0_0, skip0_1, skip0_2, skip0_3, skip0_4, skip1_0, skip2_0, skip3_0, skip4_0, open5_0, L5_0, st_main_cst_8, st_main_cst_7, st_main_v56, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L6_0 : List (HloOp τ sig (Elt F)) :=
  [ StableHlo.binary main_v49 main_v53 main_v58 (subf : (⟨S8x225, .f32⟩ : BufTy).Contents (Elt F) → (⟨S8x225, .f32⟩ : BufTy).Contents (Elt F) → (⟨S8x225, .f32⟩ : BufTy).Contents (Elt F)),
    StableHlo.nullary main_cst_9 (constant S_ .f32 0x00000000#32),
    StableHlo.nullary main_cst_10 (constant S_ .f32 0x3F800000#32) ]
def C6_0 : List (HloOp τ sig (Elt F)) := L6_0
noncomputable def W6_0 : List (Ref sig .tc) := [main_v58, main_cst_9, main_cst_10]
set_option maxHeartbeats 4000000 in
theorem writes6_0 : (C6_0 (F := F)).Forall fun op => op.writes ⊆ (W6_0.map (Proc.devRef (τ := τ) .tc)).toFinset := by
  simp only [C6_0, L6_0, List.Forall, nullary_writes, unary_writes, binary_writes, ternary_writes, quaternary_writes, reshape_writes, nary_writes, unaryIndexed_writes, binaryIndexed_writes]
  repeat' apply And.intro
  all_goals exact sub_of_mem (by decide)
theorem skip6_0 (V : Valuation τ sig (Elt F)) {r : Ref sig .tc} (h : r ∉ W6_0) :
    StableHlo.after (C6_0 (F := F)) V (no_index (Proc.devRef .tc r)) = V (Proc.devRef .tc r) :=
  after_of_writes_sub _ V writes6_0 h
theorem open6_0 (V : Valuation τ sig (Elt F)) {r : Ref sig .tc} (h : r ∈ W6_0) :
    StableHlo.after (C6_0 (F := F)) V (no_index (Proc.devRef .tc r)) = StableHlo.after (L6_0 (F := F)) V (Proc.devRef .tc r) := rfl
set_option maxHeartbeats 4000000 in
theorem st_main_v58 (V : Valuation τ sig (Elt F)) :
    StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V)))))))))) (no_index (Proc.devRef .tc main_v58))
      = Cert.ReferenceIdeal.Read.val_main_v58 (F := F) (V (Proc.devRef .tc main_arg1)) (V (Proc.devRef .tc main_arg2)) (V (Proc.devRef .tc main_arg3)) := by
  simp (disch := decide) only [skip0_0, skip0_1, skip0_2, skip0_3, skip0_4, skip1_0, skip2_0, skip3_0, skip4_0, skip5_0, open6_0, L6_0, st_main_v49, st_main_v53, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_cst_9 (V : Valuation τ sig (Elt F)) :
    StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V)))))))))) (no_index (Proc.devRef .tc main_cst_9))
      = Cert.ReferenceIdeal.Read.val_main_cst_9 (F := F) := by
  simp (disch := decide) only [skip0_0, skip0_1, skip0_2, skip0_3, skip0_4, skip1_0, skip2_0, skip3_0, skip4_0, skip5_0, open6_0, L6_0, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_cst_10 (V : Valuation τ sig (Elt F)) :
    StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V)))))))))) (no_index (Proc.devRef .tc main_cst_10))
      = Cert.ReferenceIdeal.Read.val_main_cst_10 (F := F) := by
  simp (disch := decide) only [skip0_0, skip0_1, skip0_2, skip0_3, skip0_4, skip1_0, skip2_0, skip3_0, skip4_0, skip5_0, open6_0, L6_0, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L7_0 : List (HloOp τ sig (Elt F)) :=
  [ StableHlo.TRef.unary (.of main_cst_9 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S8x225, .f32⟩) (broadcastInDim S8x225 ![] bcast_S_S8x225),
    StableHlo.TRef.binary (.of main_call3_v1 : StableHlo.TRef sig ⟨S8x225, .f32⟩) (.of main_v58 : StableHlo.TRef sig ⟨S8x225, .f32⟩) (.of main_call3_v2 : StableHlo.TRef sig ⟨S8x225, .f32⟩) maximumf,
    StableHlo.TRef.unary (.of main_cst_10 : StableHlo.TRef sig ⟨S_, .f32⟩) (.of main_call3_v3 : StableHlo.TRef sig ⟨S_, .f32⟩) id,
    StableHlo.TRef.unary (.of main_call3_v3 : StableHlo.TRef sig ⟨S_, .f32⟩) (.of main_call3_v4 : StableHlo.TRef sig ⟨S8x225, .f32⟩) (broadcastInDim S8x225 ![] bcast_S_S8x225),
    StableHlo.TRef.binary (.of main_call3_v4 : StableHlo.TRef sig ⟨S8x225, .f32⟩) (.of main_call3_v2 : StableHlo.TRef sig ⟨S8x225, .f32⟩) (.of main_v59 : StableHlo.TRef sig ⟨S8x225, .f32⟩) minimumf ]
def C7_0 : List (HloOp τ sig (Elt F)) := L7_0
noncomputable def W7_0 : List (Ref sig .tc) := [main_call3_v0, main_call3_v1, main_call3_v2, main_call3_v3, main_call3_v4, main_v59]
set_option maxHeartbeats 4000000 in
theorem writes7_0 : (C7_0 (F := F)).Forall fun op => op.writes ⊆ (W7_0.map (Proc.devRef (τ := τ) .tc)).toFinset := by
  simp only [C7_0, L7_0, List.Forall, nullary_writes, unary_writes, binary_writes, ternary_writes, quaternary_writes, reshape_writes, nary_writes, unaryIndexed_writes, binaryIndexed_writes]
  repeat' apply And.intro
  all_goals exact sub_of_mem (by decide)
theorem skip7_0 (V : Valuation τ sig (Elt F)) {r : Ref sig .tc} (h : r ∉ W7_0) :
    StableHlo.after (C7_0 (F := F)) V (no_index (Proc.devRef .tc r)) = V (Proc.devRef .tc r) :=
  after_of_writes_sub _ V writes7_0 h
theorem open7_0 (V : Valuation τ sig (Elt F)) {r : Ref sig .tc} (h : r ∈ W7_0) :
    StableHlo.after (C7_0 (F := F)) V (no_index (Proc.devRef .tc r)) = StableHlo.after (L7_0 (F := F)) V (Proc.devRef .tc r) := rfl
noncomputable def U7_0 : List (Ref sig .tc) := [main_call3_v0, main_call3_v1, main_call3_v2, main_call3_v3, main_call3_v4]
theorem openU7_0 (V : Valuation τ sig (Elt F)) {r : Ref sig .tc} (h : r ∈ U7_0) :
    StableHlo.after (C7_0 (F := F)) V (no_index (Proc.devRef .tc r)) = StableHlo.after (L7_0 (F := F)) V (Proc.devRef .tc r) := rfl
set_option maxHeartbeats 4000000 in
theorem st_main_v59 (V : Valuation τ sig (Elt F)) :
    StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V))))))))))) (no_index (Proc.devRef .tc main_v59))
      = Cert.ReferenceIdeal.Read.val_main_v59 (F := F) (V (Proc.devRef .tc main_arg1)) (V (Proc.devRef .tc main_arg2)) (V (Proc.devRef .tc main_arg3)) := by
  simp (disch := decide) only [skip0_0, skip0_1, skip0_2, skip0_3, skip0_4, skip1_0, skip2_0, skip3_0, skip4_0, skip5_0, skip6_0, open7_0, L7_0, st_main_cst_10, st_main_cst_9, st_main_v58, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

end Cert.Percept.HostK

end
-- ==== Proof.HostKChunks3.lean ====
/-
  The host operations before the region, cut into short runs, and how one buffer is read after them.

  The 338 operations are straight-line: each writes one buffer of its own. After a run of operations that does not
  write a buffer r, r holds what it held before (skip); after a run that does, r holds what the run's own operations
  leave (open), and those read their operands from the valuation before the run. The operations up to the inverse
  covariance and the centres are the reference's own, so each buffer they write that a later run reads holds, right
  after its run, the reference's stage of the same name applied to the argument arrays (st_…): one run is opened per
  buffer, and what it reads from earlier runs is already a stage.
  (Runs 13 to 18 of 38.)
-/
import proofs.«134758_j41807211659417_2_alg».proof.Proof.HostKChunks2

set_option maxRecDepth 16384

noncomputable section

namespace Cert.Percept.HostK

open Cert.KernelIdeal Cert.KernelIdeal.Gen Idealize.ShloMosaic Idealize.ShloMosaic.TcCoe Idealize.SL.Sem Idealize.ShloMosaic.StableHlo

variable {F : FTy → Type} [FloatOps F]

set_option maxHeartbeats 4000000 in
abbrev L8_0 : List (HloOp τ sig (Elt F)) :=
  [ StableHlo.nullary main_c_11 (constantI S_ 32 0#32),
    StableHlo.unary main_c_11 main_v60 (broadcastInDim S8x225 ![] bcast_S_S8x225 : (⟨S_, .i32⟩ : BufTy).Contents (Elt F) → (⟨S8x225, .i32⟩ : BufTy).Contents (Elt F)),
    StableHlo.binary main_v55 main_v60 main_v61 (cmpi .slt : (⟨S8x225, .i32⟩ : BufTy).Contents (Elt F) → (⟨S8x225, .i32⟩ : BufTy).Contents (Elt F) → (⟨S8x225, .i1⟩ : BufTy).Contents (Elt F)),
    StableHlo.nullary main_c_12 (constantI S_ 32 200#32),
    StableHlo.unary main_c_12 main_v62 (broadcastInDim S8x225 ![] bcast_S_S8x225 : (⟨S_, .i32⟩ : BufTy).Contents (Elt F) → (⟨S8x225, .i32⟩ : BufTy).Contents (Elt F)),
    StableHlo.binary main_v55 main_v62 main_v63 (addi : (⟨S8x225, .i32⟩ : BufTy).Contents (Elt F) → (⟨S8x225, .i32⟩ : BufTy).Contents (Elt F) → (⟨S8x225, .i32⟩ : BufTy).Contents (Elt F)),
    StableHlo.ternary main_v61 main_v63 main_v55 main_v64 (select : (⟨S8x225, .i1⟩ : BufTy).Contents (Elt F) → (⟨S8x225, .i32⟩ : BufTy).Contents (Elt F) → (⟨S8x225, .i32⟩ : BufTy).Contents (Elt F) → (⟨S8x225, .i32⟩ : BufTy).Contents (Elt F)),
    StableHlo.nullary main_c_13 (constantI S_ 32 0#32),
    StableHlo.unary main_c_13 main_v65 (broadcastInDim S8x225 ![] bcast_S_S8x225 : (⟨S_, .i32⟩ : BufTy).Contents (Elt F) → (⟨S8x225, .i32⟩ : BufTy).Contents (Elt F)),
    StableHlo.binary main_v54 main_v65 main_v66 (cmpi .slt : (⟨S8x225, .i32⟩ : BufTy).Contents (Elt F) → (⟨S8x225, .i32⟩ : BufTy).Contents (Elt F) → (⟨S8x225, .i1⟩ : BufTy).Contents (Elt F)),
    StableHlo.nullary main_c_14 (constantI S_ 32 200#32) ]
def C8_0 : List (HloOp τ sig (Elt F)) := L8_0
noncomputable def W8_0 : List (Ref sig .tc) := [main_c_11, main_v60, main_v61, main_c_12, main_v62, main_v63, main_v64, main_c_13, main_v65, main_v66, main_c_14]
set_option maxHeartbeats 4000000 in
theorem writes8_0 : (C8_0 (F := F)).Forall fun op => op.writes ⊆ (W8_0.map (Proc.devRef (τ := τ) .tc)).toFinset := by
  simp only [C8_0, L8_0, List.Forall, nullary_writes, unary_writes, binary_writes, ternary_writes, quaternary_writes, reshape_writes, nary_writes, unaryIndexed_writes, binaryIndexed_writes]
  repeat' apply And.intro
  all_goals exact sub_of_mem (by decide)
theorem skip8_0 (V : Valuation τ sig (Elt F)) {r : Ref sig .tc} (h : r ∉ W8_0) :
    StableHlo.after (C8_0 (F := F)) V (no_index (Proc.devRef .tc r)) = V (Proc.devRef .tc r) :=
  after_of_writes_sub _ V writes8_0 h
theorem open8_0 (V : Valuation τ sig (Elt F)) {r : Ref sig .tc} (h : r ∈ W8_0) :
    StableHlo.after (C8_0 (F := F)) V (no_index (Proc.devRef .tc r)) = StableHlo.after (L8_0 (F := F)) V (Proc.devRef .tc r) := rfl
noncomputable def U8_0 : List (Ref sig .tc) := [main_c_11, main_v60, main_v61, main_c_12, main_v62, main_v63, main_c_13, main_v65]
theorem openU8_0 (V : Valuation τ sig (Elt F)) {r : Ref sig .tc} (h : r ∈ U8_0) :
    StableHlo.after (C8_0 (F := F)) V (no_index (Proc.devRef .tc r)) = StableHlo.after (L8_0 (F := F)) V (Proc.devRef .tc r) := rfl
set_option maxHeartbeats 4000000 in
theorem st_main_v64 (V : Valuation τ sig (Elt F)) :
    StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V)))))))))))) (no_index (Proc.devRef .tc main_v64))
      = Cert.ReferenceIdeal.Read.val_main_v64 (F := F) (V (Proc.devRef .tc main_arg1)) (V (Proc.devRef .tc main_arg2)) (V (Proc.devRef .tc main_arg3)) := by
  simp (disch := decide) only [skip0_0, skip0_1, skip0_2, skip0_3, skip0_4, skip1_0, skip2_0, skip3_0, skip4_0, skip5_0, skip6_0, skip7_0, open8_0, L8_0, st_main_v55, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v66 (V : Valuation τ sig (Elt F)) :
    StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V)))))))))))) (no_index (Proc.devRef .tc main_v66))
      = Cert.ReferenceIdeal.Read.val_main_v66 (F := F) (V (Proc.devRef .tc main_arg1)) (V (Proc.devRef .tc main_arg2)) (V (Proc.devRef .tc main_arg3)) := by
  simp (disch := decide) only [skip0_0, skip0_1, skip0_2, skip0_3, skip0_4, skip1_0, skip2_0, skip3_0, skip4_0, skip5_0, skip6_0, skip7_0, open8_0, L8_0, st_main_v54, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_c_14 (V : Valuation τ sig (Elt F)) :
    StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V)))))))))))) (no_index (Proc.devRef .tc main_c_14))
      = Cert.ReferenceIdeal.Read.val_main_c_14 (F := F) := by
  simp (disch := decide) only [skip0_0, skip0_1, skip0_2, skip0_3, skip0_4, skip1_0, skip2_0, skip3_0, skip4_0, skip5_0, skip6_0, skip7_0, open8_0, L8_0, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L8_1 : List (HloOp τ sig (Elt F)) :=
  [ StableHlo.unary main_c_14 main_v67 (broadcastInDim S8x225 ![] bcast_S_S8x225 : (⟨S_, .i32⟩ : BufTy).Contents (Elt F) → (⟨S8x225, .i32⟩ : BufTy).Contents (Elt F)),
    StableHlo.binary main_v54 main_v67 main_v68 (addi : (⟨S8x225, .i32⟩ : BufTy).Contents (Elt F) → (⟨S8x225, .i32⟩ : BufTy).Contents (Elt F) → (⟨S8x225, .i32⟩ : BufTy).Contents (Elt F)),
    StableHlo.ternary main_v66 main_v68 main_v54 main_v69 (select : (⟨S8x225, .i1⟩ : BufTy).Contents (Elt F) → (⟨S8x225, .i32⟩ : BufTy).Contents (Elt F) → (⟨S8x225, .i32⟩ : BufTy).Contents (Elt F) → (⟨S8x225, .i32⟩ : BufTy).Contents (Elt F)),
    StableHlo.unary main_v64 main_v70 (broadcastInDim S8x225x1 ![0, 1] bcast_S8x225_S8x225x1_0_1 : (⟨S8x225, .i32⟩ : BufTy).Contents (Elt F) → (⟨S8x225x1, .i32⟩ : BufTy).Contents (Elt F)),
    StableHlo.unary main_v69 main_v71 (broadcastInDim S8x225x1 ![0, 1] bcast_S8x225_S8x225x1_0_1 : (⟨S8x225, .i32⟩ : BufTy).Contents (Elt F) → (⟨S8x225x1, .i32⟩ : BufTy).Contents (Elt F)),
    StableHlo.binary main_v70 main_v71 main_v72 ((fun a b => concatenate S8x225x2 2 [⟨S8x225x1, a⟩, ⟨S8x225x1, b⟩] concatenates_S8x225x1_S8x225x1_S8x225x2_d2) : (⟨S8x225x1, .i32⟩ : BufTy).Contents (Elt F) → (⟨S8x225x1, .i32⟩ : BufTy).Contents (Elt F) → (⟨S8x225x2, .i32⟩ : BufTy).Contents (Elt F)),
    StableHlo.binary main_arg4 main_v72 main_v73 ((fun x i => Host.gather gather_S200x200_S8x225x2_S8x225_n_01_n_n_01_2_11 x i) : (⟨S200x200, .f32⟩ : BufTy).Contents (Elt F) → (⟨S8x225x2, .i32⟩ : BufTy).Contents (Elt F) → (⟨S8x225, .f32⟩ : BufTy).Contents (Elt F)),
    StableHlo.nullary main_c_15 (constantI S_ 32 1#32),
    StableHlo.unary main_c_15 main_v74 (broadcastInDim S8x225 ![] bcast_S_S8x225 : (⟨S_, .i32⟩ : BufTy).Contents (Elt F) → (⟨S8x225, .i32⟩ : BufTy).Contents (Elt F)),
    StableHlo.binary main_v54 main_v74 main_v75 (addi : (⟨S8x225, .i32⟩ : BufTy).Contents (Elt F) → (⟨S8x225, .i32⟩ : BufTy).Contents (Elt F) → (⟨S8x225, .i32⟩ : BufTy).Contents (Elt F)),
    StableHlo.nullary main_c_16 (constantI S_ 32 0#32) ]
def C8_1 : List (HloOp τ sig (Elt F)) := L8_1
noncomputable def W8_1 : List (Ref sig .tc) := [main_v67, main_v68, main_v69, main_v70, main_v71, main_v72, main_v73, main_c_15, main_v74, main_v75, main_c_16]
set_option maxHeartbeats 4000000 in
theorem writes8_1 : (C8_1 (F := F)).Forall fun op => op.writes ⊆ (W8_1.map (Proc.devRef (τ := τ) .tc)).toFinset := by
  simp only [C8_1, L8_1, List.Forall, nullary_writes, unary_writes, binary_writes, ternary_writes, quaternary_writes, reshape_writes, nary_writes, unaryIndexed_writes, binaryIndexed_writes]
  repeat' apply And.intro
  all_goals exact sub_of_mem (by decide)
theorem skip8_1 (V : Valuation τ sig (Elt F)) {r : Ref sig .tc} (h : r ∉ W8_1) :
    StableHlo.after (C8_1 (F := F)) V (no_index (Proc.devRef .tc r)) = V (Proc.devRef .tc r) :=
  after_of_writes_sub _ V writes8_1 h
theorem open8_1 (V : Valuation τ sig (Elt F)) {r : Ref sig .tc} (h : r ∈ W8_1) :
    StableHlo.after (C8_1 (F := F)) V (no_index (Proc.devRef .tc r)) = StableHlo.after (L8_1 (F := F)) V (Proc.devRef .tc r) := rfl
noncomputable def U8_1 : List (Ref sig .tc) := [main_v67, main_v68, main_v69, main_v70, main_v71, main_v72, main_c_15, main_v74]
theorem openU8_1 (V : Valuation τ sig (Elt F)) {r : Ref sig .tc} (h : r ∈ U8_1) :
    StableHlo.after (C8_1 (F := F)) V (no_index (Proc.devRef .tc r)) = StableHlo.after (L8_1 (F := F)) V (Proc.devRef .tc r) := rfl
set_option maxHeartbeats 4000000 in
theorem st_main_v73 (V : Valuation τ sig (Elt F)) :
    StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V))))))))))))) (no_index (Proc.devRef .tc main_v73))
      = Cert.ReferenceIdeal.Read.val_main_v73 (F := F) (V (Proc.devRef .tc main_arg1)) (V (Proc.devRef .tc main_arg2)) (V (Proc.devRef .tc main_arg3)) (V (Proc.devRef .tc main_arg4)) := by
  simp (disch := decide) only [skip0_0, skip0_1, skip0_2, skip0_3, skip0_4, skip1_0, skip2_0, skip3_0, skip4_0, skip5_0, skip6_0, skip7_0, skip8_0, open8_1, L8_1, st_main_v64, st_main_v66, st_main_v54, st_main_c_14, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v75 (V : Valuation τ sig (Elt F)) :
    StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V))))))))))))) (no_index (Proc.devRef .tc main_v75))
      = Cert.ReferenceIdeal.Read.val_main_v75 (F := F) (V (Proc.devRef .tc main_arg1)) (V (Proc.devRef .tc main_arg2)) (V (Proc.devRef .tc main_arg3)) := by
  simp (disch := decide) only [skip0_0, skip0_1, skip0_2, skip0_3, skip0_4, skip1_0, skip2_0, skip3_0, skip4_0, skip5_0, skip6_0, skip7_0, skip8_0, open8_1, L8_1, st_main_v54, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_c_16 (V : Valuation τ sig (Elt F)) :
    StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V))))))))))))) (no_index (Proc.devRef .tc main_c_16))
      = Cert.ReferenceIdeal.Read.val_main_c_16 (F := F) := by
  simp (disch := decide) only [skip0_0, skip0_1, skip0_2, skip0_3, skip0_4, skip1_0, skip2_0, skip3_0, skip4_0, skip5_0, skip6_0, skip7_0, skip8_0, open8_1, L8_1, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L8_2 : List (HloOp τ sig (Elt F)) :=
  [ StableHlo.unary main_c_16 main_v76 (broadcastInDim S8x225 ![] bcast_S_S8x225 : (⟨S_, .i32⟩ : BufTy).Contents (Elt F) → (⟨S8x225, .i32⟩ : BufTy).Contents (Elt F)),
    StableHlo.binary main_v55 main_v76 main_v77 (cmpi .slt : (⟨S8x225, .i32⟩ : BufTy).Contents (Elt F) → (⟨S8x225, .i32⟩ : BufTy).Contents (Elt F) → (⟨S8x225, .i1⟩ : BufTy).Contents (Elt F)),
    StableHlo.nullary main_c_17 (constantI S_ 32 200#32),
    StableHlo.unary main_c_17 main_v78 (broadcastInDim S8x225 ![] bcast_S_S8x225 : (⟨S_, .i32⟩ : BufTy).Contents (Elt F) → (⟨S8x225, .i32⟩ : BufTy).Contents (Elt F)),
    StableHlo.binary main_v55 main_v78 main_v79 (addi : (⟨S8x225, .i32⟩ : BufTy).Contents (Elt F) → (⟨S8x225, .i32⟩ : BufTy).Contents (Elt F) → (⟨S8x225, .i32⟩ : BufTy).Contents (Elt F)),
    StableHlo.ternary main_v77 main_v79 main_v55 main_v80 (select : (⟨S8x225, .i1⟩ : BufTy).Contents (Elt F) → (⟨S8x225, .i32⟩ : BufTy).Contents (Elt F) → (⟨S8x225, .i32⟩ : BufTy).Contents (Elt F) → (⟨S8x225, .i32⟩ : BufTy).Contents (Elt F)),
    StableHlo.nullary main_c_18 (constantI S_ 32 0#32),
    StableHlo.unary main_c_18 main_v81 (broadcastInDim S8x225 ![] bcast_S_S8x225 : (⟨S_, .i32⟩ : BufTy).Contents (Elt F) → (⟨S8x225, .i32⟩ : BufTy).Contents (Elt F)),
    StableHlo.binary main_v75 main_v81 main_v82 (cmpi .slt : (⟨S8x225, .i32⟩ : BufTy).Contents (Elt F) → (⟨S8x225, .i32⟩ : BufTy).Contents (Elt F) → (⟨S8x225, .i1⟩ : BufTy).Contents (Elt F)),
    StableHlo.nullary main_c_19 (constantI S_ 32 200#32),
    StableHlo.unary main_c_19 main_v83 (broadcastInDim S8x225 ![] bcast_S_S8x225 : (⟨S_, .i32⟩ : BufTy).Contents (Elt F) → (⟨S8x225, .i32⟩ : BufTy).Contents (Elt F)) ]
def C8_2 : List (HloOp τ sig (Elt F)) := L8_2
noncomputable def W8_2 : List (Ref sig .tc) := [main_v76, main_v77, main_c_17, main_v78, main_v79, main_v80, main_c_18, main_v81, main_v82, main_c_19, main_v83]
set_option maxHeartbeats 4000000 in
theorem writes8_2 : (C8_2 (F := F)).Forall fun op => op.writes ⊆ (W8_2.map (Proc.devRef (τ := τ) .tc)).toFinset := by
  simp only [C8_2, L8_2, List.Forall, nullary_writes, unary_writes, binary_writes, ternary_writes, quaternary_writes, reshape_writes, nary_writes, unaryIndexed_writes, binaryIndexed_writes]
  repeat' apply And.intro
  all_goals exact sub_of_mem (by decide)
theorem skip8_2 (V : Valuation τ sig (Elt F)) {r : Ref sig .tc} (h : r ∉ W8_2) :
    StableHlo.after (C8_2 (F := F)) V (no_index (Proc.devRef .tc r)) = V (Proc.devRef .tc r) :=
  after_of_writes_sub _ V writes8_2 h
theorem open8_2 (V : Valuation τ sig (Elt F)) {r : Ref sig .tc} (h : r ∈ W8_2) :
    StableHlo.after (C8_2 (F := F)) V (no_index (Proc.devRef .tc r)) = StableHlo.after (L8_2 (F := F)) V (Proc.devRef .tc r) := rfl
noncomputable def U8_2 : List (Ref sig .tc) := [main_v76, main_v77, main_c_17, main_v78, main_v79, main_c_18, main_v81, main_c_19]
theorem openU8_2 (V : Valuation τ sig (Elt F)) {r : Ref sig .tc} (h : r ∈ U8_2) :
    StableHlo.after (C8_2 (F := F)) V (no_index (Proc.devRef .tc r)) = StableHlo.after (L8_2 (F := F)) V (Proc.devRef .tc r) := rfl
set_option maxHeartbeats 4000000 in
theorem st_main_v80 (V : Valuation τ sig (Elt F)) :
    StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V)))))))))))))) (no_index (Proc.devRef .tc main_v80))
      = Cert.ReferenceIdeal.Read.val_main_v80 (F := F) (V (Proc.devRef .tc main_arg1)) (V (Proc.devRef .tc main_arg2)) (V (Proc.devRef .tc main_arg3)) := by
  simp (disch := decide) only [skip0_0, skip0_1, skip0_2, skip0_3, skip0_4, skip1_0, skip2_0, skip3_0, skip4_0, skip5_0, skip6_0, skip7_0, skip8_0, skip8_1, open8_2, L8_2, st_main_v55, st_main_c_16, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v82 (V : Valuation τ sig (Elt F)) :
    StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V)))))))))))))) (no_index (Proc.devRef .tc main_v82))
      = Cert.ReferenceIdeal.Read.val_main_v82 (F := F) (V (Proc.devRef .tc main_arg1)) (V (Proc.devRef .tc main_arg2)) (V (Proc.devRef .tc main_arg3)) := by
  simp (disch := decide) only [skip0_0, skip0_1, skip0_2, skip0_3, skip0_4, skip1_0, skip2_0, skip3_0, skip4_0, skip5_0, skip6_0, skip7_0, skip8_0, skip8_1, open8_2, L8_2, st_main_v75, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v83 (V : Valuation τ sig (Elt F)) :
    StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V)))))))))))))) (no_index (Proc.devRef .tc main_v83))
      = Cert.ReferenceIdeal.Read.val_main_v83 (F := F) := by
  simp (disch := decide) only [skip0_0, skip0_1, skip0_2, skip0_3, skip0_4, skip1_0, skip2_0, skip3_0, skip4_0, skip5_0, skip6_0, skip7_0, skip8_0, skip8_1, open8_2, L8_2, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L8_3 : List (HloOp τ sig (Elt F)) :=
  [ StableHlo.binary main_v75 main_v83 main_v84 (addi : (⟨S8x225, .i32⟩ : BufTy).Contents (Elt F) → (⟨S8x225, .i32⟩ : BufTy).Contents (Elt F) → (⟨S8x225, .i32⟩ : BufTy).Contents (Elt F)),
    StableHlo.ternary main_v82 main_v84 main_v75 main_v85 (select : (⟨S8x225, .i1⟩ : BufTy).Contents (Elt F) → (⟨S8x225, .i32⟩ : BufTy).Contents (Elt F) → (⟨S8x225, .i32⟩ : BufTy).Contents (Elt F) → (⟨S8x225, .i32⟩ : BufTy).Contents (Elt F)),
    StableHlo.unary main_v80 main_v86 (broadcastInDim S8x225x1 ![0, 1] bcast_S8x225_S8x225x1_0_1 : (⟨S8x225, .i32⟩ : BufTy).Contents (Elt F) → (⟨S8x225x1, .i32⟩ : BufTy).Contents (Elt F)),
    StableHlo.unary main_v85 main_v87 (broadcastInDim S8x225x1 ![0, 1] bcast_S8x225_S8x225x1_0_1 : (⟨S8x225, .i32⟩ : BufTy).Contents (Elt F) → (⟨S8x225x1, .i32⟩ : BufTy).Contents (Elt F)),
    StableHlo.binary main_v86 main_v87 main_v88 ((fun a b => concatenate S8x225x2 2 [⟨S8x225x1, a⟩, ⟨S8x225x1, b⟩] concatenates_S8x225x1_S8x225x1_S8x225x2_d2) : (⟨S8x225x1, .i32⟩ : BufTy).Contents (Elt F) → (⟨S8x225x1, .i32⟩ : BufTy).Contents (Elt F) → (⟨S8x225x2, .i32⟩ : BufTy).Contents (Elt F)),
    StableHlo.binary main_arg4 main_v88 main_v89 ((fun x i => Host.gather gather_S200x200_S8x225x2_S8x225_n_01_n_n_01_2_11 x i) : (⟨S200x200, .f32⟩ : BufTy).Contents (Elt F) → (⟨S8x225x2, .i32⟩ : BufTy).Contents (Elt F) → (⟨S8x225, .f32⟩ : BufTy).Contents (Elt F)),
    StableHlo.nullary main_c_20 (constantI S_ 32 1#32),
    StableHlo.unary main_c_20 main_v90 (broadcastInDim S8x225 ![] bcast_S_S8x225 : (⟨S_, .i32⟩ : BufTy).Contents (Elt F) → (⟨S8x225, .i32⟩ : BufTy).Contents (Elt F)),
    StableHlo.binary main_v55 main_v90 main_v91 (addi : (⟨S8x225, .i32⟩ : BufTy).Contents (Elt F) → (⟨S8x225, .i32⟩ : BufTy).Contents (Elt F) → (⟨S8x225, .i32⟩ : BufTy).Contents (Elt F)),
    StableHlo.nullary main_c_21 (constantI S_ 32 0#32),
    StableHlo.unary main_c_21 main_v92 (broadcastInDim S8x225 ![] bcast_S_S8x225 : (⟨S_, .i32⟩ : BufTy).Contents (Elt F) → (⟨S8x225, .i32⟩ : BufTy).Contents (Elt F)) ]
def C8_3 : List (HloOp τ sig (Elt F)) := L8_3
noncomputable def W8_3 : List (Ref sig .tc) := [main_v84, main_v85, main_v86, main_v87, main_v88, main_v89, main_c_20, main_v90, main_v91, main_c_21, main_v92]
set_option maxHeartbeats 4000000 in
theorem writes8_3 : (C8_3 (F := F)).Forall fun op => op.writes ⊆ (W8_3.map (Proc.devRef (τ := τ) .tc)).toFinset := by
  simp only [C8_3, L8_3, List.Forall, nullary_writes, unary_writes, binary_writes, ternary_writes, quaternary_writes, reshape_writes, nary_writes, unaryIndexed_writes, binaryIndexed_writes]
  repeat' apply And.intro
  all_goals exact sub_of_mem (by decide)
theorem skip8_3 (V : Valuation τ sig (Elt F)) {r : Ref sig .tc} (h : r ∉ W8_3) :
    StableHlo.after (C8_3 (F := F)) V (no_index (Proc.devRef .tc r)) = V (Proc.devRef .tc r) :=
  after_of_writes_sub _ V writes8_3 h
theorem open8_3 (V : Valuation τ sig (Elt F)) {r : Ref sig .tc} (h : r ∈ W8_3) :
    StableHlo.after (C8_3 (F := F)) V (no_index (Proc.devRef .tc r)) = StableHlo.after (L8_3 (F := F)) V (Proc.devRef .tc r) := rfl
noncomputable def U8_3 : List (Ref sig .tc) := [main_v84, main_v85, main_v86, main_v87, main_v88, main_c_20, main_v90, main_c_21]
theorem openU8_3 (V : Valuation τ sig (Elt F)) {r : Ref sig .tc} (h : r ∈ U8_3) :
    StableHlo.after (C8_3 (F := F)) V (no_index (Proc.devRef .tc r)) = StableHlo.after (L8_3 (F := F)) V (Proc.devRef .tc r) := rfl
set_option maxHeartbeats 4000000 in
theorem st_main_v89 (V : Valuation τ sig (Elt F)) :
    StableHlo.after (C8_3 (F := F)) (StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V))))))))))))))) (no_index (Proc.devRef .tc main_v89))
      = Cert.ReferenceIdeal.Read.val_main_v89 (F := F) (V (Proc.devRef .tc main_arg1)) (V (Proc.devRef .tc main_arg2)) (V (Proc.devRef .tc main_arg3)) (V (Proc.devRef .tc main_arg4)) := by
  simp (disch := decide) only [skip0_0, skip0_1, skip0_2, skip0_3, skip0_4, skip1_0, skip2_0, skip3_0, skip4_0, skip5_0, skip6_0, skip7_0, skip8_0, skip8_1, skip8_2, open8_3, L8_3, st_main_v80, st_main_v82, st_main_v75, st_main_v83, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v91 (V : Valuation τ sig (Elt F)) :
    StableHlo.after (C8_3 (F := F)) (StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V))))))))))))))) (no_index (Proc.devRef .tc main_v91))
      = Cert.ReferenceIdeal.Read.val_main_v91 (F := F) (V (Proc.devRef .tc main_arg1)) (V (Proc.devRef .tc main_arg2)) (V (Proc.devRef .tc main_arg3)) := by
  simp (disch := decide) only [skip0_0, skip0_1, skip0_2, skip0_3, skip0_4, skip1_0, skip2_0, skip3_0, skip4_0, skip5_0, skip6_0, skip7_0, skip8_0, skip8_1, skip8_2, open8_3, L8_3, st_main_v55, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v92 (V : Valuation τ sig (Elt F)) :
    StableHlo.after (C8_3 (F := F)) (StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V))))))))))))))) (no_index (Proc.devRef .tc main_v92))
      = Cert.ReferenceIdeal.Read.val_main_v92 (F := F) := by
  simp (disch := decide) only [skip0_0, skip0_1, skip0_2, skip0_3, skip0_4, skip1_0, skip2_0, skip3_0, skip4_0, skip5_0, skip6_0, skip7_0, skip8_0, skip8_1, skip8_2, open8_3, L8_3, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L8_4 : List (HloOp τ sig (Elt F)) :=
  [ StableHlo.binary main_v91 main_v92 main_v93 (cmpi .slt : (⟨S8x225, .i32⟩ : BufTy).Contents (Elt F) → (⟨S8x225, .i32⟩ : BufTy).Contents (Elt F) → (⟨S8x225, .i1⟩ : BufTy).Contents (Elt F)),
    StableHlo.nullary main_c_22 (constantI S_ 32 200#32),
    StableHlo.unary main_c_22 main_v94 (broadcastInDim S8x225 ![] bcast_S_S8x225 : (⟨S_, .i32⟩ : BufTy).Contents (Elt F) → (⟨S8x225, .i32⟩ : BufTy).Contents (Elt F)),
    StableHlo.binary main_v91 main_v94 main_v95 (addi : (⟨S8x225, .i32⟩ : BufTy).Contents (Elt F) → (⟨S8x225, .i32⟩ : BufTy).Contents (Elt F) → (⟨S8x225, .i32⟩ : BufTy).Contents (Elt F)),
    StableHlo.ternary main_v93 main_v95 main_v91 main_v96 (select : (⟨S8x225, .i1⟩ : BufTy).Contents (Elt F) → (⟨S8x225, .i32⟩ : BufTy).Contents (Elt F) → (⟨S8x225, .i32⟩ : BufTy).Contents (Elt F) → (⟨S8x225, .i32⟩ : BufTy).Contents (Elt F)),
    StableHlo.nullary main_c_23 (constantI S_ 32 0#32),
    StableHlo.unary main_c_23 main_v97 (broadcastInDim S8x225 ![] bcast_S_S8x225 : (⟨S_, .i32⟩ : BufTy).Contents (Elt F) → (⟨S8x225, .i32⟩ : BufTy).Contents (Elt F)),
    StableHlo.binary main_v54 main_v97 main_v98 (cmpi .slt : (⟨S8x225, .i32⟩ : BufTy).Contents (Elt F) → (⟨S8x225, .i32⟩ : BufTy).Contents (Elt F) → (⟨S8x225, .i1⟩ : BufTy).Contents (Elt F)),
    StableHlo.nullary main_c_24 (constantI S_ 32 200#32),
    StableHlo.unary main_c_24 main_v99 (broadcastInDim S8x225 ![] bcast_S_S8x225 : (⟨S_, .i32⟩ : BufTy).Contents (Elt F) → (⟨S8x225, .i32⟩ : BufTy).Contents (Elt F)),
    StableHlo.binary main_v54 main_v99 main_v100 (addi : (⟨S8x225, .i32⟩ : BufTy).Contents (Elt F) → (⟨S8x225, .i32⟩ : BufTy).Contents (Elt F) → (⟨S8x225, .i32⟩ : BufTy).Contents (Elt F)) ]
def C8_4 : List (HloOp τ sig (Elt F)) := L8_4
noncomputable def W8_4 : List (Ref sig .tc) := [main_v93, main_c_22, main_v94, main_v95, main_v96, main_c_23, main_v97, main_v98, main_c_24, main_v99, main_v100]
set_option maxHeartbeats 4000000 in
theorem writes8_4 : (C8_4 (F := F)).Forall fun op => op.writes ⊆ (W8_4.map (Proc.devRef (τ := τ) .tc)).toFinset := by
  simp only [C8_4, L8_4, List.Forall, nullary_writes, unary_writes, binary_writes, ternary_writes, quaternary_writes, reshape_writes, nary_writes, unaryIndexed_writes, binaryIndexed_writes]
  repeat' apply And.intro
  all_goals exact sub_of_mem (by decide)
theorem skip8_4 (V : Valuation τ sig (Elt F)) {r : Ref sig .tc} (h : r ∉ W8_4) :
    StableHlo.after (C8_4 (F := F)) V (no_index (Proc.devRef .tc r)) = V (Proc.devRef .tc r) :=
  after_of_writes_sub _ V writes8_4 h
theorem open8_4 (V : Valuation τ sig (Elt F)) {r : Ref sig .tc} (h : r ∈ W8_4) :
    StableHlo.after (C8_4 (F := F)) V (no_index (Proc.devRef .tc r)) = StableHlo.after (L8_4 (F := F)) V (Proc.devRef .tc r) := rfl
noncomputable def U8_4 : List (Ref sig .tc) := [main_v93, main_c_22, main_v94, main_v95, main_c_23, main_v97, main_c_24, main_v99]
theorem openU8_4 (V : Valuation τ sig (Elt F)) {r : Ref sig .tc} (h : r ∈ U8_4) :
    StableHlo.after (C8_4 (F := F)) V (no_index (Proc.devRef .tc r)) = StableHlo.after (L8_4 (F := F)) V (Proc.devRef .tc r) := rfl
set_option maxHeartbeats 4000000 in
theorem st_main_v96 (V : Valuation τ sig (Elt F)) :
    StableHlo.after (C8_4 (F := F)) (StableHlo.after (C8_3 (F := F)) (StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V)))))))))))))))) (no_index (Proc.devRef .tc main_v96))
      = Cert.ReferenceIdeal.Read.val_main_v96 (F := F) (V (Proc.devRef .tc main_arg1)) (V (Proc.devRef .tc main_arg2)) (V (Proc.devRef .tc main_arg3)) := by
  simp (disch := decide) only [skip0_0, skip0_1, skip0_2, skip0_3, skip0_4, skip1_0, skip2_0, skip3_0, skip4_0, skip5_0, skip6_0, skip7_0, skip8_0, skip8_1, skip8_2, skip8_3, open8_4, L8_4, st_main_v91, st_main_v92, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v98 (V : Valuation τ sig (Elt F)) :
    StableHlo.after (C8_4 (F := F)) (StableHlo.after (C8_3 (F := F)) (StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V)))))))))))))))) (no_index (Proc.devRef .tc main_v98))
      = Cert.ReferenceIdeal.Read.val_main_v98 (F := F) (V (Proc.devRef .tc main_arg1)) (V (Proc.devRef .tc main_arg2)) (V (Proc.devRef .tc main_arg3)) := by
  simp (disch := decide) only [skip0_0, skip0_1, skip0_2, skip0_3, skip0_4, skip1_0, skip2_0, skip3_0, skip4_0, skip5_0, skip6_0, skip7_0, skip8_0, skip8_1, skip8_2, skip8_3, open8_4, L8_4, st_main_v54, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v100 (V : Valuation τ sig (Elt F)) :
    StableHlo.after (C8_4 (F := F)) (StableHlo.after (C8_3 (F := F)) (StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V)))))))))))))))) (no_index (Proc.devRef .tc main_v100))
      = Cert.ReferenceIdeal.Read.val_main_v100 (F := F) (V (Proc.devRef .tc main_arg1)) (V (Proc.devRef .tc main_arg2)) (V (Proc.devRef .tc main_arg3)) := by
  simp (disch := decide) only [skip0_0, skip0_1, skip0_2, skip0_3, skip0_4, skip1_0, skip2_0, skip3_0, skip4_0, skip5_0, skip6_0, skip7_0, skip8_0, skip8_1, skip8_2, skip8_3, open8_4, L8_4, st_main_v54, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L8_5 : List (HloOp τ sig (Elt F)) :=
  [ StableHlo.ternary main_v98 main_v100 main_v54 main_v101 (select : (⟨S8x225, .i1⟩ : BufTy).Contents (Elt F) → (⟨S8x225, .i32⟩ : BufTy).Contents (Elt F) → (⟨S8x225, .i32⟩ : BufTy).Contents (Elt F) → (⟨S8x225, .i32⟩ : BufTy).Contents (Elt F)),
    StableHlo.unary main_v96 main_v102 (broadcastInDim S8x225x1 ![0, 1] bcast_S8x225_S8x225x1_0_1 : (⟨S8x225, .i32⟩ : BufTy).Contents (Elt F) → (⟨S8x225x1, .i32⟩ : BufTy).Contents (Elt F)),
    StableHlo.unary main_v101 main_v103 (broadcastInDim S8x225x1 ![0, 1] bcast_S8x225_S8x225x1_0_1 : (⟨S8x225, .i32⟩ : BufTy).Contents (Elt F) → (⟨S8x225x1, .i32⟩ : BufTy).Contents (Elt F)),
    StableHlo.binary main_v102 main_v103 main_v104 ((fun a b => concatenate S8x225x2 2 [⟨S8x225x1, a⟩, ⟨S8x225x1, b⟩] concatenates_S8x225x1_S8x225x1_S8x225x2_d2) : (⟨S8x225x1, .i32⟩ : BufTy).Contents (Elt F) → (⟨S8x225x1, .i32⟩ : BufTy).Contents (Elt F) → (⟨S8x225x2, .i32⟩ : BufTy).Contents (Elt F)),
    StableHlo.binary main_arg4 main_v104 main_v105 ((fun x i => Host.gather gather_S200x200_S8x225x2_S8x225_n_01_n_n_01_2_11 x i) : (⟨S200x200, .f32⟩ : BufTy).Contents (Elt F) → (⟨S8x225x2, .i32⟩ : BufTy).Contents (Elt F) → (⟨S8x225, .f32⟩ : BufTy).Contents (Elt F)),
    StableHlo.nullary main_c_25 (constantI S_ 32 1#32),
    StableHlo.unary main_c_25 main_v106 (broadcastInDim S8x225 ![] bcast_S_S8x225 : (⟨S_, .i32⟩ : BufTy).Contents (Elt F) → (⟨S8x225, .i32⟩ : BufTy).Contents (Elt F)),
    StableHlo.binary main_v55 main_v106 main_v107 (addi : (⟨S8x225, .i32⟩ : BufTy).Contents (Elt F) → (⟨S8x225, .i32⟩ : BufTy).Contents (Elt F) → (⟨S8x225, .i32⟩ : BufTy).Contents (Elt F)),
    StableHlo.nullary main_c_26 (constantI S_ 32 1#32),
    StableHlo.unary main_c_26 main_v108 (broadcastInDim S8x225 ![] bcast_S_S8x225 : (⟨S_, .i32⟩ : BufTy).Contents (Elt F) → (⟨S8x225, .i32⟩ : BufTy).Contents (Elt F)),
    StableHlo.binary main_v54 main_v108 main_v109 (addi : (⟨S8x225, .i32⟩ : BufTy).Contents (Elt F) → (⟨S8x225, .i32⟩ : BufTy).Contents (Elt F) → (⟨S8x225, .i32⟩ : BufTy).Contents (Elt F)) ]
def C8_5 : List (HloOp τ sig (Elt F)) := L8_5
noncomputable def W8_5 : List (Ref sig .tc) := [main_v101, main_v102, main_v103, main_v104, main_v105, main_c_25, main_v106, main_v107, main_c_26, main_v108, main_v109]
set_option maxHeartbeats 4000000 in
theorem writes8_5 : (C8_5 (F := F)).Forall fun op => op.writes ⊆ (W8_5.map (Proc.devRef (τ := τ) .tc)).toFinset := by
  simp only [C8_5, L8_5, List.Forall, nullary_writes, unary_writes, binary_writes, ternary_writes, quaternary_writes, reshape_writes, nary_writes, unaryIndexed_writes, binaryIndexed_writes]
  repeat' apply And.intro
  all_goals exact sub_of_mem (by decide)
theorem skip8_5 (V : Valuation τ sig (Elt F)) {r : Ref sig .tc} (h : r ∉ W8_5) :
    StableHlo.after (C8_5 (F := F)) V (no_index (Proc.devRef .tc r)) = V (Proc.devRef .tc r) :=
  after_of_writes_sub _ V writes8_5 h
theorem open8_5 (V : Valuation τ sig (Elt F)) {r : Ref sig .tc} (h : r ∈ W8_5) :
    StableHlo.after (C8_5 (F := F)) V (no_index (Proc.devRef .tc r)) = StableHlo.after (L8_5 (F := F)) V (Proc.devRef .tc r) := rfl
noncomputable def U8_5 : List (Ref sig .tc) := [main_v101, main_v102, main_v103, main_v104, main_c_25, main_v106, main_c_26, main_v108]
theorem openU8_5 (V : Valuation τ sig (Elt F)) {r : Ref sig .tc} (h : r ∈ U8_5) :
    StableHlo.after (C8_5 (F := F)) V (no_index (Proc.devRef .tc r)) = StableHlo.after (L8_5 (F := F)) V (Proc.devRef .tc r) := rfl
set_option maxHeartbeats 4000000 in
theorem st_main_v105 (V : Valuation τ sig (Elt F)) :
    StableHlo.after (C8_5 (F := F)) (StableHlo.after (C8_4 (F := F)) (StableHlo.after (C8_3 (F := F)) (StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V))))))))))))))))) (no_index (Proc.devRef .tc main_v105))
      = Cert.ReferenceIdeal.Read.val_main_v105 (F := F) (V (Proc.devRef .tc main_arg1)) (V (Proc.devRef .tc main_arg2)) (V (Proc.devRef .tc main_arg3)) (V (Proc.devRef .tc main_arg4)) := by
  simp (disch := decide) only [skip0_0, skip0_1, skip0_2, skip0_3, skip0_4, skip1_0, skip2_0, skip3_0, skip4_0, skip5_0, skip6_0, skip7_0, skip8_0, skip8_1, skip8_2, skip8_3, skip8_4, open8_5, L8_5, st_main_v96, st_main_v98, st_main_v100, st_main_v54, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v107 (V : Valuation τ sig (Elt F)) :
    StableHlo.after (C8_5 (F := F)) (StableHlo.after (C8_4 (F := F)) (StableHlo.after (C8_3 (F := F)) (StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V))))))))))))))))) (no_index (Proc.devRef .tc main_v107))
      = Cert.ReferenceIdeal.Read.val_main_v107 (F := F) (V (Proc.devRef .tc main_arg1)) (V (Proc.devRef .tc main_arg2)) (V (Proc.devRef .tc main_arg3)) := by
  simp (disch := decide) only [skip0_0, skip0_1, skip0_2, skip0_3, skip0_4, skip1_0, skip2_0, skip3_0, skip4_0, skip5_0, skip6_0, skip7_0, skip8_0, skip8_1, skip8_2, skip8_3, skip8_4, open8_5, L8_5, st_main_v55, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v109 (V : Valuation τ sig (Elt F)) :
    StableHlo.after (C8_5 (F := F)) (StableHlo.after (C8_4 (F := F)) (StableHlo.after (C8_3 (F := F)) (StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V))))))))))))))))) (no_index (Proc.devRef .tc main_v109))
      = Cert.ReferenceIdeal.Read.val_main_v109 (F := F) (V (Proc.devRef .tc main_arg1)) (V (Proc.devRef .tc main_arg2)) (V (Proc.devRef .tc main_arg3)) := by
  simp (disch := decide) only [skip0_0, skip0_1, skip0_2, skip0_3, skip0_4, skip1_0, skip2_0, skip3_0, skip4_0, skip5_0, skip6_0, skip7_0, skip8_0, skip8_1, skip8_2, skip8_3, skip8_4, open8_5, L8_5, st_main_v54, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

end Cert.Percept.HostK

end
-- ==== Proof.HostKChunks4.lean ====
/-
  The host operations before the region, cut into short runs, and how one buffer is read after them.

  The 338 operations are straight-line: each writes one buffer of its own. After a run of operations that does not
  write a buffer r, r holds what it held before (skip); after a run that does, r holds what the run's own operations
  leave (open), and those read their operands from the valuation before the run. The operations up to the inverse
  covariance and the centres are the reference's own, so each buffer they write that a later run reads holds, right
  after its run, the reference's stage of the same name applied to the argument arrays (st_…): one run is opened per
  buffer, and what it reads from earlier runs is already a stage.
  (Runs 19 to 24 of 38.)
-/
import proofs.«134758_j41807211659417_2_alg».proof.Proof.HostKChunks3

set_option maxRecDepth 16384

noncomputable section

namespace Cert.Percept.HostK

open Cert.KernelIdeal Cert.KernelIdeal.Gen Idealize.ShloMosaic Idealize.ShloMosaic.TcCoe Idealize.SL.Sem Idealize.ShloMosaic.StableHlo

variable {F : FTy → Type} [FloatOps F]

set_option maxHeartbeats 4000000 in
abbrev L8_6 : List (HloOp τ sig (Elt F)) :=
  [ StableHlo.nullary main_c_27 (constantI S_ 32 0#32),
    StableHlo.unary main_c_27 main_v110 (broadcastInDim S8x225 ![] bcast_S_S8x225 : (⟨S_, .i32⟩ : BufTy).Contents (Elt F) → (⟨S8x225, .i32⟩ : BufTy).Contents (Elt F)),
    StableHlo.binary main_v107 main_v110 main_v111 (cmpi .slt : (⟨S8x225, .i32⟩ : BufTy).Contents (Elt F) → (⟨S8x225, .i32⟩ : BufTy).Contents (Elt F) → (⟨S8x225, .i1⟩ : BufTy).Contents (Elt F)),
    StableHlo.nullary main_c_28 (constantI S_ 32 200#32),
    StableHlo.unary main_c_28 main_v112 (broadcastInDim S8x225 ![] bcast_S_S8x225 : (⟨S_, .i32⟩ : BufTy).Contents (Elt F) → (⟨S8x225, .i32⟩ : BufTy).Contents (Elt F)),
    StableHlo.binary main_v107 main_v112 main_v113 (addi : (⟨S8x225, .i32⟩ : BufTy).Contents (Elt F) → (⟨S8x225, .i32⟩ : BufTy).Contents (Elt F) → (⟨S8x225, .i32⟩ : BufTy).Contents (Elt F)),
    StableHlo.ternary main_v111 main_v113 main_v107 main_v114 (select : (⟨S8x225, .i1⟩ : BufTy).Contents (Elt F) → (⟨S8x225, .i32⟩ : BufTy).Contents (Elt F) → (⟨S8x225, .i32⟩ : BufTy).Contents (Elt F) → (⟨S8x225, .i32⟩ : BufTy).Contents (Elt F)),
    StableHlo.nullary main_c_29 (constantI S_ 32 0#32),
    StableHlo.unary main_c_29 main_v115 (broadcastInDim S8x225 ![] bcast_S_S8x225 : (⟨S_, .i32⟩ : BufTy).Contents (Elt F) → (⟨S8x225, .i32⟩ : BufTy).Contents (Elt F)),
    StableHlo.binary main_v109 main_v115 main_v116 (cmpi .slt : (⟨S8x225, .i32⟩ : BufTy).Contents (Elt F) → (⟨S8x225, .i32⟩ : BufTy).Contents (Elt F) → (⟨S8x225, .i1⟩ : BufTy).Contents (Elt F)),
    StableHlo.nullary main_c_30 (constantI S_ 32 200#32) ]
def C8_6 : List (HloOp τ sig (Elt F)) := L8_6
noncomputable def W8_6 : List (Ref sig .tc) := [main_c_27, main_v110, main_v111, main_c_28, main_v112, main_v113, main_v114, main_c_29, main_v115, main_v116, main_c_30]
set_option maxHeartbeats 4000000 in
theorem writes8_6 : (C8_6 (F := F)).Forall fun op => op.writes ⊆ (W8_6.map (Proc.devRef (τ := τ) .tc)).toFinset := by
  simp only [C8_6, L8_6, List.Forall, nullary_writes, unary_writes, binary_writes, ternary_writes, quaternary_writes, reshape_writes, nary_writes, unaryIndexed_writes, binaryIndexed_writes]
  repeat' apply And.intro
  all_goals exact sub_of_mem (by decide)
theorem skip8_6 (V : Valuation τ sig (Elt F)) {r : Ref sig .tc} (h : r ∉ W8_6) :
    StableHlo.after (C8_6 (F := F)) V (no_index (Proc.devRef .tc r)) = V (Proc.devRef .tc r) :=
  after_of_writes_sub _ V writes8_6 h
theorem open8_6 (V : Valuation τ sig (Elt F)) {r : Ref sig .tc} (h : r ∈ W8_6) :
    StableHlo.after (C8_6 (F := F)) V (no_index (Proc.devRef .tc r)) = StableHlo.after (L8_6 (F := F)) V (Proc.devRef .tc r) := rfl
noncomputable def U8_6 : List (Ref sig .tc) := [main_c_27, main_v110, main_v111, main_c_28, main_v112, main_v113, main_c_29, main_v115]
theorem openU8_6 (V : Valuation τ sig (Elt F)) {r : Ref sig .tc} (h : r ∈ U8_6) :
    StableHlo.after (C8_6 (F := F)) V (no_index (Proc.devRef .tc r)) = StableHlo.after (L8_6 (F := F)) V (Proc.devRef .tc r) := rfl
set_option maxHeartbeats 4000000 in
theorem st_main_v114 (V : Valuation τ sig (Elt F)) :
    StableHlo.after (C8_6 (F := F)) (StableHlo.after (C8_5 (F := F)) (StableHlo.after (C8_4 (F := F)) (StableHlo.after (C8_3 (F := F)) (StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V)))))))))))))))))) (no_index (Proc.devRef .tc main_v114))
      = Cert.ReferenceIdeal.Read.val_main_v114 (F := F) (V (Proc.devRef .tc main_arg1)) (V (Proc.devRef .tc main_arg2)) (V (Proc.devRef .tc main_arg3)) := by
  simp (disch := decide) only [skip0_0, skip0_1, skip0_2, skip0_3, skip0_4, skip1_0, skip2_0, skip3_0, skip4_0, skip5_0, skip6_0, skip7_0, skip8_0, skip8_1, skip8_2, skip8_3, skip8_4, skip8_5, open8_6, L8_6, st_main_v107, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v116 (V : Valuation τ sig (Elt F)) :
    StableHlo.after (C8_6 (F := F)) (StableHlo.after (C8_5 (F := F)) (StableHlo.after (C8_4 (F := F)) (StableHlo.after (C8_3 (F := F)) (StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V)))))))))))))))))) (no_index (Proc.devRef .tc main_v116))
      = Cert.ReferenceIdeal.Read.val_main_v116 (F := F) (V (Proc.devRef .tc main_arg1)) (V (Proc.devRef .tc main_arg2)) (V (Proc.devRef .tc main_arg3)) := by
  simp (disch := decide) only [skip0_0, skip0_1, skip0_2, skip0_3, skip0_4, skip1_0, skip2_0, skip3_0, skip4_0, skip5_0, skip6_0, skip7_0, skip8_0, skip8_1, skip8_2, skip8_3, skip8_4, skip8_5, open8_6, L8_6, st_main_v109, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_c_30 (V : Valuation τ sig (Elt F)) :
    StableHlo.after (C8_6 (F := F)) (StableHlo.after (C8_5 (F := F)) (StableHlo.after (C8_4 (F := F)) (StableHlo.after (C8_3 (F := F)) (StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V)))))))))))))))))) (no_index (Proc.devRef .tc main_c_30))
      = Cert.ReferenceIdeal.Read.val_main_c_30 (F := F) := by
  simp (disch := decide) only [skip0_0, skip0_1, skip0_2, skip0_3, skip0_4, skip1_0, skip2_0, skip3_0, skip4_0, skip5_0, skip6_0, skip7_0, skip8_0, skip8_1, skip8_2, skip8_3, skip8_4, skip8_5, open8_6, L8_6, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L8_7 : List (HloOp τ sig (Elt F)) :=
  [ StableHlo.unary main_c_30 main_v117 (broadcastInDim S8x225 ![] bcast_S_S8x225 : (⟨S_, .i32⟩ : BufTy).Contents (Elt F) → (⟨S8x225, .i32⟩ : BufTy).Contents (Elt F)),
    StableHlo.binary main_v109 main_v117 main_v118 (addi : (⟨S8x225, .i32⟩ : BufTy).Contents (Elt F) → (⟨S8x225, .i32⟩ : BufTy).Contents (Elt F) → (⟨S8x225, .i32⟩ : BufTy).Contents (Elt F)),
    StableHlo.ternary main_v116 main_v118 main_v109 main_v119 (select : (⟨S8x225, .i1⟩ : BufTy).Contents (Elt F) → (⟨S8x225, .i32⟩ : BufTy).Contents (Elt F) → (⟨S8x225, .i32⟩ : BufTy).Contents (Elt F) → (⟨S8x225, .i32⟩ : BufTy).Contents (Elt F)),
    StableHlo.unary main_v114 main_v120 (broadcastInDim S8x225x1 ![0, 1] bcast_S8x225_S8x225x1_0_1 : (⟨S8x225, .i32⟩ : BufTy).Contents (Elt F) → (⟨S8x225x1, .i32⟩ : BufTy).Contents (Elt F)),
    StableHlo.unary main_v119 main_v121 (broadcastInDim S8x225x1 ![0, 1] bcast_S8x225_S8x225x1_0_1 : (⟨S8x225, .i32⟩ : BufTy).Contents (Elt F) → (⟨S8x225x1, .i32⟩ : BufTy).Contents (Elt F)),
    StableHlo.binary main_v120 main_v121 main_v122 ((fun a b => concatenate S8x225x2 2 [⟨S8x225x1, a⟩, ⟨S8x225x1, b⟩] concatenates_S8x225x1_S8x225x1_S8x225x2_d2) : (⟨S8x225x1, .i32⟩ : BufTy).Contents (Elt F) → (⟨S8x225x1, .i32⟩ : BufTy).Contents (Elt F) → (⟨S8x225x2, .i32⟩ : BufTy).Contents (Elt F)),
    StableHlo.binary main_arg4 main_v122 main_v123 ((fun x i => Host.gather gather_S200x200_S8x225x2_S8x225_n_01_n_n_01_2_11 x i) : (⟨S200x200, .f32⟩ : BufTy).Contents (Elt F) → (⟨S8x225x2, .i32⟩ : BufTy).Contents (Elt F) → (⟨S8x225, .f32⟩ : BufTy).Contents (Elt F)),
    StableHlo.binary main_v89 main_v73 main_v124 (subf : (⟨S8x225, .f32⟩ : BufTy).Contents (Elt F) → (⟨S8x225, .f32⟩ : BufTy).Contents (Elt F) → (⟨S8x225, .f32⟩ : BufTy).Contents (Elt F)),
    StableHlo.binary main_v57 main_v124 main_v125 (mulf : (⟨S8x225, .f32⟩ : BufTy).Contents (Elt F) → (⟨S8x225, .f32⟩ : BufTy).Contents (Elt F) → (⟨S8x225, .f32⟩ : BufTy).Contents (Elt F)),
    StableHlo.binary main_v73 main_v125 main_v126 (addf : (⟨S8x225, .f32⟩ : BufTy).Contents (Elt F) → (⟨S8x225, .f32⟩ : BufTy).Contents (Elt F) → (⟨S8x225, .f32⟩ : BufTy).Contents (Elt F)),
    StableHlo.binary main_v123 main_v105 main_v127 (subf : (⟨S8x225, .f32⟩ : BufTy).Contents (Elt F) → (⟨S8x225, .f32⟩ : BufTy).Contents (Elt F) → (⟨S8x225, .f32⟩ : BufTy).Contents (Elt F)) ]
def C8_7 : List (HloOp τ sig (Elt F)) := L8_7
noncomputable def W8_7 : List (Ref sig .tc) := [main_v117, main_v118, main_v119, main_v120, main_v121, main_v122, main_v123, main_v124, main_v125, main_v126, main_v127]
set_option maxHeartbeats 4000000 in
theorem writes8_7 : (C8_7 (F := F)).Forall fun op => op.writes ⊆ (W8_7.map (Proc.devRef (τ := τ) .tc)).toFinset := by
  simp only [C8_7, L8_7, List.Forall, nullary_writes, unary_writes, binary_writes, ternary_writes, quaternary_writes, reshape_writes, nary_writes, unaryIndexed_writes, binaryIndexed_writes]
  repeat' apply And.intro
  all_goals exact sub_of_mem (by decide)
theorem skip8_7 (V : Valuation τ sig (Elt F)) {r : Ref sig .tc} (h : r ∉ W8_7) :
    StableHlo.after (C8_7 (F := F)) V (no_index (Proc.devRef .tc r)) = V (Proc.devRef .tc r) :=
  after_of_writes_sub _ V writes8_7 h
theorem open8_7 (V : Valuation τ sig (Elt F)) {r : Ref sig .tc} (h : r ∈ W8_7) :
    StableHlo.after (C8_7 (F := F)) V (no_index (Proc.devRef .tc r)) = StableHlo.after (L8_7 (F := F)) V (Proc.devRef .tc r) := rfl
noncomputable def U8_7 : List (Ref sig .tc) := [main_v117, main_v118, main_v119, main_v120, main_v121, main_v122, main_v123, main_v124, main_v125]
theorem openU8_7 (V : Valuation τ sig (Elt F)) {r : Ref sig .tc} (h : r ∈ U8_7) :
    StableHlo.after (C8_7 (F := F)) V (no_index (Proc.devRef .tc r)) = StableHlo.after (L8_7 (F := F)) V (Proc.devRef .tc r) := rfl
set_option maxHeartbeats 4000000 in
theorem st_main_v126 (V : Valuation τ sig (Elt F)) :
    StableHlo.after (C8_7 (F := F)) (StableHlo.after (C8_6 (F := F)) (StableHlo.after (C8_5 (F := F)) (StableHlo.after (C8_4 (F := F)) (StableHlo.after (C8_3 (F := F)) (StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V))))))))))))))))))) (no_index (Proc.devRef .tc main_v126))
      = Cert.ReferenceIdeal.Read.val_main_v126 (F := F) (V (Proc.devRef .tc main_arg1)) (V (Proc.devRef .tc main_arg2)) (V (Proc.devRef .tc main_arg3)) (V (Proc.devRef .tc main_arg4)) := by
  simp (disch := decide) only [skip0_0, skip0_1, skip0_2, skip0_3, skip0_4, skip1_0, skip2_0, skip3_0, skip4_0, skip5_0, skip6_0, skip7_0, skip8_0, skip8_1, skip8_2, skip8_3, skip8_4, skip8_5, skip8_6, open8_7, L8_7, st_main_v73, st_main_v57, st_main_v89, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v127 (V : Valuation τ sig (Elt F)) :
    StableHlo.after (C8_7 (F := F)) (StableHlo.after (C8_6 (F := F)) (StableHlo.after (C8_5 (F := F)) (StableHlo.after (C8_4 (F := F)) (StableHlo.after (C8_3 (F := F)) (StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V))))))))))))))))))) (no_index (Proc.devRef .tc main_v127))
      = Cert.ReferenceIdeal.Read.val_main_v127 (F := F) (V (Proc.devRef .tc main_arg1)) (V (Proc.devRef .tc main_arg2)) (V (Proc.devRef .tc main_arg3)) (V (Proc.devRef .tc main_arg4)) := by
  simp (disch := decide) only [skip0_0, skip0_1, skip0_2, skip0_3, skip0_4, skip1_0, skip2_0, skip3_0, skip4_0, skip5_0, skip6_0, skip7_0, skip8_0, skip8_1, skip8_2, skip8_3, skip8_4, skip8_5, skip8_6, open8_7, L8_7, st_main_v114, st_main_v116, st_main_v109, st_main_c_30, st_main_v105, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L8_8 : List (HloOp τ sig (Elt F)) :=
  [ StableHlo.binary main_v57 main_v127 main_v128 (mulf : (⟨S8x225, .f32⟩ : BufTy).Contents (Elt F) → (⟨S8x225, .f32⟩ : BufTy).Contents (Elt F) → (⟨S8x225, .f32⟩ : BufTy).Contents (Elt F)),
    StableHlo.binary main_v105 main_v128 main_v129 (addf : (⟨S8x225, .f32⟩ : BufTy).Contents (Elt F) → (⟨S8x225, .f32⟩ : BufTy).Contents (Elt F) → (⟨S8x225, .f32⟩ : BufTy).Contents (Elt F)),
    StableHlo.binary main_v129 main_v126 main_v130 (subf : (⟨S8x225, .f32⟩ : BufTy).Contents (Elt F) → (⟨S8x225, .f32⟩ : BufTy).Contents (Elt F) → (⟨S8x225, .f32⟩ : BufTy).Contents (Elt F)),
    StableHlo.binary main_v59 main_v130 main_v131 (mulf : (⟨S8x225, .f32⟩ : BufTy).Contents (Elt F) → (⟨S8x225, .f32⟩ : BufTy).Contents (Elt F) → (⟨S8x225, .f32⟩ : BufTy).Contents (Elt F)),
    StableHlo.binary main_v126 main_v131 main_v132 (addf : (⟨S8x225, .f32⟩ : BufTy).Contents (Elt F) → (⟨S8x225, .f32⟩ : BufTy).Contents (Elt F) → (⟨S8x225, .f32⟩ : BufTy).Contents (Elt F)),
    StableHlo.nullary main_cst_31 (constant S_ .f32 0xBFC90FDB#32),
    StableHlo.unary main_cst_31 main_v133 (broadcastInDim S8x225 ![] bcast_S_S8x225 : (⟨S_, .f32⟩ : BufTy).Contents (Elt F) → (⟨S8x225, .f32⟩ : BufTy).Contents (Elt F)),
    StableHlo.binary main_v132 main_v133 main_v134 (cmpf .olt : (⟨S8x225, .f32⟩ : BufTy).Contents (Elt F) → (⟨S8x225, .f32⟩ : BufTy).Contents (Elt F) → (⟨S8x225, .i1⟩ : BufTy).Contents (Elt F)),
    StableHlo.nullary main_cst_32 (constant S_ .f32 0x40490FDB#32),
    StableHlo.unary main_cst_32 main_v135 (broadcastInDim S8x225 ![] bcast_S_S8x225 : (⟨S_, .f32⟩ : BufTy).Contents (Elt F) → (⟨S8x225, .f32⟩ : BufTy).Contents (Elt F)),
    StableHlo.binary main_v132 main_v135 main_v136 (addf : (⟨S8x225, .f32⟩ : BufTy).Contents (Elt F) → (⟨S8x225, .f32⟩ : BufTy).Contents (Elt F) → (⟨S8x225, .f32⟩ : BufTy).Contents (Elt F)) ]
def C8_8 : List (HloOp τ sig (Elt F)) := L8_8
noncomputable def W8_8 : List (Ref sig .tc) := [main_v128, main_v129, main_v130, main_v131, main_v132, main_cst_31, main_v133, main_v134, main_cst_32, main_v135, main_v136]
set_option maxHeartbeats 4000000 in
theorem writes8_8 : (C8_8 (F := F)).Forall fun op => op.writes ⊆ (W8_8.map (Proc.devRef (τ := τ) .tc)).toFinset := by
  simp only [C8_8, L8_8, List.Forall, nullary_writes, unary_writes, binary_writes, ternary_writes, quaternary_writes, reshape_writes, nary_writes, unaryIndexed_writes, binaryIndexed_writes]
  repeat' apply And.intro
  all_goals exact sub_of_mem (by decide)
theorem skip8_8 (V : Valuation τ sig (Elt F)) {r : Ref sig .tc} (h : r ∉ W8_8) :
    StableHlo.after (C8_8 (F := F)) V (no_index (Proc.devRef .tc r)) = V (Proc.devRef .tc r) :=
  after_of_writes_sub _ V writes8_8 h
theorem open8_8 (V : Valuation τ sig (Elt F)) {r : Ref sig .tc} (h : r ∈ W8_8) :
    StableHlo.after (C8_8 (F := F)) V (no_index (Proc.devRef .tc r)) = StableHlo.after (L8_8 (F := F)) V (Proc.devRef .tc r) := rfl
noncomputable def U8_8 : List (Ref sig .tc) := [main_v128, main_v129, main_v130, main_v131, main_cst_31, main_v133, main_cst_32, main_v135]
theorem openU8_8 (V : Valuation τ sig (Elt F)) {r : Ref sig .tc} (h : r ∈ U8_8) :
    StableHlo.after (C8_8 (F := F)) V (no_index (Proc.devRef .tc r)) = StableHlo.after (L8_8 (F := F)) V (Proc.devRef .tc r) := rfl
set_option maxHeartbeats 4000000 in
theorem st_main_v132 (V : Valuation τ sig (Elt F)) :
    StableHlo.after (C8_8 (F := F)) (StableHlo.after (C8_7 (F := F)) (StableHlo.after (C8_6 (F := F)) (StableHlo.after (C8_5 (F := F)) (StableHlo.after (C8_4 (F := F)) (StableHlo.after (C8_3 (F := F)) (StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V)))))))))))))))))))) (no_index (Proc.devRef .tc main_v132))
      = Cert.ReferenceIdeal.Read.val_main_v132 (F := F) (V (Proc.devRef .tc main_arg1)) (V (Proc.devRef .tc main_arg2)) (V (Proc.devRef .tc main_arg3)) (V (Proc.devRef .tc main_arg4)) := by
  simp (disch := decide) only [skip0_0, skip0_1, skip0_2, skip0_3, skip0_4, skip1_0, skip2_0, skip3_0, skip4_0, skip5_0, skip6_0, skip7_0, skip8_0, skip8_1, skip8_2, skip8_3, skip8_4, skip8_5, skip8_6, skip8_7, open8_8, L8_8, st_main_v126, st_main_v59, st_main_v105, st_main_v57, st_main_v127, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v134 (V : Valuation τ sig (Elt F)) :
    StableHlo.after (C8_8 (F := F)) (StableHlo.after (C8_7 (F := F)) (StableHlo.after (C8_6 (F := F)) (StableHlo.after (C8_5 (F := F)) (StableHlo.after (C8_4 (F := F)) (StableHlo.after (C8_3 (F := F)) (StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V)))))))))))))))))))) (no_index (Proc.devRef .tc main_v134))
      = Cert.ReferenceIdeal.Read.val_main_v134 (F := F) (V (Proc.devRef .tc main_arg1)) (V (Proc.devRef .tc main_arg2)) (V (Proc.devRef .tc main_arg3)) (V (Proc.devRef .tc main_arg4)) := by
  simp (disch := decide) only [skip0_0, skip0_1, skip0_2, skip0_3, skip0_4, skip1_0, skip2_0, skip3_0, skip4_0, skip5_0, skip6_0, skip7_0, skip8_0, skip8_1, skip8_2, skip8_3, skip8_4, skip8_5, skip8_6, skip8_7, open8_8, L8_8, st_main_v126, st_main_v59, st_main_v105, st_main_v57, st_main_v127, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v136 (V : Valuation τ sig (Elt F)) :
    StableHlo.after (C8_8 (F := F)) (StableHlo.after (C8_7 (F := F)) (StableHlo.after (C8_6 (F := F)) (StableHlo.after (C8_5 (F := F)) (StableHlo.after (C8_4 (F := F)) (StableHlo.after (C8_3 (F := F)) (StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V)))))))))))))))))))) (no_index (Proc.devRef .tc main_v136))
      = Cert.ReferenceIdeal.Read.val_main_v136 (F := F) (V (Proc.devRef .tc main_arg1)) (V (Proc.devRef .tc main_arg2)) (V (Proc.devRef .tc main_arg3)) (V (Proc.devRef .tc main_arg4)) := by
  simp (disch := decide) only [skip0_0, skip0_1, skip0_2, skip0_3, skip0_4, skip1_0, skip2_0, skip3_0, skip4_0, skip5_0, skip6_0, skip7_0, skip8_0, skip8_1, skip8_2, skip8_3, skip8_4, skip8_5, skip8_6, skip8_7, open8_8, L8_8, st_main_v126, st_main_v59, st_main_v105, st_main_v57, st_main_v127, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L9_0 : List (HloOp τ sig (Elt F)) :=
  [ StableHlo.TRef.ternary (.of main_v134 : StableHlo.TRef sig ⟨S8x225, .i1⟩) (.of main_v136 : StableHlo.TRef sig ⟨S8x225, .f32⟩) (.of main_v132 : StableHlo.TRef sig ⟨S8x225, .f32⟩) (.of main_v137 : StableHlo.TRef sig ⟨S8x225, .f32⟩) select ]
def C9_0 : List (HloOp τ sig (Elt F)) := L9_0
noncomputable def W9_0 : List (Ref sig .tc) := [main_v137]
set_option maxHeartbeats 4000000 in
theorem writes9_0 : (C9_0 (F := F)).Forall fun op => op.writes ⊆ (W9_0.map (Proc.devRef (τ := τ) .tc)).toFinset := by
  simp only [C9_0, L9_0, List.Forall, nullary_writes, unary_writes, binary_writes, ternary_writes, quaternary_writes, reshape_writes, nary_writes, unaryIndexed_writes, binaryIndexed_writes]
  repeat' apply And.intro
  all_goals exact sub_of_mem (by decide)
theorem skip9_0 (V : Valuation τ sig (Elt F)) {r : Ref sig .tc} (h : r ∉ W9_0) :
    StableHlo.after (C9_0 (F := F)) V (no_index (Proc.devRef .tc r)) = V (Proc.devRef .tc r) :=
  after_of_writes_sub _ V writes9_0 h
theorem open9_0 (V : Valuation τ sig (Elt F)) {r : Ref sig .tc} (h : r ∈ W9_0) :
    StableHlo.after (C9_0 (F := F)) V (no_index (Proc.devRef .tc r)) = StableHlo.after (L9_0 (F := F)) V (Proc.devRef .tc r) := rfl
set_option maxHeartbeats 4000000 in
theorem st_main_v137 (V : Valuation τ sig (Elt F)) :
    StableHlo.after (C9_0 (F := F)) (StableHlo.after (C8_8 (F := F)) (StableHlo.after (C8_7 (F := F)) (StableHlo.after (C8_6 (F := F)) (StableHlo.after (C8_5 (F := F)) (StableHlo.after (C8_4 (F := F)) (StableHlo.after (C8_3 (F := F)) (StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V))))))))))))))))))))) (no_index (Proc.devRef .tc main_v137))
      = Cert.ReferenceIdeal.Read.val_main_v137 (F := F) (V (Proc.devRef .tc main_arg1)) (V (Proc.devRef .tc main_arg2)) (V (Proc.devRef .tc main_arg3)) (V (Proc.devRef .tc main_arg4)) := by
  simp (disch := decide) only [skip0_0, skip0_1, skip0_2, skip0_3, skip0_4, skip1_0, skip2_0, skip3_0, skip4_0, skip5_0, skip6_0, skip7_0, skip8_0, skip8_1, skip8_2, skip8_3, skip8_4, skip8_5, skip8_6, skip8_7, skip8_8, open9_0, L9_0, st_main_v134, st_main_v136, st_main_v132, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L10_0 : List (HloOp τ sig (Elt F)) :=
  [ StableHlo.unary main_v8 main_v138 (broadcastInDim S8x225 ![0, 1] bcast_S8x1_S8x225_0_1 : (⟨S8x1, .f32⟩ : BufTy).Contents (Elt F) → (⟨S8x225, .f32⟩ : BufTy).Contents (Elt F)),
    StableHlo.binary main_v137 main_v138 main_v139 (mulf : (⟨S8x225, .f32⟩ : BufTy).Contents (Elt F) → (⟨S8x225, .f32⟩ : BufTy).Contents (Elt F) → (⟨S8x225, .f32⟩ : BufTy).Contents (Elt F)),
    StableHlo.unary main_v6 main_v140 (broadcastInDim S8x225 ![0, 1] bcast_S8x1_S8x225_0_1 : (⟨S8x1, .f32⟩ : BufTy).Contents (Elt F) → (⟨S8x225, .f32⟩ : BufTy).Contents (Elt F)),
    StableHlo.binary main_v140 main_v3 main_v141 (mulf : (⟨S8x225, .f32⟩ : BufTy).Contents (Elt F) → (⟨S8x225, .f32⟩ : BufTy).Contents (Elt F) → (⟨S8x225, .f32⟩ : BufTy).Contents (Elt F)),
    StableHlo.unary main_v12 main_v142 (broadcastInDim S8x225 ![0, 1] bcast_S8x1_S8x225_0_1 : (⟨S8x1, .f32⟩ : BufTy).Contents (Elt F) → (⟨S8x225, .f32⟩ : BufTy).Contents (Elt F)),
    StableHlo.binary main_v141 main_v142 main_v143 (mulf : (⟨S8x225, .f32⟩ : BufTy).Contents (Elt F) → (⟨S8x225, .f32⟩ : BufTy).Contents (Elt F) → (⟨S8x225, .f32⟩ : BufTy).Contents (Elt F)),
    StableHlo.nullary main_cst_33 (constant S_ .f32 0x3F800000#32),
    StableHlo.unary main_cst_33 main_v144 (broadcastInDim S8x225 ![] bcast_S_S8x225 : (⟨S_, .f32⟩ : BufTy).Contents (Elt F) → (⟨S8x225, .f32⟩ : BufTy).Contents (Elt F)),
    StableHlo.binary main_v143 main_v144 main_v145 (maximumf : (⟨S8x225, .f32⟩ : BufTy).Contents (Elt F) → (⟨S8x225, .f32⟩ : BufTy).Contents (Elt F) → (⟨S8x225, .f32⟩ : BufTy).Contents (Elt F)),
    StableHlo.unary main_v13 main_v146 (Host.negf : (⟨S8x1, .f32⟩ : BufTy).Contents (Elt F) → (⟨S8x1, .f32⟩ : BufTy).Contents (Elt F)) ]
def C10_0 : List (HloOp τ sig (Elt F)) := L10_0
noncomputable def W10_0 : List (Ref sig .tc) := [main_v138, main_v139, main_v140, main_v141, main_v142, main_v143, main_cst_33, main_v144, main_v145, main_v146]
set_option maxHeartbeats 4000000 in
theorem writes10_0 : (C10_0 (F := F)).Forall fun op => op.writes ⊆ (W10_0.map (Proc.devRef (τ := τ) .tc)).toFinset := by
  simp only [C10_0, L10_0, List.Forall, nullary_writes, unary_writes, binary_writes, ternary_writes, quaternary_writes, reshape_writes, nary_writes, unaryIndexed_writes, binaryIndexed_writes]
  repeat' apply And.intro
  all_goals exact sub_of_mem (by decide)
theorem skip10_0 (V : Valuation τ sig (Elt F)) {r : Ref sig .tc} (h : r ∉ W10_0) :
    StableHlo.after (C10_0 (F := F)) V (no_index (Proc.devRef .tc r)) = V (Proc.devRef .tc r) :=
  after_of_writes_sub _ V writes10_0 h
theorem open10_0 (V : Valuation τ sig (Elt F)) {r : Ref sig .tc} (h : r ∈ W10_0) :
    StableHlo.after (C10_0 (F := F)) V (no_index (Proc.devRef .tc r)) = StableHlo.after (L10_0 (F := F)) V (Proc.devRef .tc r) := rfl
noncomputable def U10_0 : List (Ref sig .tc) := [main_v138, main_v140, main_v141, main_v142, main_v143, main_cst_33, main_v144]
theorem openU10_0 (V : Valuation τ sig (Elt F)) {r : Ref sig .tc} (h : r ∈ U10_0) :
    StableHlo.after (C10_0 (F := F)) V (no_index (Proc.devRef .tc r)) = StableHlo.after (L10_0 (F := F)) V (Proc.devRef .tc r) := rfl
set_option maxHeartbeats 4000000 in
theorem st_main_v139 (V : Valuation τ sig (Elt F)) :
    StableHlo.after (C10_0 (F := F)) (StableHlo.after (C9_0 (F := F)) (StableHlo.after (C8_8 (F := F)) (StableHlo.after (C8_7 (F := F)) (StableHlo.after (C8_6 (F := F)) (StableHlo.after (C8_5 (F := F)) (StableHlo.after (C8_4 (F := F)) (StableHlo.after (C8_3 (F := F)) (StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V)))))))))))))))))))))) (no_index (Proc.devRef .tc main_v139))
      = Cert.ReferenceIdeal.Read.val_main_v139 (F := F) (V (Proc.devRef .tc main_arg1)) (V (Proc.devRef .tc main_arg2)) (V (Proc.devRef .tc main_arg3)) (V (Proc.devRef .tc main_arg4)) := by
  simp (disch := decide) only [skip0_0, skip0_1, skip0_2, skip0_3, skip0_4, skip1_0, skip2_0, skip3_0, skip4_0, skip5_0, skip6_0, skip7_0, skip8_0, skip8_1, skip8_2, skip8_3, skip8_4, skip8_5, skip8_6, skip8_7, skip8_8, skip9_0, open10_0, L10_0, st_main_v137, st_main_v8, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v145 (V : Valuation τ sig (Elt F)) :
    StableHlo.after (C10_0 (F := F)) (StableHlo.after (C9_0 (F := F)) (StableHlo.after (C8_8 (F := F)) (StableHlo.after (C8_7 (F := F)) (StableHlo.after (C8_6 (F := F)) (StableHlo.after (C8_5 (F := F)) (StableHlo.after (C8_4 (F := F)) (StableHlo.after (C8_3 (F := F)) (StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V)))))))))))))))))))))) (no_index (Proc.devRef .tc main_v145))
      = Cert.ReferenceIdeal.Read.val_main_v145 (F := F) (V (Proc.devRef .tc main_arg0)) (V (Proc.devRef .tc main_arg1)) := by
  simp (disch := decide) only [skip0_0, skip0_1, skip0_2, skip0_3, skip0_4, skip1_0, skip2_0, skip3_0, skip4_0, skip5_0, skip6_0, skip7_0, skip8_0, skip8_1, skip8_2, skip8_3, skip8_4, skip8_5, skip8_6, skip8_7, skip8_8, skip9_0, open10_0, L10_0, st_main_v6, st_main_v3, st_main_v12, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v146 (V : Valuation τ sig (Elt F)) :
    StableHlo.after (C10_0 (F := F)) (StableHlo.after (C9_0 (F := F)) (StableHlo.after (C8_8 (F := F)) (StableHlo.after (C8_7 (F := F)) (StableHlo.after (C8_6 (F := F)) (StableHlo.after (C8_5 (F := F)) (StableHlo.after (C8_4 (F := F)) (StableHlo.after (C8_3 (F := F)) (StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V)))))))))))))))))))))) (no_index (Proc.devRef .tc main_v146))
      = Cert.ReferenceIdeal.Read.val_main_v146 (F := F) (V (Proc.devRef .tc main_arg1)) := by
  simp (disch := decide) only [skip0_0, skip0_1, skip0_2, skip0_3, skip0_4, skip1_0, skip2_0, skip3_0, skip4_0, skip5_0, skip6_0, skip7_0, skip8_0, skip8_1, skip8_2, skip8_3, skip8_4, skip8_5, skip8_6, skip8_7, skip8_8, skip9_0, open10_0, L10_0, st_main_v13, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L10_1 : List (HloOp τ sig (Elt F)) :=
  [ StableHlo.nullary main_cst_34 (constant S_ .f32 0x3EE66666#32),
    StableHlo.unary main_cst_34 main_v147 (broadcastInDim S8x1 ![] bcast_S_S8x1 : (⟨S_, .f32⟩ : BufTy).Contents (Elt F) → (⟨S8x1, .f32⟩ : BufTy).Contents (Elt F)),
    StableHlo.binary main_v147 main_v146 main_v148 (Host.powf : (⟨S8x1, .f32⟩ : BufTy).Contents (Elt F) → (⟨S8x1, .f32⟩ : BufTy).Contents (Elt F) → (⟨S8x1, .f32⟩ : BufTy).Contents (Elt F)),
    StableHlo.binary main_v7 main_v148 main_v149 (mulf : (⟨S8x1, .f32⟩ : BufTy).Contents (Elt F) → (⟨S8x1, .f32⟩ : BufTy).Contents (Elt F) → (⟨S8x1, .f32⟩ : BufTy).Contents (Elt F)),
    StableHlo.unary main_v13 main_v150 (broadcastInDim S8x225 ![0, 1] bcast_S8x1_S8x225_0_1 : (⟨S8x1, .f32⟩ : BufTy).Contents (Elt F) → (⟨S8x225, .f32⟩ : BufTy).Contents (Elt F)),
    StableHlo.binary main_v5 main_v150 main_v151 (Host.powf : (⟨S8x225, .f32⟩ : BufTy).Contents (Elt F) → (⟨S8x225, .f32⟩ : BufTy).Contents (Elt F) → (⟨S8x225, .f32⟩ : BufTy).Contents (Elt F)),
    StableHlo.unary main_v149 main_v152 (broadcastInDim S8x225 ![0, 1] bcast_S8x1_S8x225_0_1 : (⟨S8x1, .f32⟩ : BufTy).Contents (Elt F) → (⟨S8x225, .f32⟩ : BufTy).Contents (Elt F)),
    StableHlo.binary main_v152 main_v151 main_v153 (mulf : (⟨S8x225, .f32⟩ : BufTy).Contents (Elt F) → (⟨S8x225, .f32⟩ : BufTy).Contents (Elt F) → (⟨S8x225, .f32⟩ : BufTy).Contents (Elt F)),
    StableHlo.nullary main_cst_35 (constant S_ .f32 0x00000000#32),
    StableHlo.nullary main_cst_36 (constant S_ .f32 0x3F7D70A4#32) ]
def C10_1 : List (HloOp τ sig (Elt F)) := L10_1
noncomputable def W10_1 : List (Ref sig .tc) := [main_cst_34, main_v147, main_v148, main_v149, main_v150, main_v151, main_v152, main_v153, main_cst_35, main_cst_36]
set_option maxHeartbeats 4000000 in
theorem writes10_1 : (C10_1 (F := F)).Forall fun op => op.writes ⊆ (W10_1.map (Proc.devRef (τ := τ) .tc)).toFinset := by
  simp only [C10_1, L10_1, List.Forall, nullary_writes, unary_writes, binary_writes, ternary_writes, quaternary_writes, reshape_writes, nary_writes, unaryIndexed_writes, binaryIndexed_writes]
  repeat' apply And.intro
  all_goals exact sub_of_mem (by decide)
theorem skip10_1 (V : Valuation τ sig (Elt F)) {r : Ref sig .tc} (h : r ∉ W10_1) :
    StableHlo.after (C10_1 (F := F)) V (no_index (Proc.devRef .tc r)) = V (Proc.devRef .tc r) :=
  after_of_writes_sub _ V writes10_1 h
theorem open10_1 (V : Valuation τ sig (Elt F)) {r : Ref sig .tc} (h : r ∈ W10_1) :
    StableHlo.after (C10_1 (F := F)) V (no_index (Proc.devRef .tc r)) = StableHlo.after (L10_1 (F := F)) V (Proc.devRef .tc r) := rfl
noncomputable def U10_1 : List (Ref sig .tc) := [main_cst_34, main_v147, main_v148, main_v149, main_v150, main_v151, main_v152]
theorem openU10_1 (V : Valuation τ sig (Elt F)) {r : Ref sig .tc} (h : r ∈ U10_1) :
    StableHlo.after (C10_1 (F := F)) V (no_index (Proc.devRef .tc r)) = StableHlo.after (L10_1 (F := F)) V (Proc.devRef .tc r) := rfl
set_option maxHeartbeats 4000000 in
theorem st_main_v153 (V : Valuation τ sig (Elt F)) :
    StableHlo.after (C10_1 (F := F)) (StableHlo.after (C10_0 (F := F)) (StableHlo.after (C9_0 (F := F)) (StableHlo.after (C8_8 (F := F)) (StableHlo.after (C8_7 (F := F)) (StableHlo.after (C8_6 (F := F)) (StableHlo.after (C8_5 (F := F)) (StableHlo.after (C8_4 (F := F)) (StableHlo.after (C8_3 (F := F)) (StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V))))))))))))))))))))))) (no_index (Proc.devRef .tc main_v153))
      = Cert.ReferenceIdeal.Read.val_main_v153 (F := F) (V (Proc.devRef .tc main_arg0)) (V (Proc.devRef .tc main_arg1)) := by
  simp (disch := decide) only [skip0_0, skip0_1, skip0_2, skip0_3, skip0_4, skip1_0, skip2_0, skip3_0, skip4_0, skip5_0, skip6_0, skip7_0, skip8_0, skip8_1, skip8_2, skip8_3, skip8_4, skip8_5, skip8_6, skip8_7, skip8_8, skip9_0, skip10_0, open10_1, L10_1, st_main_v7, st_main_v146, st_main_v5, st_main_v13, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_cst_35 (V : Valuation τ sig (Elt F)) :
    StableHlo.after (C10_1 (F := F)) (StableHlo.after (C10_0 (F := F)) (StableHlo.after (C9_0 (F := F)) (StableHlo.after (C8_8 (F := F)) (StableHlo.after (C8_7 (F := F)) (StableHlo.after (C8_6 (F := F)) (StableHlo.after (C8_5 (F := F)) (StableHlo.after (C8_4 (F := F)) (StableHlo.after (C8_3 (F := F)) (StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V))))))))))))))))))))))) (no_index (Proc.devRef .tc main_cst_35))
      = Cert.ReferenceIdeal.Read.val_main_cst_35 (F := F) := by
  simp (disch := decide) only [skip0_0, skip0_1, skip0_2, skip0_3, skip0_4, skip1_0, skip2_0, skip3_0, skip4_0, skip5_0, skip6_0, skip7_0, skip8_0, skip8_1, skip8_2, skip8_3, skip8_4, skip8_5, skip8_6, skip8_7, skip8_8, skip9_0, skip10_0, open10_1, L10_1, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_cst_36 (V : Valuation τ sig (Elt F)) :
    StableHlo.after (C10_1 (F := F)) (StableHlo.after (C10_0 (F := F)) (StableHlo.after (C9_0 (F := F)) (StableHlo.after (C8_8 (F := F)) (StableHlo.after (C8_7 (F := F)) (StableHlo.after (C8_6 (F := F)) (StableHlo.after (C8_5 (F := F)) (StableHlo.after (C8_4 (F := F)) (StableHlo.after (C8_3 (F := F)) (StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V))))))))))))))))))))))) (no_index (Proc.devRef .tc main_cst_36))
      = Cert.ReferenceIdeal.Read.val_main_cst_36 (F := F) := by
  simp (disch := decide) only [skip0_0, skip0_1, skip0_2, skip0_3, skip0_4, skip1_0, skip2_0, skip3_0, skip4_0, skip5_0, skip6_0, skip7_0, skip8_0, skip8_1, skip8_2, skip8_3, skip8_4, skip8_5, skip8_6, skip8_7, skip8_8, skip9_0, skip10_0, open10_1, L10_1, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

end Cert.Percept.HostK

end
-- ==== Proof.HostKChunks5.lean ====
/-
  The host operations before the region, cut into short runs, and how one buffer is read after them.

  The 338 operations are straight-line: each writes one buffer of its own. After a run of operations that does not
  write a buffer r, r holds what it held before (skip); after a run that does, r holds what the run's own operations
  leave (open), and those read their operands from the valuation before the run. The operations up to the inverse
  covariance and the centres are the reference's own, so each buffer they write that a later run reads holds, right
  after its run, the reference's stage of the same name applied to the argument arrays (st_…): one run is opened per
  buffer, and what it reads from earlier runs is already a stage.
  (Runs 25 to 30 of 38.)
-/
import proofs.«134758_j41807211659417_2_alg».proof.Proof.HostKChunks4

set_option maxRecDepth 16384

noncomputable section

namespace Cert.Percept.HostK

open Cert.KernelIdeal Cert.KernelIdeal.Gen Idealize.ShloMosaic Idealize.ShloMosaic.TcCoe Idealize.SL.Sem Idealize.ShloMosaic.StableHlo

variable {F : FTy → Type} [FloatOps F]

set_option maxHeartbeats 4000000 in
abbrev L11_0 : List (HloOp τ sig (Elt F)) :=
  [ StableHlo.TRef.unary (.of main_cst_35 : StableHlo.TRef sig ⟨S_, .f32⟩) (.of main_call5_v0 : StableHlo.TRef sig ⟨S_, .f32⟩) id,
    StableHlo.TRef.unary (.of main_call5_v0 : StableHlo.TRef sig ⟨S_, .f32⟩) (.of main_call5_v1 : StableHlo.TRef sig ⟨S8x225, .f32⟩) (broadcastInDim S8x225 ![] bcast_S_S8x225),
    StableHlo.TRef.binary (.of main_call5_v1 : StableHlo.TRef sig ⟨S8x225, .f32⟩) (.of main_v153 : StableHlo.TRef sig ⟨S8x225, .f32⟩) (.of main_call5_v2 : StableHlo.TRef sig ⟨S8x225, .f32⟩) maximumf,
    StableHlo.TRef.unary (.of main_cst_36 : StableHlo.TRef sig ⟨S_, .f32⟩) (.of main_call5_v3 : StableHlo.TRef sig ⟨S_, .f32⟩) id,
    StableHlo.TRef.unary (.of main_call5_v3 : StableHlo.TRef sig ⟨S_, .f32⟩) (.of main_call5_v4 : StableHlo.TRef sig ⟨S8x225, .f32⟩) (broadcastInDim S8x225 ![] bcast_S_S8x225),
    StableHlo.TRef.binary (.of main_call5_v4 : StableHlo.TRef sig ⟨S8x225, .f32⟩) (.of main_call5_v2 : StableHlo.TRef sig ⟨S8x225, .f32⟩) (.of main_v154 : StableHlo.TRef sig ⟨S8x225, .f32⟩) minimumf ]
def C11_0 : List (HloOp τ sig (Elt F)) := L11_0
noncomputable def W11_0 : List (Ref sig .tc) := [main_call5_v0, main_call5_v1, main_call5_v2, main_call5_v3, main_call5_v4, main_v154]
set_option maxHeartbeats 4000000 in
theorem writes11_0 : (C11_0 (F := F)).Forall fun op => op.writes ⊆ (W11_0.map (Proc.devRef (τ := τ) .tc)).toFinset := by
  simp only [C11_0, L11_0, List.Forall, nullary_writes, unary_writes, binary_writes, ternary_writes, quaternary_writes, reshape_writes, nary_writes, unaryIndexed_writes, binaryIndexed_writes]
  repeat' apply And.intro
  all_goals exact sub_of_mem (by decide)
theorem skip11_0 (V : Valuation τ sig (Elt F)) {r : Ref sig .tc} (h : r ∉ W11_0) :
    StableHlo.after (C11_0 (F := F)) V (no_index (Proc.devRef .tc r)) = V (Proc.devRef .tc r) :=
  after_of_writes_sub _ V writes11_0 h
theorem open11_0 (V : Valuation τ sig (Elt F)) {r : Ref sig .tc} (h : r ∈ W11_0) :
    StableHlo.after (C11_0 (F := F)) V (no_index (Proc.devRef .tc r)) = StableHlo.after (L11_0 (F := F)) V (Proc.devRef .tc r) := rfl
noncomputable def U11_0 : List (Ref sig .tc) := [main_call5_v0, main_call5_v1, main_call5_v2, main_call5_v3, main_call5_v4]
theorem openU11_0 (V : Valuation τ sig (Elt F)) {r : Ref sig .tc} (h : r ∈ U11_0) :
    StableHlo.after (C11_0 (F := F)) V (no_index (Proc.devRef .tc r)) = StableHlo.after (L11_0 (F := F)) V (Proc.devRef .tc r) := rfl
set_option maxHeartbeats 4000000 in
theorem st_main_v154 (V : Valuation τ sig (Elt F)) :
    StableHlo.after (C11_0 (F := F)) (StableHlo.after (C10_1 (F := F)) (StableHlo.after (C10_0 (F := F)) (StableHlo.after (C9_0 (F := F)) (StableHlo.after (C8_8 (F := F)) (StableHlo.after (C8_7 (F := F)) (StableHlo.after (C8_6 (F := F)) (StableHlo.after (C8_5 (F := F)) (StableHlo.after (C8_4 (F := F)) (StableHlo.after (C8_3 (F := F)) (StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V)))))))))))))))))))))))) (no_index (Proc.devRef .tc main_v154))
      = Cert.ReferenceIdeal.Read.val_main_v154 (F := F) (V (Proc.devRef .tc main_arg0)) (V (Proc.devRef .tc main_arg1)) := by
  simp (disch := decide) only [skip0_0, skip0_1, skip0_2, skip0_3, skip0_4, skip1_0, skip2_0, skip3_0, skip4_0, skip5_0, skip6_0, skip7_0, skip8_0, skip8_1, skip8_2, skip8_3, skip8_4, skip8_5, skip8_6, skip8_7, skip8_8, skip9_0, skip10_0, skip10_1, open11_0, L11_0, st_main_cst_36, st_main_cst_35, st_main_v153, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L12_0 : List (HloOp τ sig (Elt F)) :=
  [ StableHlo.nullary main_cst_37 (constant S_ .f32 0x3E800000#32),
    StableHlo.unary main_cst_37 main_v155 (broadcastInDim S8x225 ![] bcast_S_S8x225 : (⟨S_, .f32⟩ : BufTy).Contents (Elt F) → (⟨S8x225, .f32⟩ : BufTy).Contents (Elt F)),
    StableHlo.binary main_v3 main_v155 main_v156 (cmpf .ogt : (⟨S8x225, .f32⟩ : BufTy).Contents (Elt F) → (⟨S8x225, .f32⟩ : BufTy).Contents (Elt F) → (⟨S8x225, .i1⟩ : BufTy).Contents (Elt F)),
    StableHlo.nullary main_cst_38 (constant S_ .f32 0x3727C5AC#32),
    StableHlo.unary main_cst_38 main_v157 (broadcastInDim S8x225 ![] bcast_S_S8x225 : (⟨S_, .f32⟩ : BufTy).Contents (Elt F) → (⟨S8x225, .f32⟩ : BufTy).Contents (Elt F)),
    StableHlo.binary main_v3 main_v157 main_v158 (maximumf : (⟨S8x225, .f32⟩ : BufTy).Contents (Elt F) → (⟨S8x225, .f32⟩ : BufTy).Contents (Elt F) → (⟨S8x225, .f32⟩ : BufTy).Contents (Elt F)),
    StableHlo.unary main_v10 main_v159 (broadcastInDim S8x225 ![0, 1] bcast_S8x1_S8x225_0_1 : (⟨S8x1, .f32⟩ : BufTy).Contents (Elt F) → (⟨S8x225, .f32⟩ : BufTy).Contents (Elt F)) ]
def C12_0 : List (HloOp τ sig (Elt F)) := L12_0
noncomputable def W12_0 : List (Ref sig .tc) := [main_cst_37, main_v155, main_v156, main_cst_38, main_v157, main_v158, main_v159]
set_option maxHeartbeats 4000000 in
theorem writes12_0 : (C12_0 (F := F)).Forall fun op => op.writes ⊆ (W12_0.map (Proc.devRef (τ := τ) .tc)).toFinset := by
  simp only [C12_0, L12_0, List.Forall, nullary_writes, unary_writes, binary_writes, ternary_writes, quaternary_writes, reshape_writes, nary_writes, unaryIndexed_writes, binaryIndexed_writes]
  repeat' apply And.intro
  all_goals exact sub_of_mem (by decide)
theorem skip12_0 (V : Valuation τ sig (Elt F)) {r : Ref sig .tc} (h : r ∉ W12_0) :
    StableHlo.after (C12_0 (F := F)) V (no_index (Proc.devRef .tc r)) = V (Proc.devRef .tc r) :=
  after_of_writes_sub _ V writes12_0 h
theorem open12_0 (V : Valuation τ sig (Elt F)) {r : Ref sig .tc} (h : r ∈ W12_0) :
    StableHlo.after (C12_0 (F := F)) V (no_index (Proc.devRef .tc r)) = StableHlo.after (L12_0 (F := F)) V (Proc.devRef .tc r) := rfl
noncomputable def U12_0 : List (Ref sig .tc) := [main_cst_37, main_v155, main_cst_38, main_v157]
theorem openU12_0 (V : Valuation τ sig (Elt F)) {r : Ref sig .tc} (h : r ∈ U12_0) :
    StableHlo.after (C12_0 (F := F)) V (no_index (Proc.devRef .tc r)) = StableHlo.after (L12_0 (F := F)) V (Proc.devRef .tc r) := rfl
set_option maxHeartbeats 4000000 in
theorem st_main_v156 (V : Valuation τ sig (Elt F)) :
    StableHlo.after (C12_0 (F := F)) (StableHlo.after (C11_0 (F := F)) (StableHlo.after (C10_1 (F := F)) (StableHlo.after (C10_0 (F := F)) (StableHlo.after (C9_0 (F := F)) (StableHlo.after (C8_8 (F := F)) (StableHlo.after (C8_7 (F := F)) (StableHlo.after (C8_6 (F := F)) (StableHlo.after (C8_5 (F := F)) (StableHlo.after (C8_4 (F := F)) (StableHlo.after (C8_3 (F := F)) (StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V))))))))))))))))))))))))) (no_index (Proc.devRef .tc main_v156))
      = Cert.ReferenceIdeal.Read.val_main_v156 (F := F) (V (Proc.devRef .tc main_arg0)) := by
  simp (disch := decide) only [skip0_0, skip0_1, skip0_2, skip0_3, skip0_4, skip1_0, skip2_0, skip3_0, skip4_0, skip5_0, skip6_0, skip7_0, skip8_0, skip8_1, skip8_2, skip8_3, skip8_4, skip8_5, skip8_6, skip8_7, skip8_8, skip9_0, skip10_0, skip10_1, skip11_0, open12_0, L12_0, st_main_v3, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v158 (V : Valuation τ sig (Elt F)) :
    StableHlo.after (C12_0 (F := F)) (StableHlo.after (C11_0 (F := F)) (StableHlo.after (C10_1 (F := F)) (StableHlo.after (C10_0 (F := F)) (StableHlo.after (C9_0 (F := F)) (StableHlo.after (C8_8 (F := F)) (StableHlo.after (C8_7 (F := F)) (StableHlo.after (C8_6 (F := F)) (StableHlo.after (C8_5 (F := F)) (StableHlo.after (C8_4 (F := F)) (StableHlo.after (C8_3 (F := F)) (StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V))))))))))))))))))))))))) (no_index (Proc.devRef .tc main_v158))
      = Cert.ReferenceIdeal.Read.val_main_v158 (F := F) (V (Proc.devRef .tc main_arg0)) := by
  simp (disch := decide) only [skip0_0, skip0_1, skip0_2, skip0_3, skip0_4, skip1_0, skip2_0, skip3_0, skip4_0, skip5_0, skip6_0, skip7_0, skip8_0, skip8_1, skip8_2, skip8_3, skip8_4, skip8_5, skip8_6, skip8_7, skip8_8, skip9_0, skip10_0, skip10_1, skip11_0, open12_0, L12_0, st_main_v3, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v159 (V : Valuation τ sig (Elt F)) :
    StableHlo.after (C12_0 (F := F)) (StableHlo.after (C11_0 (F := F)) (StableHlo.after (C10_1 (F := F)) (StableHlo.after (C10_0 (F := F)) (StableHlo.after (C9_0 (F := F)) (StableHlo.after (C8_8 (F := F)) (StableHlo.after (C8_7 (F := F)) (StableHlo.after (C8_6 (F := F)) (StableHlo.after (C8_5 (F := F)) (StableHlo.after (C8_4 (F := F)) (StableHlo.after (C8_3 (F := F)) (StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V))))))))))))))))))))))))) (no_index (Proc.devRef .tc main_v159))
      = Cert.ReferenceIdeal.Read.val_main_v159 (F := F) (V (Proc.devRef .tc main_arg1)) := by
  simp (disch := decide) only [skip0_0, skip0_1, skip0_2, skip0_3, skip0_4, skip1_0, skip2_0, skip3_0, skip4_0, skip5_0, skip6_0, skip7_0, skip8_0, skip8_1, skip8_2, skip8_3, skip8_4, skip8_5, skip8_6, skip8_7, skip8_8, skip9_0, skip10_0, skip10_1, skip11_0, open12_0, L12_0, st_main_v10, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L12_1 : List (HloOp τ sig (Elt F)) :=
  [ StableHlo.binary main_v158 main_v159 main_v160 (Host.powf : (⟨S8x225, .f32⟩ : BufTy).Contents (Elt F) → (⟨S8x225, .f32⟩ : BufTy).Contents (Elt F) → (⟨S8x225, .f32⟩ : BufTy).Contents (Elt F)),
    StableHlo.unary main_v9 main_v161 (broadcastInDim S8x225 ![0, 1] bcast_S8x1_S8x225_0_1 : (⟨S8x1, .f32⟩ : BufTy).Contents (Elt F) → (⟨S8x225, .f32⟩ : BufTy).Contents (Elt F)),
    StableHlo.binary main_v161 main_v160 main_v162 (mulf : (⟨S8x225, .f32⟩ : BufTy).Contents (Elt F) → (⟨S8x225, .f32⟩ : BufTy).Contents (Elt F) → (⟨S8x225, .f32⟩ : BufTy).Contents (Elt F)),
    StableHlo.unary main_v11 main_v163 (broadcastInDim S8x225 ![0, 1] bcast_S8x1_S8x225_0_1 : (⟨S8x1, .f32⟩ : BufTy).Contents (Elt F) → (⟨S8x225, .f32⟩ : BufTy).Contents (Elt F)),
    StableHlo.binary main_v163 main_v1 main_v164 (mulf : (⟨S8x225, .f32⟩ : BufTy).Contents (Elt F) → (⟨S8x225, .f32⟩ : BufTy).Contents (Elt F) → (⟨S8x225, .f32⟩ : BufTy).Contents (Elt F)),
    StableHlo.binary main_v162 main_v164 main_v165 (addf : (⟨S8x225, .f32⟩ : BufTy).Contents (Elt F) → (⟨S8x225, .f32⟩ : BufTy).Contents (Elt F) → (⟨S8x225, .f32⟩ : BufTy).Contents (Elt F)),
    StableHlo.nullary main_cst_39 (constant S_ .f32 0x00000000#32) ]
def C12_1 : List (HloOp τ sig (Elt F)) := L12_1
noncomputable def W12_1 : List (Ref sig .tc) := [main_v160, main_v161, main_v162, main_v163, main_v164, main_v165, main_cst_39]
set_option maxHeartbeats 4000000 in
theorem writes12_1 : (C12_1 (F := F)).Forall fun op => op.writes ⊆ (W12_1.map (Proc.devRef (τ := τ) .tc)).toFinset := by
  simp only [C12_1, L12_1, List.Forall, nullary_writes, unary_writes, binary_writes, ternary_writes, quaternary_writes, reshape_writes, nary_writes, unaryIndexed_writes, binaryIndexed_writes]
  repeat' apply And.intro
  all_goals exact sub_of_mem (by decide)
theorem skip12_1 (V : Valuation τ sig (Elt F)) {r : Ref sig .tc} (h : r ∉ W12_1) :
    StableHlo.after (C12_1 (F := F)) V (no_index (Proc.devRef .tc r)) = V (Proc.devRef .tc r) :=
  after_of_writes_sub _ V writes12_1 h
theorem open12_1 (V : Valuation τ sig (Elt F)) {r : Ref sig .tc} (h : r ∈ W12_1) :
    StableHlo.after (C12_1 (F := F)) V (no_index (Proc.devRef .tc r)) = StableHlo.after (L12_1 (F := F)) V (Proc.devRef .tc r) := rfl
noncomputable def U12_1 : List (Ref sig .tc) := [main_v160, main_v161, main_v162, main_v163, main_v164]
theorem openU12_1 (V : Valuation τ sig (Elt F)) {r : Ref sig .tc} (h : r ∈ U12_1) :
    StableHlo.after (C12_1 (F := F)) V (no_index (Proc.devRef .tc r)) = StableHlo.after (L12_1 (F := F)) V (Proc.devRef .tc r) := rfl
set_option maxHeartbeats 4000000 in
theorem st_main_v165 (V : Valuation τ sig (Elt F)) :
    StableHlo.after (C12_1 (F := F)) (StableHlo.after (C12_0 (F := F)) (StableHlo.after (C11_0 (F := F)) (StableHlo.after (C10_1 (F := F)) (StableHlo.after (C10_0 (F := F)) (StableHlo.after (C9_0 (F := F)) (StableHlo.after (C8_8 (F := F)) (StableHlo.after (C8_7 (F := F)) (StableHlo.after (C8_6 (F := F)) (StableHlo.after (C8_5 (F := F)) (StableHlo.after (C8_4 (F := F)) (StableHlo.after (C8_3 (F := F)) (StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V)))))))))))))))))))))))))) (no_index (Proc.devRef .tc main_v165))
      = Cert.ReferenceIdeal.Read.val_main_v165 (F := F) (V (Proc.devRef .tc main_arg0)) (V (Proc.devRef .tc main_arg1)) := by
  simp (disch := decide) only [skip0_0, skip0_1, skip0_2, skip0_3, skip0_4, skip1_0, skip2_0, skip3_0, skip4_0, skip5_0, skip6_0, skip7_0, skip8_0, skip8_1, skip8_2, skip8_3, skip8_4, skip8_5, skip8_6, skip8_7, skip8_8, skip9_0, skip10_0, skip10_1, skip11_0, skip12_0, open12_1, L12_1, st_main_v9, st_main_v158, st_main_v159, st_main_v11, st_main_v1, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_cst_39 (V : Valuation τ sig (Elt F)) :
    StableHlo.after (C12_1 (F := F)) (StableHlo.after (C12_0 (F := F)) (StableHlo.after (C11_0 (F := F)) (StableHlo.after (C10_1 (F := F)) (StableHlo.after (C10_0 (F := F)) (StableHlo.after (C9_0 (F := F)) (StableHlo.after (C8_8 (F := F)) (StableHlo.after (C8_7 (F := F)) (StableHlo.after (C8_6 (F := F)) (StableHlo.after (C8_5 (F := F)) (StableHlo.after (C8_4 (F := F)) (StableHlo.after (C8_3 (F := F)) (StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V)))))))))))))))))))))))))) (no_index (Proc.devRef .tc main_cst_39))
      = Cert.ReferenceIdeal.Read.val_main_cst_39 (F := F) := by
  simp (disch := decide) only [skip0_0, skip0_1, skip0_2, skip0_3, skip0_4, skip1_0, skip2_0, skip3_0, skip4_0, skip5_0, skip6_0, skip7_0, skip8_0, skip8_1, skip8_2, skip8_3, skip8_4, skip8_5, skip8_6, skip8_7, skip8_8, skip9_0, skip10_0, skip10_1, skip11_0, skip12_0, open12_1, L12_1, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L13_0 : List (HloOp τ sig (Elt F)) :=
  [ StableHlo.TRef.unary (.of main_cst_39 : StableHlo.TRef sig ⟨S_, .f32⟩) (.of main_call6_v0 : StableHlo.TRef sig ⟨S_, .f32⟩) id,
    StableHlo.TRef.unary (.of main_call6_v0 : StableHlo.TRef sig ⟨S_, .f32⟩) (.of main_call6_v1 : StableHlo.TRef sig ⟨S8x225, .f32⟩) (broadcastInDim S8x225 ![] bcast_S_S8x225),
    StableHlo.TRef.ternary (.of main_v156 : StableHlo.TRef sig ⟨S8x225, .i1⟩) (.of main_v165 : StableHlo.TRef sig ⟨S8x225, .f32⟩) (.of main_call6_v1 : StableHlo.TRef sig ⟨S8x225, .f32⟩) (.of main_v166 : StableHlo.TRef sig ⟨S8x225, .f32⟩) select ]
def C13_0 : List (HloOp τ sig (Elt F)) := L13_0
noncomputable def W13_0 : List (Ref sig .tc) := [main_call6_v0, main_call6_v1, main_v166]
set_option maxHeartbeats 4000000 in
theorem writes13_0 : (C13_0 (F := F)).Forall fun op => op.writes ⊆ (W13_0.map (Proc.devRef (τ := τ) .tc)).toFinset := by
  simp only [C13_0, L13_0, List.Forall, nullary_writes, unary_writes, binary_writes, ternary_writes, quaternary_writes, reshape_writes, nary_writes, unaryIndexed_writes, binaryIndexed_writes]
  repeat' apply And.intro
  all_goals exact sub_of_mem (by decide)
theorem skip13_0 (V : Valuation τ sig (Elt F)) {r : Ref sig .tc} (h : r ∉ W13_0) :
    StableHlo.after (C13_0 (F := F)) V (no_index (Proc.devRef .tc r)) = V (Proc.devRef .tc r) :=
  after_of_writes_sub _ V writes13_0 h
theorem open13_0 (V : Valuation τ sig (Elt F)) {r : Ref sig .tc} (h : r ∈ W13_0) :
    StableHlo.after (C13_0 (F := F)) V (no_index (Proc.devRef .tc r)) = StableHlo.after (L13_0 (F := F)) V (Proc.devRef .tc r) := rfl
noncomputable def U13_0 : List (Ref sig .tc) := [main_call6_v0, main_call6_v1]
theorem openU13_0 (V : Valuation τ sig (Elt F)) {r : Ref sig .tc} (h : r ∈ U13_0) :
    StableHlo.after (C13_0 (F := F)) V (no_index (Proc.devRef .tc r)) = StableHlo.after (L13_0 (F := F)) V (Proc.devRef .tc r) := rfl
set_option maxHeartbeats 4000000 in
theorem st_main_v166 (V : Valuation τ sig (Elt F)) :
    StableHlo.after (C13_0 (F := F)) (StableHlo.after (C12_1 (F := F)) (StableHlo.after (C12_0 (F := F)) (StableHlo.after (C11_0 (F := F)) (StableHlo.after (C10_1 (F := F)) (StableHlo.after (C10_0 (F := F)) (StableHlo.after (C9_0 (F := F)) (StableHlo.after (C8_8 (F := F)) (StableHlo.after (C8_7 (F := F)) (StableHlo.after (C8_6 (F := F)) (StableHlo.after (C8_5 (F := F)) (StableHlo.after (C8_4 (F := F)) (StableHlo.after (C8_3 (F := F)) (StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V))))))))))))))))))))))))))) (no_index (Proc.devRef .tc main_v166))
      = Cert.ReferenceIdeal.Read.val_main_v166 (F := F) (V (Proc.devRef .tc main_arg0)) (V (Proc.devRef .tc main_arg1)) := by
  simp (disch := decide) only [skip0_0, skip0_1, skip0_2, skip0_3, skip0_4, skip1_0, skip2_0, skip3_0, skip4_0, skip5_0, skip6_0, skip7_0, skip8_0, skip8_1, skip8_2, skip8_3, skip8_4, skip8_5, skip8_6, skip8_7, skip8_8, skip9_0, skip10_0, skip10_1, skip11_0, skip12_0, skip12_1, open13_0, L13_0, st_main_v156, st_main_v165, st_main_cst_39, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L14_0 : List (HloOp τ sig (Elt F)) :=
  [ StableHlo.binary main_v154 main_v154 main_v167 (mulf : (⟨S8x225, .f32⟩ : BufTy).Contents (Elt F) → (⟨S8x225, .f32⟩ : BufTy).Contents (Elt F) → (⟨S8x225, .f32⟩ : BufTy).Contents (Elt F)),
    StableHlo.nullary main_cst_40 (constant S_ .f32 0x3F800000#32),
    StableHlo.unary main_cst_40 main_v168 (broadcastInDim S8x225 ![] bcast_S_S8x225 : (⟨S_, .f32⟩ : BufTy).Contents (Elt F) → (⟨S8x225, .f32⟩ : BufTy).Contents (Elt F)),
    StableHlo.binary main_v168 main_v167 main_v169 (subf : (⟨S8x225, .f32⟩ : BufTy).Contents (Elt F) → (⟨S8x225, .f32⟩ : BufTy).Contents (Elt F) → (⟨S8x225, .f32⟩ : BufTy).Contents (Elt F)),
    StableHlo.unary main_v169 main_v170 (Host.sqrt : (⟨S8x225, .f32⟩ : BufTy).Contents (Elt F) → (⟨S8x225, .f32⟩ : BufTy).Contents (Elt F)),
    StableHlo.nullary main_cst_41 (constant S_ .f32 0x41490FDB#32),
    StableHlo.unary main_cst_41 main_v171 (broadcastInDim S8x225 ![] bcast_S_S8x225 : (⟨S_, .f32⟩ : BufTy).Contents (Elt F) → (⟨S8x225, .f32⟩ : BufTy).Contents (Elt F)),
    StableHlo.binary main_v171 main_v170 main_v172 (mulf : (⟨S8x225, .f32⟩ : BufTy).Contents (Elt F) → (⟨S8x225, .f32⟩ : BufTy).Contents (Elt F) → (⟨S8x225, .f32⟩ : BufTy).Contents (Elt F)),
    StableHlo.binary main_v145 main_v172 main_v173 (Host.divf : (⟨S8x225, .f32⟩ : BufTy).Contents (Elt F) → (⟨S8x225, .f32⟩ : BufTy).Contents (Elt F) → (⟨S8x225, .f32⟩ : BufTy).Contents (Elt F)),
    StableHlo.binary main_v145 main_v170 main_v174 (mulf : (⟨S8x225, .f32⟩ : BufTy).Contents (Elt F) → (⟨S8x225, .f32⟩ : BufTy).Contents (Elt F) → (⟨S8x225, .f32⟩ : BufTy).Contents (Elt F)),
    StableHlo.nullary main_cst_42 (constant S_ .f32 0x41490FDB#32),
    StableHlo.unary main_cst_42 main_v175 (broadcastInDim S8x225 ![] bcast_S_S8x225 : (⟨S_, .f32⟩ : BufTy).Contents (Elt F) → (⟨S8x225, .f32⟩ : BufTy).Contents (Elt F)) ]
def C14_0 : List (HloOp τ sig (Elt F)) := L14_0
noncomputable def W14_0 : List (Ref sig .tc) := [main_v167, main_cst_40, main_v168, main_v169, main_v170, main_cst_41, main_v171, main_v172, main_v173, main_v174, main_cst_42, main_v175]
set_option maxHeartbeats 4000000 in
theorem writes14_0 : (C14_0 (F := F)).Forall fun op => op.writes ⊆ (W14_0.map (Proc.devRef (τ := τ) .tc)).toFinset := by
  simp only [C14_0, L14_0, List.Forall, nullary_writes, unary_writes, binary_writes, ternary_writes, quaternary_writes, reshape_writes, nary_writes, unaryIndexed_writes, binaryIndexed_writes]
  repeat' apply And.intro
  all_goals exact sub_of_mem (by decide)
theorem skip14_0 (V : Valuation τ sig (Elt F)) {r : Ref sig .tc} (h : r ∉ W14_0) :
    StableHlo.after (C14_0 (F := F)) V (no_index (Proc.devRef .tc r)) = V (Proc.devRef .tc r) :=
  after_of_writes_sub _ V writes14_0 h
theorem open14_0 (V : Valuation τ sig (Elt F)) {r : Ref sig .tc} (h : r ∈ W14_0) :
    StableHlo.after (C14_0 (F := F)) V (no_index (Proc.devRef .tc r)) = StableHlo.after (L14_0 (F := F)) V (Proc.devRef .tc r) := rfl
noncomputable def U14_0 : List (Ref sig .tc) := [main_v167, main_cst_40, main_v168, main_v169, main_v170, main_cst_41, main_v171, main_v172, main_cst_42]
theorem openU14_0 (V : Valuation τ sig (Elt F)) {r : Ref sig .tc} (h : r ∈ U14_0) :
    StableHlo.after (C14_0 (F := F)) V (no_index (Proc.devRef .tc r)) = StableHlo.after (L14_0 (F := F)) V (Proc.devRef .tc r) := rfl
set_option maxHeartbeats 4000000 in
theorem st_main_v173 (V : Valuation τ sig (Elt F)) :
    StableHlo.after (C14_0 (F := F)) (StableHlo.after (C13_0 (F := F)) (StableHlo.after (C12_1 (F := F)) (StableHlo.after (C12_0 (F := F)) (StableHlo.after (C11_0 (F := F)) (StableHlo.after (C10_1 (F := F)) (StableHlo.after (C10_0 (F := F)) (StableHlo.after (C9_0 (F := F)) (StableHlo.after (C8_8 (F := F)) (StableHlo.after (C8_7 (F := F)) (StableHlo.after (C8_6 (F := F)) (StableHlo.after (C8_5 (F := F)) (StableHlo.after (C8_4 (F := F)) (StableHlo.after (C8_3 (F := F)) (StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V)))))))))))))))))))))))))))) (no_index (Proc.devRef .tc main_v173))
      = Cert.ReferenceIdeal.Read.val_main_v173 (F := F) (V (Proc.devRef .tc main_arg0)) (V (Proc.devRef .tc main_arg1)) := by
  simp (disch := decide) only [skip0_0, skip0_1, skip0_2, skip0_3, skip0_4, skip1_0, skip2_0, skip3_0, skip4_0, skip5_0, skip6_0, skip7_0, skip8_0, skip8_1, skip8_2, skip8_3, skip8_4, skip8_5, skip8_6, skip8_7, skip8_8, skip9_0, skip10_0, skip10_1, skip11_0, skip12_0, skip12_1, skip13_0, open14_0, L14_0, st_main_v145, st_main_v154, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v174 (V : Valuation τ sig (Elt F)) :
    StableHlo.after (C14_0 (F := F)) (StableHlo.after (C13_0 (F := F)) (StableHlo.after (C12_1 (F := F)) (StableHlo.after (C12_0 (F := F)) (StableHlo.after (C11_0 (F := F)) (StableHlo.after (C10_1 (F := F)) (StableHlo.after (C10_0 (F := F)) (StableHlo.after (C9_0 (F := F)) (StableHlo.after (C8_8 (F := F)) (StableHlo.after (C8_7 (F := F)) (StableHlo.after (C8_6 (F := F)) (StableHlo.after (C8_5 (F := F)) (StableHlo.after (C8_4 (F := F)) (StableHlo.after (C8_3 (F := F)) (StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V)))))))))))))))))))))))))))) (no_index (Proc.devRef .tc main_v174))
      = Cert.ReferenceIdeal.Read.val_main_v174 (F := F) (V (Proc.devRef .tc main_arg0)) (V (Proc.devRef .tc main_arg1)) := by
  simp (disch := decide) only [skip0_0, skip0_1, skip0_2, skip0_3, skip0_4, skip1_0, skip2_0, skip3_0, skip4_0, skip5_0, skip6_0, skip7_0, skip8_0, skip8_1, skip8_2, skip8_3, skip8_4, skip8_5, skip8_6, skip8_7, skip8_8, skip9_0, skip10_0, skip10_1, skip11_0, skip12_0, skip12_1, skip13_0, open14_0, L14_0, st_main_v145, st_main_v154, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v175 (V : Valuation τ sig (Elt F)) :
    StableHlo.after (C14_0 (F := F)) (StableHlo.after (C13_0 (F := F)) (StableHlo.after (C12_1 (F := F)) (StableHlo.after (C12_0 (F := F)) (StableHlo.after (C11_0 (F := F)) (StableHlo.after (C10_1 (F := F)) (StableHlo.after (C10_0 (F := F)) (StableHlo.after (C9_0 (F := F)) (StableHlo.after (C8_8 (F := F)) (StableHlo.after (C8_7 (F := F)) (StableHlo.after (C8_6 (F := F)) (StableHlo.after (C8_5 (F := F)) (StableHlo.after (C8_4 (F := F)) (StableHlo.after (C8_3 (F := F)) (StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V)))))))))))))))))))))))))))) (no_index (Proc.devRef .tc main_v175))
      = Cert.ReferenceIdeal.Read.val_main_v175 (F := F) := by
  simp (disch := decide) only [skip0_0, skip0_1, skip0_2, skip0_3, skip0_4, skip1_0, skip2_0, skip3_0, skip4_0, skip5_0, skip6_0, skip7_0, skip8_0, skip8_1, skip8_2, skip8_3, skip8_4, skip8_5, skip8_6, skip8_7, skip8_8, skip9_0, skip10_0, skip10_1, skip11_0, skip12_0, skip12_1, skip13_0, open14_0, L14_0, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L14_1 : List (HloOp τ sig (Elt F)) :=
  [ StableHlo.binary main_v174 main_v175 main_v176 (Host.divf : (⟨S8x225, .f32⟩ : BufTy).Contents (Elt F) → (⟨S8x225, .f32⟩ : BufTy).Contents (Elt F) → (⟨S8x225, .f32⟩ : BufTy).Contents (Elt F)),
    StableHlo.unary main_v139 main_v177 (Host.sin : (⟨S8x225, .f32⟩ : BufTy).Contents (Elt F) → (⟨S8x225, .f32⟩ : BufTy).Contents (Elt F)),
    StableHlo.unary main_v139 main_v178 (Host.cos : (⟨S8x225, .f32⟩ : BufTy).Contents (Elt F) → (⟨S8x225, .f32⟩ : BufTy).Contents (Elt F)),
    StableHlo.binary main_v176 main_v178 main_v179 (mulf : (⟨S8x225, .f32⟩ : BufTy).Contents (Elt F) → (⟨S8x225, .f32⟩ : BufTy).Contents (Elt F) → (⟨S8x225, .f32⟩ : BufTy).Contents (Elt F)),
    StableHlo.binary main_v179 main_v178 main_v180 (mulf : (⟨S8x225, .f32⟩ : BufTy).Contents (Elt F) → (⟨S8x225, .f32⟩ : BufTy).Contents (Elt F) → (⟨S8x225, .f32⟩ : BufTy).Contents (Elt F)),
    StableHlo.binary main_v173 main_v177 main_v181 (mulf : (⟨S8x225, .f32⟩ : BufTy).Contents (Elt F) → (⟨S8x225, .f32⟩ : BufTy).Contents (Elt F) → (⟨S8x225, .f32⟩ : BufTy).Contents (Elt F)),
    StableHlo.binary main_v181 main_v177 main_v182 (mulf : (⟨S8x225, .f32⟩ : BufTy).Contents (Elt F) → (⟨S8x225, .f32⟩ : BufTy).Contents (Elt F) → (⟨S8x225, .f32⟩ : BufTy).Contents (Elt F)),
    StableHlo.binary main_v180 main_v182 main_v183 (addf : (⟨S8x225, .f32⟩ : BufTy).Contents (Elt F) → (⟨S8x225, .f32⟩ : BufTy).Contents (Elt F) → (⟨S8x225, .f32⟩ : BufTy).Contents (Elt F)),
    StableHlo.binary main_v176 main_v173 main_v184 (subf : (⟨S8x225, .f32⟩ : BufTy).Contents (Elt F) → (⟨S8x225, .f32⟩ : BufTy).Contents (Elt F) → (⟨S8x225, .f32⟩ : BufTy).Contents (Elt F)),
    StableHlo.binary main_v184 main_v177 main_v185 (mulf : (⟨S8x225, .f32⟩ : BufTy).Contents (Elt F) → (⟨S8x225, .f32⟩ : BufTy).Contents (Elt F) → (⟨S8x225, .f32⟩ : BufTy).Contents (Elt F)),
    StableHlo.binary main_v185 main_v178 main_v186 (mulf : (⟨S8x225, .f32⟩ : BufTy).Contents (Elt F) → (⟨S8x225, .f32⟩ : BufTy).Contents (Elt F) → (⟨S8x225, .f32⟩ : BufTy).Contents (Elt F)),
    StableHlo.binary main_v176 main_v177 main_v187 (mulf : (⟨S8x225, .f32⟩ : BufTy).Contents (Elt F) → (⟨S8x225, .f32⟩ : BufTy).Contents (Elt F) → (⟨S8x225, .f32⟩ : BufTy).Contents (Elt F)) ]
def C14_1 : List (HloOp τ sig (Elt F)) := L14_1
noncomputable def W14_1 : List (Ref sig .tc) := [main_v176, main_v177, main_v178, main_v179, main_v180, main_v181, main_v182, main_v183, main_v184, main_v185, main_v186, main_v187]
set_option maxHeartbeats 4000000 in
theorem writes14_1 : (C14_1 (F := F)).Forall fun op => op.writes ⊆ (W14_1.map (Proc.devRef (τ := τ) .tc)).toFinset := by
  simp only [C14_1, L14_1, List.Forall, nullary_writes, unary_writes, binary_writes, ternary_writes, quaternary_writes, reshape_writes, nary_writes, unaryIndexed_writes, binaryIndexed_writes]
  repeat' apply And.intro
  all_goals exact sub_of_mem (by decide)
theorem skip14_1 (V : Valuation τ sig (Elt F)) {r : Ref sig .tc} (h : r ∉ W14_1) :
    StableHlo.after (C14_1 (F := F)) V (no_index (Proc.devRef .tc r)) = V (Proc.devRef .tc r) :=
  after_of_writes_sub _ V writes14_1 h
theorem open14_1 (V : Valuation τ sig (Elt F)) {r : Ref sig .tc} (h : r ∈ W14_1) :
    StableHlo.after (C14_1 (F := F)) V (no_index (Proc.devRef .tc r)) = StableHlo.after (L14_1 (F := F)) V (Proc.devRef .tc r) := rfl
noncomputable def U14_1 : List (Ref sig .tc) := [main_v176, main_v179, main_v180, main_v181, main_v182, main_v184, main_v185]
theorem openU14_1 (V : Valuation τ sig (Elt F)) {r : Ref sig .tc} (h : r ∈ U14_1) :
    StableHlo.after (C14_1 (F := F)) V (no_index (Proc.devRef .tc r)) = StableHlo.after (L14_1 (F := F)) V (Proc.devRef .tc r) := rfl
set_option maxHeartbeats 4000000 in
theorem st_main_v177 (V : Valuation τ sig (Elt F)) :
    StableHlo.after (C14_1 (F := F)) (StableHlo.after (C14_0 (F := F)) (StableHlo.after (C13_0 (F := F)) (StableHlo.after (C12_1 (F := F)) (StableHlo.after (C12_0 (F := F)) (StableHlo.after (C11_0 (F := F)) (StableHlo.after (C10_1 (F := F)) (StableHlo.after (C10_0 (F := F)) (StableHlo.after (C9_0 (F := F)) (StableHlo.after (C8_8 (F := F)) (StableHlo.after (C8_7 (F := F)) (StableHlo.after (C8_6 (F := F)) (StableHlo.after (C8_5 (F := F)) (StableHlo.after (C8_4 (F := F)) (StableHlo.after (C8_3 (F := F)) (StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V))))))))))))))))))))))))))))) (no_index (Proc.devRef .tc main_v177))
      = Cert.ReferenceIdeal.Read.val_main_v177 (F := F) (V (Proc.devRef .tc main_arg1)) (V (Proc.devRef .tc main_arg2)) (V (Proc.devRef .tc main_arg3)) (V (Proc.devRef .tc main_arg4)) := by
  simp (disch := decide) only [skip0_0, skip0_1, skip0_2, skip0_3, skip0_4, skip1_0, skip2_0, skip3_0, skip4_0, skip5_0, skip6_0, skip7_0, skip8_0, skip8_1, skip8_2, skip8_3, skip8_4, skip8_5, skip8_6, skip8_7, skip8_8, skip9_0, skip10_0, skip10_1, skip11_0, skip12_0, skip12_1, skip13_0, skip14_0, open14_1, L14_1, st_main_v139, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v178 (V : Valuation τ sig (Elt F)) :
    StableHlo.after (C14_1 (F := F)) (StableHlo.after (C14_0 (F := F)) (StableHlo.after (C13_0 (F := F)) (StableHlo.after (C12_1 (F := F)) (StableHlo.after (C12_0 (F := F)) (StableHlo.after (C11_0 (F := F)) (StableHlo.after (C10_1 (F := F)) (StableHlo.after (C10_0 (F := F)) (StableHlo.after (C9_0 (F := F)) (StableHlo.after (C8_8 (F := F)) (StableHlo.after (C8_7 (F := F)) (StableHlo.after (C8_6 (F := F)) (StableHlo.after (C8_5 (F := F)) (StableHlo.after (C8_4 (F := F)) (StableHlo.after (C8_3 (F := F)) (StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V))))))))))))))))))))))))))))) (no_index (Proc.devRef .tc main_v178))
      = Cert.ReferenceIdeal.Read.val_main_v178 (F := F) (V (Proc.devRef .tc main_arg1)) (V (Proc.devRef .tc main_arg2)) (V (Proc.devRef .tc main_arg3)) (V (Proc.devRef .tc main_arg4)) := by
  simp (disch := decide) only [skip0_0, skip0_1, skip0_2, skip0_3, skip0_4, skip1_0, skip2_0, skip3_0, skip4_0, skip5_0, skip6_0, skip7_0, skip8_0, skip8_1, skip8_2, skip8_3, skip8_4, skip8_5, skip8_6, skip8_7, skip8_8, skip9_0, skip10_0, skip10_1, skip11_0, skip12_0, skip12_1, skip13_0, skip14_0, open14_1, L14_1, st_main_v139, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v183 (V : Valuation τ sig (Elt F)) :
    StableHlo.after (C14_1 (F := F)) (StableHlo.after (C14_0 (F := F)) (StableHlo.after (C13_0 (F := F)) (StableHlo.after (C12_1 (F := F)) (StableHlo.after (C12_0 (F := F)) (StableHlo.after (C11_0 (F := F)) (StableHlo.after (C10_1 (F := F)) (StableHlo.after (C10_0 (F := F)) (StableHlo.after (C9_0 (F := F)) (StableHlo.after (C8_8 (F := F)) (StableHlo.after (C8_7 (F := F)) (StableHlo.after (C8_6 (F := F)) (StableHlo.after (C8_5 (F := F)) (StableHlo.after (C8_4 (F := F)) (StableHlo.after (C8_3 (F := F)) (StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V))))))))))))))))))))))))))))) (no_index (Proc.devRef .tc main_v183))
      = Cert.ReferenceIdeal.Read.val_main_v183 (F := F) (V (Proc.devRef .tc main_arg0)) (V (Proc.devRef .tc main_arg1)) (V (Proc.devRef .tc main_arg2)) (V (Proc.devRef .tc main_arg3)) (V (Proc.devRef .tc main_arg4)) := by
  simp (disch := decide) only [skip0_0, skip0_1, skip0_2, skip0_3, skip0_4, skip1_0, skip2_0, skip3_0, skip4_0, skip5_0, skip6_0, skip7_0, skip8_0, skip8_1, skip8_2, skip8_3, skip8_4, skip8_5, skip8_6, skip8_7, skip8_8, skip9_0, skip10_0, skip10_1, skip11_0, skip12_0, skip12_1, skip13_0, skip14_0, open14_1, L14_1, st_main_v174, st_main_v175, st_main_v139, st_main_v173, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v186 (V : Valuation τ sig (Elt F)) :
    StableHlo.after (C14_1 (F := F)) (StableHlo.after (C14_0 (F := F)) (StableHlo.after (C13_0 (F := F)) (StableHlo.after (C12_1 (F := F)) (StableHlo.after (C12_0 (F := F)) (StableHlo.after (C11_0 (F := F)) (StableHlo.after (C10_1 (F := F)) (StableHlo.after (C10_0 (F := F)) (StableHlo.after (C9_0 (F := F)) (StableHlo.after (C8_8 (F := F)) (StableHlo.after (C8_7 (F := F)) (StableHlo.after (C8_6 (F := F)) (StableHlo.after (C8_5 (F := F)) (StableHlo.after (C8_4 (F := F)) (StableHlo.after (C8_3 (F := F)) (StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V))))))))))))))))))))))))))))) (no_index (Proc.devRef .tc main_v186))
      = Cert.ReferenceIdeal.Read.val_main_v186 (F := F) (V (Proc.devRef .tc main_arg0)) (V (Proc.devRef .tc main_arg1)) (V (Proc.devRef .tc main_arg2)) (V (Proc.devRef .tc main_arg3)) (V (Proc.devRef .tc main_arg4)) := by
  simp (disch := decide) only [skip0_0, skip0_1, skip0_2, skip0_3, skip0_4, skip1_0, skip2_0, skip3_0, skip4_0, skip5_0, skip6_0, skip7_0, skip8_0, skip8_1, skip8_2, skip8_3, skip8_4, skip8_5, skip8_6, skip8_7, skip8_8, skip9_0, skip10_0, skip10_1, skip11_0, skip12_0, skip12_1, skip13_0, skip14_0, open14_1, L14_1, st_main_v174, st_main_v175, st_main_v173, st_main_v139, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v187 (V : Valuation τ sig (Elt F)) :
    StableHlo.after (C14_1 (F := F)) (StableHlo.after (C14_0 (F := F)) (StableHlo.after (C13_0 (F := F)) (StableHlo.after (C12_1 (F := F)) (StableHlo.after (C12_0 (F := F)) (StableHlo.after (C11_0 (F := F)) (StableHlo.after (C10_1 (F := F)) (StableHlo.after (C10_0 (F := F)) (StableHlo.after (C9_0 (F := F)) (StableHlo.after (C8_8 (F := F)) (StableHlo.after (C8_7 (F := F)) (StableHlo.after (C8_6 (F := F)) (StableHlo.after (C8_5 (F := F)) (StableHlo.after (C8_4 (F := F)) (StableHlo.after (C8_3 (F := F)) (StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V))))))))))))))))))))))))))))) (no_index (Proc.devRef .tc main_v187))
      = Cert.ReferenceIdeal.Read.val_main_v187 (F := F) (V (Proc.devRef .tc main_arg0)) (V (Proc.devRef .tc main_arg1)) (V (Proc.devRef .tc main_arg2)) (V (Proc.devRef .tc main_arg3)) (V (Proc.devRef .tc main_arg4)) := by
  simp (disch := decide) only [skip0_0, skip0_1, skip0_2, skip0_3, skip0_4, skip1_0, skip2_0, skip3_0, skip4_0, skip5_0, skip6_0, skip7_0, skip8_0, skip8_1, skip8_2, skip8_3, skip8_4, skip8_5, skip8_6, skip8_7, skip8_8, skip9_0, skip10_0, skip10_1, skip11_0, skip12_0, skip12_1, skip13_0, skip14_0, open14_1, L14_1, st_main_v174, st_main_v175, st_main_v139, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

end Cert.Percept.HostK

end
-- ==== Proof.HostKChunks6.lean ====
/-
  The host operations before the region, cut into short runs, and how one buffer is read after them.

  The 338 operations are straight-line: each writes one buffer of its own. After a run of operations that does not
  write a buffer r, r holds what it held before (skip); after a run that does, r holds what the run's own operations
  leave (open), and those read their operands from the valuation before the run. The operations up to the inverse
  covariance and the centres are the reference's own, so each buffer they write that a later run reads holds, right
  after its run, the reference's stage of the same name applied to the argument arrays (st_…): one run is opened per
  buffer, and what it reads from earlier runs is already a stage.
  (Runs 31 to 36 of 38.)
-/
import proofs.«134758_j41807211659417_2_alg».proof.Proof.HostKChunks5

set_option maxRecDepth 16384

noncomputable section

namespace Cert.Percept.HostK

open Cert.KernelIdeal Cert.KernelIdeal.Gen Idealize.ShloMosaic Idealize.ShloMosaic.TcCoe Idealize.SL.Sem Idealize.ShloMosaic.StableHlo

variable {F : FTy → Type} [FloatOps F]

set_option maxHeartbeats 4000000 in
abbrev L14_2 : List (HloOp τ sig (Elt F)) :=
  [ StableHlo.binary main_v187 main_v177 main_v188 (mulf : (⟨S8x225, .f32⟩ : BufTy).Contents (Elt F) → (⟨S8x225, .f32⟩ : BufTy).Contents (Elt F) → (⟨S8x225, .f32⟩ : BufTy).Contents (Elt F)),
    StableHlo.binary main_v173 main_v178 main_v189 (mulf : (⟨S8x225, .f32⟩ : BufTy).Contents (Elt F) → (⟨S8x225, .f32⟩ : BufTy).Contents (Elt F) → (⟨S8x225, .f32⟩ : BufTy).Contents (Elt F)),
    StableHlo.binary main_v189 main_v178 main_v190 (mulf : (⟨S8x225, .f32⟩ : BufTy).Contents (Elt F) → (⟨S8x225, .f32⟩ : BufTy).Contents (Elt F) → (⟨S8x225, .f32⟩ : BufTy).Contents (Elt F)),
    StableHlo.binary main_v188 main_v190 main_v191 (addf : (⟨S8x225, .f32⟩ : BufTy).Contents (Elt F) → (⟨S8x225, .f32⟩ : BufTy).Contents (Elt F) → (⟨S8x225, .f32⟩ : BufTy).Contents (Elt F)),
    StableHlo.binary main_v183 main_v191 main_v192 (mulf : (⟨S8x225, .f32⟩ : BufTy).Contents (Elt F) → (⟨S8x225, .f32⟩ : BufTy).Contents (Elt F) → (⟨S8x225, .f32⟩ : BufTy).Contents (Elt F)),
    StableHlo.binary main_v186 main_v186 main_v193 (mulf : (⟨S8x225, .f32⟩ : BufTy).Contents (Elt F) → (⟨S8x225, .f32⟩ : BufTy).Contents (Elt F) → (⟨S8x225, .f32⟩ : BufTy).Contents (Elt F)),
    StableHlo.binary main_v192 main_v193 main_v194 (subf : (⟨S8x225, .f32⟩ : BufTy).Contents (Elt F) → (⟨S8x225, .f32⟩ : BufTy).Contents (Elt F) → (⟨S8x225, .f32⟩ : BufTy).Contents (Elt F)),
    StableHlo.binary main_v191 main_v194 main_v195 (Host.divf : (⟨S8x225, .f32⟩ : BufTy).Contents (Elt F) → (⟨S8x225, .f32⟩ : BufTy).Contents (Elt F) → (⟨S8x225, .f32⟩ : BufTy).Contents (Elt F)),
    StableHlo.unary main_v186 main_v196 (Host.negf : (⟨S8x225, .f32⟩ : BufTy).Contents (Elt F) → (⟨S8x225, .f32⟩ : BufTy).Contents (Elt F)),
    StableHlo.binary main_v196 main_v194 main_v197 (Host.divf : (⟨S8x225, .f32⟩ : BufTy).Contents (Elt F) → (⟨S8x225, .f32⟩ : BufTy).Contents (Elt F) → (⟨S8x225, .f32⟩ : BufTy).Contents (Elt F)),
    StableHlo.binary main_v183 main_v194 main_v198 (Host.divf : (⟨S8x225, .f32⟩ : BufTy).Contents (Elt F) → (⟨S8x225, .f32⟩ : BufTy).Contents (Elt F) → (⟨S8x225, .f32⟩ : BufTy).Contents (Elt F)),
    StableHlo.nullary main_cst_43 (constant S_ .f32 0x438C0000#32) ]
def C14_2 : List (HloOp τ sig (Elt F)) := L14_2
noncomputable def W14_2 : List (Ref sig .tc) := [main_v188, main_v189, main_v190, main_v191, main_v192, main_v193, main_v194, main_v195, main_v196, main_v197, main_v198, main_cst_43]
set_option maxHeartbeats 4000000 in
theorem writes14_2 : (C14_2 (F := F)).Forall fun op => op.writes ⊆ (W14_2.map (Proc.devRef (τ := τ) .tc)).toFinset := by
  simp only [C14_2, L14_2, List.Forall, nullary_writes, unary_writes, binary_writes, ternary_writes, quaternary_writes, reshape_writes, nary_writes, unaryIndexed_writes, binaryIndexed_writes]
  repeat' apply And.intro
  all_goals exact sub_of_mem (by decide)
theorem skip14_2 (V : Valuation τ sig (Elt F)) {r : Ref sig .tc} (h : r ∉ W14_2) :
    StableHlo.after (C14_2 (F := F)) V (no_index (Proc.devRef .tc r)) = V (Proc.devRef .tc r) :=
  after_of_writes_sub _ V writes14_2 h
theorem open14_2 (V : Valuation τ sig (Elt F)) {r : Ref sig .tc} (h : r ∈ W14_2) :
    StableHlo.after (C14_2 (F := F)) V (no_index (Proc.devRef .tc r)) = StableHlo.after (L14_2 (F := F)) V (Proc.devRef .tc r) := rfl
noncomputable def U14_2 : List (Ref sig .tc) := [main_v188, main_v189, main_v190, main_v191, main_v192, main_v193, main_v194, main_v196]
theorem openU14_2 (V : Valuation τ sig (Elt F)) {r : Ref sig .tc} (h : r ∈ U14_2) :
    StableHlo.after (C14_2 (F := F)) V (no_index (Proc.devRef .tc r)) = StableHlo.after (L14_2 (F := F)) V (Proc.devRef .tc r) := rfl
set_option maxHeartbeats 4000000 in
theorem st_main_v195 (V : Valuation τ sig (Elt F)) :
    StableHlo.after (C14_2 (F := F)) (StableHlo.after (C14_1 (F := F)) (StableHlo.after (C14_0 (F := F)) (StableHlo.after (C13_0 (F := F)) (StableHlo.after (C12_1 (F := F)) (StableHlo.after (C12_0 (F := F)) (StableHlo.after (C11_0 (F := F)) (StableHlo.after (C10_1 (F := F)) (StableHlo.after (C10_0 (F := F)) (StableHlo.after (C9_0 (F := F)) (StableHlo.after (C8_8 (F := F)) (StableHlo.after (C8_7 (F := F)) (StableHlo.after (C8_6 (F := F)) (StableHlo.after (C8_5 (F := F)) (StableHlo.after (C8_4 (F := F)) (StableHlo.after (C8_3 (F := F)) (StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V)))))))))))))))))))))))))))))) (no_index (Proc.devRef .tc main_v195))
      = Cert.ReferenceIdeal.Read.val_main_v195 (F := F) (V (Proc.devRef .tc main_arg0)) (V (Proc.devRef .tc main_arg1)) (V (Proc.devRef .tc main_arg2)) (V (Proc.devRef .tc main_arg3)) (V (Proc.devRef .tc main_arg4)) := by
  simp (disch := decide) only [skip0_0, skip0_1, skip0_2, skip0_3, skip0_4, skip1_0, skip2_0, skip3_0, skip4_0, skip5_0, skip6_0, skip7_0, skip8_0, skip8_1, skip8_2, skip8_3, skip8_4, skip8_5, skip8_6, skip8_7, skip8_8, skip9_0, skip10_0, skip10_1, skip11_0, skip12_0, skip12_1, skip13_0, skip14_0, skip14_1, open14_2, L14_2, st_main_v187, st_main_v177, st_main_v173, st_main_v178, st_main_v183, st_main_v186, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v197 (V : Valuation τ sig (Elt F)) :
    StableHlo.after (C14_2 (F := F)) (StableHlo.after (C14_1 (F := F)) (StableHlo.after (C14_0 (F := F)) (StableHlo.after (C13_0 (F := F)) (StableHlo.after (C12_1 (F := F)) (StableHlo.after (C12_0 (F := F)) (StableHlo.after (C11_0 (F := F)) (StableHlo.after (C10_1 (F := F)) (StableHlo.after (C10_0 (F := F)) (StableHlo.after (C9_0 (F := F)) (StableHlo.after (C8_8 (F := F)) (StableHlo.after (C8_7 (F := F)) (StableHlo.after (C8_6 (F := F)) (StableHlo.after (C8_5 (F := F)) (StableHlo.after (C8_4 (F := F)) (StableHlo.after (C8_3 (F := F)) (StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V)))))))))))))))))))))))))))))) (no_index (Proc.devRef .tc main_v197))
      = Cert.ReferenceIdeal.Read.val_main_v197 (F := F) (V (Proc.devRef .tc main_arg0)) (V (Proc.devRef .tc main_arg1)) (V (Proc.devRef .tc main_arg2)) (V (Proc.devRef .tc main_arg3)) (V (Proc.devRef .tc main_arg4)) := by
  simp (disch := decide) only [skip0_0, skip0_1, skip0_2, skip0_3, skip0_4, skip1_0, skip2_0, skip3_0, skip4_0, skip5_0, skip6_0, skip7_0, skip8_0, skip8_1, skip8_2, skip8_3, skip8_4, skip8_5, skip8_6, skip8_7, skip8_8, skip9_0, skip10_0, skip10_1, skip11_0, skip12_0, skip12_1, skip13_0, skip14_0, skip14_1, open14_2, L14_2, st_main_v186, st_main_v183, st_main_v187, st_main_v177, st_main_v173, st_main_v178, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v198 (V : Valuation τ sig (Elt F)) :
    StableHlo.after (C14_2 (F := F)) (StableHlo.after (C14_1 (F := F)) (StableHlo.after (C14_0 (F := F)) (StableHlo.after (C13_0 (F := F)) (StableHlo.after (C12_1 (F := F)) (StableHlo.after (C12_0 (F := F)) (StableHlo.after (C11_0 (F := F)) (StableHlo.after (C10_1 (F := F)) (StableHlo.after (C10_0 (F := F)) (StableHlo.after (C9_0 (F := F)) (StableHlo.after (C8_8 (F := F)) (StableHlo.after (C8_7 (F := F)) (StableHlo.after (C8_6 (F := F)) (StableHlo.after (C8_5 (F := F)) (StableHlo.after (C8_4 (F := F)) (StableHlo.after (C8_3 (F := F)) (StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V)))))))))))))))))))))))))))))) (no_index (Proc.devRef .tc main_v198))
      = Cert.ReferenceIdeal.Read.val_main_v198 (F := F) (V (Proc.devRef .tc main_arg0)) (V (Proc.devRef .tc main_arg1)) (V (Proc.devRef .tc main_arg2)) (V (Proc.devRef .tc main_arg3)) (V (Proc.devRef .tc main_arg4)) := by
  simp (disch := decide) only [skip0_0, skip0_1, skip0_2, skip0_3, skip0_4, skip1_0, skip2_0, skip3_0, skip4_0, skip5_0, skip6_0, skip7_0, skip8_0, skip8_1, skip8_2, skip8_3, skip8_4, skip8_5, skip8_6, skip8_7, skip8_8, skip9_0, skip10_0, skip10_1, skip11_0, skip12_0, skip12_1, skip13_0, skip14_0, skip14_1, open14_2, L14_2, st_main_v183, st_main_v187, st_main_v177, st_main_v173, st_main_v178, st_main_v186, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_cst_43 (V : Valuation τ sig (Elt F)) :
    StableHlo.after (C14_2 (F := F)) (StableHlo.after (C14_1 (F := F)) (StableHlo.after (C14_0 (F := F)) (StableHlo.after (C13_0 (F := F)) (StableHlo.after (C12_1 (F := F)) (StableHlo.after (C12_0 (F := F)) (StableHlo.after (C11_0 (F := F)) (StableHlo.after (C10_1 (F := F)) (StableHlo.after (C10_0 (F := F)) (StableHlo.after (C9_0 (F := F)) (StableHlo.after (C8_8 (F := F)) (StableHlo.after (C8_7 (F := F)) (StableHlo.after (C8_6 (F := F)) (StableHlo.after (C8_5 (F := F)) (StableHlo.after (C8_4 (F := F)) (StableHlo.after (C8_3 (F := F)) (StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V)))))))))))))))))))))))))))))) (no_index (Proc.devRef .tc main_cst_43))
      = Cert.ReferenceIdeal.Read.val_main_cst_43 (F := F) := by
  simp (disch := decide) only [skip0_0, skip0_1, skip0_2, skip0_3, skip0_4, skip1_0, skip2_0, skip3_0, skip4_0, skip5_0, skip6_0, skip7_0, skip8_0, skip8_1, skip8_2, skip8_3, skip8_4, skip8_5, skip8_6, skip8_7, skip8_8, skip9_0, skip10_0, skip10_1, skip11_0, skip12_0, skip12_1, skip13_0, skip14_0, skip14_1, open14_2, L14_2, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L14_3 : List (HloOp τ sig (Elt F)) :=
  [ StableHlo.unary main_cst_43 main_v199 (broadcastInDim S8x225 ![] bcast_S_S8x225 : (⟨S_, .f32⟩ : BufTy).Contents (Elt F) → (⟨S8x225, .f32⟩ : BufTy).Contents (Elt F)),
    StableHlo.binary main_v28 main_v199 main_v200 (Host.divf : (⟨S8x225, .f32⟩ : BufTy).Contents (Elt F) → (⟨S8x225, .f32⟩ : BufTy).Contents (Elt F) → (⟨S8x225, .f32⟩ : BufTy).Contents (Elt F)),
    StableHlo.nullary main_cst_44 (constant S_ .f32 0xC1700000#32),
    StableHlo.unary main_cst_44 main_v201 (broadcastInDim S8x225 ![] bcast_S_S8x225 : (⟨S_, .f32⟩ : BufTy).Contents (Elt F) → (⟨S8x225, .f32⟩ : BufTy).Contents (Elt F)),
    StableHlo.binary main_v200 main_v201 main_v202 (subf : (⟨S8x225, .f32⟩ : BufTy).Contents (Elt F) → (⟨S8x225, .f32⟩ : BufTy).Contents (Elt F) → (⟨S8x225, .f32⟩ : BufTy).Contents (Elt F)),
    StableHlo.nullary main_cst_45 (constant S_ .f32 0x3E800000#32),
    StableHlo.unary main_cst_45 main_v203 (broadcastInDim S8x225 ![] bcast_S_S8x225 : (⟨S_, .f32⟩ : BufTy).Contents (Elt F) → (⟨S8x225, .f32⟩ : BufTy).Contents (Elt F)),
    StableHlo.binary main_v202 main_v203 main_v204 (Host.divf : (⟨S8x225, .f32⟩ : BufTy).Contents (Elt F) → (⟨S8x225, .f32⟩ : BufTy).Contents (Elt F) → (⟨S8x225, .f32⟩ : BufTy).Contents (Elt F)),
    StableHlo.nullary main_cst_46 (constant S_ .f32 0x438C0000#32),
    StableHlo.unary main_cst_46 main_v205 (broadcastInDim S8x225 ![] bcast_S_S8x225 : (⟨S_, .f32⟩ : BufTy).Contents (Elt F) → (⟨S8x225, .f32⟩ : BufTy).Contents (Elt F)),
    StableHlo.binary main_v37 main_v205 main_v206 (Host.divf : (⟨S8x225, .f32⟩ : BufTy).Contents (Elt F) → (⟨S8x225, .f32⟩ : BufTy).Contents (Elt F) → (⟨S8x225, .f32⟩ : BufTy).Contents (Elt F)),
    StableHlo.nullary main_cst_47 (constant S_ .f32 0xC1700000#32) ]
def C14_3 : List (HloOp τ sig (Elt F)) := L14_3
noncomputable def W14_3 : List (Ref sig .tc) := [main_v199, main_v200, main_cst_44, main_v201, main_v202, main_cst_45, main_v203, main_v204, main_cst_46, main_v205, main_v206, main_cst_47]
set_option maxHeartbeats 4000000 in
theorem writes14_3 : (C14_3 (F := F)).Forall fun op => op.writes ⊆ (W14_3.map (Proc.devRef (τ := τ) .tc)).toFinset := by
  simp only [C14_3, L14_3, List.Forall, nullary_writes, unary_writes, binary_writes, ternary_writes, quaternary_writes, reshape_writes, nary_writes, unaryIndexed_writes, binaryIndexed_writes]
  repeat' apply And.intro
  all_goals exact sub_of_mem (by decide)
theorem skip14_3 (V : Valuation τ sig (Elt F)) {r : Ref sig .tc} (h : r ∉ W14_3) :
    StableHlo.after (C14_3 (F := F)) V (no_index (Proc.devRef .tc r)) = V (Proc.devRef .tc r) :=
  after_of_writes_sub _ V writes14_3 h
theorem open14_3 (V : Valuation τ sig (Elt F)) {r : Ref sig .tc} (h : r ∈ W14_3) :
    StableHlo.after (C14_3 (F := F)) V (no_index (Proc.devRef .tc r)) = StableHlo.after (L14_3 (F := F)) V (Proc.devRef .tc r) := rfl
noncomputable def U14_3 : List (Ref sig .tc) := [main_v199, main_v200, main_cst_44, main_v201, main_v202, main_cst_45, main_v203, main_cst_46, main_v205]
theorem openU14_3 (V : Valuation τ sig (Elt F)) {r : Ref sig .tc} (h : r ∈ U14_3) :
    StableHlo.after (C14_3 (F := F)) V (no_index (Proc.devRef .tc r)) = StableHlo.after (L14_3 (F := F)) V (Proc.devRef .tc r) := rfl
set_option maxHeartbeats 4000000 in
theorem st_main_v204 (V : Valuation τ sig (Elt F)) :
    StableHlo.after (C14_3 (F := F)) (StableHlo.after (C14_2 (F := F)) (StableHlo.after (C14_1 (F := F)) (StableHlo.after (C14_0 (F := F)) (StableHlo.after (C13_0 (F := F)) (StableHlo.after (C12_1 (F := F)) (StableHlo.after (C12_0 (F := F)) (StableHlo.after (C11_0 (F := F)) (StableHlo.after (C10_1 (F := F)) (StableHlo.after (C10_0 (F := F)) (StableHlo.after (C9_0 (F := F)) (StableHlo.after (C8_8 (F := F)) (StableHlo.after (C8_7 (F := F)) (StableHlo.after (C8_6 (F := F)) (StableHlo.after (C8_5 (F := F)) (StableHlo.after (C8_4 (F := F)) (StableHlo.after (C8_3 (F := F)) (StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V))))))))))))))))))))))))))))))) (no_index (Proc.devRef .tc main_v204))
      = Cert.ReferenceIdeal.Read.val_main_v204 (F := F) (V (Proc.devRef .tc main_arg1)) (V (Proc.devRef .tc main_arg2)) (V (Proc.devRef .tc main_arg3)) := by
  simp (disch := decide) only [skip0_0, skip0_1, skip0_2, skip0_3, skip0_4, skip1_0, skip2_0, skip3_0, skip4_0, skip5_0, skip6_0, skip7_0, skip8_0, skip8_1, skip8_2, skip8_3, skip8_4, skip8_5, skip8_6, skip8_7, skip8_8, skip9_0, skip10_0, skip10_1, skip11_0, skip12_0, skip12_1, skip13_0, skip14_0, skip14_1, skip14_2, open14_3, L14_3, st_main_v28, st_main_cst_43, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v206 (V : Valuation τ sig (Elt F)) :
    StableHlo.after (C14_3 (F := F)) (StableHlo.after (C14_2 (F := F)) (StableHlo.after (C14_1 (F := F)) (StableHlo.after (C14_0 (F := F)) (StableHlo.after (C13_0 (F := F)) (StableHlo.after (C12_1 (F := F)) (StableHlo.after (C12_0 (F := F)) (StableHlo.after (C11_0 (F := F)) (StableHlo.after (C10_1 (F := F)) (StableHlo.after (C10_0 (F := F)) (StableHlo.after (C9_0 (F := F)) (StableHlo.after (C8_8 (F := F)) (StableHlo.after (C8_7 (F := F)) (StableHlo.after (C8_6 (F := F)) (StableHlo.after (C8_5 (F := F)) (StableHlo.after (C8_4 (F := F)) (StableHlo.after (C8_3 (F := F)) (StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V))))))))))))))))))))))))))))))) (no_index (Proc.devRef .tc main_v206))
      = Cert.ReferenceIdeal.Read.val_main_v206 (F := F) (V (Proc.devRef .tc main_arg1)) (V (Proc.devRef .tc main_arg2)) (V (Proc.devRef .tc main_arg3)) := by
  simp (disch := decide) only [skip0_0, skip0_1, skip0_2, skip0_3, skip0_4, skip1_0, skip2_0, skip3_0, skip4_0, skip5_0, skip6_0, skip7_0, skip8_0, skip8_1, skip8_2, skip8_3, skip8_4, skip8_5, skip8_6, skip8_7, skip8_8, skip9_0, skip10_0, skip10_1, skip11_0, skip12_0, skip12_1, skip13_0, skip14_0, skip14_1, skip14_2, open14_3, L14_3, st_main_v37, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_cst_47 (V : Valuation τ sig (Elt F)) :
    StableHlo.after (C14_3 (F := F)) (StableHlo.after (C14_2 (F := F)) (StableHlo.after (C14_1 (F := F)) (StableHlo.after (C14_0 (F := F)) (StableHlo.after (C13_0 (F := F)) (StableHlo.after (C12_1 (F := F)) (StableHlo.after (C12_0 (F := F)) (StableHlo.after (C11_0 (F := F)) (StableHlo.after (C10_1 (F := F)) (StableHlo.after (C10_0 (F := F)) (StableHlo.after (C9_0 (F := F)) (StableHlo.after (C8_8 (F := F)) (StableHlo.after (C8_7 (F := F)) (StableHlo.after (C8_6 (F := F)) (StableHlo.after (C8_5 (F := F)) (StableHlo.after (C8_4 (F := F)) (StableHlo.after (C8_3 (F := F)) (StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V))))))))))))))))))))))))))))))) (no_index (Proc.devRef .tc main_cst_47))
      = Cert.ReferenceIdeal.Read.val_main_cst_47 (F := F) := by
  simp (disch := decide) only [skip0_0, skip0_1, skip0_2, skip0_3, skip0_4, skip1_0, skip2_0, skip3_0, skip4_0, skip5_0, skip6_0, skip7_0, skip8_0, skip8_1, skip8_2, skip8_3, skip8_4, skip8_5, skip8_6, skip8_7, skip8_8, skip9_0, skip10_0, skip10_1, skip11_0, skip12_0, skip12_1, skip13_0, skip14_0, skip14_1, skip14_2, open14_3, L14_3, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L14_4 : List (HloOp τ sig (Elt F)) :=
  [ StableHlo.unary main_cst_47 main_v207 (broadcastInDim S8x225 ![] bcast_S_S8x225 : (⟨S_, .f32⟩ : BufTy).Contents (Elt F) → (⟨S8x225, .f32⟩ : BufTy).Contents (Elt F)),
    StableHlo.binary main_v206 main_v207 main_v208 (subf : (⟨S8x225, .f32⟩ : BufTy).Contents (Elt F) → (⟨S8x225, .f32⟩ : BufTy).Contents (Elt F) → (⟨S8x225, .f32⟩ : BufTy).Contents (Elt F)),
    StableHlo.nullary main_cst_48 (constant S_ .f32 0x3E800000#32),
    StableHlo.unary main_cst_48 main_v209 (broadcastInDim S8x225 ![] bcast_S_S8x225 : (⟨S_, .f32⟩ : BufTy).Contents (Elt F) → (⟨S8x225, .f32⟩ : BufTy).Contents (Elt F)),
    StableHlo.binary main_v208 main_v209 main_v210 (Host.divf : (⟨S8x225, .f32⟩ : BufTy).Contents (Elt F) → (⟨S8x225, .f32⟩ : BufTy).Contents (Elt F) → (⟨S8x225, .f32⟩ : BufTy).Contents (Elt F)),
    StableHlo.nullary main_cst_49 (constant S_ .f32 0x42F20000#32),
    StableHlo.unary main_cst_49 main_v211 (broadcastInDim S8x225 ![] bcast_S_S8x225 : (⟨S_, .f32⟩ : BufTy).Contents (Elt F) → (⟨S8x225, .f32⟩ : BufTy).Contents (Elt F)),
    StableHlo.binary main_v211 main_v210 main_v212 (subf : (⟨S8x225, .f32⟩ : BufTy).Contents (Elt F) → (⟨S8x225, .f32⟩ : BufTy).Contents (Elt F) → (⟨S8x225, .f32⟩ : BufTy).Contents (Elt F)),
    StableHlo.nullary main_cst_50 (constant S_ .f32 0x40000000#32),
    StableHlo.unary main_cst_50 main_v213 (broadcastInDim S8x225 ![] bcast_S_S8x225 : (⟨S_, .f32⟩ : BufTy).Contents (Elt F) → (⟨S8x225, .f32⟩ : BufTy).Contents (Elt F)),
    StableHlo.binary main_v213 main_v197 main_v214 (mulf : (⟨S8x225, .f32⟩ : BufTy).Contents (Elt F) → (⟨S8x225, .f32⟩ : BufTy).Contents (Elt F) → (⟨S8x225, .f32⟩ : BufTy).Contents (Elt F)),
    StableHlo.nullary main_cst_51 (constant S_ .f32 0xC0000000#32) ]
def C14_4 : List (HloOp τ sig (Elt F)) := L14_4
noncomputable def W14_4 : List (Ref sig .tc) := [main_v207, main_v208, main_cst_48, main_v209, main_v210, main_cst_49, main_v211, main_v212, main_cst_50, main_v213, main_v214, main_cst_51]
set_option maxHeartbeats 4000000 in
theorem writes14_4 : (C14_4 (F := F)).Forall fun op => op.writes ⊆ (W14_4.map (Proc.devRef (τ := τ) .tc)).toFinset := by
  simp only [C14_4, L14_4, List.Forall, nullary_writes, unary_writes, binary_writes, ternary_writes, quaternary_writes, reshape_writes, nary_writes, unaryIndexed_writes, binaryIndexed_writes]
  repeat' apply And.intro
  all_goals exact sub_of_mem (by decide)
theorem skip14_4 (V : Valuation τ sig (Elt F)) {r : Ref sig .tc} (h : r ∉ W14_4) :
    StableHlo.after (C14_4 (F := F)) V (no_index (Proc.devRef .tc r)) = V (Proc.devRef .tc r) :=
  after_of_writes_sub _ V writes14_4 h
theorem open14_4 (V : Valuation τ sig (Elt F)) {r : Ref sig .tc} (h : r ∈ W14_4) :
    StableHlo.after (C14_4 (F := F)) V (no_index (Proc.devRef .tc r)) = StableHlo.after (L14_4 (F := F)) V (Proc.devRef .tc r) := rfl
noncomputable def U14_4 : List (Ref sig .tc) := [main_v207, main_v208, main_cst_48, main_v209, main_v210, main_cst_49, main_v211, main_cst_50, main_v213, main_v214, main_cst_51]
theorem openU14_4 (V : Valuation τ sig (Elt F)) {r : Ref sig .tc} (h : r ∈ U14_4) :
    StableHlo.after (C14_4 (F := F)) V (no_index (Proc.devRef .tc r)) = StableHlo.after (L14_4 (F := F)) V (Proc.devRef .tc r) := rfl
set_option maxHeartbeats 4000000 in
theorem st_main_v212 (V : Valuation τ sig (Elt F)) :
    StableHlo.after (C14_4 (F := F)) (StableHlo.after (C14_3 (F := F)) (StableHlo.after (C14_2 (F := F)) (StableHlo.after (C14_1 (F := F)) (StableHlo.after (C14_0 (F := F)) (StableHlo.after (C13_0 (F := F)) (StableHlo.after (C12_1 (F := F)) (StableHlo.after (C12_0 (F := F)) (StableHlo.after (C11_0 (F := F)) (StableHlo.after (C10_1 (F := F)) (StableHlo.after (C10_0 (F := F)) (StableHlo.after (C9_0 (F := F)) (StableHlo.after (C8_8 (F := F)) (StableHlo.after (C8_7 (F := F)) (StableHlo.after (C8_6 (F := F)) (StableHlo.after (C8_5 (F := F)) (StableHlo.after (C8_4 (F := F)) (StableHlo.after (C8_3 (F := F)) (StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V)))))))))))))))))))))))))))))))) (no_index (Proc.devRef .tc main_v212))
      = Cert.ReferenceIdeal.Read.val_main_v212 (F := F) (V (Proc.devRef .tc main_arg1)) (V (Proc.devRef .tc main_arg2)) (V (Proc.devRef .tc main_arg3)) := by
  simp (disch := decide) only [skip0_0, skip0_1, skip0_2, skip0_3, skip0_4, skip1_0, skip2_0, skip3_0, skip4_0, skip5_0, skip6_0, skip7_0, skip8_0, skip8_1, skip8_2, skip8_3, skip8_4, skip8_5, skip8_6, skip8_7, skip8_8, skip9_0, skip10_0, skip10_1, skip11_0, skip12_0, skip12_1, skip13_0, skip14_0, skip14_1, skip14_2, skip14_3, open14_4, L14_4, st_main_v206, st_main_cst_47, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L14_5 : List (HloOp τ sig (Elt F)) :=
  [ StableHlo.unary main_cst_51 main_v215 (broadcastInDim S8x225 ![] bcast_S_S8x225 : (⟨S_, .f32⟩ : BufTy).Contents (Elt F) → (⟨S8x225, .f32⟩ : BufTy).Contents (Elt F)),
    StableHlo.binary main_v215 main_v204 main_v216 (mulf : (⟨S8x225, .f32⟩ : BufTy).Contents (Elt F) → (⟨S8x225, .f32⟩ : BufTy).Contents (Elt F) → (⟨S8x225, .f32⟩ : BufTy).Contents (Elt F)),
    StableHlo.binary main_v216 main_v195 main_v217 (mulf : (⟨S8x225, .f32⟩ : BufTy).Contents (Elt F) → (⟨S8x225, .f32⟩ : BufTy).Contents (Elt F) → (⟨S8x225, .f32⟩ : BufTy).Contents (Elt F)),
    StableHlo.nullary main_cst_52 (constant S_ .f32 0x40000000#32),
    StableHlo.unary main_cst_52 main_v218 (broadcastInDim S8x225 ![] bcast_S_S8x225 : (⟨S_, .f32⟩ : BufTy).Contents (Elt F) → (⟨S8x225, .f32⟩ : BufTy).Contents (Elt F)),
    StableHlo.binary main_v218 main_v197 main_v219 (mulf : (⟨S8x225, .f32⟩ : BufTy).Contents (Elt F) → (⟨S8x225, .f32⟩ : BufTy).Contents (Elt F) → (⟨S8x225, .f32⟩ : BufTy).Contents (Elt F)),
    StableHlo.binary main_v219 main_v212 main_v220 (mulf : (⟨S8x225, .f32⟩ : BufTy).Contents (Elt F) → (⟨S8x225, .f32⟩ : BufTy).Contents (Elt F) → (⟨S8x225, .f32⟩ : BufTy).Contents (Elt F)),
    StableHlo.binary main_v217 main_v220 main_v221 (subf : (⟨S8x225, .f32⟩ : BufTy).Contents (Elt F) → (⟨S8x225, .f32⟩ : BufTy).Contents (Elt F) → (⟨S8x225, .f32⟩ : BufTy).Contents (Elt F)),
    StableHlo.nullary main_cst_53 (constant S_ .f32 0xC0000000#32),
    StableHlo.unary main_cst_53 main_v222 (broadcastInDim S8x225 ![] bcast_S_S8x225 : (⟨S_, .f32⟩ : BufTy).Contents (Elt F) → (⟨S8x225, .f32⟩ : BufTy).Contents (Elt F)),
    StableHlo.binary main_v222 main_v212 main_v223 (mulf : (⟨S8x225, .f32⟩ : BufTy).Contents (Elt F) → (⟨S8x225, .f32⟩ : BufTy).Contents (Elt F) → (⟨S8x225, .f32⟩ : BufTy).Contents (Elt F)),
    StableHlo.binary main_v223 main_v198 main_v224 (mulf : (⟨S8x225, .f32⟩ : BufTy).Contents (Elt F) → (⟨S8x225, .f32⟩ : BufTy).Contents (Elt F) → (⟨S8x225, .f32⟩ : BufTy).Contents (Elt F)) ]
def C14_5 : List (HloOp τ sig (Elt F)) := L14_5
noncomputable def W14_5 : List (Ref sig .tc) := [main_v215, main_v216, main_v217, main_cst_52, main_v218, main_v219, main_v220, main_v221, main_cst_53, main_v222, main_v223, main_v224]
set_option maxHeartbeats 4000000 in
theorem writes14_5 : (C14_5 (F := F)).Forall fun op => op.writes ⊆ (W14_5.map (Proc.devRef (τ := τ) .tc)).toFinset := by
  simp only [C14_5, L14_5, List.Forall, nullary_writes, unary_writes, binary_writes, ternary_writes, quaternary_writes, reshape_writes, nary_writes, unaryIndexed_writes, binaryIndexed_writes]
  repeat' apply And.intro
  all_goals exact sub_of_mem (by decide)
theorem skip14_5 (V : Valuation τ sig (Elt F)) {r : Ref sig .tc} (h : r ∉ W14_5) :
    StableHlo.after (C14_5 (F := F)) V (no_index (Proc.devRef .tc r)) = V (Proc.devRef .tc r) :=
  after_of_writes_sub _ V writes14_5 h
theorem open14_5 (V : Valuation τ sig (Elt F)) {r : Ref sig .tc} (h : r ∈ W14_5) :
    StableHlo.after (C14_5 (F := F)) V (no_index (Proc.devRef .tc r)) = StableHlo.after (L14_5 (F := F)) V (Proc.devRef .tc r) := rfl

set_option maxHeartbeats 4000000 in
abbrev L14_6 : List (HloOp τ sig (Elt F)) :=
  [ StableHlo.nullary main_cst_54 (constant S_ .f32 0x40000000#32),
    StableHlo.unary main_cst_54 main_v225 (broadcastInDim S8x225 ![] bcast_S_S8x225 : (⟨S_, .f32⟩ : BufTy).Contents (Elt F) → (⟨S8x225, .f32⟩ : BufTy).Contents (Elt F)),
    StableHlo.binary main_v225 main_v197 main_v226 (mulf : (⟨S8x225, .f32⟩ : BufTy).Contents (Elt F) → (⟨S8x225, .f32⟩ : BufTy).Contents (Elt F) → (⟨S8x225, .f32⟩ : BufTy).Contents (Elt F)),
    StableHlo.binary main_v226 main_v204 main_v227 (mulf : (⟨S8x225, .f32⟩ : BufTy).Contents (Elt F) → (⟨S8x225, .f32⟩ : BufTy).Contents (Elt F) → (⟨S8x225, .f32⟩ : BufTy).Contents (Elt F)),
    StableHlo.binary main_v224 main_v227 main_v228 (subf : (⟨S8x225, .f32⟩ : BufTy).Contents (Elt F) → (⟨S8x225, .f32⟩ : BufTy).Contents (Elt F) → (⟨S8x225, .f32⟩ : BufTy).Contents (Elt F)),
    StableHlo.binary main_v204 main_v204 main_v229 (mulf : (⟨S8x225, .f32⟩ : BufTy).Contents (Elt F) → (⟨S8x225, .f32⟩ : BufTy).Contents (Elt F) → (⟨S8x225, .f32⟩ : BufTy).Contents (Elt F)),
    StableHlo.binary main_v195 main_v229 main_v230 (mulf : (⟨S8x225, .f32⟩ : BufTy).Contents (Elt F) → (⟨S8x225, .f32⟩ : BufTy).Contents (Elt F) → (⟨S8x225, .f32⟩ : BufTy).Contents (Elt F)),
    StableHlo.nullary main_cst_55 (constant S_ .f32 0x40000000#32),
    StableHlo.unary main_cst_55 main_v231 (broadcastInDim S8x225 ![] bcast_S_S8x225 : (⟨S_, .f32⟩ : BufTy).Contents (Elt F) → (⟨S8x225, .f32⟩ : BufTy).Contents (Elt F)),
    StableHlo.binary main_v231 main_v197 main_v232 (mulf : (⟨S8x225, .f32⟩ : BufTy).Contents (Elt F) → (⟨S8x225, .f32⟩ : BufTy).Contents (Elt F) → (⟨S8x225, .f32⟩ : BufTy).Contents (Elt F)),
    StableHlo.binary main_v232 main_v204 main_v233 (mulf : (⟨S8x225, .f32⟩ : BufTy).Contents (Elt F) → (⟨S8x225, .f32⟩ : BufTy).Contents (Elt F) → (⟨S8x225, .f32⟩ : BufTy).Contents (Elt F)),
    StableHlo.binary main_v233 main_v212 main_v234 (mulf : (⟨S8x225, .f32⟩ : BufTy).Contents (Elt F) → (⟨S8x225, .f32⟩ : BufTy).Contents (Elt F) → (⟨S8x225, .f32⟩ : BufTy).Contents (Elt F)) ]
def C14_6 : List (HloOp τ sig (Elt F)) := L14_6
noncomputable def W14_6 : List (Ref sig .tc) := [main_cst_54, main_v225, main_v226, main_v227, main_v228, main_v229, main_v230, main_cst_55, main_v231, main_v232, main_v233, main_v234]
set_option maxHeartbeats 4000000 in
theorem writes14_6 : (C14_6 (F := F)).Forall fun op => op.writes ⊆ (W14_6.map (Proc.devRef (τ := τ) .tc)).toFinset := by
  simp only [C14_6, L14_6, List.Forall, nullary_writes, unary_writes, binary_writes, ternary_writes, quaternary_writes, reshape_writes, nary_writes, unaryIndexed_writes, binaryIndexed_writes]
  repeat' apply And.intro
  all_goals exact sub_of_mem (by decide)
theorem skip14_6 (V : Valuation τ sig (Elt F)) {r : Ref sig .tc} (h : r ∉ W14_6) :
    StableHlo.after (C14_6 (F := F)) V (no_index (Proc.devRef .tc r)) = V (Proc.devRef .tc r) :=
  after_of_writes_sub _ V writes14_6 h
theorem open14_6 (V : Valuation τ sig (Elt F)) {r : Ref sig .tc} (h : r ∈ W14_6) :
    StableHlo.after (C14_6 (F := F)) V (no_index (Proc.devRef .tc r)) = StableHlo.after (L14_6 (F := F)) V (Proc.devRef .tc r) := rfl

set_option maxHeartbeats 4000000 in
abbrev L14_7 : List (HloOp τ sig (Elt F)) :=
  [ StableHlo.binary main_v230 main_v234 main_v235 (addf : (⟨S8x225, .f32⟩ : BufTy).Contents (Elt F) → (⟨S8x225, .f32⟩ : BufTy).Contents (Elt F) → (⟨S8x225, .f32⟩ : BufTy).Contents (Elt F)),
    StableHlo.binary main_v212 main_v212 main_v236 (mulf : (⟨S8x225, .f32⟩ : BufTy).Contents (Elt F) → (⟨S8x225, .f32⟩ : BufTy).Contents (Elt F) → (⟨S8x225, .f32⟩ : BufTy).Contents (Elt F)),
    StableHlo.binary main_v198 main_v236 main_v237 (mulf : (⟨S8x225, .f32⟩ : BufTy).Contents (Elt F) → (⟨S8x225, .f32⟩ : BufTy).Contents (Elt F) → (⟨S8x225, .f32⟩ : BufTy).Contents (Elt F)),
    StableHlo.binary main_v235 main_v237 main_v238 (addf : (⟨S8x225, .f32⟩ : BufTy).Contents (Elt F) → (⟨S8x225, .f32⟩ : BufTy).Contents (Elt F) → (⟨S8x225, .f32⟩ : BufTy).Contents (Elt F)),
    StableHlo.nullary main_cst_56 (constant S_ .f32 0x00000000#32),
    StableHlo.unary main_cst_56 main_v239 (broadcastInDim S8x225 ![] bcast_S_S8x225 : (⟨S_, .f32⟩ : BufTy).Contents (Elt F) → (⟨S8x225, .f32⟩ : BufTy).Contents (Elt F)),
    StableHlo.unary main_v195 main_v240 (broadcastInDim S8x1x225 ![0, 2] bcast_S8x225_S8x1x225_0_2 : (⟨S8x225, .f32⟩ : BufTy).Contents (Elt F) → (⟨S8x1x225, .f32⟩ : BufTy).Contents (Elt F)),
    StableHlo.unary main_v198 main_v241 (broadcastInDim S8x1x225 ![0, 2] bcast_S8x225_S8x1x225_0_2 : (⟨S8x225, .f32⟩ : BufTy).Contents (Elt F) → (⟨S8x1x225, .f32⟩ : BufTy).Contents (Elt F)),
    StableHlo.unary main_v214 main_v242 (broadcastInDim S8x1x225 ![0, 2] bcast_S8x225_S8x1x225_0_2 : (⟨S8x225, .f32⟩ : BufTy).Contents (Elt F) → (⟨S8x1x225, .f32⟩ : BufTy).Contents (Elt F)),
    StableHlo.unary main_v221 main_v243 (broadcastInDim S8x1x225 ![0, 2] bcast_S8x225_S8x1x225_0_2 : (⟨S8x225, .f32⟩ : BufTy).Contents (Elt F) → (⟨S8x1x225, .f32⟩ : BufTy).Contents (Elt F)),
    StableHlo.unary main_v228 main_v244 (broadcastInDim S8x1x225 ![0, 2] bcast_S8x225_S8x1x225_0_2 : (⟨S8x225, .f32⟩ : BufTy).Contents (Elt F) → (⟨S8x1x225, .f32⟩ : BufTy).Contents (Elt F)),
    StableHlo.unary main_v238 main_v245 (broadcastInDim S8x1x225 ![0, 2] bcast_S8x225_S8x1x225_0_2 : (⟨S8x225, .f32⟩ : BufTy).Contents (Elt F) → (⟨S8x1x225, .f32⟩ : BufTy).Contents (Elt F)) ]
def C14_7 : List (HloOp τ sig (Elt F)) := L14_7
noncomputable def W14_7 : List (Ref sig .tc) := [main_v235, main_v236, main_v237, main_v238, main_cst_56, main_v239, main_v240, main_v241, main_v242, main_v243, main_v244, main_v245]
set_option maxHeartbeats 4000000 in
theorem writes14_7 : (C14_7 (F := F)).Forall fun op => op.writes ⊆ (W14_7.map (Proc.devRef (τ := τ) .tc)).toFinset := by
  simp only [C14_7, L14_7, List.Forall, nullary_writes, unary_writes, binary_writes, ternary_writes, quaternary_writes, reshape_writes, nary_writes, unaryIndexed_writes, binaryIndexed_writes]
  repeat' apply And.intro
  all_goals exact sub_of_mem (by decide)
theorem skip14_7 (V : Valuation τ sig (Elt F)) {r : Ref sig .tc} (h : r ∉ W14_7) :
    StableHlo.after (C14_7 (F := F)) V (no_index (Proc.devRef .tc r)) = V (Proc.devRef .tc r) :=
  after_of_writes_sub _ V writes14_7 h
theorem open14_7 (V : Valuation τ sig (Elt F)) {r : Ref sig .tc} (h : r ∈ W14_7) :
    StableHlo.after (C14_7 (F := F)) V (no_index (Proc.devRef .tc r)) = StableHlo.after (L14_7 (F := F)) V (Proc.devRef .tc r) := rfl

end Cert.Percept.HostK

end
-- ==== Proof.HostKChunks7.lean ====
/-
  The host operations before the region, cut into short runs, and how one buffer is read after them.

  The 338 operations are straight-line: each writes one buffer of its own. After a run of operations that does not
  write a buffer r, r holds what it held before (skip); after a run that does, r holds what the run's own operations
  leave (open), and those read their operands from the valuation before the run. The operations up to the inverse
  covariance and the centres are the reference's own, so each buffer they write that a later run reads holds, right
  after its run, the reference's stage of the same name applied to the argument arrays (st_…): one run is opened per
  buffer, and what it reads from earlier runs is already a stage.
  (Runs 37 to 38 of 38.)
-/
import proofs.«134758_j41807211659417_2_alg».proof.Proof.HostKChunks6

set_option maxRecDepth 16384

noncomputable section

namespace Cert.Percept.HostK

open Cert.KernelIdeal Cert.KernelIdeal.Gen Idealize.ShloMosaic Idealize.ShloMosaic.TcCoe Idealize.SL.Sem Idealize.ShloMosaic.StableHlo

variable {F : FTy → Type} [FloatOps F]

set_option maxHeartbeats 4000000 in
abbrev L14_8 : List (HloOp τ sig (Elt F)) :=
  [ StableHlo.unary main_v239 main_v246 (broadcastInDim S8x1x225 ![0, 2] bcast_S8x225_S8x1x225_0_2 : (⟨S8x225, .f32⟩ : BufTy).Contents (Elt F) → (⟨S8x1x225, .f32⟩ : BufTy).Contents (Elt F)),
    StableHlo.unary main_v239 main_v247 (broadcastInDim S8x1x225 ![0, 2] bcast_S8x225_S8x1x225_0_2 : (⟨S8x225, .f32⟩ : BufTy).Contents (Elt F) → (⟨S8x1x225, .f32⟩ : BufTy).Contents (Elt F)),
    StableHlo.nary ![main_v240, main_v241, main_v242, main_v243, main_v244, main_v245, main_v246, main_v247] main_v248 (fun u => concatenate S8x8x225 1 [⟨S8x1x225, u 0⟩, ⟨S8x1x225, u 1⟩, ⟨S8x1x225, u 2⟩, ⟨S8x1x225, u 3⟩, ⟨S8x1x225, u 4⟩, ⟨S8x1x225, u 5⟩, ⟨S8x1x225, u 6⟩, ⟨S8x1x225, u 7⟩] concatenates_S8x1x225_S8x1x225_S8x1x225_S8x1x225_S8x1x225_S8x1x225_S8x1x225_S8x1x225_S8x8x225_d1),
    StableHlo.nullary main_c_57 (constantI S_ 32 0#32) ]
def C14_8 : List (HloOp τ sig (Elt F)) := L14_8
noncomputable def W14_8 : List (Ref sig .tc) := [main_v246, main_v247, main_v248, main_c_57]
set_option maxHeartbeats 4000000 in
theorem writes14_8 : (C14_8 (F := F)).Forall fun op => op.writes ⊆ (W14_8.map (Proc.devRef (τ := τ) .tc)).toFinset := by
  simp only [C14_8, L14_8, List.Forall, nullary_writes, unary_writes, binary_writes, ternary_writes, quaternary_writes, reshape_writes, nary_writes, unaryIndexed_writes, binaryIndexed_writes]
  repeat' apply And.intro
  all_goals exact sub_of_mem (by decide)
theorem skip14_8 (V : Valuation τ sig (Elt F)) {r : Ref sig .tc} (h : r ∉ W14_8) :
    StableHlo.after (C14_8 (F := F)) V (no_index (Proc.devRef .tc r)) = V (Proc.devRef .tc r) :=
  after_of_writes_sub _ V writes14_8 h
theorem open14_8 (V : Valuation τ sig (Elt F)) {r : Ref sig .tc} (h : r ∈ W14_8) :
    StableHlo.after (C14_8 (F := F)) V (no_index (Proc.devRef .tc r)) = StableHlo.after (L14_8 (F := F)) V (Proc.devRef .tc r) := rfl

set_option maxHeartbeats 4000000 in
abbrev L15_0 : List (HloOp τ sig (Elt F)) :=
  [ StableHlo.TRef.unary (.of main_c_57 : StableHlo.TRef sig ⟨S_, .i32⟩) (.of main_call7_v0 : StableHlo.TRef sig ⟨S_, .f32⟩) (sitofp .f32),
    StableHlo.TRef.binary (.of main_arg5 : StableHlo.TRef sig ⟨S14641x2, .f32⟩) (.of main_call7_v0 : StableHlo.TRef sig ⟨S_, .f32⟩) (.of main_v249 : StableHlo.TRef sig ⟨S14848x2, .f32⟩) (fun x v => pad S14848x2 ![0, 0] ![207, 0] ![0, 0] x v pads_S14641x2_S14848x2_02070_000 h_S_) ]
def C15_0 : List (HloOp τ sig (Elt F)) := L15_0
noncomputable def W15_0 : List (Ref sig .tc) := [main_call7_v0, main_v249]
set_option maxHeartbeats 4000000 in
theorem writes15_0 : (C15_0 (F := F)).Forall fun op => op.writes ⊆ (W15_0.map (Proc.devRef (τ := τ) .tc)).toFinset := by
  simp only [C15_0, L15_0, List.Forall, nullary_writes, unary_writes, binary_writes, ternary_writes, quaternary_writes, reshape_writes, nary_writes, unaryIndexed_writes, binaryIndexed_writes]
  repeat' apply And.intro
  all_goals exact sub_of_mem (by decide)
theorem skip15_0 (V : Valuation τ sig (Elt F)) {r : Ref sig .tc} (h : r ∉ W15_0) :
    StableHlo.after (C15_0 (F := F)) V (no_index (Proc.devRef .tc r)) = V (Proc.devRef .tc r) :=
  after_of_writes_sub _ V writes15_0 h
theorem open15_0 (V : Valuation τ sig (Elt F)) {r : Ref sig .tc} (h : r ∈ W15_0) :
    StableHlo.after (C15_0 (F := F)) V (no_index (Proc.devRef .tc r)) = StableHlo.after (L15_0 (F := F)) V (Proc.devRef .tc r) := rfl

end Cert.Percept.HostK

end
-- ==== Proof.HostKChunks.lean ====
/-
  The sixteen stretches of the launch are each the concatenation of their runs (split), and the fold over a
  concatenation is the fold of the folds: the fold over all the operations before the region is the fold over the
  runs, in order (after_preOps).
-/
import proofs.«134758_j41807211659417_2_alg».proof.Proof.HostKChunks7

set_option maxRecDepth 16384

noncomputable section

namespace Cert.Percept.HostK

open Cert.KernelIdeal Cert.KernelIdeal.Gen Idealize.ShloMosaic Idealize.ShloMosaic.TcCoe Idealize.SL.Sem Idealize.ShloMosaic.StableHlo

variable {F : FTy → Type} [FloatOps F]

set_option maxHeartbeats 4000000 in
theorem split0 : (hostOps0 : List (HloOp τ sig (Elt F))) = C0_0 (F := F) ++ (C0_1 (F := F) ++ (C0_2 (F := F) ++ (C0_3 (F := F) ++ (C0_4 (F := F))))) := rfl

set_option maxHeartbeats 4000000 in
theorem split1 : (hostOps0_1 : List (HloOp τ sig (Elt F))) = C1_0 (F := F) := rfl

set_option maxHeartbeats 4000000 in
theorem split2 : (hostOps0_2 : List (HloOp τ sig (Elt F))) = C2_0 (F := F) := rfl

set_option maxHeartbeats 4000000 in
theorem split3 : (hostOps0_3 : List (HloOp τ sig (Elt F))) = C3_0 (F := F) := rfl

set_option maxHeartbeats 4000000 in
theorem split4 : (hostOps0_4 : List (HloOp τ sig (Elt F))) = C4_0 (F := F) := rfl

set_option maxHeartbeats 4000000 in
theorem split5 : (hostOps0_5 : List (HloOp τ sig (Elt F))) = C5_0 (F := F) := rfl

set_option maxHeartbeats 4000000 in
theorem split6 : (hostOps0_6 : List (HloOp τ sig (Elt F))) = C6_0 (F := F) := rfl

set_option maxHeartbeats 4000000 in
theorem split7 : (hostOps0_7 : List (HloOp τ sig (Elt F))) = C7_0 (F := F) := rfl

set_option maxHeartbeats 4000000 in
theorem split8 : (hostOps0_8 : List (HloOp τ sig (Elt F))) = C8_0 (F := F) ++ (C8_1 (F := F) ++ (C8_2 (F := F) ++ (C8_3 (F := F) ++ (C8_4 (F := F) ++ (C8_5 (F := F) ++ (C8_6 (F := F) ++ (C8_7 (F := F) ++ (C8_8 (F := F))))))))) := rfl

set_option maxHeartbeats 4000000 in
theorem split9 : (hostOps0_9 : List (HloOp τ sig (Elt F))) = C9_0 (F := F) := rfl

set_option maxHeartbeats 4000000 in
theorem split10 : (hostOps0_10 : List (HloOp τ sig (Elt F))) = C10_0 (F := F) ++ (C10_1 (F := F)) := rfl

set_option maxHeartbeats 4000000 in
theorem split11 : (hostOps0_11 : List (HloOp τ sig (Elt F))) = C11_0 (F := F) := rfl

set_option maxHeartbeats 4000000 in
theorem split12 : (hostOps0_12 : List (HloOp τ sig (Elt F))) = C12_0 (F := F) ++ (C12_1 (F := F)) := rfl

set_option maxHeartbeats 4000000 in
theorem split13 : (hostOps0_13 : List (HloOp τ sig (Elt F))) = C13_0 (F := F) := rfl

set_option maxHeartbeats 4000000 in
theorem split14 : (hostOps0_14 : List (HloOp τ sig (Elt F))) = C14_0 (F := F) ++ (C14_1 (F := F) ++ (C14_2 (F := F) ++ (C14_3 (F := F) ++ (C14_4 (F := F) ++ (C14_5 (F := F) ++ (C14_6 (F := F) ++ (C14_7 (F := F) ++ (C14_8 (F := F))))))))) := rfl

set_option maxHeartbeats 4000000 in
theorem split15 : (hostOps0_15 : List (HloOp τ sig (Elt F))) = C15_0 (F := F) := rfl

set_option maxHeartbeats 40000000 in
/-- The fold over all the operations before the region is the fold over the runs, in order. -/
theorem after_preOps (V : Valuation τ sig (Elt F)) :
    StableHlo.after (preOps (F := F)) V = (StableHlo.after (C15_0 (F := F)) (StableHlo.after (C14_8 (F := F)) (StableHlo.after (C14_7 (F := F)) (StableHlo.after (C14_6 (F := F)) (StableHlo.after (C14_5 (F := F)) (StableHlo.after (C14_4 (F := F)) (StableHlo.after (C14_3 (F := F)) (StableHlo.after (C14_2 (F := F)) (StableHlo.after (C14_1 (F := F)) (StableHlo.after (C14_0 (F := F)) (StableHlo.after (C13_0 (F := F)) (StableHlo.after (C12_1 (F := F)) (StableHlo.after (C12_0 (F := F)) (StableHlo.after (C11_0 (F := F)) (StableHlo.after (C10_1 (F := F)) (StableHlo.after (C10_0 (F := F)) (StableHlo.after (C9_0 (F := F)) (StableHlo.after (C8_8 (F := F)) (StableHlo.after (C8_7 (F := F)) (StableHlo.after (C8_6 (F := F)) (StableHlo.after (C8_5 (F := F)) (StableHlo.after (C8_4 (F := F)) (StableHlo.after (C8_3 (F := F)) (StableHlo.after (C8_2 (F := F)) (StableHlo.after (C8_1 (F := F)) (StableHlo.after (C8_0 (F := F)) (StableHlo.after (C7_0 (F := F)) (StableHlo.after (C6_0 (F := F)) (StableHlo.after (C5_0 (F := F)) (StableHlo.after (C4_0 (F := F)) (StableHlo.after (C3_0 (F := F)) (StableHlo.after (C2_0 (F := F)) (StableHlo.after (C1_0 (F := F)) (StableHlo.after (C0_4 (F := F)) (StableHlo.after (C0_3 (F := F)) (StableHlo.after (C0_2 (F := F)) (StableHlo.after (C0_1 (F := F)) (StableHlo.after (C0_0 (F := F)) V)))))))))))))))))))))))))))))))))))))) := by
  simp only [preOps, List.flatten_cons, List.flatten_nil, List.append_nil]
  rw [split0, split1, split2, split3, split4, split5, split6, split7, split8, split9, split10, split11, split12, split13, split14, split15]
  rfl

end Cert.Percept.HostK

end
-- ==== Proof.HostK.lean ====
/-
  The three arrays the kernel's region is handed are: the padded pixel grid; the coefficient array built from the
  reference's own stages inv00 (%195), inv01 (%197), inv11 (%198), cx (%204), cy (%212); and the brightness (%166).
  The coefficient array is the join of eight slabs, read as one function of the slabs (join8) so that each slab is
  rewritten in place. Each array is read after the host operations before the region by stepping over the runs of operations that do not write
  what is being read; the part of the computation shared with the reference is named by the reference's stages, so
  nothing of it is opened here.
-/
import proofs.«134758_j41807211659417_2_alg».proof.Proof.HostKChunks

set_option maxRecDepth 16384

noncomputable section

namespace Cert.Percept.HostK

open Cert.KernelIdeal Cert.KernelIdeal.Gen Idealize.ShloMosaic Idealize.ShloMosaic.TcCoe Idealize.SL.Sem Idealize.ShloMosaic.StableHlo

variable {F : FTy → Type} [FloatOps F]

/-- Eight [8,1,225] slabs joined along the middle axis, as a function of the slabs. -/
def join8 (v0 v1 v2 v3 v4 v5 v6 v7 : FVec F S8x1x225 .f32) : FVec F S8x8x225 .f32 :=
  concatenate S8x8x225 1 [⟨S8x1x225, v0⟩, ⟨S8x1x225, v1⟩, ⟨S8x1x225, v2⟩, ⟨S8x1x225, v3⟩, ⟨S8x1x225, v4⟩, ⟨S8x1x225, v5⟩, ⟨S8x1x225, v6⟩, ⟨S8x1x225, v7⟩]
    concatenates_S8x1x225_S8x1x225_S8x1x225_S8x1x225_S8x1x225_S8x1x225_S8x1x225_S8x1x225_S8x8x225_d1

/-- The coefficient array's own operation leaves the join of the eight slabs it reads. -/
theorem v248_result (V : Valuation τ sig (Elt F)) :
    (StableHlo.nary ![main_v240, main_v241, main_v242, main_v243, main_v244, main_v245, main_v246, main_v247] main_v248 (fun u => concatenate S8x8x225 1 [⟨S8x1x225, u 0⟩, ⟨S8x1x225, u 1⟩, ⟨S8x1x225, u 2⟩, ⟨S8x1x225, u 3⟩, ⟨S8x1x225, u 4⟩, ⟨S8x1x225, u 5⟩, ⟨S8x1x225, u 6⟩, ⟨S8x1x225, u 7⟩] concatenates_S8x1x225_S8x1x225_S8x1x225_S8x1x225_S8x1x225_S8x1x225_S8x1x225_S8x1x225_S8x8x225_d1) : HloOp τ sig (Elt F)).result V (no_index (Proc.devRef .tc main_v248))
      = join8 (V (Proc.devRef .tc main_v240)) (V (Proc.devRef .tc main_v241)) (V (Proc.devRef .tc main_v242)) (V (Proc.devRef .tc main_v243))
          (V (Proc.devRef .tc main_v244)) (V (Proc.devRef .tc main_v245)) (V (Proc.devRef .tc main_v246)) (V (Proc.devRef .tc main_v247)) := by
  rw [nary8_result']
  rfl

variable (m : (ℓ : Loc nD τ sig) → Buf (Elt F) ℓ)

set_option maxHeartbeats 40000000 in
/-- Window 0's array: the padded pixel grid. -/
theorem pix_val (c : Dev nD) :
    StableHlo.after (preOps (F := F)) (fun b => m (c, b)) (Proc.devRef .tc main_v249)
      = padPix (m ((c.tc : Thread nD τ).loc main_arg5)) := by
  rw [after_preOps]
  simp (disch := decide) only [skip0_0, skip0_1, skip0_2, skip0_3, skip0_4, skip1_0, skip2_0, skip3_0, skip4_0, skip5_0, skip6_0, skip7_0, skip8_0, skip8_1, skip8_2, skip8_3, skip8_4, skip8_5, skip8_6, skip8_7, skip8_8, skip9_0, skip10_0, skip10_1, skip11_0, skip12_0, skip12_1, skip13_0, skip14_0, skip14_1, skip14_2, skip14_3, skip14_4, skip14_5, skip14_6, skip14_7, skip14_8, skip15_0,
      openU0_0, L0_0, openU0_1, L0_1, openU0_2, L0_2, openU0_3, L0_3, openU0_4, L0_4, openU1_0, L1_0, openU3_0, L3_0, openU5_0, L5_0, openU7_0, L7_0, openU8_0, L8_0, openU8_1, L8_1, openU8_2, L8_2, openU8_3, L8_3, openU8_4, L8_4, openU8_5, L8_5, openU8_6, L8_6, openU8_7, L8_7, openU8_8, L8_8, openU10_0, L10_0, openU10_1, L10_1, openU11_0, L11_0, openU12_0, L12_0, openU12_1, L12_1, openU13_0, L13_0, openU14_0, L14_0, openU14_1, L14_1, openU14_2, L14_2, openU14_3, L14_3, openU14_4, L14_4, open14_5, L14_5, open14_6, L14_6, open14_7, L14_7, open14_8, L14_8, open15_0, L15_0,
      st_main_v166, st_main_v19, st_main_v23, st_main_v22, st_main_v14, st_main_v18, st_main_v15, st_main_v35, st_main_v17, st_main_v28, st_main_v43, st_main_v44, st_main_v37, st_main_cst_4, st_main_v50, st_main_c, st_main_v49, st_main_cst_5, st_main_v52, st_main_c_6, st_main_v51, st_main_v53, st_main_v45, st_main_cst_7, st_main_v56, st_main_cst_8, st_main_cst_9, st_main_v58, st_main_cst_10, st_main_v55, st_main_v54, st_main_c_14, st_main_v66, st_main_v64, st_main_c_16, st_main_v75, st_main_v83, st_main_v82, st_main_v80, st_main_v91, st_main_v92, st_main_v98, st_main_v100, st_main_v96, st_main_v107, st_main_v109, st_main_c_30, st_main_v116, st_main_v114, st_main_v89, st_main_v73, st_main_v57, st_main_v105, st_main_v127, st_main_v126, st_main_v59, st_main_v134, st_main_v136, st_main_v132, st_main_v8, st_main_v137, st_main_v6, st_main_v3, st_main_v12, st_main_v13, st_main_v146, st_main_v7, st_main_v5, st_main_cst_35, st_main_v153, st_main_cst_36, st_main_v10, st_main_v158, st_main_v159, st_main_v9, st_main_v11, st_main_v1, st_main_cst_39, st_main_v156, st_main_v165, st_main_v154, st_main_v145, st_main_v174, st_main_v175, st_main_v139, st_main_v173, st_main_v187, st_main_v177, st_main_v178, st_main_v183, st_main_v186, st_main_cst_43, st_main_cst_47, st_main_v206, st_main_v197, st_main_v204, st_main_v195, st_main_v212, st_main_v198,
      after_cons, after_nil,
      nullary_result', unary_result', binary_result', ternary_result', quaternary_result', reshape_result', v248_result,
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 40000000 in
/-- Window 2's array: the brightness, the reference's stage %166. -/
theorem bright_val (c : Dev nD) :
    StableHlo.after (preOps (F := F)) (fun b => m (c, b)) (Proc.devRef .tc main_v166)
      = Cert.ReferenceIdeal.Read.val_main_v166 (F := F) (m ((c.tc : Thread nD τ).loc main_arg0)) (m ((c.tc : Thread nD τ).loc main_arg1)) := by
  rw [after_preOps]
  simp (disch := decide) only [skip0_0, skip0_1, skip0_2, skip0_3, skip0_4, skip1_0, skip2_0, skip3_0, skip4_0, skip5_0, skip6_0, skip7_0, skip8_0, skip8_1, skip8_2, skip8_3, skip8_4, skip8_5, skip8_6, skip8_7, skip8_8, skip9_0, skip10_0, skip10_1, skip11_0, skip12_0, skip12_1, skip13_0, skip14_0, skip14_1, skip14_2, skip14_3, skip14_4, skip14_5, skip14_6, skip14_7, skip14_8, skip15_0,
      openU0_0, L0_0, openU0_1, L0_1, openU0_2, L0_2, openU0_3, L0_3, openU0_4, L0_4, openU1_0, L1_0, openU3_0, L3_0, openU5_0, L5_0, openU7_0, L7_0, openU8_0, L8_0, openU8_1, L8_1, openU8_2, L8_2, openU8_3, L8_3, openU8_4, L8_4, openU8_5, L8_5, openU8_6, L8_6, openU8_7, L8_7, openU8_8, L8_8, openU10_0, L10_0, openU10_1, L10_1, openU11_0, L11_0, openU12_0, L12_0, openU12_1, L12_1, openU13_0, L13_0, openU14_0, L14_0, openU14_1, L14_1, openU14_2, L14_2, openU14_3, L14_3, openU14_4, L14_4, open14_5, L14_5, open14_6, L14_6, open14_7, L14_7, open14_8, L14_8, open15_0, L15_0,
      st_main_v166, st_main_v19, st_main_v23, st_main_v22, st_main_v14, st_main_v18, st_main_v15, st_main_v35, st_main_v17, st_main_v28, st_main_v43, st_main_v44, st_main_v37, st_main_cst_4, st_main_v50, st_main_c, st_main_v49, st_main_cst_5, st_main_v52, st_main_c_6, st_main_v51, st_main_v53, st_main_v45, st_main_cst_7, st_main_v56, st_main_cst_8, st_main_cst_9, st_main_v58, st_main_cst_10, st_main_v55, st_main_v54, st_main_c_14, st_main_v66, st_main_v64, st_main_c_16, st_main_v75, st_main_v83, st_main_v82, st_main_v80, st_main_v91, st_main_v92, st_main_v98, st_main_v100, st_main_v96, st_main_v107, st_main_v109, st_main_c_30, st_main_v116, st_main_v114, st_main_v89, st_main_v73, st_main_v57, st_main_v105, st_main_v127, st_main_v126, st_main_v59, st_main_v134, st_main_v136, st_main_v132, st_main_v8, st_main_v137, st_main_v6, st_main_v3, st_main_v12, st_main_v13, st_main_v146, st_main_v7, st_main_v5, st_main_cst_35, st_main_v153, st_main_cst_36, st_main_v10, st_main_v158, st_main_v159, st_main_v9, st_main_v11, st_main_v1, st_main_cst_39, st_main_v156, st_main_v165, st_main_v154, st_main_v145, st_main_v174, st_main_v175, st_main_v139, st_main_v173, st_main_v187, st_main_v177, st_main_v178, st_main_v183, st_main_v186, st_main_cst_43, st_main_cst_47, st_main_v206, st_main_v197, st_main_v204, st_main_v195, st_main_v212, st_main_v198,
      after_cons, after_nil,
      nullary_result', unary_result', binary_result', ternary_result', quaternary_result', reshape_result', v248_result,
      unaryIndexed_result', binaryIndexed_result',
      nullary_result_ne', unary_result_ne', binary_result_ne', ternary_result_ne', quaternary_result_ne', reshape_result_ne',
      nary_result_ne', unaryIndexed_result_ne', binaryIndexed_result_ne']

set_option maxHeartbeats 40000000 in
/-- Window 1's array: the coefficient array of the reference's stages %195, %197, %198, %204, %212. -/
theorem coef_val (c : Dev nD) :
    StableHlo.after (preOps (F := F)) (fun b => m (c, b)) (Proc.devRef .tc main_v248)
      = coefArr
          (Cert.ReferenceIdeal.Read.val_main_v195 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
          (Cert.ReferenceIdeal.Read.val_main_v197 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
          (Cert.ReferenceIdeal.Read.val_main_v198 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
          (Cert.ReferenceIdeal.Read.val_main_v204 (F := F) (m ((c.tc : Thread nD τ).loc main_arg1)) (m ((c.tc : Thread nD τ).loc main_arg2)) (m ((c.tc : Thread nD τ).loc main_arg3)))
          (Cert.ReferenceIdeal.Read.val_main_v212 (F := F) (m ((c.tc : Thread nD τ).loc main_arg1)) (m ((c.tc : Thread nD τ).loc main_arg2)) (m ((c.tc : Thread nD τ).loc main_arg3))) := by
  rw [after_preOps]
  simp (disch := decide) only [skip0_0, skip0_1, skip0_2, skip0_3, skip0_4, skip1_0, skip2_0, skip3_0, skip4_0, skip5_0, skip6_0, skip7_0, skip8_0, skip8_1, skip8_2, skip8_3, skip8_4, skip8_5, skip8_6, skip8_7, skip8_8, skip9_0, skip10_0, skip10_1, skip11_0, skip12_0, skip12_1, skip13_0, skip14_0, skip14_1, skip14_2, skip14_3, skip14_4, skip14_5, skip14_6, skip14_7, skip14_8, skip15_0,
      openU0_0, L0_0, openU0_1, L0_1, openU0_2, L0_2, openU0_3, L0_3, openU0_4, L0_4, openU1_0, L1_0, openU3_0, L3_0, openU5_0, L5_0, openU7_0, L7_0, openU8_0, L8_0, openU8_1, L8_1, openU8_2, L8_2, openU8_3, L8_3, openU8_4, L8_4, openU8_5, L8_5, openU8_6, L8_6, openU8_7, L8_7, openU8_8, L8_8, openU10_0, L10_0, openU10_1, L10_1, openU11_0, L11_0, openU12_0, L12_0, openU12_1, L12_1, openU13_0, L13_0, openU14_0, L14_0, openU14_1, L14_1, openU14_2, L14_2, openU14_3, L14_3, openU14_4, L14_4, open14_5, L14_5, open14_6, L14_6, open14_7, L14_7, open14_8, L14_8, open15_0, L15_0,
      st_main_v166, st_main_v19, st_main_v23, st_main_v22, st_main_v14, st_main_v18, st_main_v15, st_main_v35, st_main_v17, st_main_v28, st_main_v43, st_main_v44, st_main_v37, st_main_cst_4, st_main_v50, st_main_c, st_main_v49, st_main_cst_5, st_main_v52, st_main_c_6, st_main_v51, st_main_v53, st_main_v45, st_main_cst_7, st_main_v56, st_main_cst_8, st_main_cst_9, st_main_v58, st_main_cst_10, st_main_v55, st_main_v54, st_main_c_14, st_main_v66, st_main_v64, st_main_c_16, st_main_v75, st_main_v83, st_main_v82, st_main_v80, st_main_v91, st_main_v92, st_main_v98, st_main_v100, st_main_v96, st_main_v107, st_main_v109, st_main_c_30, st_main_v116, st_main_v114, st_main_v89, st_main_v73, st_main_v57, st_main_v105, st_main_v127, st_main_v126, st_main_v59, st_main_v134, st_main_v136, st_main_v132, st_main_v8, st_main_v137, st_main_v6, st_main_v3, st_main_v12, st_main_v13, st_main_v146, st_main_v7, st_main_v5, st_main_cst_35, st_main_v153, st_main_cst_36, st_main_v10, st_main_v158, st_main_v159, st_main_v9, st_main_v11, st_main_v1, st_main_cst_39, st_main_v156, st_main_v165, st_main_v154, st_main_v145, st_main_v174, st_main_v175, st_main_v139, st_main_v173, st_main_v187, st_main_v177, st_main_v178, st_main_v183, st_main_v186, st_main_cst_43, st_main_cst_47, st_main_v206, st_main_v197, st_main_v204, st_main_v195, st_main_v212, st_main_v198,
      after_cons, after_nil,
      nullary_result', unary_result', binary_result', ternary_result', quaternary_result', reshape_result', v248_result,
      unaryIndexed_result', binaryIndexed_result',
      nullary_result_ne', unary_result_ne', binary_result_ne', ternary_result_ne', quaternary_result_ne', reshape_result_ne',
      nary_result_ne', unaryIndexed_result_ne', binaryIndexed_result_ne']
  rfl

end Cert.Percept.HostK

end
-- ==== Proof.Spec.lean ====
/-
  The one algebraic law that joins the two programs.

  For a pixel (px, py), an electrode centre (cx, cy) and the symmetric inverse covariance entries a = inv00, b = inv01,
  c = inv11, the reference's exponent is the quadratic form
      (px − cx)² · a + 2 (px − cx)(py − cy) · b + (py − cy)² · c,
  while the kernel contracts the row of six pixel monomials [px², py², px·py, px, py, 1] (padded by two zeros) against
  the coefficient row [a, c, 2b, −2·cx·a − 2b·cy, −2·cy·c − 2b·cx, a·cx² + 2b·cx·cy + c·cy², 0, 0].
  Expanding the squares shows the two are equal over the real numbers. Over the extended reals the expansion needs
  every quantity finite (distributivity fails at ±∞), so the law is stated for coerced reals; the float literals
  2, −2, 0 are evaluated here once.
-/
import Idealize.ShloMosaic.PureOps.Ideal
import Idealize.ShloMosaic.PureOps.Ideal.Laws

noncomputable section

namespace Cert.Percept.Spec

open Idealize.ShloMosaic

/-- the float literals 2.0, −2.0, 1.0, 0.0 denote the reals 2, −2, 1, 0 -/
theorem lit_two : Ideal.ofBits .f32 0x40000000#32 = ((2 : ℝ) : EReal) := by
  simp [Ideal.ofBits, Ideal.ieee, -EReal.coe_mul]; norm_num
theorem lit_negTwo : Ideal.ofBits .f32 0xC0000000#32 = ((-2 : ℝ) : EReal) := by
  simp [Ideal.ofBits, Ideal.ieee, -EReal.coe_mul]; norm_num
theorem lit_one : Ideal.ofBits .f32 0x3F800000#32 = ((1 : ℝ) : EReal) := by
  simp [Ideal.ofBits, Ideal.ieee, -EReal.coe_mul]; norm_num
theorem lit_zero : Ideal.ofBits .f32 0x00000000#32 = ((0 : ℝ) : EReal) := by
  simp [Ideal.ofBits, Ideal.ieee]

/-- The reference's exponent, in the association the reference computes it. -/
def quadRef (px py cx cy a b c : EReal) : EReal :=
  ((px - cx) * (px - cx)) * a
    + ((Ideal.ofBits .f32 0x40000000#32 * (px - cx)) * (py - cy)) * b
    + ((py - cy) * (py - cy)) * c

/-- The kernel's coefficient row for one (batch, electrode), in the association the host code computes it. -/
def coef (cx cy a b c : EReal) : Fin 8 → EReal :=
  ![a, c, Ideal.ofBits .f32 0x40000000#32 * b,
    ((Ideal.ofBits .f32 0xC0000000#32 * cx) * a) - ((Ideal.ofBits .f32 0x40000000#32 * b) * cy),
    ((Ideal.ofBits .f32 0xC0000000#32 * cy) * c) - ((Ideal.ofBits .f32 0x40000000#32 * b) * cx),
    ((a * (cx * cx)) + (((Ideal.ofBits .f32 0x40000000#32 * b) * cx) * cy)) + (c * (cy * cy)),
    Ideal.ofBits .f32 0x00000000#32, Ideal.ofBits .f32 0x00000000#32]

/-- The kernel's monomial row of one pixel. -/
def monoRow (px py : EReal) : Fin 8 → EReal :=
  ![px * px, py * py, px * py, px, py, 1, 0, 0]

/-- The contraction of the monomial row with the coefficient row is the quadratic form, for real quantities. -/
theorem contract_eq_quad (px py cx cy a b c : ℝ) :
    ∑ k : Fin 8, monoRow (px : EReal) py k * coef (cx : EReal) cy a b c k = quadRef (px : EReal) py cx cy a b c := by
  rw [Fin.sum_univ_eight]
  simp only [monoRow, coef, quadRef, Matrix.cons_val_zero, Matrix.cons_val_one, Matrix.cons_val,
    lit_two, lit_negTwo, lit_zero, one_mul, zero_mul, add_zero]
  simp only [← EReal.coe_mul, ← EReal.coe_add, ← EReal.coe_sub]
  exact congrArg _ (by ring)

end Cert.Percept.Spec

end
-- ==== Proof.HostKAt.lean ====
/-
  The region's input arrays read at an index: entry (b, k, e) of the coefficient array is coefficient k of the
  (batch b, electrode e) row; the first 14641 rows of the padded pixel grid are the pixel grid's.
-/
import proofs.«134758_j41807211659417_2_alg».proof.Proof.HostKDef
import proofs.«134758_j41807211659417_2_alg».proof.Proof.Spec
import Idealize.ShloMosaic.Lib.ValueIdx
import Idealize.ShloMosaic.Lib.Pipeline.Value
import Idealize.ShloMosaic.Lib.KernelVsHost

noncomputable section

namespace Cert.Percept.HostK

open Cert.KernelIdeal Cert.KernelIdeal.Gen Idealize.ShloMosaic Idealize.ShloMosaic.ValueIdx

/-- a slab's entry (b, 0, e) is the array's entry (b, e) -/
theorem slab_apply (x : FVec Ideal S8x225 .f32) (b : Fin 8) (e : Fin 225) :
    slab (F := Ideal) x (ix3 b (0 : Fin 1) e) = x (ix2 b e) :=
  broadcastInDim_apply _ bcast_S8x225_S8x1x225_0_2 x _ (ix2 b e) (fun a => match a with
    | ⟨0, _⟩ => by show b.val = if (8 : Nat) = 1 then 0 else b.val; rw [if_neg (by decide)]
    | ⟨1, _⟩ => by show e.val = if (225 : Nat) = 1 then 0 else e.val; rw [if_neg (by decide)])

/-- a repeated literal's every entry is the literal -/
theorem lit_apply (w : BitVec 32) (i : S8x225.Idx) : lit (F := Ideal) w i = Ideal.ofBits .f32 w :=
  broadcastInDim_apply _ bcast_S_S8x225 (constant (F := Ideal) S_ .f32 w) i ix0 (fun a => a.elim0)

/-- Eight [8,1,225] slabs joined along the middle axis read, at (b, k, e), slab k at (b, 0, e). -/
theorem concat8_slab_apply {α : Type} (y0 y1 y2 y3 y4 y5 y6 y7 : S8x1x225.Idx → α)
    (h : Shape.Concatenates [S8x1x225, S8x1x225, S8x1x225, S8x1x225, S8x1x225, S8x1x225, S8x1x225, S8x1x225] S8x8x225 1)
    (bb k : Fin 8) (e : Fin 225) :
    concatenate S8x8x225 1 [⟨S8x1x225, y0⟩, ⟨S8x1x225, y1⟩, ⟨S8x1x225, y2⟩, ⟨S8x1x225, y3⟩, ⟨S8x1x225, y4⟩, ⟨S8x1x225, y5⟩,
        ⟨S8x1x225, y6⟩, ⟨S8x1x225, y7⟩] h (ix3 bb k e)
      = (![y0, y1, y2, y3, y4, y5, y6, y7] k) (ix3 bb (0 : Fin 1) e) :=
  concatenate_ofFn_unit_apply (t := S8x8x225) (s₁ := S8x1x225) (1 : Fin 3) ![y0, y1, y2, y3, y4, y5, y6, y7] h rfl rfl
    (ix3 bb k e) k rfl (ix3 bb (0 : Fin 1) e)
    (fun d hd => match d, hd with | ⟨0, _⟩, _ => rfl | ⟨1, _⟩, hd => absurd rfl hd | ⟨2, _⟩, _ => rfl)

/-- Entry (b, k, e) of the coefficient array. -/
theorem coefArr_apply (a b c cx cy : FVec Ideal S8x225 .f32) (bb k : Fin 8) (e : Fin 225) :
    coefArr (F := Ideal) a b c cx cy (ix3 bb k e)
      = Cert.Percept.Spec.coef (cx (ix2 bb e)) (cy (ix2 bb e)) (a (ix2 bb e)) (b (ix2 bb e)) (c (ix2 bb e)) k := by
  unfold coefArr
  refine (concat8_slab_apply _ _ _ _ _ _ _ _ _ bb k e).trans ?_
  fin_cases k
  · exact slab_apply a bb e
  · exact slab_apply c bb e
  · refine (slab_apply (mulf (lit 0x40000000#32) b) bb e).trans ?_
    simp only [mulf_apply, addf_apply, subf_apply, lit_apply]
    rfl
  · refine (slab_apply (subf (mulf (mulf (lit 0xC0000000#32) cx) a) (mulf (mulf (lit 0x40000000#32) b) cy)) bb e).trans ?_
    simp only [mulf_apply, addf_apply, subf_apply, lit_apply]
    rfl
  · refine (slab_apply (subf (mulf (mulf (lit 0xC0000000#32) cy) c) (mulf (mulf (lit 0x40000000#32) b) cx)) bb e).trans ?_
    simp only [mulf_apply, addf_apply, subf_apply, lit_apply]
    rfl
  · refine (slab_apply (addf (addf (mulf a (mulf cx cx)) (mulf (mulf (mulf (lit 0x40000000#32) b) cx) cy)) (mulf c (mulf cy cy))) bb e).trans ?_
    simp only [mulf_apply, addf_apply, subf_apply, lit_apply]
    rfl
  · exact (slab_apply (lit 0x00000000#32) bb e).trans (lit_apply _ _)
  · exact (slab_apply (lit 0x00000000#32) bb e).trans (lit_apply _ _)

/-- The first 14641 rows of the padded pixel grid are the pixel grid. -/
theorem padPix_apply (x5 : FVec Ideal S14641x2 .f32) (p : Fin 14641) (j : Fin 2) :
    padPix (F := Ideal) x5 (ix2 (⟨p.val, by have := p.isLt; omega⟩ : Fin 14848) j) = x5 (ix2 p j) :=
  pad_apply_of_inside ![0, 0] ![207, 0] ![0, 0] x5 _ pads_S14641x2_S14848x2_02070_000 h_S_ _ (ix2 p j) (fun a => match a with
    | ⟨0, _⟩ => by show p.val = 0 + p.val * (0 + 1); omega
    | ⟨1, _⟩ => by show j.val = 0 + j.val * (0 + 1); omega)

end Cert.Percept.HostK

end
-- ==== Proof.RefTop.lean ====
/-
  The reference's last stages read at an index.

  Before the final reshape and flip the reference holds the [8,14641] array whose entry (b, p) is the sum over the 225
  electrodes e of exp(−½ · q) · bright[b,e], with q the quadratic form of pixel p's coordinates (the two columns of the
  pixel grid), the centre (cx, cy)[b,e] and the inverse covariance (inv00, inv01, inv11)[b,e]. The generated
  per-operation read lemmas are chained here: the broadcasts along the pixel axis and along (batch, electrode) only move
  the index, the arithmetic is pointwise.
-/
import proofs.«134758_j41807211659417_2_alg».proof.Proof.RefRead
import proofs.«134758_j41807211659417_2_alg».proof.Proof.Spec
import Idealize.ShloMosaic.Lib.ValueIdx

noncomputable section

namespace Cert.Percept.RefTop

open Cert.ReferenceIdeal Cert.ReferenceIdeal.Read Idealize.ShloMosaic Idealize.ShloMosaic.ValueIdx

variable (x0 : (⟨S8x225x3, .f32⟩ : BufTy).Contents (Elt Ideal)) (x1 : (⟨S8x13, .f32⟩ : BufTy).Contents (Elt Ideal)) (x2 x3 : (⟨S1x225, .f32⟩ : BufTy).Contents (Elt Ideal)) (x4 : (⟨S200x200, .f32⟩ : BufTy).Contents (Elt Ideal)) (x5 : (⟨S14641x2, .f32⟩ : BufTy).Contents (Elt Ideal))

/-- where the broadcasts of a (batch, electrode) array are read -/
theorem idx_be (b : Fin 8) (p : Fin 14641) (e : Fin 225) :
    idx_main_v216 (idx_main_v218 (idx_main_v249 (idx_main_v250 (ix2 b p)) e)) = ix2 b e
    ∧ idx_main_v223 (idx_main_v225 (idx_main_v249 (idx_main_v250 (ix2 b p)) e)) = ix2 b e
    ∧ idx_main_v228 (idx_main_v229 (idx_main_v249 (idx_main_v250 (ix2 b p)) e)) = ix2 b e
    ∧ idx_main_v234 (idx_main_v235 (idx_main_v249 (idx_main_v250 (ix2 b p)) e)) = ix2 b e
    ∧ idx_main_v239 (idx_main_v240 (idx_main_v249 (idx_main_v250 (ix2 b p)) e)) = ix2 b e
    ∧ idx_main_v246 (idx_main_v247 (idx_main_v249 (idx_main_v250 (ix2 b p)) e)) = ix2 b e := by
  refine ⟨?_, ?_, ?_, ?_, ?_, ?_⟩ <;> exact funext fun a => Fin.ext (by match a with | ⟨0, _⟩ => rfl | ⟨1, _⟩ => rfl)

/-- where the broadcasts of the two pixel columns are read -/
theorem idx_px (b : Fin 8) (p : Fin 14641) (e : Fin 225) :
    idx_main_v213 (idx_main_v214 (idx_main_v215 (idx_main_v217 (idx_main_v249 (idx_main_v250 (ix2 b p)) e)))) = ix2 p (0 : Fin 2)
    ∧ idx_main_v220 (idx_main_v221 (idx_main_v222 (idx_main_v224 (idx_main_v249 (idx_main_v250 (ix2 b p)) e)))) = ix2 p (1 : Fin 2) := by
  refine ⟨?_, ?_⟩ <;> exact funext fun a => Fin.ext (by match a with | ⟨0, _⟩ => exact Nat.div_one _ | ⟨1, _⟩ => rfl)

/-- Entry (b, p) of the reference's array before the final reshape and flip. -/
theorem ref_at (b : Fin 8) (p : Fin 14641) :
    val_main_v250 (F := Ideal) x0 x1 x2 x3 x4 x5 (ix2 b p)
      = ∑ e : Fin 225,
          Ideal.exp (Ideal.ofBits .f32 0xBF000000#32 *
            Cert.Percept.Spec.quadRef (x5 (ix2 p (0 : Fin 2))) (x5 (ix2 p (1 : Fin 2)))
              (val_main_v204 (F := Ideal) x1 x2 x3 (ix2 b e)) (val_main_v212 (F := Ideal) x1 x2 x3 (ix2 b e))
              (val_main_v195 (F := Ideal) x0 x1 x2 x3 x4 (ix2 b e)) (val_main_v197 (F := Ideal) x0 x1 x2 x3 x4 (ix2 b e))
              (val_main_v198 (F := Ideal) x0 x1 x2 x3 x4 (ix2 b e)))
            * val_main_v166 (F := Ideal) x0 x1 (ix2 b e) := by
  rw [val_main_v250_apply, val_main_v249_apply, val_main_cst_52_apply]
  simp only [Ideal.ofBits_def, Ideal.ofBits_zero_f32, zero_add]
  refine Finset.sum_congr rfl fun e _ => ?_
  obtain ⟨h1, h2, h3, h4, h5, h6⟩ := idx_be b p e
  obtain ⟨g0, g1⟩ := idx_px b p e
  simp only [val_main_v248_apply, val_main_v247_apply, val_main_v246_apply, val_main_v245_apply, val_main_v244_apply,
    val_main_v243_apply, val_main_cst_51_apply, val_main_v242_apply, val_main_v241_apply, val_main_v240_apply,
    val_main_v239_apply, val_main_v238_apply, val_main_v237_apply, val_main_v236_apply, val_main_v235_apply,
    val_main_v234_apply, val_main_v233_apply, val_main_v232_apply, val_main_v231_apply, val_main_cst_50_apply,
    val_main_v230_apply, val_main_v229_apply, val_main_v228_apply, val_main_v227_apply, val_main_v226_apply,
    val_main_v225_apply, val_main_v224_apply, val_main_v223_apply, val_main_v222_apply, val_main_v221_apply,
    val_main_v220_apply, val_main_v219_apply, val_main_v218_apply, val_main_v217_apply, val_main_v216_apply,
    val_main_v215_apply, val_main_v214_apply, val_main_v213_apply,
    h1, h2, h3, h4, h5, h6, g0, g1,
    Ideal.mulf_def, Ideal.addf_def, Ideal.subf_def, Ideal.hostUnary_exp_def, Ideal.ofBits_def, Cert.Percept.Spec.quadRef]

end Cert.Percept.RefTop

end
-- ==== Proof.RefRealAlg.lean ====
/- Extended reals that are real numbers.  The ideal float instance reads every operation of the
   reference as the textbook operation on the extended reals; this module records which of them keep a
   REAL number real (sum, difference, product, negation, a quotient by a nonzero real, sine and cosine,
   the square root of a nonnegative real, a maximum or minimum of reals, a clip between two real bounds —
   real whatever is clipped —, a select between two reals), and the determinant identity of the rotated
   covariance matrix. -/
import Idealize.ShloMosaic.PureOps.Ideal
import Mathlib.Tactic.Linarith
import Mathlib.Tactic.Ring
import Mathlib.Tactic.Positivity
import Mathlib.Tactic.NormNum

noncomputable section

namespace Cert.Percept.RefReal

open Idealize.ShloMosaic

/-- An extended real that is a real number. -/
def IsReal (x : EReal) : Prop := ∃ r : ℝ, x = (r : EReal)

theorem isReal_coe (r : ℝ) : IsReal (r : EReal) := ⟨r, rfl⟩

/-! ### The operations on real numbers -/

theorem addf_coe (a b : ℝ) :
    FloatOps.addf (F := Ideal) (φ := .f32) (a : EReal) (b : EReal) = ((a + b : ℝ) : EReal) := by
  show (a : EReal) + (b : EReal) = _
  rw [EReal.coe_add]

theorem subf_coe (a b : ℝ) :
    FloatOps.subf (F := Ideal) (φ := .f32) (a : EReal) (b : EReal) = ((a - b : ℝ) : EReal) := by
  show (a : EReal) - (b : EReal) = _
  rw [EReal.coe_sub]

theorem mulf_coe (a b : ℝ) :
    FloatOps.mulf (F := Ideal) (φ := .f32) (a : EReal) (b : EReal) = ((a * b : ℝ) : EReal) := by
  show (a : EReal) * (b : EReal) = _
  rw [EReal.coe_mul]

theorem hostNegf_coe (a : ℝ) :
    FloatOps.hostNegf (F := Ideal) (φ := .f32) (a : EReal) = ((-a : ℝ) : EReal) := by
  show -(a : EReal) = _
  rw [EReal.coe_neg]

/-- A quotient by a nonzero real. -/
theorem hostDivf_coe (a : ℝ) {b : ℝ} (hb : b ≠ 0) :
    FloatOps.hostDivf (F := Ideal) (φ := .f32) (a : EReal) (b : EReal) = ((a / b : ℝ) : EReal) := by
  show Ideal.div (a : EReal) (b : EReal) = _
  rw [Ideal.div_coe hb, ← EReal.coe_mul, mul_one_div]

theorem sin_coe (a : ℝ) :
    FloatOps.hostUnary (F := Ideal) .sin (φ := .f32) (a : EReal) = ((Real.sin a : ℝ) : EReal) := rfl

theorem cos_coe (a : ℝ) :
    FloatOps.hostUnary (F := Ideal) .cos (φ := .f32) (a : EReal) = ((Real.cos a : ℝ) : EReal) := rfl

/-- The square root of a nonnegative real. -/
theorem sqrt_coe {a : ℝ} (ha : 0 ≤ a) :
    FloatOps.hostUnary (F := Ideal) .sqrt (φ := .f32) (a : EReal) = ((Real.sqrt a : ℝ) : EReal) := by
  show Ideal.sqrt (a : EReal) = _
  rw [Ideal.sqrt_coe, if_neg (not_lt.mpr ha)]

theorem maximumf_coe (a b : ℝ) :
    FloatOps.maximumf (F := Ideal) (φ := .f32) (a : EReal) (b : EReal) = ((max a b : ℝ) : EReal) := by
  show max (a : EReal) (b : EReal) = _
  exact (EReal.coe_strictMono.monotone.map_max).symm

theorem minimumf_coe (a b : ℝ) :
    FloatOps.minimumf (F := Ideal) (φ := .f32) (a : EReal) (b : EReal) = ((min a b : ℝ) : EReal) := by
  show min (a : EReal) (b : EReal) = _
  exact (EReal.coe_strictMono.monotone.map_min).symm

/-! ### Closure of "is a real number" -/

variable {x y : EReal}

theorem isReal_addf (hx : IsReal x) (hy : IsReal y) :
    IsReal (FloatOps.addf (F := Ideal) (φ := .f32) x y) := by
  obtain ⟨a, rfl⟩ := hx; obtain ⟨b, rfl⟩ := hy; exact ⟨_, addf_coe a b⟩

theorem isReal_subf (hx : IsReal x) (hy : IsReal y) :
    IsReal (FloatOps.subf (F := Ideal) (φ := .f32) x y) := by
  obtain ⟨a, rfl⟩ := hx; obtain ⟨b, rfl⟩ := hy; exact ⟨_, subf_coe a b⟩

theorem isReal_mulf (hx : IsReal x) (hy : IsReal y) :
    IsReal (FloatOps.mulf (F := Ideal) (φ := .f32) x y) := by
  obtain ⟨a, rfl⟩ := hx; obtain ⟨b, rfl⟩ := hy; exact ⟨_, mulf_coe a b⟩

theorem isReal_hostNegf (hx : IsReal x) :
    IsReal (FloatOps.hostNegf (F := Ideal) (φ := .f32) x) := by
  obtain ⟨a, rfl⟩ := hx; exact ⟨_, hostNegf_coe a⟩

/-- A real divided by a real that is not zero is real. -/
theorem isReal_hostDivf {b : ℝ} (hx : IsReal x) (hy : y = (b : EReal)) (hb : b ≠ 0) :
    IsReal (FloatOps.hostDivf (F := Ideal) (φ := .f32) x y) := by
  obtain ⟨a, rfl⟩ := hx; subst hy; exact ⟨_, hostDivf_coe a hb⟩

theorem isReal_sin (hx : IsReal x) : IsReal (FloatOps.hostUnary (F := Ideal) .sin (φ := .f32) x) := by
  obtain ⟨a, rfl⟩ := hx; exact ⟨_, sin_coe a⟩

theorem isReal_cos (hx : IsReal x) : IsReal (FloatOps.hostUnary (F := Ideal) .cos (φ := .f32) x) := by
  obtain ⟨a, rfl⟩ := hx; exact ⟨_, cos_coe a⟩

/-- A select answers one of its two branches. -/
theorem isReal_select (c : BitVec 1) (hx : IsReal x) (hy : IsReal y) :
    IsReal (Scalar.select c x y) := by
  unfold Scalar.select; split
  · exact hx
  · exact hy

/-- A clip between two real bounds lo ≤ hi is a real number in [lo, hi], whatever is clipped. -/
theorem clip_real {lo hi : ℝ} (h : lo ≤ hi) (x : EReal) :
    ∃ r : ℝ, FloatOps.minimumf (F := Ideal) (φ := .f32) (hi : EReal)
        (FloatOps.maximumf (F := Ideal) (φ := .f32) (lo : EReal) x) = (r : EReal) ∧ lo ≤ r ∧ r ≤ hi := by
  show ∃ r : ℝ, min (hi : EReal) (max (lo : EReal) x) = (r : EReal) ∧ lo ≤ r ∧ r ≤ hi
  induction x using EReal.rec with
  | bot =>
    refine ⟨lo, ?_, le_refl _, h⟩
    rw [max_eq_left bot_le, min_eq_right (by exact_mod_cast h)]
  | coe a =>
    refine ⟨min hi (max lo a), ?_, le_min h (le_max_left _ _), min_le_left _ _⟩
    rw [EReal.coe_strictMono.monotone.map_min, EReal.coe_strictMono.monotone.map_max]
  | top =>
    refine ⟨hi, ?_, h, le_refl _⟩
    rw [max_eq_right le_top, min_eq_left le_top]

/-- The maximum of a real and a real bound is a real at least the bound. -/
theorem max_real_ge (a b : ℝ) :
    ∃ r : ℝ, FloatOps.maximumf (F := Ideal) (φ := .f32) (a : EReal) (b : EReal) = (r : EReal) ∧ b ≤ r :=
  ⟨max a b, maximumf_coe a b, le_max_right _ _⟩

/-! ### The determinant of the rotated covariance -/

/-- With s² + c² = 1 the matrix [[sx·c·c + sy·s·s, (sx − sy)·s·c], [(sx − sy)·s·c, sx·s·s + sy·c·c]]
    (associated as the reference computes it) has determinant sx · sy. -/
theorem det_rot (sx sy s c : ℝ) (h : s ^ 2 + c ^ 2 = 1) :
    (sx * c * c + sy * s * s) * (sx * s * s + sy * c * c) - (sx - sy) * s * c * ((sx - sy) * s * c)
      = sx * sy := by
  have e : (sx * c * c + sy * s * s) * (sx * s * s + sy * c * c) - (sx - sy) * s * c * ((sx - sy) * s * c)
      = sx * sy * (s ^ 2 + c ^ 2) ^ 2 := by ring
  rw [e, h]; ring

end Cert.Percept.RefReal

end
-- ==== Proof.RefRealConsts.lean ====
/- The float literals the reference spells on the way to the covariance entries and the centres, as the
   real numbers their patterns denote at the ideal instance. -/
import Idealize.ShloMosaic.PureOps.Ideal
import Mathlib.Tactic.NormNum

noncomputable section

namespace Cert.Percept.RefReal

open Idealize.ShloMosaic

/-- The pattern of 0.0 denotes 0. -/
theorem lit_zero : FloatOps.ofBits (F := Ideal) .f32 0x00000000#32 = ((0 : ℝ) : EReal) := by
  simp [Ideal.ofBits, Ideal.ieee]

/-- The pattern of 1.0 denotes 1. -/
theorem lit_one : FloatOps.ofBits (F := Ideal) .f32 0x3F800000#32 = ((1 : ℝ) : EReal) := by
  simp [Ideal.ofBits, Ideal.ieee, -EReal.coe_mul]; norm_num

/-- The pattern of 0.99 (rounded to the format) denotes 16609444 / 2^24. -/
theorem lit_099 : FloatOps.ofBits (F := Ideal) .f32 0x3F7D70A4#32 = ((16609444 / 16777216 : ℝ) : EReal) := by
  simp [Ideal.ofBits, Ideal.ieee, -EReal.coe_mul]; norm_num

/-- The pattern of π (rounded to the format) denotes 13176795 / 2^22. -/
theorem lit_pi : FloatOps.ofBits (F := Ideal) .f32 0x40490FDB#32 = ((13176795 / 4194304 : ℝ) : EReal) := by
  simp [Ideal.ofBits, Ideal.ieee, -EReal.coe_mul]; norm_num

/-- The pattern of 4π (rounded to the format) denotes 13176795 / 2^20. -/
theorem lit_4pi : FloatOps.ofBits (F := Ideal) .f32 0x41490FDB#32 = ((13176795 / 1048576 : ℝ) : EReal) := by
  simp [Ideal.ofBits, Ideal.ieee, -EReal.coe_mul]; norm_num

/-- The pattern of 280.0 denotes 280. -/
theorem lit_280 : FloatOps.ofBits (F := Ideal) .f32 0x438C0000#32 = ((280 : ℝ) : EReal) := by
  simp [Ideal.ofBits, Ideal.ieee, -EReal.coe_mul]; norm_num

/-- The pattern of -15.0 denotes -15. -/
theorem lit_neg15 : FloatOps.ofBits (F := Ideal) .f32 0xC1700000#32 = ((-15 : ℝ) : EReal) := by
  simp [Ideal.ofBits, Ideal.ieee, -EReal.coe_mul]; norm_num

/-- The pattern of 0.25 denotes 1/4. -/
theorem lit_quarter : FloatOps.ofBits (F := Ideal) .f32 0x3E800000#32 = ((1 / 4 : ℝ) : EReal) := by
  simp [Ideal.ofBits, Ideal.ieee, -EReal.coe_mul]; norm_num

/-- The pattern of 121.0 denotes 121. -/
theorem lit_121 : FloatOps.ofBits (F := Ideal) .f32 0x42F20000#32 = ((121 : ℝ) : EReal) := by
  simp [Ideal.ofBits, Ideal.ieee, -EReal.coe_mul]; norm_num

end Cert.Percept.RefReal

end
-- ==== Proof.RefRealCols.lean ====
/- The columns of the parameter array and the slices of the stimulus the covariance and the centres read:
   each entry is an entry of an argument array, hence a real number when the arguments are. -/
import proofs.«134758_j41807211659417_2_alg».proof.Proof.RefRead
import proofs.«134758_j41807211659417_2_alg».proof.Proof.RefRealAlg

noncomputable section

namespace Cert.Percept.RefReal

open Cert.ReferenceIdeal Cert.ReferenceIdeal.Gen Cert.ReferenceIdeal.Read Idealize.ShloMosaic Idealize.ShloMosaic.TcCoe Idealize.SL.Sem Idealize.ShloMosaic.StableHlo

theorem isReal_v2 (x0 : (⟨S8x225x3, .f32⟩ : BufTy).Contents (Elt Ideal)) (h0 : ∀ i, IsReal (x0 i)) :
    ∀ i, IsReal (val_main_v2 (F := Ideal) x0 i) := fun i => by
  rw [val_main_v2_apply]; exact h0 _

theorem isReal_v3 (x0 : (⟨S8x225x3, .f32⟩ : BufTy).Contents (Elt Ideal)) (h0 : ∀ i, IsReal (x0 i)) :
    ∀ i, IsReal (val_main_v3 (F := Ideal) x0 i) := fun i => by
  rw [val_main_v3_apply]; exact isReal_v2 x0 h0 _

theorem isReal_v6 (x1 : (⟨S8x13, .f32⟩ : BufTy).Contents (Elt Ideal)) (h1 : ∀ i, IsReal (x1 i)) :
    ∀ i, IsReal (val_main_v6 (F := Ideal) x1 i) := fun i => by
  rw [val_main_v6_apply]; exact h1 _

theorem isReal_v8 (x1 : (⟨S8x13, .f32⟩ : BufTy).Contents (Elt Ideal)) (h1 : ∀ i, IsReal (x1 i)) :
    ∀ i, IsReal (val_main_v8 (F := Ideal) x1 i) := fun i => by
  rw [val_main_v8_apply]; exact h1 _

theorem isReal_v12 (x1 : (⟨S8x13, .f32⟩ : BufTy).Contents (Elt Ideal)) (h1 : ∀ i, IsReal (x1 i)) :
    ∀ i, IsReal (val_main_v12 (F := Ideal) x1 i) := fun i => by
  rw [val_main_v12_apply]; exact h1 _

theorem isReal_v14 (x1 : (⟨S8x13, .f32⟩ : BufTy).Contents (Elt Ideal)) (h1 : ∀ i, IsReal (x1 i)) :
    ∀ i, IsReal (val_main_v14 (F := Ideal) x1 i) := fun i => by
  rw [val_main_v14_apply]; exact h1 _

theorem isReal_v15 (x1 : (⟨S8x13, .f32⟩ : BufTy).Contents (Elt Ideal)) (h1 : ∀ i, IsReal (x1 i)) :
    ∀ i, IsReal (val_main_v15 (F := Ideal) x1 i) := fun i => by
  rw [val_main_v15_apply]; exact h1 _

theorem isReal_v16 (x1 : (⟨S8x13, .f32⟩ : BufTy).Contents (Elt Ideal)) (h1 : ∀ i, IsReal (x1 i)) :
    ∀ i, IsReal (val_main_v16 (F := Ideal) x1 i) := fun i => by
  rw [val_main_v16_apply]; exact h1 _

end Cert.Percept.RefReal

end
-- ==== Proof.RefRealA.lean ====
/- The electrode centres.  ex = elec_x·cos(rot) − elec_y·sin(rot) + x0 and ey = elec_x·sin(rot) + elec_y·cos(rot) + y0
   are sums of products of reals (the sine and cosine of a real are real); the centres divide them by the
   literals 280 and 1/4, which are not zero, and subtract literals: real numbers throughout. -/
import proofs.«134758_j41807211659417_2_alg».proof.Proof.RefRead
import proofs.«134758_j41807211659417_2_alg».proof.Proof.RefRealAlg
import proofs.«134758_j41807211659417_2_alg».proof.Proof.RefRealConsts
import proofs.«134758_j41807211659417_2_alg».proof.Proof.RefRealCols

noncomputable section

namespace Cert.Percept.RefReal

open Cert.ReferenceIdeal Cert.ReferenceIdeal.Gen Cert.ReferenceIdeal.Read Idealize.ShloMosaic Idealize.ShloMosaic.TcCoe Idealize.SL.Sem Idealize.ShloMosaic.StableHlo

theorem isReal_v18 (x1 : (⟨S8x13, .f32⟩ : BufTy).Contents (Elt Ideal)) (h1 : ∀ i, IsReal (x1 i)) :
    ∀ i, IsReal (val_main_v18 (F := Ideal) x1 i) := fun i => by
  rw [val_main_v18_apply]; exact isReal_cos (isReal_v16 x1 h1 i)

theorem isReal_v19 (x1 : (⟨S8x13, .f32⟩ : BufTy).Contents (Elt Ideal)) (h1 : ∀ i, IsReal (x1 i)) :
    ∀ i, IsReal (val_main_v19 (F := Ideal) x1 i) := fun i => by
  rw [val_main_v19_apply]; exact isReal_sin (isReal_v16 x1 h1 i)

theorem isReal_v20 (x2 : (⟨S1x225, .f32⟩ : BufTy).Contents (Elt Ideal)) (h2 : ∀ i, IsReal (x2 i)) :
    ∀ i, IsReal (val_main_v20 (F := Ideal) x2 i) := fun i => by
  rw [val_main_v20_apply]; exact h2 _

theorem isReal_v21 (x1 : (⟨S8x13, .f32⟩ : BufTy).Contents (Elt Ideal)) (h1 : ∀ i, IsReal (x1 i)) :
    ∀ i, IsReal (val_main_v21 (F := Ideal) x1 i) := fun i => by
  rw [val_main_v21_apply]; exact isReal_v18 x1 h1 _

theorem isReal_v22 (x1 : (⟨S8x13, .f32⟩ : BufTy).Contents (Elt Ideal)) (x2 : (⟨S1x225, .f32⟩ : BufTy).Contents (Elt Ideal)) (h1 : ∀ i, IsReal (x1 i)) (h2 : ∀ i, IsReal (x2 i)) :
    ∀ i, IsReal (val_main_v22 (F := Ideal) x1 x2 i) := fun i => by
  rw [val_main_v22_apply]; exact isReal_mulf (isReal_v20 x2 h2 i) (isReal_v21 x1 h1 i)

theorem isReal_v23 (x3 : (⟨S1x225, .f32⟩ : BufTy).Contents (Elt Ideal)) (h3 : ∀ i, IsReal (x3 i)) :
    ∀ i, IsReal (val_main_v23 (F := Ideal) x3 i) := fun i => by
  rw [val_main_v23_apply]; exact h3 _

theorem isReal_v24 (x1 : (⟨S8x13, .f32⟩ : BufTy).Contents (Elt Ideal)) (h1 : ∀ i, IsReal (x1 i)) :
    ∀ i, IsReal (val_main_v24 (F := Ideal) x1 i) := fun i => by
  rw [val_main_v24_apply]; exact isReal_v19 x1 h1 _

theorem isReal_v25 (x1 : (⟨S8x13, .f32⟩ : BufTy).Contents (Elt Ideal)) (x3 : (⟨S1x225, .f32⟩ : BufTy).Contents (Elt Ideal)) (h1 : ∀ i, IsReal (x1 i)) (h3 : ∀ i, IsReal (x3 i)) :
    ∀ i, IsReal (val_main_v25 (F := Ideal) x1 x3 i) := fun i => by
  rw [val_main_v25_apply]; exact isReal_mulf (isReal_v23 x3 h3 i) (isReal_v24 x1 h1 i)

theorem isReal_v26 (x1 : (⟨S8x13, .f32⟩ : BufTy).Contents (Elt Ideal)) (x2 x3 : (⟨S1x225, .f32⟩ : BufTy).Contents (Elt Ideal)) (h1 : ∀ i, IsReal (x1 i)) (h2 : ∀ i, IsReal (x2 i)) (h3 : ∀ i, IsReal (x3 i)) :
    ∀ i, IsReal (val_main_v26 (F := Ideal) x1 x2 x3 i) := fun i => by
  rw [val_main_v26_apply]; exact isReal_subf (isReal_v22 x1 x2 h1 h2 i) (isReal_v25 x1 x3 h1 h3 i)

theorem isReal_v27 (x1 : (⟨S8x13, .f32⟩ : BufTy).Contents (Elt Ideal)) (h1 : ∀ i, IsReal (x1 i)) :
    ∀ i, IsReal (val_main_v27 (F := Ideal) x1 i) := fun i => by
  rw [val_main_v27_apply]; exact isReal_v14 x1 h1 _

theorem isReal_v28 (x1 : (⟨S8x13, .f32⟩ : BufTy).Contents (Elt Ideal)) (x2 x3 : (⟨S1x225, .f32⟩ : BufTy).Contents (Elt Ideal)) (h1 : ∀ i, IsReal (x1 i)) (h2 : ∀ i, IsReal (x2 i)) (h3 : ∀ i, IsReal (x3 i)) :
    ∀ i, IsReal (val_main_v28 (F := Ideal) x1 x2 x3 i) := fun i => by
  rw [val_main_v28_apply]; exact isReal_addf (isReal_v26 x1 x2 x3 h1 h2 h3 i) (isReal_v27 x1 h1 i)

theorem isReal_v29 (x2 : (⟨S1x225, .f32⟩ : BufTy).Contents (Elt Ideal)) (h2 : ∀ i, IsReal (x2 i)) :
    ∀ i, IsReal (val_main_v29 (F := Ideal) x2 i) := fun i => by
  rw [val_main_v29_apply]; exact h2 _

theorem isReal_v30 (x1 : (⟨S8x13, .f32⟩ : BufTy).Contents (Elt Ideal)) (h1 : ∀ i, IsReal (x1 i)) :
    ∀ i, IsReal (val_main_v30 (F := Ideal) x1 i) := fun i => by
  rw [val_main_v30_apply]; exact isReal_v19 x1 h1 _

theorem isReal_v31 (x1 : (⟨S8x13, .f32⟩ : BufTy).Contents (Elt Ideal)) (x2 : (⟨S1x225, .f32⟩ : BufTy).Contents (Elt Ideal)) (h1 : ∀ i, IsReal (x1 i)) (h2 : ∀ i, IsReal (x2 i)) :
    ∀ i, IsReal (val_main_v31 (F := Ideal) x1 x2 i) := fun i => by
  rw [val_main_v31_apply]; exact isReal_mulf (isReal_v29 x2 h2 i) (isReal_v30 x1 h1 i)

theorem isReal_v32 (x3 : (⟨S1x225, .f32⟩ : BufTy).Contents (Elt Ideal)) (h3 : ∀ i, IsReal (x3 i)) :
    ∀ i, IsReal (val_main_v32 (F := Ideal) x3 i) := fun i => by
  rw [val_main_v32_apply]; exact h3 _

theorem isReal_v33 (x1 : (⟨S8x13, .f32⟩ : BufTy).Contents (Elt Ideal)) (h1 : ∀ i, IsReal (x1 i)) :
    ∀ i, IsReal (val_main_v33 (F := Ideal) x1 i) := fun i => by
  rw [val_main_v33_apply]; exact isReal_v18 x1 h1 _

theorem isReal_v34 (x1 : (⟨S8x13, .f32⟩ : BufTy).Contents (Elt Ideal)) (x3 : (⟨S1x225, .f32⟩ : BufTy).Contents (Elt Ideal)) (h1 : ∀ i, IsReal (x1 i)) (h3 : ∀ i, IsReal (x3 i)) :
    ∀ i, IsReal (val_main_v34 (F := Ideal) x1 x3 i) := fun i => by
  rw [val_main_v34_apply]; exact isReal_mulf (isReal_v32 x3 h3 i) (isReal_v33 x1 h1 i)

theorem isReal_v35 (x1 : (⟨S8x13, .f32⟩ : BufTy).Contents (Elt Ideal)) (x2 x3 : (⟨S1x225, .f32⟩ : BufTy).Contents (Elt Ideal)) (h1 : ∀ i, IsReal (x1 i)) (h2 : ∀ i, IsReal (x2 i)) (h3 : ∀ i, IsReal (x3 i)) :
    ∀ i, IsReal (val_main_v35 (F := Ideal) x1 x2 x3 i) := fun i => by
  rw [val_main_v35_apply]; exact isReal_addf (isReal_v31 x1 x2 h1 h2 i) (isReal_v34 x1 x3 h1 h3 i)

theorem isReal_v36 (x1 : (⟨S8x13, .f32⟩ : BufTy).Contents (Elt Ideal)) (h1 : ∀ i, IsReal (x1 i)) :
    ∀ i, IsReal (val_main_v36 (F := Ideal) x1 i) := fun i => by
  rw [val_main_v36_apply]; exact isReal_v15 x1 h1 _

theorem isReal_v37 (x1 : (⟨S8x13, .f32⟩ : BufTy).Contents (Elt Ideal)) (x2 x3 : (⟨S1x225, .f32⟩ : BufTy).Contents (Elt Ideal)) (h1 : ∀ i, IsReal (x1 i)) (h2 : ∀ i, IsReal (x2 i)) (h3 : ∀ i, IsReal (x3 i)) :
    ∀ i, IsReal (val_main_v37 (F := Ideal) x1 x2 x3 i) := fun i => by
  rw [val_main_v37_apply]; exact isReal_addf (isReal_v35 x1 x2 x3 h1 h2 h3 i) (isReal_v36 x1 h1 i)

theorem lit_v199 (i : S8x225.Idx) : val_main_v199 (F := Ideal) i = ((280 : ℝ) : EReal) := by
  rw [val_main_v199_apply, val_main_cst_43_apply]; exact lit_280

theorem isReal_v199 : ∀ i, IsReal (val_main_v199 (F := Ideal) i) := fun i => ⟨_, lit_v199 i⟩

theorem isReal_v200 (x1 : (⟨S8x13, .f32⟩ : BufTy).Contents (Elt Ideal)) (x2 x3 : (⟨S1x225, .f32⟩ : BufTy).Contents (Elt Ideal)) (h1 : ∀ i, IsReal (x1 i)) (h2 : ∀ i, IsReal (x2 i)) (h3 : ∀ i, IsReal (x3 i)) :
    ∀ i, IsReal (val_main_v200 (F := Ideal) x1 x2 x3 i) := fun i => by
  rw [val_main_v200_apply]; exact isReal_hostDivf (isReal_v28 x1 x2 x3 h1 h2 h3 i) (lit_v199 i) (by norm_num)

theorem lit_v201 (i : S8x225.Idx) : val_main_v201 (F := Ideal) i = ((-15 : ℝ) : EReal) := by
  rw [val_main_v201_apply, val_main_cst_44_apply]; exact lit_neg15

theorem isReal_v201 : ∀ i, IsReal (val_main_v201 (F := Ideal) i) := fun i => ⟨_, lit_v201 i⟩

theorem isReal_v202 (x1 : (⟨S8x13, .f32⟩ : BufTy).Contents (Elt Ideal)) (x2 x3 : (⟨S1x225, .f32⟩ : BufTy).Contents (Elt Ideal)) (h1 : ∀ i, IsReal (x1 i)) (h2 : ∀ i, IsReal (x2 i)) (h3 : ∀ i, IsReal (x3 i)) :
    ∀ i, IsReal (val_main_v202 (F := Ideal) x1 x2 x3 i) := fun i => by
  rw [val_main_v202_apply]; exact isReal_subf (isReal_v200 x1 x2 x3 h1 h2 h3 i) (isReal_v201 i)

theorem lit_v203 (i : S8x225.Idx) : val_main_v203 (F := Ideal) i = ((1 / 4 : ℝ) : EReal) := by
  rw [val_main_v203_apply, val_main_cst_45_apply]; exact lit_quarter

theorem isReal_v203 : ∀ i, IsReal (val_main_v203 (F := Ideal) i) := fun i => ⟨_, lit_v203 i⟩

theorem isReal_v204 (x1 : (⟨S8x13, .f32⟩ : BufTy).Contents (Elt Ideal)) (x2 x3 : (⟨S1x225, .f32⟩ : BufTy).Contents (Elt Ideal)) (h1 : ∀ i, IsReal (x1 i)) (h2 : ∀ i, IsReal (x2 i)) (h3 : ∀ i, IsReal (x3 i)) :
    ∀ i, IsReal (val_main_v204 (F := Ideal) x1 x2 x3 i) := fun i => by
  rw [val_main_v204_apply]; exact isReal_hostDivf (isReal_v202 x1 x2 x3 h1 h2 h3 i) (lit_v203 i) (by norm_num)

theorem lit_v205 (i : S8x225.Idx) : val_main_v205 (F := Ideal) i = ((280 : ℝ) : EReal) := by
  rw [val_main_v205_apply, val_main_cst_46_apply]; exact lit_280

theorem isReal_v205 : ∀ i, IsReal (val_main_v205 (F := Ideal) i) := fun i => ⟨_, lit_v205 i⟩

theorem isReal_v206 (x1 : (⟨S8x13, .f32⟩ : BufTy).Contents (Elt Ideal)) (x2 x3 : (⟨S1x225, .f32⟩ : BufTy).Contents (Elt Ideal)) (h1 : ∀ i, IsReal (x1 i)) (h2 : ∀ i, IsReal (x2 i)) (h3 : ∀ i, IsReal (x3 i)) :
    ∀ i, IsReal (val_main_v206 (F := Ideal) x1 x2 x3 i) := fun i => by
  rw [val_main_v206_apply]; exact isReal_hostDivf (isReal_v37 x1 x2 x3 h1 h2 h3 i) (lit_v205 i) (by norm_num)

theorem lit_v207 (i : S8x225.Idx) : val_main_v207 (F := Ideal) i = ((-15 : ℝ) : EReal) := by
  rw [val_main_v207_apply, val_main_cst_47_apply]; exact lit_neg15

theorem isReal_v207 : ∀ i, IsReal (val_main_v207 (F := Ideal) i) := fun i => ⟨_, lit_v207 i⟩

theorem isReal_v208 (x1 : (⟨S8x13, .f32⟩ : BufTy).Contents (Elt Ideal)) (x2 x3 : (⟨S1x225, .f32⟩ : BufTy).Contents (Elt Ideal)) (h1 : ∀ i, IsReal (x1 i)) (h2 : ∀ i, IsReal (x2 i)) (h3 : ∀ i, IsReal (x3 i)) :
    ∀ i, IsReal (val_main_v208 (F := Ideal) x1 x2 x3 i) := fun i => by
  rw [val_main_v208_apply]; exact isReal_subf (isReal_v206 x1 x2 x3 h1 h2 h3 i) (isReal_v207 i)

theorem lit_v209 (i : S8x225.Idx) : val_main_v209 (F := Ideal) i = ((1 / 4 : ℝ) : EReal) := by
  rw [val_main_v209_apply, val_main_cst_48_apply]; exact lit_quarter

theorem isReal_v209 : ∀ i, IsReal (val_main_v209 (F := Ideal) i) := fun i => ⟨_, lit_v209 i⟩

theorem isReal_v210 (x1 : (⟨S8x13, .f32⟩ : BufTy).Contents (Elt Ideal)) (x2 x3 : (⟨S1x225, .f32⟩ : BufTy).Contents (Elt Ideal)) (h1 : ∀ i, IsReal (x1 i)) (h2 : ∀ i, IsReal (x2 i)) (h3 : ∀ i, IsReal (x3 i)) :
    ∀ i, IsReal (val_main_v210 (F := Ideal) x1 x2 x3 i) := fun i => by
  rw [val_main_v210_apply]; exact isReal_hostDivf (isReal_v208 x1 x2 x3 h1 h2 h3 i) (lit_v209 i) (by norm_num)

theorem lit_v211 (i : S8x225.Idx) : val_main_v211 (F := Ideal) i = ((121 : ℝ) : EReal) := by
  rw [val_main_v211_apply, val_main_cst_49_apply]; exact lit_121

theorem isReal_v211 : ∀ i, IsReal (val_main_v211 (F := Ideal) i) := fun i => ⟨_, lit_v211 i⟩

theorem isReal_v212 (x1 : (⟨S8x13, .f32⟩ : BufTy).Contents (Elt Ideal)) (x2 x3 : (⟨S1x225, .f32⟩ : BufTy).Contents (Elt Ideal)) (h1 : ∀ i, IsReal (x1 i)) (h2 : ∀ i, IsReal (x2 i)) (h3 : ∀ i, IsReal (x3 i)) :
    ∀ i, IsReal (val_main_v212 (F := Ideal) x1 x2 x3 i) := fun i => by
  rw [val_main_v212_apply]; exact isReal_subf (isReal_v211 i) (isReal_v210 x1 x2 x3 h1 h2 h3 i)

end Cert.Percept.RefReal

end
-- ==== Proof.RefRealB.lean ====
/- The orientation angle.  It is a bilinear interpolation of four entries of the slopes table — the
   gathers, each entry of which is an entry of the table — with weights that are clips to [0, 1], real
   whatever is clipped; then possibly plus the literal π (a select), times a column of the parameters.
   All real when the arguments are, so its sine and cosine are real numbers with s² + c² = 1. -/
import proofs.«134758_j41807211659417_2_alg».proof.Proof.RefRead
import proofs.«134758_j41807211659417_2_alg».proof.Proof.RefRealAlg
import proofs.«134758_j41807211659417_2_alg».proof.Proof.RefRealConsts
import proofs.«134758_j41807211659417_2_alg».proof.Proof.RefRealCols

noncomputable section

namespace Cert.Percept.RefReal

open Cert.ReferenceIdeal Cert.ReferenceIdeal.Gen Cert.ReferenceIdeal.Read Idealize.ShloMosaic Idealize.ShloMosaic.TcCoe Idealize.SL.Sem Idealize.ShloMosaic.StableHlo

/-- A clip to [0, 1] is a real number whatever is clipped. -/
theorem isReal_v57 (x1 : (⟨S8x13, .f32⟩ : BufTy).Contents (Elt Ideal)) (x2 x3 : (⟨S1x225, .f32⟩ : BufTy).Contents (Elt Ideal)) (h1 : ∀ i, IsReal (x1 i)) (h2 : ∀ i, IsReal (x2 i)) (h3 : ∀ i, IsReal (x3 i)) :
    ∀ i, IsReal (val_main_v57 (F := Ideal) x1 x2 x3 i) := fun i => by
  rw [val_main_v57_apply, val_main_call2_v2_apply, val_main_call2_v4_apply, val_main_call2_v3_apply, val_main_cst_8_apply,
    val_main_call2_v1_apply, val_main_call2_v0_apply, val_main_cst_7_apply, lit_one, lit_zero]
  obtain ⟨r, hr, -, -⟩ := clip_real (lo := 0) (hi := 1) zero_le_one (val_main_v56 (F := Ideal) x1 x2 x3 i)
  exact ⟨r, hr⟩

theorem isReal_v59 (x1 : (⟨S8x13, .f32⟩ : BufTy).Contents (Elt Ideal)) (x2 x3 : (⟨S1x225, .f32⟩ : BufTy).Contents (Elt Ideal)) (h1 : ∀ i, IsReal (x1 i)) (h2 : ∀ i, IsReal (x2 i)) (h3 : ∀ i, IsReal (x3 i)) :
    ∀ i, IsReal (val_main_v59 (F := Ideal) x1 x2 x3 i) := fun i => by
  rw [val_main_v59_apply, val_main_call3_v2_apply, val_main_call3_v4_apply, val_main_call3_v3_apply, val_main_cst_10_apply,
    val_main_call3_v1_apply, val_main_call3_v0_apply, val_main_cst_9_apply, lit_one, lit_zero]
  obtain ⟨r, hr, -, -⟩ := clip_real (lo := 0) (hi := 1) zero_le_one (val_main_v58 (F := Ideal) x1 x2 x3 i)
  exact ⟨r, hr⟩

/-- Each entry of a gather's result is an entry of the table it reads. -/
theorem isReal_v73 (x1 : (⟨S8x13, .f32⟩ : BufTy).Contents (Elt Ideal)) (x2 x3 : (⟨S1x225, .f32⟩ : BufTy).Contents (Elt Ideal)) (x4 : (⟨S200x200, .f32⟩ : BufTy).Contents (Elt Ideal)) (h1 : ∀ i, IsReal (x1 i)) (h2 : ∀ i, IsReal (x2 i)) (h3 : ∀ i, IsReal (x3 i)) (h4 : ∀ i, IsReal (x4 i)) :
    ∀ i, IsReal (val_main_v73 (F := Ideal) x1 x2 x3 x4 i) := fun i => by
  unfold val_main_v73 Host.gather; exact h4 _

/-- Each entry of a gather's result is an entry of the table it reads. -/
theorem isReal_v89 (x1 : (⟨S8x13, .f32⟩ : BufTy).Contents (Elt Ideal)) (x2 x3 : (⟨S1x225, .f32⟩ : BufTy).Contents (Elt Ideal)) (x4 : (⟨S200x200, .f32⟩ : BufTy).Contents (Elt Ideal)) (h1 : ∀ i, IsReal (x1 i)) (h2 : ∀ i, IsReal (x2 i)) (h3 : ∀ i, IsReal (x3 i)) (h4 : ∀ i, IsReal (x4 i)) :
    ∀ i, IsReal (val_main_v89 (F := Ideal) x1 x2 x3 x4 i) := fun i => by
  unfold val_main_v89 Host.gather; exact h4 _

/-- Each entry of a gather's result is an entry of the table it reads. -/
theorem isReal_v105 (x1 : (⟨S8x13, .f32⟩ : BufTy).Contents (Elt Ideal)) (x2 x3 : (⟨S1x225, .f32⟩ : BufTy).Contents (Elt Ideal)) (x4 : (⟨S200x200, .f32⟩ : BufTy).Contents (Elt Ideal)) (h1 : ∀ i, IsReal (x1 i)) (h2 : ∀ i, IsReal (x2 i)) (h3 : ∀ i, IsReal (x3 i)) (h4 : ∀ i, IsReal (x4 i)) :
    ∀ i, IsReal (val_main_v105 (F := Ideal) x1 x2 x3 x4 i) := fun i => by
  unfold val_main_v105 Host.gather; exact h4 _

/-- Each entry of a gather's result is an entry of the table it reads. -/
theorem isReal_v123 (x1 : (⟨S8x13, .f32⟩ : BufTy).Contents (Elt Ideal)) (x2 x3 : (⟨S1x225, .f32⟩ : BufTy).Contents (Elt Ideal)) (x4 : (⟨S200x200, .f32⟩ : BufTy).Contents (Elt Ideal)) (h1 : ∀ i, IsReal (x1 i)) (h2 : ∀ i, IsReal (x2 i)) (h3 : ∀ i, IsReal (x3 i)) (h4 : ∀ i, IsReal (x4 i)) :
    ∀ i, IsReal (val_main_v123 (F := Ideal) x1 x2 x3 x4 i) := fun i => by
  unfold val_main_v123 Host.gather; exact h4 _

theorem isReal_v124 (x1 : (⟨S8x13, .f32⟩ : BufTy).Contents (Elt Ideal)) (x2 x3 : (⟨S1x225, .f32⟩ : BufTy).Contents (Elt Ideal)) (x4 : (⟨S200x200, .f32⟩ : BufTy).Contents (Elt Ideal)) (h1 : ∀ i, IsReal (x1 i)) (h2 : ∀ i, IsReal (x2 i)) (h3 : ∀ i, IsReal (x3 i)) (h4 : ∀ i, IsReal (x4 i)) :
    ∀ i, IsReal (val_main_v124 (F := Ideal) x1 x2 x3 x4 i) := fun i => by
  rw [val_main_v124_apply]; exact isReal_subf (isReal_v89 x1 x2 x3 x4 h1 h2 h3 h4 i) (isReal_v73 x1 x2 x3 x4 h1 h2 h3 h4 i)

theorem isReal_v125 (x1 : (⟨S8x13, .f32⟩ : BufTy).Contents (Elt Ideal)) (x2 x3 : (⟨S1x225, .f32⟩ : BufTy).Contents (Elt Ideal)) (x4 : (⟨S200x200, .f32⟩ : BufTy).Contents (Elt Ideal)) (h1 : ∀ i, IsReal (x1 i)) (h2 : ∀ i, IsReal (x2 i)) (h3 : ∀ i, IsReal (x3 i)) (h4 : ∀ i, IsReal (x4 i)) :
    ∀ i, IsReal (val_main_v125 (F := Ideal) x1 x2 x3 x4 i) := fun i => by
  rw [val_main_v125_apply]; exact isReal_mulf (isReal_v57 x1 x2 x3 h1 h2 h3 i) (isReal_v124 x1 x2 x3 x4 h1 h2 h3 h4 i)

theorem isReal_v126 (x1 : (⟨S8x13, .f32⟩ : BufTy).Contents (Elt Ideal)) (x2 x3 : (⟨S1x225, .f32⟩ : BufTy).Contents (Elt Ideal)) (x4 : (⟨S200x200, .f32⟩ : BufTy).Contents (Elt Ideal)) (h1 : ∀ i, IsReal (x1 i)) (h2 : ∀ i, IsReal (x2 i)) (h3 : ∀ i, IsReal (x3 i)) (h4 : ∀ i, IsReal (x4 i)) :
    ∀ i, IsReal (val_main_v126 (F := Ideal) x1 x2 x3 x4 i) := fun i => by
  rw [val_main_v126_apply]; exact isReal_addf (isReal_v73 x1 x2 x3 x4 h1 h2 h3 h4 i) (isReal_v125 x1 x2 x3 x4 h1 h2 h3 h4 i)

theorem isReal_v127 (x1 : (⟨S8x13, .f32⟩ : BufTy).Contents (Elt Ideal)) (x2 x3 : (⟨S1x225, .f32⟩ : BufTy).Contents (Elt Ideal)) (x4 : (⟨S200x200, .f32⟩ : BufTy).Contents (Elt Ideal)) (h1 : ∀ i, IsReal (x1 i)) (h2 : ∀ i, IsReal (x2 i)) (h3 : ∀ i, IsReal (x3 i)) (h4 : ∀ i, IsReal (x4 i)) :
    ∀ i, IsReal (val_main_v127 (F := Ideal) x1 x2 x3 x4 i) := fun i => by
  rw [val_main_v127_apply]; exact isReal_subf (isReal_v123 x1 x2 x3 x4 h1 h2 h3 h4 i) (isReal_v105 x1 x2 x3 x4 h1 h2 h3 h4 i)

theorem isReal_v128 (x1 : (⟨S8x13, .f32⟩ : BufTy).Contents (Elt Ideal)) (x2 x3 : (⟨S1x225, .f32⟩ : BufTy).Contents (Elt Ideal)) (x4 : (⟨S200x200, .f32⟩ : BufTy).Contents (Elt Ideal)) (h1 : ∀ i, IsReal (x1 i)) (h2 : ∀ i, IsReal (x2 i)) (h3 : ∀ i, IsReal (x3 i)) (h4 : ∀ i, IsReal (x4 i)) :
    ∀ i, IsReal (val_main_v128 (F := Ideal) x1 x2 x3 x4 i) := fun i => by
  rw [val_main_v128_apply]; exact isReal_mulf (isReal_v57 x1 x2 x3 h1 h2 h3 i) (isReal_v127 x1 x2 x3 x4 h1 h2 h3 h4 i)

theorem isReal_v129 (x1 : (⟨S8x13, .f32⟩ : BufTy).Contents (Elt Ideal)) (x2 x3 : (⟨S1x225, .f32⟩ : BufTy).Contents (Elt Ideal)) (x4 : (⟨S200x200, .f32⟩ : BufTy).Contents (Elt Ideal)) (h1 : ∀ i, IsReal (x1 i)) (h2 : ∀ i, IsReal (x2 i)) (h3 : ∀ i, IsReal (x3 i)) (h4 : ∀ i, IsReal (x4 i)) :
    ∀ i, IsReal (val_main_v129 (F := Ideal) x1 x2 x3 x4 i) := fun i => by
  rw [val_main_v129_apply]; exact isReal_addf (isReal_v105 x1 x2 x3 x4 h1 h2 h3 h4 i) (isReal_v128 x1 x2 x3 x4 h1 h2 h3 h4 i)

theorem isReal_v130 (x1 : (⟨S8x13, .f32⟩ : BufTy).Contents (Elt Ideal)) (x2 x3 : (⟨S1x225, .f32⟩ : BufTy).Contents (Elt Ideal)) (x4 : (⟨S200x200, .f32⟩ : BufTy).Contents (Elt Ideal)) (h1 : ∀ i, IsReal (x1 i)) (h2 : ∀ i, IsReal (x2 i)) (h3 : ∀ i, IsReal (x3 i)) (h4 : ∀ i, IsReal (x4 i)) :
    ∀ i, IsReal (val_main_v130 (F := Ideal) x1 x2 x3 x4 i) := fun i => by
  rw [val_main_v130_apply]; exact isReal_subf (isReal_v129 x1 x2 x3 x4 h1 h2 h3 h4 i) (isReal_v126 x1 x2 x3 x4 h1 h2 h3 h4 i)

theorem isReal_v131 (x1 : (⟨S8x13, .f32⟩ : BufTy).Contents (Elt Ideal)) (x2 x3 : (⟨S1x225, .f32⟩ : BufTy).Contents (Elt Ideal)) (x4 : (⟨S200x200, .f32⟩ : BufTy).Contents (Elt Ideal)) (h1 : ∀ i, IsReal (x1 i)) (h2 : ∀ i, IsReal (x2 i)) (h3 : ∀ i, IsReal (x3 i)) (h4 : ∀ i, IsReal (x4 i)) :
    ∀ i, IsReal (val_main_v131 (F := Ideal) x1 x2 x3 x4 i) := fun i => by
  rw [val_main_v131_apply]; exact isReal_mulf (isReal_v59 x1 x2 x3 h1 h2 h3 i) (isReal_v130 x1 x2 x3 x4 h1 h2 h3 h4 i)

theorem isReal_v132 (x1 : (⟨S8x13, .f32⟩ : BufTy).Contents (Elt Ideal)) (x2 x3 : (⟨S1x225, .f32⟩ : BufTy).Contents (Elt Ideal)) (x4 : (⟨S200x200, .f32⟩ : BufTy).Contents (Elt Ideal)) (h1 : ∀ i, IsReal (x1 i)) (h2 : ∀ i, IsReal (x2 i)) (h3 : ∀ i, IsReal (x3 i)) (h4 : ∀ i, IsReal (x4 i)) :
    ∀ i, IsReal (val_main_v132 (F := Ideal) x1 x2 x3 x4 i) := fun i => by
  rw [val_main_v132_apply]; exact isReal_addf (isReal_v126 x1 x2 x3 x4 h1 h2 h3 h4 i) (isReal_v131 x1 x2 x3 x4 h1 h2 h3 h4 i)

theorem lit_v135 (i : S8x225.Idx) : val_main_v135 (F := Ideal) i = ((13176795 / 4194304 : ℝ) : EReal) := by
  rw [val_main_v135_apply, val_main_cst_32_apply]; exact lit_pi

theorem isReal_v135 : ∀ i, IsReal (val_main_v135 (F := Ideal) i) := fun i => ⟨_, lit_v135 i⟩

theorem isReal_v136 (x1 : (⟨S8x13, .f32⟩ : BufTy).Contents (Elt Ideal)) (x2 x3 : (⟨S1x225, .f32⟩ : BufTy).Contents (Elt Ideal)) (x4 : (⟨S200x200, .f32⟩ : BufTy).Contents (Elt Ideal)) (h1 : ∀ i, IsReal (x1 i)) (h2 : ∀ i, IsReal (x2 i)) (h3 : ∀ i, IsReal (x3 i)) (h4 : ∀ i, IsReal (x4 i)) :
    ∀ i, IsReal (val_main_v136 (F := Ideal) x1 x2 x3 x4 i) := fun i => by
  rw [val_main_v136_apply]; exact isReal_addf (isReal_v132 x1 x2 x3 x4 h1 h2 h3 h4 i) (isReal_v135 i)

/-- A select answers one of its branches: the interpolated slope, or that slope plus the literal π. -/
theorem isReal_v137 (x1 : (⟨S8x13, .f32⟩ : BufTy).Contents (Elt Ideal)) (x2 x3 : (⟨S1x225, .f32⟩ : BufTy).Contents (Elt Ideal)) (x4 : (⟨S200x200, .f32⟩ : BufTy).Contents (Elt Ideal)) (h1 : ∀ i, IsReal (x1 i)) (h2 : ∀ i, IsReal (x2 i)) (h3 : ∀ i, IsReal (x3 i)) (h4 : ∀ i, IsReal (x4 i)) :
    ∀ i, IsReal (val_main_v137 (F := Ideal) x1 x2 x3 x4 i) := fun i => by
  rw [val_main_v137_apply]; exact isReal_select _ (isReal_v136 x1 x2 x3 x4 h1 h2 h3 h4 i) (isReal_v132 x1 x2 x3 x4 h1 h2 h3 h4 i)

theorem isReal_v138 (x1 : (⟨S8x13, .f32⟩ : BufTy).Contents (Elt Ideal)) (h1 : ∀ i, IsReal (x1 i)) :
    ∀ i, IsReal (val_main_v138 (F := Ideal) x1 i) := fun i => by
  rw [val_main_v138_apply]; exact isReal_v8 x1 h1 _

theorem isReal_v139 (x1 : (⟨S8x13, .f32⟩ : BufTy).Contents (Elt Ideal)) (x2 x3 : (⟨S1x225, .f32⟩ : BufTy).Contents (Elt Ideal)) (x4 : (⟨S200x200, .f32⟩ : BufTy).Contents (Elt Ideal)) (h1 : ∀ i, IsReal (x1 i)) (h2 : ∀ i, IsReal (x2 i)) (h3 : ∀ i, IsReal (x3 i)) (h4 : ∀ i, IsReal (x4 i)) :
    ∀ i, IsReal (val_main_v139 (F := Ideal) x1 x2 x3 x4 i) := fun i => by
  rw [val_main_v139_apply]; exact isReal_mulf (isReal_v137 x1 x2 x3 x4 h1 h2 h3 h4 i) (isReal_v138 x1 h1 i)

theorem isReal_v177 (x1 : (⟨S8x13, .f32⟩ : BufTy).Contents (Elt Ideal)) (x2 x3 : (⟨S1x225, .f32⟩ : BufTy).Contents (Elt Ideal)) (x4 : (⟨S200x200, .f32⟩ : BufTy).Contents (Elt Ideal)) (h1 : ∀ i, IsReal (x1 i)) (h2 : ∀ i, IsReal (x2 i)) (h3 : ∀ i, IsReal (x3 i)) (h4 : ∀ i, IsReal (x4 i)) :
    ∀ i, IsReal (val_main_v177 (F := Ideal) x1 x2 x3 x4 i) := fun i => by
  rw [val_main_v177_apply]; exact isReal_sin (isReal_v139 x1 x2 x3 x4 h1 h2 h3 h4 i)

theorem isReal_v178 (x1 : (⟨S8x13, .f32⟩ : BufTy).Contents (Elt Ideal)) (x2 x3 : (⟨S1x225, .f32⟩ : BufTy).Contents (Elt Ideal)) (x4 : (⟨S200x200, .f32⟩ : BufTy).Contents (Elt Ideal)) (h1 : ∀ i, IsReal (x1 i)) (h2 : ∀ i, IsReal (x2 i)) (h3 : ∀ i, IsReal (x3 i)) (h4 : ∀ i, IsReal (x4 i)) :
    ∀ i, IsReal (val_main_v178 (F := Ideal) x1 x2 x3 x4 i) := fun i => by
  rw [val_main_v178_apply]; exact isReal_cos (isReal_v139 x1 x2 x3 x4 h1 h2 h3 h4 i)

/-- The sine and cosine of the orientation angle are real numbers s, c with s² + c² = 1. -/
theorem sincos_v139 (x1 : (⟨S8x13, .f32⟩ : BufTy).Contents (Elt Ideal)) (x2 x3 : (⟨S1x225, .f32⟩ : BufTy).Contents (Elt Ideal)) (x4 : (⟨S200x200, .f32⟩ : BufTy).Contents (Elt Ideal)) (h1 : ∀ i, IsReal (x1 i)) (h2 : ∀ i, IsReal (x2 i)) (h3 : ∀ i, IsReal (x3 i)) (h4 : ∀ i, IsReal (x4 i)) (i : S8x225.Idx) :
    ∃ s c : ℝ, val_main_v177 (F := Ideal) x1 x2 x3 x4 i = (s : EReal) ∧
      val_main_v178 (F := Ideal) x1 x2 x3 x4 i = (c : EReal) ∧ s ^ 2 + c ^ 2 = 1 := by
  obtain ⟨t, ht⟩ := isReal_v139 x1 x2 x3 x4 h1 h2 h3 h4 i
  refine ⟨Real.sin t, Real.cos t, ?_, ?_, Real.sin_sq_add_cos_sq t⟩
  · rw [val_main_v177_apply, ht]; exact sin_coe t
  · rw [val_main_v178_apply, ht]; exact cos_coe t

end Cert.Percept.RefReal

end
-- ==== Proof.RefRealC.lean ====
/- The two variances.  ρ = max(·, 1) ≥ 1 is real when the arguments are; λ is a clip to [0, 0.99], real
   whatever is clipped, so w = sqrt(1 − λ²) is a positive real; with T the literal 4π > 0 the variances
   sx = (ρ · w) / T and sy = ρ / (T · w) are positive real numbers. -/
import proofs.«134758_j41807211659417_2_alg».proof.Proof.RefRead
import proofs.«134758_j41807211659417_2_alg».proof.Proof.RefRealAlg
import proofs.«134758_j41807211659417_2_alg».proof.Proof.RefRealConsts
import proofs.«134758_j41807211659417_2_alg».proof.Proof.RefRealCols

noncomputable section

namespace Cert.Percept.RefReal

open Cert.ReferenceIdeal Cert.ReferenceIdeal.Gen Cert.ReferenceIdeal.Read Idealize.ShloMosaic Idealize.ShloMosaic.TcCoe Idealize.SL.Sem Idealize.ShloMosaic.StableHlo

theorem isReal_v140 (x1 : (⟨S8x13, .f32⟩ : BufTy).Contents (Elt Ideal)) (h1 : ∀ i, IsReal (x1 i)) :
    ∀ i, IsReal (val_main_v140 (F := Ideal) x1 i) := fun i => by
  rw [val_main_v140_apply]; exact isReal_v6 x1 h1 _

theorem isReal_v141 (x0 : (⟨S8x225x3, .f32⟩ : BufTy).Contents (Elt Ideal)) (x1 : (⟨S8x13, .f32⟩ : BufTy).Contents (Elt Ideal)) (h0 : ∀ i, IsReal (x0 i)) (h1 : ∀ i, IsReal (x1 i)) :
    ∀ i, IsReal (val_main_v141 (F := Ideal) x0 x1 i) := fun i => by
  rw [val_main_v141_apply]; exact isReal_mulf (isReal_v140 x1 h1 i) (isReal_v3 x0 h0 i)

theorem isReal_v142 (x1 : (⟨S8x13, .f32⟩ : BufTy).Contents (Elt Ideal)) (h1 : ∀ i, IsReal (x1 i)) :
    ∀ i, IsReal (val_main_v142 (F := Ideal) x1 i) := fun i => by
  rw [val_main_v142_apply]; exact isReal_v12 x1 h1 _

theorem isReal_v143 (x0 : (⟨S8x225x3, .f32⟩ : BufTy).Contents (Elt Ideal)) (x1 : (⟨S8x13, .f32⟩ : BufTy).Contents (Elt Ideal)) (h0 : ∀ i, IsReal (x0 i)) (h1 : ∀ i, IsReal (x1 i)) :
    ∀ i, IsReal (val_main_v143 (F := Ideal) x0 x1 i) := fun i => by
  rw [val_main_v143_apply]; exact isReal_mulf (isReal_v141 x0 x1 h0 h1 i) (isReal_v142 x1 h1 i)

theorem lit_v144 (i : S8x225.Idx) : val_main_v144 (F := Ideal) i = ((1 : ℝ) : EReal) := by
  rw [val_main_v144_apply, val_main_cst_33_apply]; exact lit_one

theorem isReal_v144 : ∀ i, IsReal (val_main_v144 (F := Ideal) i) := fun i => ⟨_, lit_v144 i⟩

/-- ρ = max(rho · amplitude · a3, 1) is a real number, at least 1. -/
theorem ge_one_v145 (x0 : (⟨S8x225x3, .f32⟩ : BufTy).Contents (Elt Ideal)) (x1 : (⟨S8x13, .f32⟩ : BufTy).Contents (Elt Ideal)) (h0 : ∀ i, IsReal (x0 i)) (h1 : ∀ i, IsReal (x1 i)) (i : S8x225.Idx) :
    ∃ r : ℝ, val_main_v145 (F := Ideal) x0 x1 i = (r : EReal) ∧ 1 ≤ r := by
  obtain ⟨a, ha⟩ := isReal_v143 x0 x1 h0 h1 i
  rw [val_main_v145_apply, ha, lit_v144]
  exact max_real_ge a 1

/-- λ is a clip to [0, 0.99]: a real number in that interval, whatever is clipped. -/
theorem range_v154 (x0 : (⟨S8x225x3, .f32⟩ : BufTy).Contents (Elt Ideal)) (x1 : (⟨S8x13, .f32⟩ : BufTy).Contents (Elt Ideal)) (i : S8x225.Idx) :
    ∃ r : ℝ, val_main_v154 (F := Ideal) x0 x1 i = (r : EReal) ∧ 0 ≤ r ∧ r ≤ 16609444 / 16777216 := by
  rw [val_main_v154_apply, val_main_call5_v2_apply, val_main_call5_v4_apply, val_main_call5_v3_apply, val_main_cst_36_apply,
    val_main_call5_v1_apply, val_main_call5_v0_apply, val_main_cst_35_apply, lit_099, lit_zero]
  exact clip_real (by norm_num) _

theorem lit_v168 (i : S8x225.Idx) : val_main_v168 (F := Ideal) i = ((1 : ℝ) : EReal) := by
  rw [val_main_v168_apply, val_main_cst_40_apply]; exact lit_one

theorem isReal_v168 : ∀ i, IsReal (val_main_v168 (F := Ideal) i) := fun i => ⟨_, lit_v168 i⟩

/-- w = sqrt(1 − λ²) is a positive real number: λ² ≤ 0.99² < 1. -/
theorem pos_v170 (x0 : (⟨S8x225x3, .f32⟩ : BufTy).Contents (Elt Ideal)) (x1 : (⟨S8x13, .f32⟩ : BufTy).Contents (Elt Ideal)) (i : S8x225.Idx) :
    ∃ w : ℝ, val_main_v170 (F := Ideal) x0 x1 i = (w : EReal) ∧ 0 < w := by
  obtain ⟨l, hl, hl0, hl1⟩ := range_v154 x0 x1 i
  have h2 : l * l ≤ 16609444 / 16777216 * (16609444 / 16777216) := mul_le_mul hl1 hl1 hl0 (by norm_num)
  have h3 : (16609444 / 16777216 : ℝ) * (16609444 / 16777216) < 1 := by norm_num
  have h : 0 < 1 - l * l := by linarith
  refine ⟨Real.sqrt (1 - l * l), ?_, Real.sqrt_pos.mpr h⟩
  rw [val_main_v170_apply, val_main_v169_apply, val_main_v167_apply, lit_v168, hl, mulf_coe, subf_coe]
  exact sqrt_coe h.le

theorem lit_v171 (i : S8x225.Idx) : val_main_v171 (F := Ideal) i = ((13176795 / 1048576 : ℝ) : EReal) := by
  rw [val_main_v171_apply, val_main_cst_41_apply]; exact lit_4pi

theorem isReal_v171 : ∀ i, IsReal (val_main_v171 (F := Ideal) i) := fun i => ⟨_, lit_v171 i⟩

theorem lit_v175 (i : S8x225.Idx) : val_main_v175 (F := Ideal) i = ((13176795 / 1048576 : ℝ) : EReal) := by
  rw [val_main_v175_apply, val_main_cst_42_apply]; exact lit_4pi

theorem isReal_v175 : ∀ i, IsReal (val_main_v175 (F := Ideal) i) := fun i => ⟨_, lit_v175 i⟩

/-- sy = ρ / (T · w), with T the literal 4π > 0, is a positive real number. -/
theorem pos_v173 (x0 : (⟨S8x225x3, .f32⟩ : BufTy).Contents (Elt Ideal)) (x1 : (⟨S8x13, .f32⟩ : BufTy).Contents (Elt Ideal)) (h0 : ∀ i, IsReal (x0 i)) (h1 : ∀ i, IsReal (x1 i)) (i : S8x225.Idx) :
    ∃ r : ℝ, val_main_v173 (F := Ideal) x0 x1 i = (r : EReal) ∧ 0 < r := by
  obtain ⟨p, hp, hp1⟩ := ge_one_v145 x0 x1 h0 h1 i
  obtain ⟨w, hw, hw0⟩ := pos_v170 x0 x1 i
  have hT : (0 : ℝ) < 13176795 / 1048576 := by norm_num
  have hTw : 0 < 13176795 / 1048576 * w := mul_pos hT hw0
  refine ⟨p / (13176795 / 1048576 * w), ?_, div_pos (by linarith) hTw⟩
  rw [val_main_v173_apply, val_main_v172_apply, lit_v171, hp, hw, mulf_coe]
  exact hostDivf_coe p hTw.ne'

/-- sx = (ρ · w) / T is a positive real number. -/
theorem pos_v176 (x0 : (⟨S8x225x3, .f32⟩ : BufTy).Contents (Elt Ideal)) (x1 : (⟨S8x13, .f32⟩ : BufTy).Contents (Elt Ideal)) (h0 : ∀ i, IsReal (x0 i)) (h1 : ∀ i, IsReal (x1 i)) (i : S8x225.Idx) :
    ∃ r : ℝ, val_main_v176 (F := Ideal) x0 x1 i = (r : EReal) ∧ 0 < r := by
  obtain ⟨p, hp, hp1⟩ := ge_one_v145 x0 x1 h0 h1 i
  obtain ⟨w, hw, hw0⟩ := pos_v170 x0 x1 i
  have hT : (0 : ℝ) < 13176795 / 1048576 := by norm_num
  refine ⟨p * w / (13176795 / 1048576), ?_, div_pos (mul_pos (by linarith) hw0) hT⟩
  rw [val_main_v176_apply, val_main_v174_apply, lit_v175, hp, hw, mulf_coe]
  exact hostDivf_coe _ hT.ne'

end Cert.Percept.RefReal

end
-- ==== Proof.RefRealD.lean ====
/- The inverse covariance.  With sx, sy > 0 the variances and s, c the sine and cosine of the orientation,
   the covariance entries are a = sx·c·c + sy·s·s, b = (sx − sy)·s·c, d = sx·s·s + sy·c·c, and the determinant
   a·d − b·b is sx · sy · (s² + c²)² = sx · sy > 0; the inverse entries d / det, −b / det, a / det are therefore
   quotients of reals by a nonzero real. -/
import proofs.«134758_j41807211659417_2_alg».proof.Proof.RefRead
import proofs.«134758_j41807211659417_2_alg».proof.Proof.RefRealAlg
import proofs.«134758_j41807211659417_2_alg».proof.Proof.RefRealB
import proofs.«134758_j41807211659417_2_alg».proof.Proof.RefRealC

noncomputable section

namespace Cert.Percept.RefReal

open Cert.ReferenceIdeal Cert.ReferenceIdeal.Gen Cert.ReferenceIdeal.Read Idealize.ShloMosaic Idealize.ShloMosaic.TcCoe Idealize.SL.Sem Idealize.ShloMosaic.StableHlo

/-- The covariance entries and the determinant at an index, as polynomials in the positive variances
    sx, sy and the sine s and cosine c of the orientation (s² + c² = 1): the determinant is sx · sy. -/
theorem cov_vals (x0 : (⟨S8x225x3, .f32⟩ : BufTy).Contents (Elt Ideal)) (x1 : (⟨S8x13, .f32⟩ : BufTy).Contents (Elt Ideal)) (x2 x3 : (⟨S1x225, .f32⟩ : BufTy).Contents (Elt Ideal)) (x4 : (⟨S200x200, .f32⟩ : BufTy).Contents (Elt Ideal)) (h0 : ∀ i, IsReal (x0 i)) (h1 : ∀ i, IsReal (x1 i)) (h2 : ∀ i, IsReal (x2 i)) (h3 : ∀ i, IsReal (x3 i)) (h4 : ∀ i, IsReal (x4 i)) (i : S8x225.Idx) :
    ∃ sx sy s c : ℝ, 0 < sx ∧ 0 < sy ∧ s ^ 2 + c ^ 2 = 1 ∧
      val_main_v183 (F := Ideal) x0 x1 x2 x3 x4 i = ((sx * c * c + sy * s * s : ℝ) : EReal) ∧
      val_main_v186 (F := Ideal) x0 x1 x2 x3 x4 i = (((sx - sy) * s * c : ℝ) : EReal) ∧
      val_main_v191 (F := Ideal) x0 x1 x2 x3 x4 i = ((sx * s * s + sy * c * c : ℝ) : EReal) ∧
      val_main_v194 (F := Ideal) x0 x1 x2 x3 x4 i = ((sx * sy : ℝ) : EReal) := by
  obtain ⟨sx, hsx, hsx0⟩ := pos_v176 x0 x1 h0 h1 i
  obtain ⟨sy, hsy, hsy0⟩ := pos_v173 x0 x1 h0 h1 i
  obtain ⟨s, c, hs, hc, hsc⟩ := sincos_v139 x1 x2 x3 x4 h1 h2 h3 h4 i
  have e183 : val_main_v183 (F := Ideal) x0 x1 x2 x3 x4 i = ((sx * c * c + sy * s * s : ℝ) : EReal) := by
    rw [val_main_v183_apply, val_main_v180_apply, val_main_v179_apply, val_main_v182_apply, val_main_v181_apply,
      hsx, hsy, hs, hc]
    simp only [mulf_coe, addf_coe]
  have e186 : val_main_v186 (F := Ideal) x0 x1 x2 x3 x4 i = (((sx - sy) * s * c : ℝ) : EReal) := by
    rw [val_main_v186_apply, val_main_v185_apply, val_main_v184_apply, hsx, hsy, hs, hc]
    simp only [mulf_coe, subf_coe]
  have e191 : val_main_v191 (F := Ideal) x0 x1 x2 x3 x4 i = ((sx * s * s + sy * c * c : ℝ) : EReal) := by
    rw [val_main_v191_apply, val_main_v188_apply, val_main_v187_apply, val_main_v190_apply, val_main_v189_apply,
      hsx, hsy, hs, hc]
    simp only [mulf_coe, addf_coe]
  have e194 : val_main_v194 (F := Ideal) x0 x1 x2 x3 x4 i = ((sx * sy : ℝ) : EReal) := by
    rw [val_main_v194_apply, val_main_v192_apply, val_main_v193_apply, e183, e186, e191]
    simp only [mulf_coe, subf_coe]
    rw [det_rot sx sy s c hsc]
  exact ⟨sx, sy, s, c, hsx0, hsy0, hsc, e183, e186, e191, e194⟩

/-- The inverse covariance entries at an index: quotients of real numbers by the determinant sx · sy > 0. -/
theorem inv_vals (x0 : (⟨S8x225x3, .f32⟩ : BufTy).Contents (Elt Ideal)) (x1 : (⟨S8x13, .f32⟩ : BufTy).Contents (Elt Ideal)) (x2 x3 : (⟨S1x225, .f32⟩ : BufTy).Contents (Elt Ideal)) (x4 : (⟨S200x200, .f32⟩ : BufTy).Contents (Elt Ideal)) (h0 : ∀ i, IsReal (x0 i)) (h1 : ∀ i, IsReal (x1 i)) (h2 : ∀ i, IsReal (x2 i)) (h3 : ∀ i, IsReal (x3 i)) (h4 : ∀ i, IsReal (x4 i)) (i : S8x225.Idx) :
    ∃ sx sy s c : ℝ, 0 < sx ∧ 0 < sy ∧ s ^ 2 + c ^ 2 = 1 ∧
      val_main_v195 (F := Ideal) x0 x1 x2 x3 x4 i = (((sx * s * s + sy * c * c) / (sx * sy) : ℝ) : EReal) ∧
      val_main_v197 (F := Ideal) x0 x1 x2 x3 x4 i = ((-((sx - sy) * s * c) / (sx * sy) : ℝ) : EReal) ∧
      val_main_v198 (F := Ideal) x0 x1 x2 x3 x4 i = (((sx * c * c + sy * s * s) / (sx * sy) : ℝ) : EReal) := by
  obtain ⟨sx, sy, s, c, hsx, hsy, hsc, e183, e186, e191, e194⟩ := cov_vals x0 x1 x2 x3 x4 h0 h1 h2 h3 h4 i
  have hd : sx * sy ≠ 0 := (mul_pos hsx hsy).ne'
  refine ⟨sx, sy, s, c, hsx, hsy, hsc, ?_, ?_, ?_⟩
  · rw [val_main_v195_apply, e191, e194]; exact hostDivf_coe _ hd
  · rw [val_main_v197_apply, val_main_v196_apply, e186, e194, hostNegf_coe]; exact hostDivf_coe _ hd
  · rw [val_main_v198_apply, e183, e194]; exact hostDivf_coe _ hd

end Cert.Percept.RefReal

end
-- ==== Proof.RefReal.lean ====
/- The reference's inverse covariance entries (inv00, inv01, inv11) and electrode centres (center_x, center_y)
   are real numbers at every index when every entry of the arguments is. -/
import proofs.«134758_j41807211659417_2_alg».proof.Proof.RefRead
import proofs.«134758_j41807211659417_2_alg».proof.Proof.RefRealAlg
import proofs.«134758_j41807211659417_2_alg».proof.Proof.RefRealA
import proofs.«134758_j41807211659417_2_alg».proof.Proof.RefRealD

noncomputable section

namespace Cert.Percept.RefReal

open Cert.ReferenceIdeal Cert.ReferenceIdeal.Gen Cert.ReferenceIdeal.Read Idealize.ShloMosaic Idealize.ShloMosaic.TcCoe Idealize.SL.Sem Idealize.ShloMosaic.StableHlo

/-- inv00 is real. -/
theorem real_v195 (x0 : (⟨S8x225x3, .f32⟩ : BufTy).Contents (Elt Ideal)) (x1 : (⟨S8x13, .f32⟩ : BufTy).Contents (Elt Ideal)) (x2 x3 : (⟨S1x225, .f32⟩ : BufTy).Contents (Elt Ideal)) (x4 : (⟨S200x200, .f32⟩ : BufTy).Contents (Elt Ideal)) (h0 : ∀ i, ∃ r : ℝ, x0 i = (r : EReal)) (h1 : ∀ i, ∃ r : ℝ, x1 i = (r : EReal)) (h2 : ∀ i, ∃ r : ℝ, x2 i = (r : EReal)) (h3 : ∀ i, ∃ r : ℝ, x3 i = (r : EReal)) (h4 : ∀ i, ∃ r : ℝ, x4 i = (r : EReal)) :
    ∀ i, ∃ r : ℝ, val_main_v195 (F := Ideal) x0 x1 x2 x3 x4 i = (r : EReal) := fun i => by
  obtain ⟨sx, sy, s, c, -, -, -, e195, e197, e198⟩ := inv_vals x0 x1 x2 x3 x4 h0 h1 h2 h3 h4 i
  exact ⟨_, e195⟩

/-- inv01 is real. -/
theorem real_v197 (x0 : (⟨S8x225x3, .f32⟩ : BufTy).Contents (Elt Ideal)) (x1 : (⟨S8x13, .f32⟩ : BufTy).Contents (Elt Ideal)) (x2 x3 : (⟨S1x225, .f32⟩ : BufTy).Contents (Elt Ideal)) (x4 : (⟨S200x200, .f32⟩ : BufTy).Contents (Elt Ideal)) (h0 : ∀ i, ∃ r : ℝ, x0 i = (r : EReal)) (h1 : ∀ i, ∃ r : ℝ, x1 i = (r : EReal)) (h2 : ∀ i, ∃ r : ℝ, x2 i = (r : EReal)) (h3 : ∀ i, ∃ r : ℝ, x3 i = (r : EReal)) (h4 : ∀ i, ∃ r : ℝ, x4 i = (r : EReal)) :
    ∀ i, ∃ r : ℝ, val_main_v197 (F := Ideal) x0 x1 x2 x3 x4 i = (r : EReal) := fun i => by
  obtain ⟨sx, sy, s, c, -, -, -, e195, e197, e198⟩ := inv_vals x0 x1 x2 x3 x4 h0 h1 h2 h3 h4 i
  exact ⟨_, e197⟩

/-- inv11 is real. -/
theorem real_v198 (x0 : (⟨S8x225x3, .f32⟩ : BufTy).Contents (Elt Ideal)) (x1 : (⟨S8x13, .f32⟩ : BufTy).Contents (Elt Ideal)) (x2 x3 : (⟨S1x225, .f32⟩ : BufTy).Contents (Elt Ideal)) (x4 : (⟨S200x200, .f32⟩ : BufTy).Contents (Elt Ideal)) (h0 : ∀ i, ∃ r : ℝ, x0 i = (r : EReal)) (h1 : ∀ i, ∃ r : ℝ, x1 i = (r : EReal)) (h2 : ∀ i, ∃ r : ℝ, x2 i = (r : EReal)) (h3 : ∀ i, ∃ r : ℝ, x3 i = (r : EReal)) (h4 : ∀ i, ∃ r : ℝ, x4 i = (r : EReal)) :
    ∀ i, ∃ r : ℝ, val_main_v198 (F := Ideal) x0 x1 x2 x3 x4 i = (r : EReal) := fun i => by
  obtain ⟨sx, sy, s, c, -, -, -, e195, e197, e198⟩ := inv_vals x0 x1 x2 x3 x4 h0 h1 h2 h3 h4 i
  exact ⟨_, e198⟩

/-- center_x is real. -/
theorem real_v204 (x1 : (⟨S8x13, .f32⟩ : BufTy).Contents (Elt Ideal)) (x2 x3 : (⟨S1x225, .f32⟩ : BufTy).Contents (Elt Ideal)) (h1 : ∀ i, ∃ r : ℝ, x1 i = (r : EReal)) (h2 : ∀ i, ∃ r : ℝ, x2 i = (r : EReal)) (h3 : ∀ i, ∃ r : ℝ, x3 i = (r : EReal)) :
    ∀ i, ∃ r : ℝ, val_main_v204 (F := Ideal) x1 x2 x3 i = (r : EReal) :=
  isReal_v204 x1 x2 x3 h1 h2 h3

/-- center_y is real. -/
theorem real_v212 (x1 : (⟨S8x13, .f32⟩ : BufTy).Contents (Elt Ideal)) (x2 x3 : (⟨S1x225, .f32⟩ : BufTy).Contents (Elt Ideal)) (h1 : ∀ i, ∃ r : ℝ, x1 i = (r : EReal)) (h2 : ∀ i, ∃ r : ℝ, x2 i = (r : EReal)) (h3 : ∀ i, ∃ r : ℝ, x3 i = (r : EReal)) :
    ∀ i, ∃ r : ℝ, val_main_v212 (F := Ideal) x1 x2 x3 i = (r : EReal) :=
  isReal_v212 x1 x2 x3 h1 h2 h3

end Cert.Percept.RefReal

end
-- ==== Proof.Bridge1.lean ====
/-
  The per-entry law between the two programs, for extended reals known to be real.

  When the pixel coordinates, the electrode centre and the three inverse covariance entries are all real numbers, the
  contraction of the pixel's monomial row with the coefficient row is the reference's quadratic form: the law over ℝ,
  applied to the real witnesses.
-/
import proofs.«134758_j41807211659417_2_alg».proof.Proof.Spec
import proofs.«134758_j41807211659417_2_alg».proof.Proof.BodyMono

noncomputable section

namespace Cert.Percept.Bridge

open Idealize.ShloMosaic
open scoped BigOperators

/-- The body's monomial row is the specification's. -/
theorem mono_eq_monoRow (px py : EReal) : Cert.Percept.Body.mono px py = Cert.Percept.Spec.monoRow px py := rfl

/-- The contraction of the monomial row with the coefficient row is the quadratic form, for real quantities given
    as extended reals. -/
theorem contract_quad_of_real (px py cx cy a b c : EReal)
    (hpx : ∃ r : ℝ, px = (r : EReal)) (hpy : ∃ r : ℝ, py = (r : EReal)) (hcx : ∃ r : ℝ, cx = (r : EReal))
    (hcy : ∃ r : ℝ, cy = (r : EReal)) (ha : ∃ r : ℝ, a = (r : EReal)) (hb : ∃ r : ℝ, b = (r : EReal))
    (hc : ∃ r : ℝ, c = (r : EReal)) :
    ∑ k : Fin 8, Cert.Percept.Body.mono px py k * Cert.Percept.Spec.coef cx cy a b c k
      = Cert.Percept.Spec.quadRef px py cx cy a b c := by
  obtain ⟨px, rfl⟩ := hpx
  obtain ⟨py, rfl⟩ := hpy
  obtain ⟨cx, rfl⟩ := hcx
  obtain ⟨cy, rfl⟩ := hcy
  obtain ⟨a, rfl⟩ := ha
  obtain ⟨b, rfl⟩ := hb
  obtain ⟨c, rfl⟩ := hc
  rw [mono_eq_monoRow]
  exact Cert.Percept.Spec.contract_eq_quad px py cx cy a b c

end Cert.Percept.Bridge

end
-- ==== Proof.Bridge.lean ====
/-
  The two programs' arrays before the shared reshape-and-flip are equal, entry by entry.

  Entry (b, p) of the kernel's output, p one of the 14641 real pixels, is the sum over the electrodes e of
  exp(−½ · ⟨monomial row of pixel p, coefficient row of (b, e)⟩) · brightness(b, e); the reference's is the same sum with the
  quadratic form of (pixel − centre) in the exponent. The contraction equals the quadratic form because every quantity
  in it is a real number: the pixel coordinates by the precondition, the centres and the inverse covariance entries
  because the host computation keeps them finite.
-/
import proofs.«134758_j41807211659417_2_alg».proof.Proof.KValue
import proofs.«134758_j41807211659417_2_alg».proof.Proof.HostKAt
import proofs.«134758_j41807211659417_2_alg».proof.Proof.RefTop
import proofs.«134758_j41807211659417_2_alg».proof.Proof.RefReal
import proofs.«134758_j41807211659417_2_alg».proof.Proof.Bridge1

noncomputable section

namespace Cert.Percept.Bridge

open Idealize.ShloMosaic Idealize.ShloMosaic.ValueIdx

variable (a0 : FVec Ideal Cert.KernelIdeal.S8x225x3 .f32) (a1 : FVec Ideal Cert.KernelIdeal.S8x13 .f32)
  (a2 a3 : FVec Ideal Cert.KernelIdeal.S1x225 .f32) (a4 : FVec Ideal Cert.KernelIdeal.S200x200 .f32)
  (a5 : FVec Ideal Cert.KernelIdeal.S14641x2 .f32)

/-- The kernel's output array from the program's arguments. -/
def kernelOut : Cert.KernelIdeal.S8x14848.Idx → Elt Ideal .f32 :=
  Cert.Percept.KVal.outArr (Cert.Percept.HostK.padPix (F := Ideal) a5)
    (Cert.Percept.HostK.coefArr (F := Ideal) (Cert.ReferenceIdeal.Read.val_main_v195 (F := Ideal) a0 a1 a2 a3 a4) (Cert.ReferenceIdeal.Read.val_main_v197 (F := Ideal) a0 a1 a2 a3 a4) (Cert.ReferenceIdeal.Read.val_main_v198 (F := Ideal) a0 a1 a2 a3 a4)
      (Cert.ReferenceIdeal.Read.val_main_v204 (F := Ideal) a1 a2 a3) (Cert.ReferenceIdeal.Read.val_main_v212 (F := Ideal) a1 a2 a3))
    (Cert.ReferenceIdeal.Read.val_main_v166 (F := Ideal) a0 a1)

/-- The 14641 real columns of the kernel's output are the reference's [8,14641] array. -/
theorem slice_eq (h0 : ∀ i, ∃ r : ℝ, a0 i = (r : EReal)) (h1 : ∀ i, ∃ r : ℝ, a1 i = (r : EReal))
    (h2 : ∀ i, ∃ r : ℝ, a2 i = (r : EReal)) (h3 : ∀ i, ∃ r : ℝ, a3 i = (r : EReal))
    (h4 : ∀ i, ∃ r : ℝ, a4 i = (r : EReal)) (h5 : ∀ i, ∃ r : ℝ, a5 i = (r : EReal)) :
    extractStridedSlice Cert.KernelIdeal.S8x14641 ![0, 0] (kernelOut a0 a1 a2 a3 a4 a5) Cert.KernelIdeal.Gen.slices_S8x14848_S8x14641_0_0
      = Cert.ReferenceIdeal.Read.val_main_v250 (F := Ideal) a0 a1 a2 a3 a4 a5 := by
  funext i
  obtain ⟨b, p, rfl⟩ : ∃ (b : Fin 8) (p : Fin 14641), i = ix2 b p := ⟨i 0, i 1, eq_ix2 i⟩
  rw [Cert.Percept.RefTop.ref_at]
  rw [extractStridedSlice_apply ![0, 0] (kernelOut a0 a1 a2 a3 a4 a5) Cert.KernelIdeal.Gen.slices_S8x14848_S8x14641_0_0 (ix2 b p)
    (ix2 b (⟨p.val, by have := p.isLt; omega⟩ : Fin 14848)) (fun a => match a with
      | ⟨0, _⟩ => by show b.val = 0 + b.val; omega
      | ⟨1, _⟩ => by show p.val = 0 + p.val; omega)]
  show Cert.Percept.KVal.outAt _ _ _ b (⟨p.val, _⟩ : Fin 14848) = _
  unfold Cert.Percept.KVal.outAt
  refine Finset.sum_congr rfl fun e _ => ?_
  rw [Cert.Percept.HostK.padPix_apply a5 p 0, Cert.Percept.HostK.padPix_apply a5 p 1]
  simp only [Cert.Percept.HostK.coefArr_apply]
  rw [contract_quad_of_real _ _ _ _ _ _ _ (h5 _) (h5 _)
    (Cert.Percept.RefReal.real_v204 a1 a2 a3 h1 h2 h3 _) (Cert.Percept.RefReal.real_v212 a1 a2 a3 h1 h2 h3 _)
    (Cert.Percept.RefReal.real_v195 a0 a1 a2 a3 a4 h0 h1 h2 h3 h4 _) (Cert.Percept.RefReal.real_v197 a0 a1 a2 a3 a4 h0 h1 h2 h3 h4 _)
    (Cert.Percept.RefReal.real_v198 a0 a1 a2 a3 a4 h0 h1 h2 h3 h4 _)]

end Cert.Percept.Bridge

end
-- ==== Proof.PreReal.lean ====
/-
  The precondition decoded: every entry of the six argument arrays is a real number.

  The finiteness predicate is the conjunction, over the six arrays, of "every entry x has |x| below the f32 word of +∞";
  each conjunct is a reduction by "and" of the array of comparisons, so when the predicate is 1 every comparison is 1,
  and an extended real whose absolute value max(x, −x) is below ⊤ is neither ⊥ nor ⊤.
-/
import proofs.«134758_j41807211659417_2_alg».proof.Pre_finite_inputs
import Idealize.ShloMosaic.Lib.ReduceAll
import Idealize.ShloMosaic.Lib.ValueIdx
import Idealize.ShloMosaic.PureOps.Ideal.Laws

noncomputable section

namespace Cert.Percept.Pre

open Idealize.ShloMosaic Idealize.ShloMosaic.ValueIdx Cert.Pre_finite_inputs

/-- An extended real whose absolute value is below the f32 word of +∞ is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- An array all of whose entries are below +∞ in absolute value (the conjunction over the whole array is 1) has
    only real entries. -/
theorem all_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant (F := Ideal) S_ .f32 0x7F800000#32)))
        (constantI S_ 1 1#1) hr hu ix0 = 1#1) :
    ∀ i, ∃ r : ℝ, a i = (r : EReal) := fun i =>
  real_of_abs_lt (a i) (Host.reduce_andi_eq_one _ _ hr hu ix0 e i (funext fun d => d.elim0))

/-- THE PRECONDITION DECODED: when the finiteness predicate of the six argument arrays is 1, every entry of every
    array is a real number. -/
theorem real_of_pre [hP : Cert.Pre_finite_inputs.Facts] (a0 : FVec Ideal S8x225x3 .f32) (a1 : FVec Ideal S8x13 .f32)
    (a2 a3 : FVec Ideal S1x225 .f32) (a4 : FVec Ideal S200x200 .f32) (a5 : FVec Ideal S14641x2 .f32)
    (h : Cert.Pre_finite_inputs.fn (F := Ideal) a0 a1 a2 a3 a4 a5 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) := by
  have h0 : Cert.Pre_finite_inputs.fn (F := Ideal) a0 a1 a2 a3 a4 a5 ix0 = 1#1 := congrFun h ix0
  dsimp only [Cert.Pre_finite_inputs.fn, Cert.Pre_finite_inputs.fn_part1] at h0
  obtain ⟨h4, e5⟩ := IntOp.andi_eq_one.1 h0
  obtain ⟨h3, e4⟩ := IntOp.andi_eq_one.1 h4
  obtain ⟨h2, e3⟩ := IntOp.andi_eq_one.1 h3
  obtain ⟨h1, e2⟩ := IntOp.andi_eq_one.1 h2
  obtain ⟨e0, e1⟩ := IntOp.andi_eq_one.1 h1
  exact ⟨all_real a0 _ _ _ e0, all_real a1 _ _ _ e1, all_real a2 _ _ _ e2, all_real a3 _ _ _ e3,
    all_real a4 _ _ _ e4, all_real a5 _ _ _ e5⟩

end Cert.Percept.Pre

end
-- ==== Proof.RefChunks1.lean ====
/-
  The reference's 335 host operations cut into short runs, and how one buffer is read after them.

  The operations are straight-line: each writes one buffer of its own. After a run of operations that does not write a
  buffer r, r holds what it held before (skip); after a run that does, r holds what the run's own operations leave (open).
  Each buffer that a later run reads holds, right after its run, its stage of the per-operation reading applied to the
  argument arrays (st_…): one run is opened per buffer, and what it reads from earlier runs is already a stage.
  (Runs 1 to 6 of 28.)
-/
import proofs.«134758_j41807211659417_2_alg».proof.Proof.RefOps
import proofs.«134758_j41807211659417_2_alg».proof.Proof.RefRead

set_option maxRecDepth 16384

noncomputable section

namespace Cert.Percept.RefChunks

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- A reference of a list is, as a device buffer, in the list's set of device buffers. -/
theorem sub_of_mem {τ : Topo} {sig : RefSig} {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.2 (List.mem_toFinset.2 (List.mem_map_of_mem h))

set_option maxHeartbeats 4000000 in
abbrev L0_0 : List (HloOp τ sig (Elt F)) :=
  [ unary main_arg0 main_v0 ((extractStridedSlice S8x225x1 ![0, 0, 0] · slices_S8x225x3_S8x225x1_0_0_0) : (⟨S8x225x3, .f32⟩ : BufTy).Contents (Elt F) → (⟨S8x225x1, .f32⟩ : BufTy).Contents (Elt F)),
    reshape main_v0 main_v1 rfl shapeCasts_S8x225x1_S8x225,
    unary main_arg0 main_v2 ((extractStridedSlice S8x225x1 ![0, 0, 1] · slices_S8x225x3_S8x225x1_0_0_1) : (⟨S8x225x3, .f32⟩ : BufTy).Contents (Elt F) → (⟨S8x225x1, .f32⟩ : BufTy).Contents (Elt F)),
    reshape main_v2 main_v3 rfl shapeCasts_S8x225x1_S8x225,
    unary main_arg0 main_v4 ((extractStridedSlice S8x225x1 ![0, 0, 2] · slices_S8x225x3_S8x225x1_0_0_2) : (⟨S8x225x3, .f32⟩ : BufTy).Contents (Elt F) → (⟨S8x225x1, .f32⟩ : BufTy).Contents (Elt F)),
    reshape main_v4 main_v5 rfl shapeCasts_S8x225x1_S8x225,
    unary main_arg1 main_v6 ((extractStridedSlice S8x1 ![0, 0] · slices_S8x13_S8x1_0_0) : (⟨S8x13, .f32⟩ : BufTy).Contents (Elt F) → (⟨S8x1, .f32⟩ : BufTy).Contents (Elt F)),
    unary main_arg1 main_v7 ((extractStridedSlice S8x1 ![0, 1] · slices_S8x13_S8x1_0_1) : (⟨S8x13, .f32⟩ : BufTy).Contents (Elt F) → (⟨S8x1, .f32⟩ : BufTy).Contents (Elt F)),
    unary main_arg1 main_v8 ((extractStridedSlice S8x1 ![0, 2] · slices_S8x13_S8x1_0_2) : (⟨S8x13, .f32⟩ : BufTy).Contents (Elt F) → (⟨S8x1, .f32⟩ : BufTy).Contents (Elt F)),
    unary main_arg1 main_v9 ((extractStridedSlice S8x1 ![0, 3] · slices_S8x13_S8x1_0_3) : (⟨S8x13, .f32⟩ : BufTy).Contents (Elt F) → (⟨S8x1, .f32⟩ : BufTy).Contents (Elt F)),
    unary main_arg1 main_v10 ((extractStridedSlice S8x1 ![0, 4] · slices_S8x13_S8x1_0_4) : (⟨S8x13, .f32⟩ : BufTy).Contents (Elt F) → (⟨S8x1, .f32⟩ : BufTy).Contents (Elt F)),
    unary main_arg1 main_v11 ((extractStridedSlice S8x1 ![0, 5] · slices_S8x13_S8x1_0_5) : (⟨S8x13, .f32⟩ : BufTy).Contents (Elt F) → (⟨S8x1, .f32⟩ : BufTy).Contents (Elt F)) ]
def C0_0 : List (HloOp τ sig (Elt F)) := L0_0
noncomputable def W0_0 : List (Ref sig .tc) := [main_v0, main_v1, main_v2, main_v3, main_v4, main_v5, main_v6, main_v7, main_v8, main_v9, main_v10, main_v11]
set_option maxHeartbeats 4000000 in
theorem writes0_0 : (C0_0 (F := F)).Forall fun op => op.writes ⊆ (W0_0.map (Proc.devRef (τ := τ) .tc)).toFinset := by
  simp only [C0_0, L0_0, List.Forall, nullary_writes, unary_writes, binary_writes, ternary_writes, quaternary_writes, reshape_writes, nary_writes, unaryIndexed_writes, binaryIndexed_writes]
  repeat' apply And.intro
  all_goals exact sub_of_mem (by decide)
theorem skip0_0 (V : Valuation τ sig (Elt F)) {r : Ref sig .tc} (h : r ∉ W0_0) :
    StableHlo.after (C0_0 (F := F)) V (no_index (Proc.devRef .tc r)) = V (Proc.devRef .tc r) :=
  after_of_writes_sub _ V writes0_0 h
theorem open0_0 (V : Valuation τ sig (Elt F)) {r : Ref sig .tc} (h : r ∈ W0_0) :
    StableHlo.after (C0_0 (F := F)) V (no_index (Proc.devRef .tc r)) = StableHlo.after (L0_0 (F := F)) V (Proc.devRef .tc r) := rfl
noncomputable def U0_0 : List (Ref sig .tc) := [main_v0, main_v2, main_v4]
theorem openU0_0 (V : Valuation τ sig (Elt F)) {r : Ref sig .tc} (h : r ∈ U0_0) :
    StableHlo.after (C0_0 (F := F)) V (no_index (Proc.devRef .tc r)) = StableHlo.after (L0_0 (F := F)) V (Proc.devRef .tc r) := rfl
set_option maxHeartbeats 4000000 in
theorem st_main_v1 (V : Valuation τ sig (Elt F)) :
    StableHlo.after (C0_0 (F := F)) V (no_index (Proc.devRef .tc main_v1))
      = Cert.ReferenceIdeal.Read.val_main_v1 (F := F) (V (Proc.devRef .tc main_arg0)) := by
  simp (disch := decide) only [open0_0, L0_0, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v3 (V : Valuation τ sig (Elt F)) :
    StableHlo.after (C0_0 (F := F)) V (no_index (Proc.devRef .tc main_v3))
      = Cert.ReferenceIdeal.Read.val_main_v3 (F := F) (V (Proc.devRef .tc main_arg0)) := by
  simp (disch := decide) only [open0_0, L0_0, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v5 (V : Valuation τ sig (Elt F)) :
    StableHlo.after (C0_0 (F := F)) V (no_index (Proc.devRef .tc main_v5))
      = Cert.ReferenceIdeal.Read.val_main_v5 (F := F) (V (Proc.devRef .tc main_arg0)) := by
  simp (disch := decide) only [open0_0, L0_0, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v6 (V : Valuation τ sig (Elt F)) :
    StableHlo.after (C0_0 (F := F)) V (no_index (Proc.devRef .tc main_v6))
      = Cert.ReferenceIdeal.Read.val_main_v6 (F := F) (V (Proc.devRef .tc main_arg1)) := by
  simp (disch := decide) only [open0_0, L0_0, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v7 (V : Valuation τ sig (Elt F)) :
    StableHlo.after (C0_0 (F := F)) V (no_index (Proc.devRef .tc main_v7))
      = Cert.ReferenceIdeal.Read.val_main_v7 (F := F) (V (Proc.devRef .tc main_arg1)) := by
  simp (disch := decide) only [open0_0, L0_0, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v8 (V : Valuation τ sig (Elt F)) :
    StableHlo.after (C0_0 (F := F)) V (no_index (Proc.devRef .tc main_v8))
      = Cert.ReferenceIdeal.Read.val_main_v8 (F := F) (V (Proc.devRef .tc main_arg1)) := by
  simp (disch := decide) only [open0_0, L0_0, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v9 (V : Valuation τ sig (Elt F)) :
    StableHlo.after (C0_0 (F := F)) V (no_index (Proc.devRef .tc main_v9))
      = Cert.ReferenceIdeal.Read.val_main_v9 (F := F) (V (Proc.devRef .tc main_arg1)) := by
  simp (disch := decide) only [open0_0, L0_0, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v10 (V : Valuation τ sig (Elt F)) :
    StableHlo.after (C0_0 (F := F)) V (no_index (Proc.devRef .tc main_v10))
      = Cert.ReferenceIdeal.Read.val_main_v10 (F := F) (V (Proc.devRef .tc main_arg1)) := by
  simp (disch := decide) only [open0_0, L0_0, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v11 (V : Valuation τ sig (Elt F)) :
    StableHlo.after (C0_0 (F := F)) V (no_index (Proc.devRef .tc main_v11))
      = Cert.ReferenceIdeal.Read.val_main_v11 (F := F) (V (Proc.devRef .tc main_arg1)) := by
  simp (disch := decide) only [open0_0, L0_0, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L0_1 : List (HloOp τ sig (Elt F)) :=
  [ unary main_arg1 main_v12 ((extractStridedSlice S8x1 ![0, 6] · slices_S8x13_S8x1_0_6) : (⟨S8x13, .f32⟩ : BufTy).Contents (Elt F) → (⟨S8x1, .f32⟩ : BufTy).Contents (Elt F)),
    unary main_arg1 main_v13 ((extractStridedSlice S8x1 ![0, 7] · slices_S8x13_S8x1_0_7) : (⟨S8x13, .f32⟩ : BufTy).Contents (Elt F) → (⟨S8x1, .f32⟩ : BufTy).Contents (Elt F)),
    unary main_arg1 main_v14 ((extractStridedSlice S8x1 ![0, 8] · slices_S8x13_S8x1_0_8) : (⟨S8x13, .f32⟩ : BufTy).Contents (Elt F) → (⟨S8x1, .f32⟩ : BufTy).Contents (Elt F)),
    unary main_arg1 main_v15 ((extractStridedSlice S8x1 ![0, 9] · slices_S8x13_S8x1_0_9) : (⟨S8x13, .f32⟩ : BufTy).Contents (Elt F) → (⟨S8x1, .f32⟩ : BufTy).Contents (Elt F)),
    unary main_arg1 main_v16 ((extractStridedSlice S8x1 ![0, 10] · slices_S8x13_S8x1_0_10) : (⟨S8x13, .f32⟩ : BufTy).Contents (Elt F) → (⟨S8x1, .f32⟩ : BufTy).Contents (Elt F)),
    unary main_arg1 main_v17 ((extractStridedSlice S8x1 ![0, 11] · slices_S8x13_S8x1_0_11) : (⟨S8x13, .f32⟩ : BufTy).Contents (Elt F) → (⟨S8x1, .f32⟩ : BufTy).Contents (Elt F)),
    unary main_v16 main_v18 (Host.cos : (⟨S8x1, .f32⟩ : BufTy).Contents (Elt F) → (⟨S8x1, .f32⟩ : BufTy).Contents (Elt F)),
    unary main_v16 main_v19 (Host.sin : (⟨S8x1, .f32⟩ : BufTy).Contents (Elt F) → (⟨S8x1, .f32⟩ : BufTy).Contents (Elt F)),
    unary main_arg2 main_v20 (broadcastInDim S8x225 ![0, 1] bcast_S1x225_S8x225_0_1 : (⟨S1x225, .f32⟩ : BufTy).Contents (Elt F) → (⟨S8x225, .f32⟩ : BufTy).Contents (Elt F)),
    unary main_v18 main_v21 (broadcastInDim S8x225 ![0, 1] bcast_S8x1_S8x225_0_1 : (⟨S8x1, .f32⟩ : BufTy).Contents (Elt F) → (⟨S8x225, .f32⟩ : BufTy).Contents (Elt F)),
    binary main_v20 main_v21 main_v22 (mulf : (⟨S8x225, .f32⟩ : BufTy).Contents (Elt F) → (⟨S8x225, .f32⟩ : BufTy).Contents (Elt F) → (⟨S8x225, .f32⟩ : BufTy).Contents (Elt F)),
    unary main_arg3 main_v23 (broadcastInDim S8x225 ![0, 1] bcast_S1x225_S8x225_0_1 : (⟨S1x225, .f32⟩ : BufTy).Contents (Elt F) → (⟨S8x225, .f32⟩ : BufTy).Contents (Elt F)) ]
def C0_1 : List (HloOp τ sig (Elt F)) := L0_1
noncomputable def W0_1 : List (Ref sig .tc) := [main_v12, main_v13, main_v14, main_v15, main_v16, main_v17, main_v18, main_v19, main_v20, main_v21, main_v22, main_v23]
set_option maxHeartbeats 4000000 in
theorem writes0_1 : (C0_1 (F := F)).Forall fun op => op.writes ⊆ (W0_1.map (Proc.devRef (τ := τ) .tc)).toFinset := by
  simp only [C0_1, L0_1, List.Forall, nullary_writes, unary_writes, binary_writes, ternary_writes, quaternary_writes, reshape_writes, nary_writes, unaryIndexed_writes, binaryIndexed_writes]
  repeat' apply And.intro
  all_goals exact sub_of_mem (by decide)
theorem skip0_1 (V : Valuation τ sig (Elt F)) {r : Ref sig .tc} (h : r ∉ W0_1) :
    StableHlo.after (C0_1 (F := F)) V (no_index (Proc.devRef .tc r)) = V (Proc.devRef .tc r) :=
  after_of_writes_sub _ V writes0_1 h
theorem open0_1 (V : Valuation τ sig (Elt F)) {r : Ref sig .tc} (h : r ∈ W0_1) :
    StableHlo.after (C0_1 (F := F)) V (no_index (Proc.devRef .tc r)) = StableHlo.after (L0_1 (F := F)) V (Proc.devRef .tc r) := rfl
noncomputable def U0_1 : List (Ref sig .tc) := [main_v16, main_v20, main_v21]
theorem openU0_1 (V : Valuation τ sig (Elt F)) {r : Ref sig .tc} (h : r ∈ U0_1) :
    StableHlo.after (C0_1 (F := F)) V (no_index (Proc.devRef .tc r)) = StableHlo.after (L0_1 (F := F)) V (Proc.devRef .tc r) := rfl
set_option maxHeartbeats 4000000 in
theorem st_main_v12 (V : Valuation τ sig (Elt F)) :
    StableHlo.after (C0_1 (F := F)) (StableHlo.after (C0_0 (F := F)) V) (no_index (Proc.devRef .tc main_v12))
      = Cert.ReferenceIdeal.Read.val_main_v12 (F := F) (V (Proc.devRef .tc main_arg1)) := by
  simp (disch := decide) only [skip0_0, open0_1, L0_1, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v13 (V : Valuation τ sig (Elt F)) :
    StableHlo.after (C0_1 (F := F)) (StableHlo.after (C0_0 (F := F)) V) (no_index (Proc.devRef .tc main_v13))
      = Cert.ReferenceIdeal.Read.val_main_v13 (F := F) (V (Proc.devRef .tc main_arg1)) := by
  simp (disch := decide) only [skip0_0, open0_1, L0_1, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v14 (V : Valuation τ sig (Elt F)) :
    StableHlo.after (C0_1 (F := F)) (StableHlo.after (C0_0 (F := F)) V) (no_index (Proc.devRef .tc main_v14))
      = Cert.ReferenceIdeal.Read.val_main_v14 (F := F) (V (Proc.devRef .tc main_arg1)) := by
  simp (disch := decide) only [skip0_0, open0_1, L0_1, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v15 (V : Valuation τ sig (Elt F)) :
    StableHlo.after (C0_1 (F := F)) (StableHlo.after (C0_0 (F := F)) V) (no_index (Proc.devRef .tc main_v15))
      = Cert.ReferenceIdeal.Read.val_main_v15 (F := F) (V (Proc.devRef .tc main_arg1)) := by
  simp (disch := decide) only [skip0_0, open0_1, L0_1, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v17 (V : Valuation τ sig (Elt F)) :
    StableHlo.after (C0_1 (F := F)) (StableHlo.after (C0_0 (F := F)) V) (no_index (Proc.devRef .tc main_v17))
      = Cert.ReferenceIdeal.Read.val_main_v17 (F := F) (V (Proc.devRef .tc main_arg1)) := by
  simp (disch := decide) only [skip0_0, open0_1, L0_1, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v18 (V : Valuation τ sig (Elt F)) :
    StableHlo.after (C0_1 (F := F)) (StableHlo.after (C0_0 (F := F)) V) (no_index (Proc.devRef .tc main_v18))
      = Cert.ReferenceIdeal.Read.val_main_v18 (F := F) (V (Proc.devRef .tc main_arg1)) := by
  simp (disch := decide) only [skip0_0, open0_1, L0_1, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v19 (V : Valuation τ sig (Elt F)) :
    StableHlo.after (C0_1 (F := F)) (StableHlo.after (C0_0 (F := F)) V) (no_index (Proc.devRef .tc main_v19))
      = Cert.ReferenceIdeal.Read.val_main_v19 (F := F) (V (Proc.devRef .tc main_arg1)) := by
  simp (disch := decide) only [skip0_0, open0_1, L0_1, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v22 (V : Valuation τ sig (Elt F)) :
    StableHlo.after (C0_1 (F := F)) (StableHlo.after (C0_0 (F := F)) V) (no_index (Proc.devRef .tc main_v22))
      = Cert.ReferenceIdeal.Read.val_main_v22 (F := F) (V (Proc.devRef .tc main_arg1)) (V (Proc.devRef .tc main_arg2)) := by
  simp (disch := decide) only [skip0_0, open0_1, L0_1, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v23 (V : Valuation τ sig (Elt F)) :
    StableHlo.after (C0_1 (F := F)) (StableHlo.after (C0_0 (F := F)) V) (no_index (Proc.devRef .tc main_v23))
      = Cert.ReferenceIdeal.Read.val_main_v23 (F := F) (V (Proc.devRef .tc main_arg3)) := by
  simp (disch := decide) only [skip0_0, open0_1, L0_1, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L0_2 : List (HloOp τ sig (Elt F)) :=
  [ unary main_v19 main_v24 (broadcastInDim S8x225 ![0, 1] bcast_S8x1_S8x225_0_1 : (⟨S8x1, .f32⟩ : BufTy).Contents (Elt F) → (⟨S8x225, .f32⟩ : BufTy).Contents (Elt F)),
    binary main_v23 main_v24 main_v25 (mulf : (⟨S8x225, .f32⟩ : BufTy).Contents (Elt F) → (⟨S8x225, .f32⟩ : BufTy).Contents (Elt F) → (⟨S8x225, .f32⟩ : BufTy).Contents (Elt F)),
    binary main_v22 main_v25 main_v26 (subf : (⟨S8x225, .f32⟩ : BufTy).Contents (Elt F) → (⟨S8x225, .f32⟩ : BufTy).Contents (Elt F) → (⟨S8x225, .f32⟩ : BufTy).Contents (Elt F)),
    unary main_v14 main_v27 (broadcastInDim S8x225 ![0, 1] bcast_S8x1_S8x225_0_1 : (⟨S8x1, .f32⟩ : BufTy).Contents (Elt F) → (⟨S8x225, .f32⟩ : BufTy).Contents (Elt F)),
    binary main_v26 main_v27 main_v28 (addf : (⟨S8x225, .f32⟩ : BufTy).Contents (Elt F) → (⟨S8x225, .f32⟩ : BufTy).Contents (Elt F) → (⟨S8x225, .f32⟩ : BufTy).Contents (Elt F)),
    unary main_arg2 main_v29 (broadcastInDim S8x225 ![0, 1] bcast_S1x225_S8x225_0_1 : (⟨S1x225, .f32⟩ : BufTy).Contents (Elt F) → (⟨S8x225, .f32⟩ : BufTy).Contents (Elt F)),
    unary main_v19 main_v30 (broadcastInDim S8x225 ![0, 1] bcast_S8x1_S8x225_0_1 : (⟨S8x1, .f32⟩ : BufTy).Contents (Elt F) → (⟨S8x225, .f32⟩ : BufTy).Contents (Elt F)),
    binary main_v29 main_v30 main_v31 (mulf : (⟨S8x225, .f32⟩ : BufTy).Contents (Elt F) → (⟨S8x225, .f32⟩ : BufTy).Contents (Elt F) → (⟨S8x225, .f32⟩ : BufTy).Contents (Elt F)),
    unary main_arg3 main_v32 (broadcastInDim S8x225 ![0, 1] bcast_S1x225_S8x225_0_1 : (⟨S1x225, .f32⟩ : BufTy).Contents (Elt F) → (⟨S8x225, .f32⟩ : BufTy).Contents (Elt F)),
    unary main_v18 main_v33 (broadcastInDim S8x225 ![0, 1] bcast_S8x1_S8x225_0_1 : (⟨S8x1, .f32⟩ : BufTy).Contents (Elt F) → (⟨S8x225, .f32⟩ : BufTy).Contents (Elt F)),
    binary main_v32 main_v33 main_v34 (mulf : (⟨S8x225, .f32⟩ : BufTy).Contents (Elt F) → (⟨S8x225, .f32⟩ : BufTy).Contents (Elt F) → (⟨S8x225, .f32⟩ : BufTy).Contents (Elt F)),
    binary main_v31 main_v34 main_v35 (addf : (⟨S8x225, .f32⟩ : BufTy).Contents (Elt F) → (⟨S8x225, .f32⟩ : BufTy).Contents (Elt F) → (⟨S8x225, .f32⟩ : BufTy).Contents (Elt F)) ]
def C0_2 : List (HloOp τ sig (Elt F)) := L0_2
noncomputable def W0_2 : List (Ref sig .tc) := [main_v24, main_v25, main_v26, main_v27, main_v28, main_v29, main_v30, main_v31, main_v32, main_v33, main_v34, main_v35]
set_option maxHeartbeats 4000000 in
theorem writes0_2 : (C0_2 (F := F)).Forall fun op => op.writes ⊆ (W0_2.map (Proc.devRef (τ := τ) .tc)).toFinset := by
  simp only [C0_2, L0_2, List.Forall, nullary_writes, unary_writes, binary_writes, ternary_writes, quaternary_writes, reshape_writes, nary_writes, unaryIndexed_writes, binaryIndexed_writes]
  repeat' apply And.intro
  all_goals exact sub_of_mem (by decide)
theorem skip0_2 (V : Valuation τ sig (Elt F)) {r : Ref sig .tc} (h : r ∉ W0_2) :
    StableHlo.after (C0_2 (F := F)) V (no_index (Proc.devRef .tc r)) = V (Proc.devRef .tc r) :=
  after_of_writes_sub _ V writes0_2 h
theorem open0_2 (V : Valuation τ sig (Elt F)) {r : Ref sig .tc} (h : r ∈ W0_2) :
    StableHlo.after (C0_2 (F := F)) V (no_index (Proc.devRef .tc r)) = StableHlo.after (L0_2 (F := F)) V (Proc.devRef .tc r) := rfl
noncomputable def U0_2 : List (Ref sig .tc) := [main_v24, main_v25, main_v26, main_v27, main_v29, main_v30, main_v31, main_v32, main_v33, main_v34]
theorem openU0_2 (V : Valuation τ sig (Elt F)) {r : Ref sig .tc} (h : r ∈ U0_2) :
    StableHlo.after (C0_2 (F := F)) V (no_index (Proc.devRef .tc r)) = StableHlo.after (L0_2 (F := F)) V (Proc.devRef .tc r) := rfl
set_option maxHeartbeats 4000000 in
theorem st_main_v28 (V : Valuation τ sig (Elt F)) :
    StableHlo.after (C0_2 (F := F)) (StableHlo.after (C0_1 (F := F)) (StableHlo.after (C0_0 (F := F)) V)) (no_index (Proc.devRef .tc main_v28))
      = Cert.ReferenceIdeal.Read.val_main_v28 (F := F) (V (Proc.devRef .tc main_arg1)) (V (Proc.devRef .tc main_arg2)) (V (Proc.devRef .tc main_arg3)) := by
  simp (disch := decide) only [skip0_0, skip0_1, open0_2, L0_2, st_main_v22, st_main_v23, st_main_v19, st_main_v14, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v35 (V : Valuation τ sig (Elt F)) :
    StableHlo.after (C0_2 (F := F)) (StableHlo.after (C0_1 (F := F)) (StableHlo.after (C0_0 (F := F)) V)) (no_index (Proc.devRef .tc main_v35))
      = Cert.ReferenceIdeal.Read.val_main_v35 (F := F) (V (Proc.devRef .tc main_arg1)) (V (Proc.devRef .tc main_arg2)) (V (Proc.devRef .tc main_arg3)) := by
  simp (disch := decide) only [skip0_0, skip0_1, open0_2, L0_2, st_main_v19, st_main_v18, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L0_3 : List (HloOp τ sig (Elt F)) :=
  [ unary main_v15 main_v36 (broadcastInDim S8x225 ![0, 1] bcast_S8x1_S8x225_0_1 : (⟨S8x1, .f32⟩ : BufTy).Contents (Elt F) → (⟨S8x225, .f32⟩ : BufTy).Contents (Elt F)),
    binary main_v35 main_v36 main_v37 (addf : (⟨S8x225, .f32⟩ : BufTy).Contents (Elt F) → (⟨S8x225, .f32⟩ : BufTy).Contents (Elt F) → (⟨S8x225, .f32⟩ : BufTy).Contents (Elt F)),
    nullary main_cst (constant S_ .f32 0x4587A000#32),
    unary main_cst main_v38 (broadcastInDim S8x1 ![] bcast_S_S8x1 : (⟨S_, .f32⟩ : BufTy).Contents (Elt F) → (⟨S8x1, .f32⟩ : BufTy).Contents (Elt F)),
    binary main_v17 main_v38 main_v39 (subf : (⟨S8x1, .f32⟩ : BufTy).Contents (Elt F) → (⟨S8x1, .f32⟩ : BufTy).Contents (Elt F) → (⟨S8x1, .f32⟩ : BufTy).Contents (Elt F)),
    unary main_v39 main_v40 (broadcastInDim S8x225 ![0, 1] bcast_S8x1_S8x225_0_1 : (⟨S8x1, .f32⟩ : BufTy).Contents (Elt F) → (⟨S8x225, .f32⟩ : BufTy).Contents (Elt F)),
    binary main_v28 main_v40 main_v41 (subf : (⟨S8x225, .f32⟩ : BufTy).Contents (Elt F) → (⟨S8x225, .f32⟩ : BufTy).Contents (Elt F) → (⟨S8x225, .f32⟩ : BufTy).Contents (Elt F)),
    nullary main_cst_0 (constant S_ .f32 0xC5834000#32),
    unary main_cst_0 main_v42 (broadcastInDim S8x225 ![] bcast_S_S8x225 : (⟨S_, .f32⟩ : BufTy).Contents (Elt F) → (⟨S8x225, .f32⟩ : BufTy).Contents (Elt F)),
    binary main_v41 main_v42 main_v43 (subf : (⟨S8x225, .f32⟩ : BufTy).Contents (Elt F) → (⟨S8x225, .f32⟩ : BufTy).Contents (Elt F) → (⟨S8x225, .f32⟩ : BufTy).Contents (Elt F)),
    nullary main_cst_1 (constant S_ .f32 0x4228D81F#32),
    unary main_cst_1 main_v44 (broadcastInDim S8x225 ![] bcast_S_S8x225 : (⟨S_, .f32⟩ : BufTy).Contents (Elt F) → (⟨S8x225, .f32⟩ : BufTy).Contents (Elt F)) ]
def C0_3 : List (HloOp τ sig (Elt F)) := L0_3
noncomputable def W0_3 : List (Ref sig .tc) := [main_v36, main_v37, main_cst, main_v38, main_v39, main_v40, main_v41, main_cst_0, main_v42, main_v43, main_cst_1, main_v44]
set_option maxHeartbeats 4000000 in
theorem writes0_3 : (C0_3 (F := F)).Forall fun op => op.writes ⊆ (W0_3.map (Proc.devRef (τ := τ) .tc)).toFinset := by
  simp only [C0_3, L0_3, List.Forall, nullary_writes, unary_writes, binary_writes, ternary_writes, quaternary_writes, reshape_writes, nary_writes, unaryIndexed_writes, binaryIndexed_writes]
  repeat' apply And.intro
  all_goals exact sub_of_mem (by decide)
theorem skip0_3 (V : Valuation τ sig (Elt F)) {r : Ref sig .tc} (h : r ∉ W0_3) :
    StableHlo.after (C0_3 (F := F)) V (no_index (Proc.devRef .tc r)) = V (Proc.devRef .tc r) :=
  after_of_writes_sub _ V writes0_3 h
theorem open0_3 (V : Valuation τ sig (Elt F)) {r : Ref sig .tc} (h : r ∈ W0_3) :
    StableHlo.after (C0_3 (F := F)) V (no_index (Proc.devRef .tc r)) = StableHlo.after (L0_3 (F := F)) V (Proc.devRef .tc r) := rfl
noncomputable def U0_3 : List (Ref sig .tc) := [main_v36, main_cst, main_v38, main_v39, main_v40, main_v41, main_cst_0, main_v42, main_cst_1]
theorem openU0_3 (V : Valuation τ sig (Elt F)) {r : Ref sig .tc} (h : r ∈ U0_3) :
    StableHlo.after (C0_3 (F := F)) V (no_index (Proc.devRef .tc r)) = StableHlo.after (L0_3 (F := F)) V (Proc.devRef .tc r) := rfl
set_option maxHeartbeats 4000000 in
theorem st_main_v37 (V : Valuation τ sig (Elt F)) :
    StableHlo.after (C0_3 (F := F)) (StableHlo.after (C0_2 (F := F)) (StableHlo.after (C0_1 (F := F)) (StableHlo.after (C0_0 (F := F)) V))) (no_index (Proc.devRef .tc main_v37))
      = Cert.ReferenceIdeal.Read.val_main_v37 (F := F) (V (Proc.devRef .tc main_arg1)) (V (Proc.devRef .tc main_arg2)) (V (Proc.devRef .tc main_arg3)) := by
  simp (disch := decide) only [skip0_0, skip0_1, skip0_2, open0_3, L0_3, st_main_v35, st_main_v15, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v43 (V : Valuation τ sig (Elt F)) :
    StableHlo.after (C0_3 (F := F)) (StableHlo.after (C0_2 (F := F)) (StableHlo.after (C0_1 (F := F)) (StableHlo.after (C0_0 (F := F)) V))) (no_index (Proc.devRef .tc main_v43))
      = Cert.ReferenceIdeal.Read.val_main_v43 (F := F) (V (Proc.devRef .tc main_arg1)) (V (Proc.devRef .tc main_arg2)) (V (Proc.devRef .tc main_arg3)) := by
  simp (disch := decide) only [skip0_0, skip0_1, skip0_2, open0_3, L0_3, st_main_v28, st_main_v17, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v44 (V : Valuation τ sig (Elt F)) :
    StableHlo.after (C0_3 (F := F)) (StableHlo.after (C0_2 (F := F)) (StableHlo.after (C0_1 (F := F)) (StableHlo.after (C0_0 (F := F)) V))) (no_index (Proc.devRef .tc main_v44))
      = Cert.ReferenceIdeal.Read.val_main_v44 (F := F) := by
  simp (disch := decide) only [skip0_0, skip0_1, skip0_2, open0_3, L0_3, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L0_4 : List (HloOp τ sig (Elt F)) :=
  [ binary main_v43 main_v44 main_v45 (Host.divf : (⟨S8x225, .f32⟩ : BufTy).Contents (Elt F) → (⟨S8x225, .f32⟩ : BufTy).Contents (Elt F) → (⟨S8x225, .f32⟩ : BufTy).Contents (Elt F)),
    nullary main_cst_2 (constant S_ .f32 0xC5834000#32),
    unary main_cst_2 main_v46 (broadcastInDim S8x225 ![] bcast_S_S8x225 : (⟨S_, .f32⟩ : BufTy).Contents (Elt F) → (⟨S8x225, .f32⟩ : BufTy).Contents (Elt F)),
    binary main_v37 main_v46 main_v47 (subf : (⟨S8x225, .f32⟩ : BufTy).Contents (Elt F) → (⟨S8x225, .f32⟩ : BufTy).Contents (Elt F) → (⟨S8x225, .f32⟩ : BufTy).Contents (Elt F)),
    nullary main_cst_3 (constant S_ .f32 0x4228D81F#32),
    unary main_cst_3 main_v48 (broadcastInDim S8x225 ![] bcast_S_S8x225 : (⟨S_, .f32⟩ : BufTy).Contents (Elt F) → (⟨S8x225, .f32⟩ : BufTy).Contents (Elt F)),
    binary main_v47 main_v48 main_v49 (Host.divf : (⟨S8x225, .f32⟩ : BufTy).Contents (Elt F) → (⟨S8x225, .f32⟩ : BufTy).Contents (Elt F) → (⟨S8x225, .f32⟩ : BufTy).Contents (Elt F)),
    unary main_v45 main_v50 (Host.floor : (⟨S8x225, .f32⟩ : BufTy).Contents (Elt F) → (⟨S8x225, .f32⟩ : BufTy).Contents (Elt F)),
    nullary main_cst_4 (constant S_ .f32 0x00000000#32),
    nullary main_c (constantI S_ 32 198#32),
    TRef.unary (TRef.of (T := ⟨S_, .f32⟩) main_cst_4) (TRef.of (T := ⟨S_, .f32⟩) main_call0_v0) id,
    TRef.unary (TRef.of (T := ⟨S_, .f32⟩) main_call0_v0) (TRef.of (T := ⟨S8x225, .f32⟩) main_call0_v1) (broadcastInDim S8x225 ![] bcast_S_S8x225) ]
def C0_4 : List (HloOp τ sig (Elt F)) := L0_4
noncomputable def W0_4 : List (Ref sig .tc) := [main_v45, main_cst_2, main_v46, main_v47, main_cst_3, main_v48, main_v49, main_v50, main_cst_4, main_c, main_call0_v0, main_call0_v1]
set_option maxHeartbeats 4000000 in
theorem writes0_4 : (C0_4 (F := F)).Forall fun op => op.writes ⊆ (W0_4.map (Proc.devRef (τ := τ) .tc)).toFinset := by
  simp only [C0_4, L0_4, List.Forall, nullary_writes, unary_writes, binary_writes, ternary_writes, quaternary_writes, reshape_writes, nary_writes, unaryIndexed_writes, binaryIndexed_writes]
  repeat' apply And.intro
  all_goals exact sub_of_mem (by decide)
theorem skip0_4 (V : Valuation τ sig (Elt F)) {r : Ref sig .tc} (h : r ∉ W0_4) :
    StableHlo.after (C0_4 (F := F)) V (no_index (Proc.devRef .tc r)) = V (Proc.devRef .tc r) :=
  after_of_writes_sub _ V writes0_4 h
theorem open0_4 (V : Valuation τ sig (Elt F)) {r : Ref sig .tc} (h : r ∈ W0_4) :
    StableHlo.after (C0_4 (F := F)) V (no_index (Proc.devRef .tc r)) = StableHlo.after (L0_4 (F := F)) V (Proc.devRef .tc r) := rfl
noncomputable def U0_4 : List (Ref sig .tc) := [main_cst_2, main_v46, main_v47, main_cst_3, main_v48, main_cst_4, main_call0_v0]
theorem openU0_4 (V : Valuation τ sig (Elt F)) {r : Ref sig .tc} (h : r ∈ U0_4) :
    StableHlo.after (C0_4 (F := F)) V (no_index (Proc.devRef .tc r)) = StableHlo.after (L0_4 (F := F)) V (Proc.devRef .tc r) := rfl
set_option maxHeartbeats 4000000 in
theorem st_main_v45 (V : Valuation τ sig (Elt F)) :
    StableHlo.after (C0_4 (F := F)) (StableHlo.after (C0_3 (F := F)) (StableHlo.after (C0_2 (F := F)) (StableHlo.after (C0_1 (F := F)) (StableHlo.after (C0_0 (F := F)) V)))) (no_index (Proc.devRef .tc main_v45))
      = Cert.ReferenceIdeal.Read.val_main_v45 (F := F) (V (Proc.devRef .tc main_arg1)) (V (Proc.devRef .tc main_arg2)) (V (Proc.devRef .tc main_arg3)) := by
  simp (disch := decide) only [skip0_0, skip0_1, skip0_2, skip0_3, open0_4, L0_4, st_main_v43, st_main_v44, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v49 (V : Valuation τ sig (Elt F)) :
    StableHlo.after (C0_4 (F := F)) (StableHlo.after (C0_3 (F := F)) (StableHlo.after (C0_2 (F := F)) (StableHlo.after (C0_1 (F := F)) (StableHlo.after (C0_0 (F := F)) V)))) (no_index (Proc.devRef .tc main_v49))
      = Cert.ReferenceIdeal.Read.val_main_v49 (F := F) (V (Proc.devRef .tc main_arg1)) (V (Proc.devRef .tc main_arg2)) (V (Proc.devRef .tc main_arg3)) := by
  simp (disch := decide) only [skip0_0, skip0_1, skip0_2, skip0_3, open0_4, L0_4, st_main_v37, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v50 (V : Valuation τ sig (Elt F)) :
    StableHlo.after (C0_4 (F := F)) (StableHlo.after (C0_3 (F := F)) (StableHlo.after (C0_2 (F := F)) (StableHlo.after (C0_1 (F := F)) (StableHlo.after (C0_0 (F := F)) V)))) (no_index (Proc.devRef .tc main_v50))
      = Cert.ReferenceIdeal.Read.val_main_v50 (F := F) (V (Proc.devRef .tc main_arg1)) (V (Proc.devRef .tc main_arg2)) (V (Proc.devRef .tc main_arg3)) := by
  simp (disch := decide) only [skip0_0, skip0_1, skip0_2, skip0_3, open0_4, L0_4, st_main_v43, st_main_v44, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_c (V : Valuation τ sig (Elt F)) :
    StableHlo.after (C0_4 (F := F)) (StableHlo.after (C0_3 (F := F)) (StableHlo.after (C0_2 (F := F)) (StableHlo.after (C0_1 (F := F)) (StableHlo.after (C0_0 (F := F)) V)))) (no_index (Proc.devRef .tc main_c))
      = Cert.ReferenceIdeal.Read.val_main_c (F := F) := by
  simp (disch := decide) only [skip0_0, skip0_1, skip0_2, skip0_3, open0_4, L0_4, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_call0_v1 (V : Valuation τ sig (Elt F)) :
    StableHlo.after (C0_4 (F := F)) (StableHlo.after (C0_3 (F := F)) (StableHlo.after (C0_2 (F := F)) (StableHlo.after (C0_1 (F := F)) (StableHlo.after (C0_0 (F := F)) V)))) (no_index (Proc.devRef .tc main_call0_v1))
      = Cert.ReferenceIdeal.Read.val_main_call0_v1 (F := F) := by
  simp (disch := decide) only [skip0_0, skip0_1, skip0_2, skip0_3, open0_4, L0_4, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L0_5 : List (HloOp τ sig (Elt F)) :=
  [ TRef.binary (TRef.of (T := ⟨S8x225, .f32⟩) main_call0_v1) (TRef.of (T := ⟨S8x225, .f32⟩) main_v50) (TRef.of (T := ⟨S8x225, .f32⟩) main_call0_v2) maximumf,
    TRef.unary (TRef.of (T := ⟨S_, .i32⟩) main_c) (TRef.of (T := ⟨S_, .f32⟩) main_call0_v3) (sitofp .f32),
    TRef.unary (TRef.of (T := ⟨S_, .f32⟩) main_call0_v3) (TRef.of (T := ⟨S8x225, .f32⟩) main_call0_v4) (broadcastInDim S8x225 ![] bcast_S_S8x225),
    TRef.binary (TRef.of (T := ⟨S8x225, .f32⟩) main_call0_v4) (TRef.of (T := ⟨S8x225, .f32⟩) main_call0_v2) (TRef.of (T := ⟨S8x225, .f32⟩) main_v51) minimumf,
    unary main_v49 main_v52 (Host.floor : (⟨S8x225, .f32⟩ : BufTy).Contents (Elt F) → (⟨S8x225, .f32⟩ : BufTy).Contents (Elt F)),
    nullary main_cst_5 (constant S_ .f32 0x00000000#32),
    nullary main_c_6 (constantI S_ 32 198#32),
    TRef.unary (TRef.of (T := ⟨S_, .f32⟩) main_cst_5) (TRef.of (T := ⟨S_, .f32⟩) main_call1_v0) id,
    TRef.unary (TRef.of (T := ⟨S_, .f32⟩) main_call1_v0) (TRef.of (T := ⟨S8x225, .f32⟩) main_call1_v1) (broadcastInDim S8x225 ![] bcast_S_S8x225),
    TRef.binary (TRef.of (T := ⟨S8x225, .f32⟩) main_call1_v1) (TRef.of (T := ⟨S8x225, .f32⟩) main_v52) (TRef.of (T := ⟨S8x225, .f32⟩) main_call1_v2) maximumf,
    TRef.unary (TRef.of (T := ⟨S_, .i32⟩) main_c_6) (TRef.of (T := ⟨S_, .f32⟩) main_call1_v3) (sitofp .f32),
    TRef.unary (TRef.of (T := ⟨S_, .f32⟩) main_call1_v3) (TRef.of (T := ⟨S8x225, .f32⟩) main_call1_v4) (broadcastInDim S8x225 ![] bcast_S_S8x225) ]
def C0_5 : List (HloOp τ sig (Elt F)) := L0_5
noncomputable def W0_5 : List (Ref sig .tc) := [main_call0_v2, main_call0_v3, main_call0_v4, main_v51, main_v52, main_cst_5, main_c_6, main_call1_v0, main_call1_v1, main_call1_v2, main_call1_v3, main_call1_v4]
set_option maxHeartbeats 4000000 in
theorem writes0_5 : (C0_5 (F := F)).Forall fun op => op.writes ⊆ (W0_5.map (Proc.devRef (τ := τ) .tc)).toFinset := by
  simp only [C0_5, L0_5, List.Forall, nullary_writes, unary_writes, binary_writes, ternary_writes, quaternary_writes, reshape_writes, nary_writes, unaryIndexed_writes, binaryIndexed_writes]
  repeat' apply And.intro
  all_goals exact sub_of_mem (by decide)
theorem skip0_5 (V : Valuation τ sig (Elt F)) {r : Ref sig .tc} (h : r ∉ W0_5) :
    StableHlo.after (C0_5 (F := F)) V (no_index (Proc.devRef .tc r)) = V (Proc.devRef .tc r) :=
  after_of_writes_sub _ V writes0_5 h
theorem open0_5 (V : Valuation τ sig (Elt F)) {r : Ref sig .tc} (h : r ∈ W0_5) :
    StableHlo.after (C0_5 (F := F)) V (no_index (Proc.devRef .tc r)) = StableHlo.after (L0_5 (F := F)) V (Proc.devRef .tc r) := rfl
noncomputable def U0_5 : List (Ref sig .tc) := [main_call0_v2, main_call0_v3, main_call0_v4, main_v52, main_cst_5, main_c_6, main_call1_v0, main_call1_v1, main_call1_v3]
theorem openU0_5 (V : Valuation τ sig (Elt F)) {r : Ref sig .tc} (h : r ∈ U0_5) :
    StableHlo.after (C0_5 (F := F)) V (no_index (Proc.devRef .tc r)) = StableHlo.after (L0_5 (F := F)) V (Proc.devRef .tc r) := rfl
set_option maxHeartbeats 4000000 in
theorem st_main_v51 (V : Valuation τ sig (Elt F)) :
    StableHlo.after (C0_5 (F := F)) (StableHlo.after (C0_4 (F := F)) (StableHlo.after (C0_3 (F := F)) (StableHlo.after (C0_2 (F := F)) (StableHlo.after (C0_1 (F := F)) (StableHlo.after (C0_0 (F := F)) V))))) (no_index (Proc.devRef .tc main_v51))
      = Cert.ReferenceIdeal.Read.val_main_v51 (F := F) (V (Proc.devRef .tc main_arg1)) (V (Proc.devRef .tc main_arg2)) (V (Proc.devRef .tc main_arg3)) := by
  simp (disch := decide) only [skip0_0, skip0_1, skip0_2, skip0_3, skip0_4, open0_5, L0_5, st_main_c, st_main_call0_v1, st_main_v50, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_call1_v2 (V : Valuation τ sig (Elt F)) :
    StableHlo.after (C0_5 (F := F)) (StableHlo.after (C0_4 (F := F)) (StableHlo.after (C0_3 (F := F)) (StableHlo.after (C0_2 (F := F)) (StableHlo.after (C0_1 (F := F)) (StableHlo.after (C0_0 (F := F)) V))))) (no_index (Proc.devRef .tc main_call1_v2))
      = Cert.ReferenceIdeal.Read.val_main_call1_v2 (F := F) (V (Proc.devRef .tc main_arg1)) (V (Proc.devRef .tc main_arg2)) (V (Proc.devRef .tc main_arg3)) := by
  simp (disch := decide) only [skip0_0, skip0_1, skip0_2, skip0_3, skip0_4, open0_5, L0_5, st_main_v49, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_call1_v4 (V : Valuation τ sig (Elt F)) :
    StableHlo.after (C0_5 (F := F)) (StableHlo.after (C0_4 (F := F)) (StableHlo.after (C0_3 (F := F)) (StableHlo.after (C0_2 (F := F)) (StableHlo.after (C0_1 (F := F)) (StableHlo.after (C0_0 (F := F)) V))))) (no_index (Proc.devRef .tc main_call1_v4))
      = Cert.ReferenceIdeal.Read.val_main_call1_v4 (F := F) := by
  simp (disch := decide) only [skip0_0, skip0_1, skip0_2, skip0_3, skip0_4, open0_5, L0_5, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

end Cert.Percept.RefChunks

end
-- ==== Proof.RefChunks2.lean ====
/-
  The reference's 335 host operations cut into short runs, and how one buffer is read after them.

  The operations are straight-line: each writes one buffer of its own. After a run of operations that does not write a
  buffer r, r holds what it held before (skip); after a run that does, r holds what the run's own operations leave (open).
  Each buffer that a later run reads holds, right after its run, its stage of the per-operation reading applied to the
  argument arrays (st_…): one run is opened per buffer, and what it reads from earlier runs is already a stage.
  (Runs 7 to 12 of 28.)
-/
import proofs.«134758_j41807211659417_2_alg».proof.Proof.RefChunks1

set_option maxRecDepth 16384

noncomputable section

namespace Cert.Percept.RefChunks

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

set_option maxHeartbeats 4000000 in
abbrev L0_6 : List (HloOp τ sig (Elt F)) :=
  [ TRef.binary (TRef.of (T := ⟨S8x225, .f32⟩) main_call1_v4) (TRef.of (T := ⟨S8x225, .f32⟩) main_call1_v2) (TRef.of (T := ⟨S8x225, .f32⟩) main_v53) minimumf,
    unary main_v51 main_v54 (fptosi 32 : (⟨S8x225, .f32⟩ : BufTy).Contents (Elt F) → (⟨S8x225, .i32⟩ : BufTy).Contents (Elt F)),
    unary main_v53 main_v55 (fptosi 32 : (⟨S8x225, .f32⟩ : BufTy).Contents (Elt F) → (⟨S8x225, .i32⟩ : BufTy).Contents (Elt F)),
    binary main_v45 main_v51 main_v56 (subf : (⟨S8x225, .f32⟩ : BufTy).Contents (Elt F) → (⟨S8x225, .f32⟩ : BufTy).Contents (Elt F) → (⟨S8x225, .f32⟩ : BufTy).Contents (Elt F)),
    nullary main_cst_7 (constant S_ .f32 0x00000000#32),
    nullary main_cst_8 (constant S_ .f32 0x3F800000#32),
    TRef.unary (TRef.of (T := ⟨S_, .f32⟩) main_cst_7) (TRef.of (T := ⟨S_, .f32⟩) main_call2_v0) id,
    TRef.unary (TRef.of (T := ⟨S_, .f32⟩) main_call2_v0) (TRef.of (T := ⟨S8x225, .f32⟩) main_call2_v1) (broadcastInDim S8x225 ![] bcast_S_S8x225),
    TRef.binary (TRef.of (T := ⟨S8x225, .f32⟩) main_call2_v1) (TRef.of (T := ⟨S8x225, .f32⟩) main_v56) (TRef.of (T := ⟨S8x225, .f32⟩) main_call2_v2) maximumf,
    TRef.unary (TRef.of (T := ⟨S_, .f32⟩) main_cst_8) (TRef.of (T := ⟨S_, .f32⟩) main_call2_v3) id,
    TRef.unary (TRef.of (T := ⟨S_, .f32⟩) main_call2_v3) (TRef.of (T := ⟨S8x225, .f32⟩) main_call2_v4) (broadcastInDim S8x225 ![] bcast_S_S8x225),
    TRef.binary (TRef.of (T := ⟨S8x225, .f32⟩) main_call2_v4) (TRef.of (T := ⟨S8x225, .f32⟩) main_call2_v2) (TRef.of (T := ⟨S8x225, .f32⟩) main_v57) minimumf ]
def C0_6 : List (HloOp τ sig (Elt F)) := L0_6
noncomputable def W0_6 : List (Ref sig .tc) := [main_v53, main_v54, main_v55, main_v56, main_cst_7, main_cst_8, main_call2_v0, main_call2_v1, main_call2_v2, main_call2_v3, main_call2_v4, main_v57]
set_option maxHeartbeats 4000000 in
theorem writes0_6 : (C0_6 (F := F)).Forall fun op => op.writes ⊆ (W0_6.map (Proc.devRef (τ := τ) .tc)).toFinset := by
  simp only [C0_6, L0_6, List.Forall, nullary_writes, unary_writes, binary_writes, ternary_writes, quaternary_writes, reshape_writes, nary_writes, unaryIndexed_writes, binaryIndexed_writes]
  repeat' apply And.intro
  all_goals exact sub_of_mem (by decide)
theorem skip0_6 (V : Valuation τ sig (Elt F)) {r : Ref sig .tc} (h : r ∉ W0_6) :
    StableHlo.after (C0_6 (F := F)) V (no_index (Proc.devRef .tc r)) = V (Proc.devRef .tc r) :=
  after_of_writes_sub _ V writes0_6 h
theorem open0_6 (V : Valuation τ sig (Elt F)) {r : Ref sig .tc} (h : r ∈ W0_6) :
    StableHlo.after (C0_6 (F := F)) V (no_index (Proc.devRef .tc r)) = StableHlo.after (L0_6 (F := F)) V (Proc.devRef .tc r) := rfl
noncomputable def U0_6 : List (Ref sig .tc) := [main_v56, main_cst_7, main_cst_8, main_call2_v0, main_call2_v1, main_call2_v2, main_call2_v3, main_call2_v4]
theorem openU0_6 (V : Valuation τ sig (Elt F)) {r : Ref sig .tc} (h : r ∈ U0_6) :
    StableHlo.after (C0_6 (F := F)) V (no_index (Proc.devRef .tc r)) = StableHlo.after (L0_6 (F := F)) V (Proc.devRef .tc r) := rfl
set_option maxHeartbeats 4000000 in
theorem st_main_v53 (V : Valuation τ sig (Elt F)) :
    StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V)))))) (no_index (Proc.devRef .tc main_v53))
      = Cert.ReferenceIdeal.Read.val_main_v53 (F := F) (V (Proc.devRef .tc main_arg1)) (V (Proc.devRef .tc main_arg2)) (V (Proc.devRef .tc main_arg3)) := by
  simp (disch := decide) only [skip0_0, skip0_1, skip0_2, skip0_3, skip0_4, skip0_5, open0_6, L0_6, st_main_call1_v4, st_main_call1_v2, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v54 (V : Valuation τ sig (Elt F)) :
    StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V)))))) (no_index (Proc.devRef .tc main_v54))
      = Cert.ReferenceIdeal.Read.val_main_v54 (F := F) (V (Proc.devRef .tc main_arg1)) (V (Proc.devRef .tc main_arg2)) (V (Proc.devRef .tc main_arg3)) := by
  simp (disch := decide) only [skip0_0, skip0_1, skip0_2, skip0_3, skip0_4, skip0_5, open0_6, L0_6, st_main_v51, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v55 (V : Valuation τ sig (Elt F)) :
    StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V)))))) (no_index (Proc.devRef .tc main_v55))
      = Cert.ReferenceIdeal.Read.val_main_v55 (F := F) (V (Proc.devRef .tc main_arg1)) (V (Proc.devRef .tc main_arg2)) (V (Proc.devRef .tc main_arg3)) := by
  simp (disch := decide) only [skip0_0, skip0_1, skip0_2, skip0_3, skip0_4, skip0_5, open0_6, L0_6, st_main_call1_v4, st_main_call1_v2, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v57 (V : Valuation τ sig (Elt F)) :
    StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V)))))) (no_index (Proc.devRef .tc main_v57))
      = Cert.ReferenceIdeal.Read.val_main_v57 (F := F) (V (Proc.devRef .tc main_arg1)) (V (Proc.devRef .tc main_arg2)) (V (Proc.devRef .tc main_arg3)) := by
  simp (disch := decide) only [skip0_0, skip0_1, skip0_2, skip0_3, skip0_4, skip0_5, open0_6, L0_6, st_main_v45, st_main_v51, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L0_7 : List (HloOp τ sig (Elt F)) :=
  [ binary main_v49 main_v53 main_v58 (subf : (⟨S8x225, .f32⟩ : BufTy).Contents (Elt F) → (⟨S8x225, .f32⟩ : BufTy).Contents (Elt F) → (⟨S8x225, .f32⟩ : BufTy).Contents (Elt F)),
    nullary main_cst_9 (constant S_ .f32 0x00000000#32),
    nullary main_cst_10 (constant S_ .f32 0x3F800000#32),
    TRef.unary (TRef.of (T := ⟨S_, .f32⟩) main_cst_9) (TRef.of (T := ⟨S_, .f32⟩) main_call3_v0) id,
    TRef.unary (TRef.of (T := ⟨S_, .f32⟩) main_call3_v0) (TRef.of (T := ⟨S8x225, .f32⟩) main_call3_v1) (broadcastInDim S8x225 ![] bcast_S_S8x225),
    TRef.binary (TRef.of (T := ⟨S8x225, .f32⟩) main_call3_v1) (TRef.of (T := ⟨S8x225, .f32⟩) main_v58) (TRef.of (T := ⟨S8x225, .f32⟩) main_call3_v2) maximumf,
    TRef.unary (TRef.of (T := ⟨S_, .f32⟩) main_cst_10) (TRef.of (T := ⟨S_, .f32⟩) main_call3_v3) id,
    TRef.unary (TRef.of (T := ⟨S_, .f32⟩) main_call3_v3) (TRef.of (T := ⟨S8x225, .f32⟩) main_call3_v4) (broadcastInDim S8x225 ![] bcast_S_S8x225),
    TRef.binary (TRef.of (T := ⟨S8x225, .f32⟩) main_call3_v4) (TRef.of (T := ⟨S8x225, .f32⟩) main_call3_v2) (TRef.of (T := ⟨S8x225, .f32⟩) main_v59) minimumf,
    nullary main_c_11 (constantI S_ 32 0#32),
    unary main_c_11 main_v60 (broadcastInDim S8x225 ![] bcast_S_S8x225 : (⟨S_, .i32⟩ : BufTy).Contents (Elt F) → (⟨S8x225, .i32⟩ : BufTy).Contents (Elt F)),
    binary main_v55 main_v60 main_v61 (cmpi .slt : (⟨S8x225, .i32⟩ : BufTy).Contents (Elt F) → (⟨S8x225, .i32⟩ : BufTy).Contents (Elt F) → (⟨S8x225, .i1⟩ : BufTy).Contents (Elt F)) ]
def C0_7 : List (HloOp τ sig (Elt F)) := L0_7
noncomputable def W0_7 : List (Ref sig .tc) := [main_v58, main_cst_9, main_cst_10, main_call3_v0, main_call3_v1, main_call3_v2, main_call3_v3, main_call3_v4, main_v59, main_c_11, main_v60, main_v61]
set_option maxHeartbeats 4000000 in
theorem writes0_7 : (C0_7 (F := F)).Forall fun op => op.writes ⊆ (W0_7.map (Proc.devRef (τ := τ) .tc)).toFinset := by
  simp only [C0_7, L0_7, List.Forall, nullary_writes, unary_writes, binary_writes, ternary_writes, quaternary_writes, reshape_writes, nary_writes, unaryIndexed_writes, binaryIndexed_writes]
  repeat' apply And.intro
  all_goals exact sub_of_mem (by decide)
theorem skip0_7 (V : Valuation τ sig (Elt F)) {r : Ref sig .tc} (h : r ∉ W0_7) :
    StableHlo.after (C0_7 (F := F)) V (no_index (Proc.devRef .tc r)) = V (Proc.devRef .tc r) :=
  after_of_writes_sub _ V writes0_7 h
theorem open0_7 (V : Valuation τ sig (Elt F)) {r : Ref sig .tc} (h : r ∈ W0_7) :
    StableHlo.after (C0_7 (F := F)) V (no_index (Proc.devRef .tc r)) = StableHlo.after (L0_7 (F := F)) V (Proc.devRef .tc r) := rfl
noncomputable def U0_7 : List (Ref sig .tc) := [main_v58, main_cst_9, main_cst_10, main_call3_v0, main_call3_v1, main_call3_v2, main_call3_v3, main_call3_v4, main_c_11, main_v60]
theorem openU0_7 (V : Valuation τ sig (Elt F)) {r : Ref sig .tc} (h : r ∈ U0_7) :
    StableHlo.after (C0_7 (F := F)) V (no_index (Proc.devRef .tc r)) = StableHlo.after (L0_7 (F := F)) V (Proc.devRef .tc r) := rfl
set_option maxHeartbeats 4000000 in
theorem st_main_v59 (V : Valuation τ sig (Elt F)) :
    StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V))))))) (no_index (Proc.devRef .tc main_v59))
      = Cert.ReferenceIdeal.Read.val_main_v59 (F := F) (V (Proc.devRef .tc main_arg1)) (V (Proc.devRef .tc main_arg2)) (V (Proc.devRef .tc main_arg3)) := by
  simp (disch := decide) only [skip0_0, skip0_1, skip0_2, skip0_3, skip0_4, skip0_5, skip0_6, open0_7, L0_7, st_main_v49, st_main_v53, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v61 (V : Valuation τ sig (Elt F)) :
    StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V))))))) (no_index (Proc.devRef .tc main_v61))
      = Cert.ReferenceIdeal.Read.val_main_v61 (F := F) (V (Proc.devRef .tc main_arg1)) (V (Proc.devRef .tc main_arg2)) (V (Proc.devRef .tc main_arg3)) := by
  simp (disch := decide) only [skip0_0, skip0_1, skip0_2, skip0_3, skip0_4, skip0_5, skip0_6, open0_7, L0_7, st_main_v55, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L0_8 : List (HloOp τ sig (Elt F)) :=
  [ nullary main_c_12 (constantI S_ 32 200#32),
    unary main_c_12 main_v62 (broadcastInDim S8x225 ![] bcast_S_S8x225 : (⟨S_, .i32⟩ : BufTy).Contents (Elt F) → (⟨S8x225, .i32⟩ : BufTy).Contents (Elt F)),
    binary main_v55 main_v62 main_v63 (addi : (⟨S8x225, .i32⟩ : BufTy).Contents (Elt F) → (⟨S8x225, .i32⟩ : BufTy).Contents (Elt F) → (⟨S8x225, .i32⟩ : BufTy).Contents (Elt F)),
    ternary main_v61 main_v63 main_v55 main_v64 (select : (⟨S8x225, .i1⟩ : BufTy).Contents (Elt F) → (⟨S8x225, .i32⟩ : BufTy).Contents (Elt F) → (⟨S8x225, .i32⟩ : BufTy).Contents (Elt F) → (⟨S8x225, .i32⟩ : BufTy).Contents (Elt F)),
    nullary main_c_13 (constantI S_ 32 0#32),
    unary main_c_13 main_v65 (broadcastInDim S8x225 ![] bcast_S_S8x225 : (⟨S_, .i32⟩ : BufTy).Contents (Elt F) → (⟨S8x225, .i32⟩ : BufTy).Contents (Elt F)),
    binary main_v54 main_v65 main_v66 (cmpi .slt : (⟨S8x225, .i32⟩ : BufTy).Contents (Elt F) → (⟨S8x225, .i32⟩ : BufTy).Contents (Elt F) → (⟨S8x225, .i1⟩ : BufTy).Contents (Elt F)),
    nullary main_c_14 (constantI S_ 32 200#32),
    unary main_c_14 main_v67 (broadcastInDim S8x225 ![] bcast_S_S8x225 : (⟨S_, .i32⟩ : BufTy).Contents (Elt F) → (⟨S8x225, .i32⟩ : BufTy).Contents (Elt F)),
    binary main_v54 main_v67 main_v68 (addi : (⟨S8x225, .i32⟩ : BufTy).Contents (Elt F) → (⟨S8x225, .i32⟩ : BufTy).Contents (Elt F) → (⟨S8x225, .i32⟩ : BufTy).Contents (Elt F)),
    ternary main_v66 main_v68 main_v54 main_v69 (select : (⟨S8x225, .i1⟩ : BufTy).Contents (Elt F) → (⟨S8x225, .i32⟩ : BufTy).Contents (Elt F) → (⟨S8x225, .i32⟩ : BufTy).Contents (Elt F) → (⟨S8x225, .i32⟩ : BufTy).Contents (Elt F)),
    unary main_v64 main_v70 (broadcastInDim S8x225x1 ![0, 1] bcast_S8x225_S8x225x1_0_1 : (⟨S8x225, .i32⟩ : BufTy).Contents (Elt F) → (⟨S8x225x1, .i32⟩ : BufTy).Contents (Elt F)) ]
def C0_8 : List (HloOp τ sig (Elt F)) := L0_8
noncomputable def W0_8 : List (Ref sig .tc) := [main_c_12, main_v62, main_v63, main_v64, main_c_13, main_v65, main_v66, main_c_14, main_v67, main_v68, main_v69, main_v70]
set_option maxHeartbeats 4000000 in
theorem writes0_8 : (C0_8 (F := F)).Forall fun op => op.writes ⊆ (W0_8.map (Proc.devRef (τ := τ) .tc)).toFinset := by
  simp only [C0_8, L0_8, List.Forall, nullary_writes, unary_writes, binary_writes, ternary_writes, quaternary_writes, reshape_writes, nary_writes, unaryIndexed_writes, binaryIndexed_writes]
  repeat' apply And.intro
  all_goals exact sub_of_mem (by decide)
theorem skip0_8 (V : Valuation τ sig (Elt F)) {r : Ref sig .tc} (h : r ∉ W0_8) :
    StableHlo.after (C0_8 (F := F)) V (no_index (Proc.devRef .tc r)) = V (Proc.devRef .tc r) :=
  after_of_writes_sub _ V writes0_8 h
theorem open0_8 (V : Valuation τ sig (Elt F)) {r : Ref sig .tc} (h : r ∈ W0_8) :
    StableHlo.after (C0_8 (F := F)) V (no_index (Proc.devRef .tc r)) = StableHlo.after (L0_8 (F := F)) V (Proc.devRef .tc r) := rfl
noncomputable def U0_8 : List (Ref sig .tc) := [main_c_12, main_v62, main_v63, main_v64, main_c_13, main_v65, main_v66, main_c_14, main_v67, main_v68]
theorem openU0_8 (V : Valuation τ sig (Elt F)) {r : Ref sig .tc} (h : r ∈ U0_8) :
    StableHlo.after (C0_8 (F := F)) V (no_index (Proc.devRef .tc r)) = StableHlo.after (L0_8 (F := F)) V (Proc.devRef .tc r) := rfl
set_option maxHeartbeats 4000000 in
theorem st_main_v69 (V : Valuation τ sig (Elt F)) :
    StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V)))))))) (no_index (Proc.devRef .tc main_v69))
      = Cert.ReferenceIdeal.Read.val_main_v69 (F := F) (V (Proc.devRef .tc main_arg1)) (V (Proc.devRef .tc main_arg2)) (V (Proc.devRef .tc main_arg3)) := by
  simp (disch := decide) only [skip0_0, skip0_1, skip0_2, skip0_3, skip0_4, skip0_5, skip0_6, skip0_7, open0_8, L0_8, st_main_v54, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v70 (V : Valuation τ sig (Elt F)) :
    StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V)))))))) (no_index (Proc.devRef .tc main_v70))
      = Cert.ReferenceIdeal.Read.val_main_v70 (F := F) (V (Proc.devRef .tc main_arg1)) (V (Proc.devRef .tc main_arg2)) (V (Proc.devRef .tc main_arg3)) := by
  simp (disch := decide) only [skip0_0, skip0_1, skip0_2, skip0_3, skip0_4, skip0_5, skip0_6, skip0_7, open0_8, L0_8, st_main_v61, st_main_v55, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L0_9 : List (HloOp τ sig (Elt F)) :=
  [ unary main_v69 main_v71 (broadcastInDim S8x225x1 ![0, 1] bcast_S8x225_S8x225x1_0_1 : (⟨S8x225, .i32⟩ : BufTy).Contents (Elt F) → (⟨S8x225x1, .i32⟩ : BufTy).Contents (Elt F)),
    binary main_v70 main_v71 main_v72 ((fun a b => concatenate S8x225x2 2 [⟨S8x225x1, a⟩, ⟨S8x225x1, b⟩] concatenates_S8x225x1_S8x225x1_S8x225x2_d2) : (⟨S8x225x1, .i32⟩ : BufTy).Contents (Elt F) → (⟨S8x225x1, .i32⟩ : BufTy).Contents (Elt F) → (⟨S8x225x2, .i32⟩ : BufTy).Contents (Elt F)),
    binary main_arg4 main_v72 main_v73 ((fun x i => Host.gather gather_S200x200_S8x225x2_S8x225_n_01_n_n_01_2_11 x i) : (⟨S200x200, .f32⟩ : BufTy).Contents (Elt F) → (⟨S8x225x2, .i32⟩ : BufTy).Contents (Elt F) → (⟨S8x225, .f32⟩ : BufTy).Contents (Elt F)),
    nullary main_c_15 (constantI S_ 32 1#32),
    unary main_c_15 main_v74 (broadcastInDim S8x225 ![] bcast_S_S8x225 : (⟨S_, .i32⟩ : BufTy).Contents (Elt F) → (⟨S8x225, .i32⟩ : BufTy).Contents (Elt F)),
    binary main_v54 main_v74 main_v75 (addi : (⟨S8x225, .i32⟩ : BufTy).Contents (Elt F) → (⟨S8x225, .i32⟩ : BufTy).Contents (Elt F) → (⟨S8x225, .i32⟩ : BufTy).Contents (Elt F)),
    nullary main_c_16 (constantI S_ 32 0#32),
    unary main_c_16 main_v76 (broadcastInDim S8x225 ![] bcast_S_S8x225 : (⟨S_, .i32⟩ : BufTy).Contents (Elt F) → (⟨S8x225, .i32⟩ : BufTy).Contents (Elt F)),
    binary main_v55 main_v76 main_v77 (cmpi .slt : (⟨S8x225, .i32⟩ : BufTy).Contents (Elt F) → (⟨S8x225, .i32⟩ : BufTy).Contents (Elt F) → (⟨S8x225, .i1⟩ : BufTy).Contents (Elt F)),
    nullary main_c_17 (constantI S_ 32 200#32),
    unary main_c_17 main_v78 (broadcastInDim S8x225 ![] bcast_S_S8x225 : (⟨S_, .i32⟩ : BufTy).Contents (Elt F) → (⟨S8x225, .i32⟩ : BufTy).Contents (Elt F)),
    binary main_v55 main_v78 main_v79 (addi : (⟨S8x225, .i32⟩ : BufTy).Contents (Elt F) → (⟨S8x225, .i32⟩ : BufTy).Contents (Elt F) → (⟨S8x225, .i32⟩ : BufTy).Contents (Elt F)) ]
def C0_9 : List (HloOp τ sig (Elt F)) := L0_9
noncomputable def W0_9 : List (Ref sig .tc) := [main_v71, main_v72, main_v73, main_c_15, main_v74, main_v75, main_c_16, main_v76, main_v77, main_c_17, main_v78, main_v79]
set_option maxHeartbeats 4000000 in
theorem writes0_9 : (C0_9 (F := F)).Forall fun op => op.writes ⊆ (W0_9.map (Proc.devRef (τ := τ) .tc)).toFinset := by
  simp only [C0_9, L0_9, List.Forall, nullary_writes, unary_writes, binary_writes, ternary_writes, quaternary_writes, reshape_writes, nary_writes, unaryIndexed_writes, binaryIndexed_writes]
  repeat' apply And.intro
  all_goals exact sub_of_mem (by decide)
theorem skip0_9 (V : Valuation τ sig (Elt F)) {r : Ref sig .tc} (h : r ∉ W0_9) :
    StableHlo.after (C0_9 (F := F)) V (no_index (Proc.devRef .tc r)) = V (Proc.devRef .tc r) :=
  after_of_writes_sub _ V writes0_9 h
theorem open0_9 (V : Valuation τ sig (Elt F)) {r : Ref sig .tc} (h : r ∈ W0_9) :
    StableHlo.after (C0_9 (F := F)) V (no_index (Proc.devRef .tc r)) = StableHlo.after (L0_9 (F := F)) V (Proc.devRef .tc r) := rfl
noncomputable def U0_9 : List (Ref sig .tc) := [main_v71, main_v72, main_c_15, main_v74, main_c_16, main_v76, main_c_17, main_v78]
theorem openU0_9 (V : Valuation τ sig (Elt F)) {r : Ref sig .tc} (h : r ∈ U0_9) :
    StableHlo.after (C0_9 (F := F)) V (no_index (Proc.devRef .tc r)) = StableHlo.after (L0_9 (F := F)) V (Proc.devRef .tc r) := rfl
set_option maxHeartbeats 4000000 in
theorem st_main_v73 (V : Valuation τ sig (Elt F)) :
    StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V))))))))) (no_index (Proc.devRef .tc main_v73))
      = Cert.ReferenceIdeal.Read.val_main_v73 (F := F) (V (Proc.devRef .tc main_arg1)) (V (Proc.devRef .tc main_arg2)) (V (Proc.devRef .tc main_arg3)) (V (Proc.devRef .tc main_arg4)) := by
  simp (disch := decide) only [skip0_0, skip0_1, skip0_2, skip0_3, skip0_4, skip0_5, skip0_6, skip0_7, skip0_8, open0_9, L0_9, st_main_v70, st_main_v69, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v75 (V : Valuation τ sig (Elt F)) :
    StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V))))))))) (no_index (Proc.devRef .tc main_v75))
      = Cert.ReferenceIdeal.Read.val_main_v75 (F := F) (V (Proc.devRef .tc main_arg1)) (V (Proc.devRef .tc main_arg2)) (V (Proc.devRef .tc main_arg3)) := by
  simp (disch := decide) only [skip0_0, skip0_1, skip0_2, skip0_3, skip0_4, skip0_5, skip0_6, skip0_7, skip0_8, open0_9, L0_9, st_main_v54, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v77 (V : Valuation τ sig (Elt F)) :
    StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V))))))))) (no_index (Proc.devRef .tc main_v77))
      = Cert.ReferenceIdeal.Read.val_main_v77 (F := F) (V (Proc.devRef .tc main_arg1)) (V (Proc.devRef .tc main_arg2)) (V (Proc.devRef .tc main_arg3)) := by
  simp (disch := decide) only [skip0_0, skip0_1, skip0_2, skip0_3, skip0_4, skip0_5, skip0_6, skip0_7, skip0_8, open0_9, L0_9, st_main_v55, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v79 (V : Valuation τ sig (Elt F)) :
    StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V))))))))) (no_index (Proc.devRef .tc main_v79))
      = Cert.ReferenceIdeal.Read.val_main_v79 (F := F) (V (Proc.devRef .tc main_arg1)) (V (Proc.devRef .tc main_arg2)) (V (Proc.devRef .tc main_arg3)) := by
  simp (disch := decide) only [skip0_0, skip0_1, skip0_2, skip0_3, skip0_4, skip0_5, skip0_6, skip0_7, skip0_8, open0_9, L0_9, st_main_v55, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L0_10 : List (HloOp τ sig (Elt F)) :=
  [ ternary main_v77 main_v79 main_v55 main_v80 (select : (⟨S8x225, .i1⟩ : BufTy).Contents (Elt F) → (⟨S8x225, .i32⟩ : BufTy).Contents (Elt F) → (⟨S8x225, .i32⟩ : BufTy).Contents (Elt F) → (⟨S8x225, .i32⟩ : BufTy).Contents (Elt F)),
    nullary main_c_18 (constantI S_ 32 0#32),
    unary main_c_18 main_v81 (broadcastInDim S8x225 ![] bcast_S_S8x225 : (⟨S_, .i32⟩ : BufTy).Contents (Elt F) → (⟨S8x225, .i32⟩ : BufTy).Contents (Elt F)),
    binary main_v75 main_v81 main_v82 (cmpi .slt : (⟨S8x225, .i32⟩ : BufTy).Contents (Elt F) → (⟨S8x225, .i32⟩ : BufTy).Contents (Elt F) → (⟨S8x225, .i1⟩ : BufTy).Contents (Elt F)),
    nullary main_c_19 (constantI S_ 32 200#32),
    unary main_c_19 main_v83 (broadcastInDim S8x225 ![] bcast_S_S8x225 : (⟨S_, .i32⟩ : BufTy).Contents (Elt F) → (⟨S8x225, .i32⟩ : BufTy).Contents (Elt F)),
    binary main_v75 main_v83 main_v84 (addi : (⟨S8x225, .i32⟩ : BufTy).Contents (Elt F) → (⟨S8x225, .i32⟩ : BufTy).Contents (Elt F) → (⟨S8x225, .i32⟩ : BufTy).Contents (Elt F)),
    ternary main_v82 main_v84 main_v75 main_v85 (select : (⟨S8x225, .i1⟩ : BufTy).Contents (Elt F) → (⟨S8x225, .i32⟩ : BufTy).Contents (Elt F) → (⟨S8x225, .i32⟩ : BufTy).Contents (Elt F) → (⟨S8x225, .i32⟩ : BufTy).Contents (Elt F)),
    unary main_v80 main_v86 (broadcastInDim S8x225x1 ![0, 1] bcast_S8x225_S8x225x1_0_1 : (⟨S8x225, .i32⟩ : BufTy).Contents (Elt F) → (⟨S8x225x1, .i32⟩ : BufTy).Contents (Elt F)),
    unary main_v85 main_v87 (broadcastInDim S8x225x1 ![0, 1] bcast_S8x225_S8x225x1_0_1 : (⟨S8x225, .i32⟩ : BufTy).Contents (Elt F) → (⟨S8x225x1, .i32⟩ : BufTy).Contents (Elt F)),
    binary main_v86 main_v87 main_v88 ((fun a b => concatenate S8x225x2 2 [⟨S8x225x1, a⟩, ⟨S8x225x1, b⟩] concatenates_S8x225x1_S8x225x1_S8x225x2_d2) : (⟨S8x225x1, .i32⟩ : BufTy).Contents (Elt F) → (⟨S8x225x1, .i32⟩ : BufTy).Contents (Elt F) → (⟨S8x225x2, .i32⟩ : BufTy).Contents (Elt F)),
    binary main_arg4 main_v88 main_v89 ((fun x i => Host.gather gather_S200x200_S8x225x2_S8x225_n_01_n_n_01_2_11 x i) : (⟨S200x200, .f32⟩ : BufTy).Contents (Elt F) → (⟨S8x225x2, .i32⟩ : BufTy).Contents (Elt F) → (⟨S8x225, .f32⟩ : BufTy).Contents (Elt F)) ]
def C0_10 : List (HloOp τ sig (Elt F)) := L0_10
noncomputable def W0_10 : List (Ref sig .tc) := [main_v80, main_c_18, main_v81, main_v82, main_c_19, main_v83, main_v84, main_v85, main_v86, main_v87, main_v88, main_v89]
set_option maxHeartbeats 4000000 in
theorem writes0_10 : (C0_10 (F := F)).Forall fun op => op.writes ⊆ (W0_10.map (Proc.devRef (τ := τ) .tc)).toFinset := by
  simp only [C0_10, L0_10, List.Forall, nullary_writes, unary_writes, binary_writes, ternary_writes, quaternary_writes, reshape_writes, nary_writes, unaryIndexed_writes, binaryIndexed_writes]
  repeat' apply And.intro
  all_goals exact sub_of_mem (by decide)
theorem skip0_10 (V : Valuation τ sig (Elt F)) {r : Ref sig .tc} (h : r ∉ W0_10) :
    StableHlo.after (C0_10 (F := F)) V (no_index (Proc.devRef .tc r)) = V (Proc.devRef .tc r) :=
  after_of_writes_sub _ V writes0_10 h
theorem open0_10 (V : Valuation τ sig (Elt F)) {r : Ref sig .tc} (h : r ∈ W0_10) :
    StableHlo.after (C0_10 (F := F)) V (no_index (Proc.devRef .tc r)) = StableHlo.after (L0_10 (F := F)) V (Proc.devRef .tc r) := rfl
noncomputable def U0_10 : List (Ref sig .tc) := [main_v80, main_c_18, main_v81, main_v82, main_c_19, main_v83, main_v84, main_v85, main_v86, main_v87, main_v88]
theorem openU0_10 (V : Valuation τ sig (Elt F)) {r : Ref sig .tc} (h : r ∈ U0_10) :
    StableHlo.after (C0_10 (F := F)) V (no_index (Proc.devRef .tc r)) = StableHlo.after (L0_10 (F := F)) V (Proc.devRef .tc r) := rfl
set_option maxHeartbeats 4000000 in
theorem st_main_v89 (V : Valuation τ sig (Elt F)) :
    StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V)))))))))) (no_index (Proc.devRef .tc main_v89))
      = Cert.ReferenceIdeal.Read.val_main_v89 (F := F) (V (Proc.devRef .tc main_arg1)) (V (Proc.devRef .tc main_arg2)) (V (Proc.devRef .tc main_arg3)) (V (Proc.devRef .tc main_arg4)) := by
  simp (disch := decide) only [skip0_0, skip0_1, skip0_2, skip0_3, skip0_4, skip0_5, skip0_6, skip0_7, skip0_8, skip0_9, open0_10, L0_10, st_main_v77, st_main_v79, st_main_v55, st_main_v75, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L0_11 : List (HloOp τ sig (Elt F)) :=
  [ nullary main_c_20 (constantI S_ 32 1#32),
    unary main_c_20 main_v90 (broadcastInDim S8x225 ![] bcast_S_S8x225 : (⟨S_, .i32⟩ : BufTy).Contents (Elt F) → (⟨S8x225, .i32⟩ : BufTy).Contents (Elt F)),
    binary main_v55 main_v90 main_v91 (addi : (⟨S8x225, .i32⟩ : BufTy).Contents (Elt F) → (⟨S8x225, .i32⟩ : BufTy).Contents (Elt F) → (⟨S8x225, .i32⟩ : BufTy).Contents (Elt F)),
    nullary main_c_21 (constantI S_ 32 0#32),
    unary main_c_21 main_v92 (broadcastInDim S8x225 ![] bcast_S_S8x225 : (⟨S_, .i32⟩ : BufTy).Contents (Elt F) → (⟨S8x225, .i32⟩ : BufTy).Contents (Elt F)),
    binary main_v91 main_v92 main_v93 (cmpi .slt : (⟨S8x225, .i32⟩ : BufTy).Contents (Elt F) → (⟨S8x225, .i32⟩ : BufTy).Contents (Elt F) → (⟨S8x225, .i1⟩ : BufTy).Contents (Elt F)),
    nullary main_c_22 (constantI S_ 32 200#32),
    unary main_c_22 main_v94 (broadcastInDim S8x225 ![] bcast_S_S8x225 : (⟨S_, .i32⟩ : BufTy).Contents (Elt F) → (⟨S8x225, .i32⟩ : BufTy).Contents (Elt F)),
    binary main_v91 main_v94 main_v95 (addi : (⟨S8x225, .i32⟩ : BufTy).Contents (Elt F) → (⟨S8x225, .i32⟩ : BufTy).Contents (Elt F) → (⟨S8x225, .i32⟩ : BufTy).Contents (Elt F)),
    ternary main_v93 main_v95 main_v91 main_v96 (select : (⟨S8x225, .i1⟩ : BufTy).Contents (Elt F) → (⟨S8x225, .i32⟩ : BufTy).Contents (Elt F) → (⟨S8x225, .i32⟩ : BufTy).Contents (Elt F) → (⟨S8x225, .i32⟩ : BufTy).Contents (Elt F)),
    nullary main_c_23 (constantI S_ 32 0#32),
    unary main_c_23 main_v97 (broadcastInDim S8x225 ![] bcast_S_S8x225 : (⟨S_, .i32⟩ : BufTy).Contents (Elt F) → (⟨S8x225, .i32⟩ : BufTy).Contents (Elt F)) ]
def C0_11 : List (HloOp τ sig (Elt F)) := L0_11
noncomputable def W0_11 : List (Ref sig .tc) := [main_c_20, main_v90, main_v91, main_c_21, main_v92, main_v93, main_c_22, main_v94, main_v95, main_v96, main_c_23, main_v97]
set_option maxHeartbeats 4000000 in
theorem writes0_11 : (C0_11 (F := F)).Forall fun op => op.writes ⊆ (W0_11.map (Proc.devRef (τ := τ) .tc)).toFinset := by
  simp only [C0_11, L0_11, List.Forall, nullary_writes, unary_writes, binary_writes, ternary_writes, quaternary_writes, reshape_writes, nary_writes, unaryIndexed_writes, binaryIndexed_writes]
  repeat' apply And.intro
  all_goals exact sub_of_mem (by decide)
theorem skip0_11 (V : Valuation τ sig (Elt F)) {r : Ref sig .tc} (h : r ∉ W0_11) :
    StableHlo.after (C0_11 (F := F)) V (no_index (Proc.devRef .tc r)) = V (Proc.devRef .tc r) :=
  after_of_writes_sub _ V writes0_11 h
theorem open0_11 (V : Valuation τ sig (Elt F)) {r : Ref sig .tc} (h : r ∈ W0_11) :
    StableHlo.after (C0_11 (F := F)) V (no_index (Proc.devRef .tc r)) = StableHlo.after (L0_11 (F := F)) V (Proc.devRef .tc r) := rfl
noncomputable def U0_11 : List (Ref sig .tc) := [main_c_20, main_v90, main_v91, main_c_21, main_v92, main_v93, main_c_22, main_v94, main_v95, main_c_23]
theorem openU0_11 (V : Valuation τ sig (Elt F)) {r : Ref sig .tc} (h : r ∈ U0_11) :
    StableHlo.after (C0_11 (F := F)) V (no_index (Proc.devRef .tc r)) = StableHlo.after (L0_11 (F := F)) V (Proc.devRef .tc r) := rfl
set_option maxHeartbeats 4000000 in
theorem st_main_v96 (V : Valuation τ sig (Elt F)) :
    StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V))))))))))) (no_index (Proc.devRef .tc main_v96))
      = Cert.ReferenceIdeal.Read.val_main_v96 (F := F) (V (Proc.devRef .tc main_arg1)) (V (Proc.devRef .tc main_arg2)) (V (Proc.devRef .tc main_arg3)) := by
  simp (disch := decide) only [skip0_0, skip0_1, skip0_2, skip0_3, skip0_4, skip0_5, skip0_6, skip0_7, skip0_8, skip0_9, skip0_10, open0_11, L0_11, st_main_v55, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v97 (V : Valuation τ sig (Elt F)) :
    StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V))))))))))) (no_index (Proc.devRef .tc main_v97))
      = Cert.ReferenceIdeal.Read.val_main_v97 (F := F) := by
  simp (disch := decide) only [skip0_0, skip0_1, skip0_2, skip0_3, skip0_4, skip0_5, skip0_6, skip0_7, skip0_8, skip0_9, skip0_10, open0_11, L0_11, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

end Cert.Percept.RefChunks

end
-- ==== Proof.RefChunks3.lean ====
/-
  The reference's 335 host operations cut into short runs, and how one buffer is read after them.

  The operations are straight-line: each writes one buffer of its own. After a run of operations that does not write a
  buffer r, r holds what it held before (skip); after a run that does, r holds what the run's own operations leave (open).
  Each buffer that a later run reads holds, right after its run, its stage of the per-operation reading applied to the
  argument arrays (st_…): one run is opened per buffer, and what it reads from earlier runs is already a stage.
  (Runs 13 to 18 of 28.)
-/
import proofs.«134758_j41807211659417_2_alg».proof.Proof.RefChunks2

set_option maxRecDepth 16384

noncomputable section

namespace Cert.Percept.RefChunks

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

set_option maxHeartbeats 4000000 in
abbrev L0_12 : List (HloOp τ sig (Elt F)) :=
  [ binary main_v54 main_v97 main_v98 (cmpi .slt : (⟨S8x225, .i32⟩ : BufTy).Contents (Elt F) → (⟨S8x225, .i32⟩ : BufTy).Contents (Elt F) → (⟨S8x225, .i1⟩ : BufTy).Contents (Elt F)),
    nullary main_c_24 (constantI S_ 32 200#32),
    unary main_c_24 main_v99 (broadcastInDim S8x225 ![] bcast_S_S8x225 : (⟨S_, .i32⟩ : BufTy).Contents (Elt F) → (⟨S8x225, .i32⟩ : BufTy).Contents (Elt F)),
    binary main_v54 main_v99 main_v100 (addi : (⟨S8x225, .i32⟩ : BufTy).Contents (Elt F) → (⟨S8x225, .i32⟩ : BufTy).Contents (Elt F) → (⟨S8x225, .i32⟩ : BufTy).Contents (Elt F)),
    ternary main_v98 main_v100 main_v54 main_v101 (select : (⟨S8x225, .i1⟩ : BufTy).Contents (Elt F) → (⟨S8x225, .i32⟩ : BufTy).Contents (Elt F) → (⟨S8x225, .i32⟩ : BufTy).Contents (Elt F) → (⟨S8x225, .i32⟩ : BufTy).Contents (Elt F)),
    unary main_v96 main_v102 (broadcastInDim S8x225x1 ![0, 1] bcast_S8x225_S8x225x1_0_1 : (⟨S8x225, .i32⟩ : BufTy).Contents (Elt F) → (⟨S8x225x1, .i32⟩ : BufTy).Contents (Elt F)),
    unary main_v101 main_v103 (broadcastInDim S8x225x1 ![0, 1] bcast_S8x225_S8x225x1_0_1 : (⟨S8x225, .i32⟩ : BufTy).Contents (Elt F) → (⟨S8x225x1, .i32⟩ : BufTy).Contents (Elt F)),
    binary main_v102 main_v103 main_v104 ((fun a b => concatenate S8x225x2 2 [⟨S8x225x1, a⟩, ⟨S8x225x1, b⟩] concatenates_S8x225x1_S8x225x1_S8x225x2_d2) : (⟨S8x225x1, .i32⟩ : BufTy).Contents (Elt F) → (⟨S8x225x1, .i32⟩ : BufTy).Contents (Elt F) → (⟨S8x225x2, .i32⟩ : BufTy).Contents (Elt F)),
    binary main_arg4 main_v104 main_v105 ((fun x i => Host.gather gather_S200x200_S8x225x2_S8x225_n_01_n_n_01_2_11 x i) : (⟨S200x200, .f32⟩ : BufTy).Contents (Elt F) → (⟨S8x225x2, .i32⟩ : BufTy).Contents (Elt F) → (⟨S8x225, .f32⟩ : BufTy).Contents (Elt F)),
    nullary main_c_25 (constantI S_ 32 1#32),
    unary main_c_25 main_v106 (broadcastInDim S8x225 ![] bcast_S_S8x225 : (⟨S_, .i32⟩ : BufTy).Contents (Elt F) → (⟨S8x225, .i32⟩ : BufTy).Contents (Elt F)),
    binary main_v55 main_v106 main_v107 (addi : (⟨S8x225, .i32⟩ : BufTy).Contents (Elt F) → (⟨S8x225, .i32⟩ : BufTy).Contents (Elt F) → (⟨S8x225, .i32⟩ : BufTy).Contents (Elt F)) ]
def C0_12 : List (HloOp τ sig (Elt F)) := L0_12
noncomputable def W0_12 : List (Ref sig .tc) := [main_v98, main_c_24, main_v99, main_v100, main_v101, main_v102, main_v103, main_v104, main_v105, main_c_25, main_v106, main_v107]
set_option maxHeartbeats 4000000 in
theorem writes0_12 : (C0_12 (F := F)).Forall fun op => op.writes ⊆ (W0_12.map (Proc.devRef (τ := τ) .tc)).toFinset := by
  simp only [C0_12, L0_12, List.Forall, nullary_writes, unary_writes, binary_writes, ternary_writes, quaternary_writes, reshape_writes, nary_writes, unaryIndexed_writes, binaryIndexed_writes]
  repeat' apply And.intro
  all_goals exact sub_of_mem (by decide)
theorem skip0_12 (V : Valuation τ sig (Elt F)) {r : Ref sig .tc} (h : r ∉ W0_12) :
    StableHlo.after (C0_12 (F := F)) V (no_index (Proc.devRef .tc r)) = V (Proc.devRef .tc r) :=
  after_of_writes_sub _ V writes0_12 h
theorem open0_12 (V : Valuation τ sig (Elt F)) {r : Ref sig .tc} (h : r ∈ W0_12) :
    StableHlo.after (C0_12 (F := F)) V (no_index (Proc.devRef .tc r)) = StableHlo.after (L0_12 (F := F)) V (Proc.devRef .tc r) := rfl
noncomputable def U0_12 : List (Ref sig .tc) := [main_v98, main_c_24, main_v99, main_v100, main_v101, main_v102, main_v103, main_v104, main_c_25, main_v106]
theorem openU0_12 (V : Valuation τ sig (Elt F)) {r : Ref sig .tc} (h : r ∈ U0_12) :
    StableHlo.after (C0_12 (F := F)) V (no_index (Proc.devRef .tc r)) = StableHlo.after (L0_12 (F := F)) V (Proc.devRef .tc r) := rfl
set_option maxHeartbeats 4000000 in
theorem st_main_v105 (V : Valuation τ sig (Elt F)) :
    StableHlo.after (C0_12 (F := F)) (StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V)))))))))))) (no_index (Proc.devRef .tc main_v105))
      = Cert.ReferenceIdeal.Read.val_main_v105 (F := F) (V (Proc.devRef .tc main_arg1)) (V (Proc.devRef .tc main_arg2)) (V (Proc.devRef .tc main_arg3)) (V (Proc.devRef .tc main_arg4)) := by
  simp (disch := decide) only [skip0_0, skip0_1, skip0_2, skip0_3, skip0_4, skip0_5, skip0_6, skip0_7, skip0_8, skip0_9, skip0_10, skip0_11, open0_12, L0_12, st_main_v96, st_main_v54, st_main_v97, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v107 (V : Valuation τ sig (Elt F)) :
    StableHlo.after (C0_12 (F := F)) (StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V)))))))))))) (no_index (Proc.devRef .tc main_v107))
      = Cert.ReferenceIdeal.Read.val_main_v107 (F := F) (V (Proc.devRef .tc main_arg1)) (V (Proc.devRef .tc main_arg2)) (V (Proc.devRef .tc main_arg3)) := by
  simp (disch := decide) only [skip0_0, skip0_1, skip0_2, skip0_3, skip0_4, skip0_5, skip0_6, skip0_7, skip0_8, skip0_9, skip0_10, skip0_11, open0_12, L0_12, st_main_v55, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L0_13 : List (HloOp τ sig (Elt F)) :=
  [ nullary main_c_26 (constantI S_ 32 1#32),
    unary main_c_26 main_v108 (broadcastInDim S8x225 ![] bcast_S_S8x225 : (⟨S_, .i32⟩ : BufTy).Contents (Elt F) → (⟨S8x225, .i32⟩ : BufTy).Contents (Elt F)),
    binary main_v54 main_v108 main_v109 (addi : (⟨S8x225, .i32⟩ : BufTy).Contents (Elt F) → (⟨S8x225, .i32⟩ : BufTy).Contents (Elt F) → (⟨S8x225, .i32⟩ : BufTy).Contents (Elt F)),
    nullary main_c_27 (constantI S_ 32 0#32),
    unary main_c_27 main_v110 (broadcastInDim S8x225 ![] bcast_S_S8x225 : (⟨S_, .i32⟩ : BufTy).Contents (Elt F) → (⟨S8x225, .i32⟩ : BufTy).Contents (Elt F)),
    binary main_v107 main_v110 main_v111 (cmpi .slt : (⟨S8x225, .i32⟩ : BufTy).Contents (Elt F) → (⟨S8x225, .i32⟩ : BufTy).Contents (Elt F) → (⟨S8x225, .i1⟩ : BufTy).Contents (Elt F)),
    nullary main_c_28 (constantI S_ 32 200#32),
    unary main_c_28 main_v112 (broadcastInDim S8x225 ![] bcast_S_S8x225 : (⟨S_, .i32⟩ : BufTy).Contents (Elt F) → (⟨S8x225, .i32⟩ : BufTy).Contents (Elt F)),
    binary main_v107 main_v112 main_v113 (addi : (⟨S8x225, .i32⟩ : BufTy).Contents (Elt F) → (⟨S8x225, .i32⟩ : BufTy).Contents (Elt F) → (⟨S8x225, .i32⟩ : BufTy).Contents (Elt F)),
    ternary main_v111 main_v113 main_v107 main_v114 (select : (⟨S8x225, .i1⟩ : BufTy).Contents (Elt F) → (⟨S8x225, .i32⟩ : BufTy).Contents (Elt F) → (⟨S8x225, .i32⟩ : BufTy).Contents (Elt F) → (⟨S8x225, .i32⟩ : BufTy).Contents (Elt F)),
    nullary main_c_29 (constantI S_ 32 0#32),
    unary main_c_29 main_v115 (broadcastInDim S8x225 ![] bcast_S_S8x225 : (⟨S_, .i32⟩ : BufTy).Contents (Elt F) → (⟨S8x225, .i32⟩ : BufTy).Contents (Elt F)) ]
def C0_13 : List (HloOp τ sig (Elt F)) := L0_13
noncomputable def W0_13 : List (Ref sig .tc) := [main_c_26, main_v108, main_v109, main_c_27, main_v110, main_v111, main_c_28, main_v112, main_v113, main_v114, main_c_29, main_v115]
set_option maxHeartbeats 4000000 in
theorem writes0_13 : (C0_13 (F := F)).Forall fun op => op.writes ⊆ (W0_13.map (Proc.devRef (τ := τ) .tc)).toFinset := by
  simp only [C0_13, L0_13, List.Forall, nullary_writes, unary_writes, binary_writes, ternary_writes, quaternary_writes, reshape_writes, nary_writes, unaryIndexed_writes, binaryIndexed_writes]
  repeat' apply And.intro
  all_goals exact sub_of_mem (by decide)
theorem skip0_13 (V : Valuation τ sig (Elt F)) {r : Ref sig .tc} (h : r ∉ W0_13) :
    StableHlo.after (C0_13 (F := F)) V (no_index (Proc.devRef .tc r)) = V (Proc.devRef .tc r) :=
  after_of_writes_sub _ V writes0_13 h
theorem open0_13 (V : Valuation τ sig (Elt F)) {r : Ref sig .tc} (h : r ∈ W0_13) :
    StableHlo.after (C0_13 (F := F)) V (no_index (Proc.devRef .tc r)) = StableHlo.after (L0_13 (F := F)) V (Proc.devRef .tc r) := rfl
noncomputable def U0_13 : List (Ref sig .tc) := [main_c_26, main_v108, main_c_27, main_v110, main_v111, main_c_28, main_v112, main_v113, main_c_29]
theorem openU0_13 (V : Valuation τ sig (Elt F)) {r : Ref sig .tc} (h : r ∈ U0_13) :
    StableHlo.after (C0_13 (F := F)) V (no_index (Proc.devRef .tc r)) = StableHlo.after (L0_13 (F := F)) V (Proc.devRef .tc r) := rfl
set_option maxHeartbeats 4000000 in
theorem st_main_v109 (V : Valuation τ sig (Elt F)) :
    StableHlo.after (C0_13 (F := F)) (StableHlo.after (C0_12 (F := F)) (StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V))))))))))))) (no_index (Proc.devRef .tc main_v109))
      = Cert.ReferenceIdeal.Read.val_main_v109 (F := F) (V (Proc.devRef .tc main_arg1)) (V (Proc.devRef .tc main_arg2)) (V (Proc.devRef .tc main_arg3)) := by
  simp (disch := decide) only [skip0_0, skip0_1, skip0_2, skip0_3, skip0_4, skip0_5, skip0_6, skip0_7, skip0_8, skip0_9, skip0_10, skip0_11, skip0_12, open0_13, L0_13, st_main_v54, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v114 (V : Valuation τ sig (Elt F)) :
    StableHlo.after (C0_13 (F := F)) (StableHlo.after (C0_12 (F := F)) (StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V))))))))))))) (no_index (Proc.devRef .tc main_v114))
      = Cert.ReferenceIdeal.Read.val_main_v114 (F := F) (V (Proc.devRef .tc main_arg1)) (V (Proc.devRef .tc main_arg2)) (V (Proc.devRef .tc main_arg3)) := by
  simp (disch := decide) only [skip0_0, skip0_1, skip0_2, skip0_3, skip0_4, skip0_5, skip0_6, skip0_7, skip0_8, skip0_9, skip0_10, skip0_11, skip0_12, open0_13, L0_13, st_main_v107, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v115 (V : Valuation τ sig (Elt F)) :
    StableHlo.after (C0_13 (F := F)) (StableHlo.after (C0_12 (F := F)) (StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V))))))))))))) (no_index (Proc.devRef .tc main_v115))
      = Cert.ReferenceIdeal.Read.val_main_v115 (F := F) := by
  simp (disch := decide) only [skip0_0, skip0_1, skip0_2, skip0_3, skip0_4, skip0_5, skip0_6, skip0_7, skip0_8, skip0_9, skip0_10, skip0_11, skip0_12, open0_13, L0_13, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L0_14 : List (HloOp τ sig (Elt F)) :=
  [ binary main_v109 main_v115 main_v116 (cmpi .slt : (⟨S8x225, .i32⟩ : BufTy).Contents (Elt F) → (⟨S8x225, .i32⟩ : BufTy).Contents (Elt F) → (⟨S8x225, .i1⟩ : BufTy).Contents (Elt F)),
    nullary main_c_30 (constantI S_ 32 200#32),
    unary main_c_30 main_v117 (broadcastInDim S8x225 ![] bcast_S_S8x225 : (⟨S_, .i32⟩ : BufTy).Contents (Elt F) → (⟨S8x225, .i32⟩ : BufTy).Contents (Elt F)),
    binary main_v109 main_v117 main_v118 (addi : (⟨S8x225, .i32⟩ : BufTy).Contents (Elt F) → (⟨S8x225, .i32⟩ : BufTy).Contents (Elt F) → (⟨S8x225, .i32⟩ : BufTy).Contents (Elt F)),
    ternary main_v116 main_v118 main_v109 main_v119 (select : (⟨S8x225, .i1⟩ : BufTy).Contents (Elt F) → (⟨S8x225, .i32⟩ : BufTy).Contents (Elt F) → (⟨S8x225, .i32⟩ : BufTy).Contents (Elt F) → (⟨S8x225, .i32⟩ : BufTy).Contents (Elt F)),
    unary main_v114 main_v120 (broadcastInDim S8x225x1 ![0, 1] bcast_S8x225_S8x225x1_0_1 : (⟨S8x225, .i32⟩ : BufTy).Contents (Elt F) → (⟨S8x225x1, .i32⟩ : BufTy).Contents (Elt F)),
    unary main_v119 main_v121 (broadcastInDim S8x225x1 ![0, 1] bcast_S8x225_S8x225x1_0_1 : (⟨S8x225, .i32⟩ : BufTy).Contents (Elt F) → (⟨S8x225x1, .i32⟩ : BufTy).Contents (Elt F)),
    binary main_v120 main_v121 main_v122 ((fun a b => concatenate S8x225x2 2 [⟨S8x225x1, a⟩, ⟨S8x225x1, b⟩] concatenates_S8x225x1_S8x225x1_S8x225x2_d2) : (⟨S8x225x1, .i32⟩ : BufTy).Contents (Elt F) → (⟨S8x225x1, .i32⟩ : BufTy).Contents (Elt F) → (⟨S8x225x2, .i32⟩ : BufTy).Contents (Elt F)),
    binary main_arg4 main_v122 main_v123 ((fun x i => Host.gather gather_S200x200_S8x225x2_S8x225_n_01_n_n_01_2_11 x i) : (⟨S200x200, .f32⟩ : BufTy).Contents (Elt F) → (⟨S8x225x2, .i32⟩ : BufTy).Contents (Elt F) → (⟨S8x225, .f32⟩ : BufTy).Contents (Elt F)),
    binary main_v89 main_v73 main_v124 (subf : (⟨S8x225, .f32⟩ : BufTy).Contents (Elt F) → (⟨S8x225, .f32⟩ : BufTy).Contents (Elt F) → (⟨S8x225, .f32⟩ : BufTy).Contents (Elt F)),
    binary main_v57 main_v124 main_v125 (mulf : (⟨S8x225, .f32⟩ : BufTy).Contents (Elt F) → (⟨S8x225, .f32⟩ : BufTy).Contents (Elt F) → (⟨S8x225, .f32⟩ : BufTy).Contents (Elt F)),
    binary main_v73 main_v125 main_v126 (addf : (⟨S8x225, .f32⟩ : BufTy).Contents (Elt F) → (⟨S8x225, .f32⟩ : BufTy).Contents (Elt F) → (⟨S8x225, .f32⟩ : BufTy).Contents (Elt F)) ]
def C0_14 : List (HloOp τ sig (Elt F)) := L0_14
noncomputable def W0_14 : List (Ref sig .tc) := [main_v116, main_c_30, main_v117, main_v118, main_v119, main_v120, main_v121, main_v122, main_v123, main_v124, main_v125, main_v126]
set_option maxHeartbeats 4000000 in
theorem writes0_14 : (C0_14 (F := F)).Forall fun op => op.writes ⊆ (W0_14.map (Proc.devRef (τ := τ) .tc)).toFinset := by
  simp only [C0_14, L0_14, List.Forall, nullary_writes, unary_writes, binary_writes, ternary_writes, quaternary_writes, reshape_writes, nary_writes, unaryIndexed_writes, binaryIndexed_writes]
  repeat' apply And.intro
  all_goals exact sub_of_mem (by decide)
theorem skip0_14 (V : Valuation τ sig (Elt F)) {r : Ref sig .tc} (h : r ∉ W0_14) :
    StableHlo.after (C0_14 (F := F)) V (no_index (Proc.devRef .tc r)) = V (Proc.devRef .tc r) :=
  after_of_writes_sub _ V writes0_14 h
theorem open0_14 (V : Valuation τ sig (Elt F)) {r : Ref sig .tc} (h : r ∈ W0_14) :
    StableHlo.after (C0_14 (F := F)) V (no_index (Proc.devRef .tc r)) = StableHlo.after (L0_14 (F := F)) V (Proc.devRef .tc r) := rfl
noncomputable def U0_14 : List (Ref sig .tc) := [main_v116, main_c_30, main_v117, main_v118, main_v119, main_v120, main_v121, main_v122, main_v124, main_v125]
theorem openU0_14 (V : Valuation τ sig (Elt F)) {r : Ref sig .tc} (h : r ∈ U0_14) :
    StableHlo.after (C0_14 (F := F)) V (no_index (Proc.devRef .tc r)) = StableHlo.after (L0_14 (F := F)) V (Proc.devRef .tc r) := rfl
set_option maxHeartbeats 4000000 in
theorem st_main_v123 (V : Valuation τ sig (Elt F)) :
    StableHlo.after (C0_14 (F := F)) (StableHlo.after (C0_13 (F := F)) (StableHlo.after (C0_12 (F := F)) (StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V)))))))))))))) (no_index (Proc.devRef .tc main_v123))
      = Cert.ReferenceIdeal.Read.val_main_v123 (F := F) (V (Proc.devRef .tc main_arg1)) (V (Proc.devRef .tc main_arg2)) (V (Proc.devRef .tc main_arg3)) (V (Proc.devRef .tc main_arg4)) := by
  simp (disch := decide) only [skip0_0, skip0_1, skip0_2, skip0_3, skip0_4, skip0_5, skip0_6, skip0_7, skip0_8, skip0_9, skip0_10, skip0_11, skip0_12, skip0_13, open0_14, L0_14, st_main_v114, st_main_v109, st_main_v115, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v126 (V : Valuation τ sig (Elt F)) :
    StableHlo.after (C0_14 (F := F)) (StableHlo.after (C0_13 (F := F)) (StableHlo.after (C0_12 (F := F)) (StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V)))))))))))))) (no_index (Proc.devRef .tc main_v126))
      = Cert.ReferenceIdeal.Read.val_main_v126 (F := F) (V (Proc.devRef .tc main_arg1)) (V (Proc.devRef .tc main_arg2)) (V (Proc.devRef .tc main_arg3)) (V (Proc.devRef .tc main_arg4)) := by
  simp (disch := decide) only [skip0_0, skip0_1, skip0_2, skip0_3, skip0_4, skip0_5, skip0_6, skip0_7, skip0_8, skip0_9, skip0_10, skip0_11, skip0_12, skip0_13, open0_14, L0_14, st_main_v73, st_main_v57, st_main_v89, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L0_15 : List (HloOp τ sig (Elt F)) :=
  [ binary main_v123 main_v105 main_v127 (subf : (⟨S8x225, .f32⟩ : BufTy).Contents (Elt F) → (⟨S8x225, .f32⟩ : BufTy).Contents (Elt F) → (⟨S8x225, .f32⟩ : BufTy).Contents (Elt F)),
    binary main_v57 main_v127 main_v128 (mulf : (⟨S8x225, .f32⟩ : BufTy).Contents (Elt F) → (⟨S8x225, .f32⟩ : BufTy).Contents (Elt F) → (⟨S8x225, .f32⟩ : BufTy).Contents (Elt F)),
    binary main_v105 main_v128 main_v129 (addf : (⟨S8x225, .f32⟩ : BufTy).Contents (Elt F) → (⟨S8x225, .f32⟩ : BufTy).Contents (Elt F) → (⟨S8x225, .f32⟩ : BufTy).Contents (Elt F)),
    binary main_v129 main_v126 main_v130 (subf : (⟨S8x225, .f32⟩ : BufTy).Contents (Elt F) → (⟨S8x225, .f32⟩ : BufTy).Contents (Elt F) → (⟨S8x225, .f32⟩ : BufTy).Contents (Elt F)),
    binary main_v59 main_v130 main_v131 (mulf : (⟨S8x225, .f32⟩ : BufTy).Contents (Elt F) → (⟨S8x225, .f32⟩ : BufTy).Contents (Elt F) → (⟨S8x225, .f32⟩ : BufTy).Contents (Elt F)),
    binary main_v126 main_v131 main_v132 (addf : (⟨S8x225, .f32⟩ : BufTy).Contents (Elt F) → (⟨S8x225, .f32⟩ : BufTy).Contents (Elt F) → (⟨S8x225, .f32⟩ : BufTy).Contents (Elt F)),
    nullary main_cst_31 (constant S_ .f32 0xBFC90FDB#32),
    unary main_cst_31 main_v133 (broadcastInDim S8x225 ![] bcast_S_S8x225 : (⟨S_, .f32⟩ : BufTy).Contents (Elt F) → (⟨S8x225, .f32⟩ : BufTy).Contents (Elt F)),
    binary main_v132 main_v133 main_v134 (cmpf .olt : (⟨S8x225, .f32⟩ : BufTy).Contents (Elt F) → (⟨S8x225, .f32⟩ : BufTy).Contents (Elt F) → (⟨S8x225, .i1⟩ : BufTy).Contents (Elt F)),
    nullary main_cst_32 (constant S_ .f32 0x40490FDB#32),
    unary main_cst_32 main_v135 (broadcastInDim S8x225 ![] bcast_S_S8x225 : (⟨S_, .f32⟩ : BufTy).Contents (Elt F) → (⟨S8x225, .f32⟩ : BufTy).Contents (Elt F)),
    binary main_v132 main_v135 main_v136 (addf : (⟨S8x225, .f32⟩ : BufTy).Contents (Elt F) → (⟨S8x225, .f32⟩ : BufTy).Contents (Elt F) → (⟨S8x225, .f32⟩ : BufTy).Contents (Elt F)) ]
def C0_15 : List (HloOp τ sig (Elt F)) := L0_15
noncomputable def W0_15 : List (Ref sig .tc) := [main_v127, main_v128, main_v129, main_v130, main_v131, main_v132, main_cst_31, main_v133, main_v134, main_cst_32, main_v135, main_v136]
set_option maxHeartbeats 4000000 in
theorem writes0_15 : (C0_15 (F := F)).Forall fun op => op.writes ⊆ (W0_15.map (Proc.devRef (τ := τ) .tc)).toFinset := by
  simp only [C0_15, L0_15, List.Forall, nullary_writes, unary_writes, binary_writes, ternary_writes, quaternary_writes, reshape_writes, nary_writes, unaryIndexed_writes, binaryIndexed_writes]
  repeat' apply And.intro
  all_goals exact sub_of_mem (by decide)
theorem skip0_15 (V : Valuation τ sig (Elt F)) {r : Ref sig .tc} (h : r ∉ W0_15) :
    StableHlo.after (C0_15 (F := F)) V (no_index (Proc.devRef .tc r)) = V (Proc.devRef .tc r) :=
  after_of_writes_sub _ V writes0_15 h
theorem open0_15 (V : Valuation τ sig (Elt F)) {r : Ref sig .tc} (h : r ∈ W0_15) :
    StableHlo.after (C0_15 (F := F)) V (no_index (Proc.devRef .tc r)) = StableHlo.after (L0_15 (F := F)) V (Proc.devRef .tc r) := rfl
noncomputable def U0_15 : List (Ref sig .tc) := [main_v127, main_v128, main_v129, main_v130, main_v131, main_cst_31, main_v133, main_cst_32, main_v135]
theorem openU0_15 (V : Valuation τ sig (Elt F)) {r : Ref sig .tc} (h : r ∈ U0_15) :
    StableHlo.after (C0_15 (F := F)) V (no_index (Proc.devRef .tc r)) = StableHlo.after (L0_15 (F := F)) V (Proc.devRef .tc r) := rfl
set_option maxHeartbeats 4000000 in
theorem st_main_v132 (V : Valuation τ sig (Elt F)) :
    StableHlo.after (C0_15 (F := F)) (StableHlo.after (C0_14 (F := F)) (StableHlo.after (C0_13 (F := F)) (StableHlo.after (C0_12 (F := F)) (StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V))))))))))))))) (no_index (Proc.devRef .tc main_v132))
      = Cert.ReferenceIdeal.Read.val_main_v132 (F := F) (V (Proc.devRef .tc main_arg1)) (V (Proc.devRef .tc main_arg2)) (V (Proc.devRef .tc main_arg3)) (V (Proc.devRef .tc main_arg4)) := by
  simp (disch := decide) only [skip0_0, skip0_1, skip0_2, skip0_3, skip0_4, skip0_5, skip0_6, skip0_7, skip0_8, skip0_9, skip0_10, skip0_11, skip0_12, skip0_13, skip0_14, open0_15, L0_15, st_main_v126, st_main_v59, st_main_v105, st_main_v57, st_main_v123, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v134 (V : Valuation τ sig (Elt F)) :
    StableHlo.after (C0_15 (F := F)) (StableHlo.after (C0_14 (F := F)) (StableHlo.after (C0_13 (F := F)) (StableHlo.after (C0_12 (F := F)) (StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V))))))))))))))) (no_index (Proc.devRef .tc main_v134))
      = Cert.ReferenceIdeal.Read.val_main_v134 (F := F) (V (Proc.devRef .tc main_arg1)) (V (Proc.devRef .tc main_arg2)) (V (Proc.devRef .tc main_arg3)) (V (Proc.devRef .tc main_arg4)) := by
  simp (disch := decide) only [skip0_0, skip0_1, skip0_2, skip0_3, skip0_4, skip0_5, skip0_6, skip0_7, skip0_8, skip0_9, skip0_10, skip0_11, skip0_12, skip0_13, skip0_14, open0_15, L0_15, st_main_v126, st_main_v59, st_main_v105, st_main_v57, st_main_v123, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v136 (V : Valuation τ sig (Elt F)) :
    StableHlo.after (C0_15 (F := F)) (StableHlo.after (C0_14 (F := F)) (StableHlo.after (C0_13 (F := F)) (StableHlo.after (C0_12 (F := F)) (StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V))))))))))))))) (no_index (Proc.devRef .tc main_v136))
      = Cert.ReferenceIdeal.Read.val_main_v136 (F := F) (V (Proc.devRef .tc main_arg1)) (V (Proc.devRef .tc main_arg2)) (V (Proc.devRef .tc main_arg3)) (V (Proc.devRef .tc main_arg4)) := by
  simp (disch := decide) only [skip0_0, skip0_1, skip0_2, skip0_3, skip0_4, skip0_5, skip0_6, skip0_7, skip0_8, skip0_9, skip0_10, skip0_11, skip0_12, skip0_13, skip0_14, open0_15, L0_15, st_main_v126, st_main_v59, st_main_v105, st_main_v57, st_main_v123, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L0_16 : List (HloOp τ sig (Elt F)) :=
  [ TRef.ternary (TRef.of (T := ⟨S8x225, .i1⟩) main_v134) (TRef.of (T := ⟨S8x225, .f32⟩) main_v136) (TRef.of (T := ⟨S8x225, .f32⟩) main_v132) (TRef.of (T := ⟨S8x225, .f32⟩) main_v137) select,
    unary main_v8 main_v138 (broadcastInDim S8x225 ![0, 1] bcast_S8x1_S8x225_0_1 : (⟨S8x1, .f32⟩ : BufTy).Contents (Elt F) → (⟨S8x225, .f32⟩ : BufTy).Contents (Elt F)),
    binary main_v137 main_v138 main_v139 (mulf : (⟨S8x225, .f32⟩ : BufTy).Contents (Elt F) → (⟨S8x225, .f32⟩ : BufTy).Contents (Elt F) → (⟨S8x225, .f32⟩ : BufTy).Contents (Elt F)),
    unary main_v6 main_v140 (broadcastInDim S8x225 ![0, 1] bcast_S8x1_S8x225_0_1 : (⟨S8x1, .f32⟩ : BufTy).Contents (Elt F) → (⟨S8x225, .f32⟩ : BufTy).Contents (Elt F)),
    binary main_v140 main_v3 main_v141 (mulf : (⟨S8x225, .f32⟩ : BufTy).Contents (Elt F) → (⟨S8x225, .f32⟩ : BufTy).Contents (Elt F) → (⟨S8x225, .f32⟩ : BufTy).Contents (Elt F)),
    unary main_v12 main_v142 (broadcastInDim S8x225 ![0, 1] bcast_S8x1_S8x225_0_1 : (⟨S8x1, .f32⟩ : BufTy).Contents (Elt F) → (⟨S8x225, .f32⟩ : BufTy).Contents (Elt F)),
    binary main_v141 main_v142 main_v143 (mulf : (⟨S8x225, .f32⟩ : BufTy).Contents (Elt F) → (⟨S8x225, .f32⟩ : BufTy).Contents (Elt F) → (⟨S8x225, .f32⟩ : BufTy).Contents (Elt F)),
    nullary main_cst_33 (constant S_ .f32 0x3F800000#32),
    unary main_cst_33 main_v144 (broadcastInDim S8x225 ![] bcast_S_S8x225 : (⟨S_, .f32⟩ : BufTy).Contents (Elt F) → (⟨S8x225, .f32⟩ : BufTy).Contents (Elt F)),
    binary main_v143 main_v144 main_v145 (maximumf : (⟨S8x225, .f32⟩ : BufTy).Contents (Elt F) → (⟨S8x225, .f32⟩ : BufTy).Contents (Elt F) → (⟨S8x225, .f32⟩ : BufTy).Contents (Elt F)),
    unary main_v13 main_v146 (Host.negf : (⟨S8x1, .f32⟩ : BufTy).Contents (Elt F) → (⟨S8x1, .f32⟩ : BufTy).Contents (Elt F)),
    nullary main_cst_34 (constant S_ .f32 0x3EE66666#32) ]
def C0_16 : List (HloOp τ sig (Elt F)) := L0_16
noncomputable def W0_16 : List (Ref sig .tc) := [main_v137, main_v138, main_v139, main_v140, main_v141, main_v142, main_v143, main_cst_33, main_v144, main_v145, main_v146, main_cst_34]
set_option maxHeartbeats 4000000 in
theorem writes0_16 : (C0_16 (F := F)).Forall fun op => op.writes ⊆ (W0_16.map (Proc.devRef (τ := τ) .tc)).toFinset := by
  simp only [C0_16, L0_16, List.Forall, nullary_writes, unary_writes, binary_writes, ternary_writes, quaternary_writes, reshape_writes, nary_writes, unaryIndexed_writes, binaryIndexed_writes]
  repeat' apply And.intro
  all_goals exact sub_of_mem (by decide)
theorem skip0_16 (V : Valuation τ sig (Elt F)) {r : Ref sig .tc} (h : r ∉ W0_16) :
    StableHlo.after (C0_16 (F := F)) V (no_index (Proc.devRef .tc r)) = V (Proc.devRef .tc r) :=
  after_of_writes_sub _ V writes0_16 h
theorem open0_16 (V : Valuation τ sig (Elt F)) {r : Ref sig .tc} (h : r ∈ W0_16) :
    StableHlo.after (C0_16 (F := F)) V (no_index (Proc.devRef .tc r)) = StableHlo.after (L0_16 (F := F)) V (Proc.devRef .tc r) := rfl
noncomputable def U0_16 : List (Ref sig .tc) := [main_v137, main_v138, main_v140, main_v141, main_v142, main_v143, main_cst_33, main_v144]
theorem openU0_16 (V : Valuation τ sig (Elt F)) {r : Ref sig .tc} (h : r ∈ U0_16) :
    StableHlo.after (C0_16 (F := F)) V (no_index (Proc.devRef .tc r)) = StableHlo.after (L0_16 (F := F)) V (Proc.devRef .tc r) := rfl
set_option maxHeartbeats 4000000 in
theorem st_main_v139 (V : Valuation τ sig (Elt F)) :
    StableHlo.after (C0_16 (F := F)) (StableHlo.after (C0_15 (F := F)) (StableHlo.after (C0_14 (F := F)) (StableHlo.after (C0_13 (F := F)) (StableHlo.after (C0_12 (F := F)) (StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V)))))))))))))))) (no_index (Proc.devRef .tc main_v139))
      = Cert.ReferenceIdeal.Read.val_main_v139 (F := F) (V (Proc.devRef .tc main_arg1)) (V (Proc.devRef .tc main_arg2)) (V (Proc.devRef .tc main_arg3)) (V (Proc.devRef .tc main_arg4)) := by
  simp (disch := decide) only [skip0_0, skip0_1, skip0_2, skip0_3, skip0_4, skip0_5, skip0_6, skip0_7, skip0_8, skip0_9, skip0_10, skip0_11, skip0_12, skip0_13, skip0_14, skip0_15, open0_16, L0_16, st_main_v134, st_main_v136, st_main_v132, st_main_v8, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v145 (V : Valuation τ sig (Elt F)) :
    StableHlo.after (C0_16 (F := F)) (StableHlo.after (C0_15 (F := F)) (StableHlo.after (C0_14 (F := F)) (StableHlo.after (C0_13 (F := F)) (StableHlo.after (C0_12 (F := F)) (StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V)))))))))))))))) (no_index (Proc.devRef .tc main_v145))
      = Cert.ReferenceIdeal.Read.val_main_v145 (F := F) (V (Proc.devRef .tc main_arg0)) (V (Proc.devRef .tc main_arg1)) := by
  simp (disch := decide) only [skip0_0, skip0_1, skip0_2, skip0_3, skip0_4, skip0_5, skip0_6, skip0_7, skip0_8, skip0_9, skip0_10, skip0_11, skip0_12, skip0_13, skip0_14, skip0_15, open0_16, L0_16, st_main_v6, st_main_v3, st_main_v12, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v146 (V : Valuation τ sig (Elt F)) :
    StableHlo.after (C0_16 (F := F)) (StableHlo.after (C0_15 (F := F)) (StableHlo.after (C0_14 (F := F)) (StableHlo.after (C0_13 (F := F)) (StableHlo.after (C0_12 (F := F)) (StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V)))))))))))))))) (no_index (Proc.devRef .tc main_v146))
      = Cert.ReferenceIdeal.Read.val_main_v146 (F := F) (V (Proc.devRef .tc main_arg1)) := by
  simp (disch := decide) only [skip0_0, skip0_1, skip0_2, skip0_3, skip0_4, skip0_5, skip0_6, skip0_7, skip0_8, skip0_9, skip0_10, skip0_11, skip0_12, skip0_13, skip0_14, skip0_15, open0_16, L0_16, st_main_v13, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_cst_34 (V : Valuation τ sig (Elt F)) :
    StableHlo.after (C0_16 (F := F)) (StableHlo.after (C0_15 (F := F)) (StableHlo.after (C0_14 (F := F)) (StableHlo.after (C0_13 (F := F)) (StableHlo.after (C0_12 (F := F)) (StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V)))))))))))))))) (no_index (Proc.devRef .tc main_cst_34))
      = Cert.ReferenceIdeal.Read.val_main_cst_34 (F := F) := by
  simp (disch := decide) only [skip0_0, skip0_1, skip0_2, skip0_3, skip0_4, skip0_5, skip0_6, skip0_7, skip0_8, skip0_9, skip0_10, skip0_11, skip0_12, skip0_13, skip0_14, skip0_15, open0_16, L0_16, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L0_17 : List (HloOp τ sig (Elt F)) :=
  [ unary main_cst_34 main_v147 (broadcastInDim S8x1 ![] bcast_S_S8x1 : (⟨S_, .f32⟩ : BufTy).Contents (Elt F) → (⟨S8x1, .f32⟩ : BufTy).Contents (Elt F)),
    binary main_v147 main_v146 main_v148 (Host.powf : (⟨S8x1, .f32⟩ : BufTy).Contents (Elt F) → (⟨S8x1, .f32⟩ : BufTy).Contents (Elt F) → (⟨S8x1, .f32⟩ : BufTy).Contents (Elt F)),
    binary main_v7 main_v148 main_v149 (mulf : (⟨S8x1, .f32⟩ : BufTy).Contents (Elt F) → (⟨S8x1, .f32⟩ : BufTy).Contents (Elt F) → (⟨S8x1, .f32⟩ : BufTy).Contents (Elt F)),
    unary main_v13 main_v150 (broadcastInDim S8x225 ![0, 1] bcast_S8x1_S8x225_0_1 : (⟨S8x1, .f32⟩ : BufTy).Contents (Elt F) → (⟨S8x225, .f32⟩ : BufTy).Contents (Elt F)),
    binary main_v5 main_v150 main_v151 (Host.powf : (⟨S8x225, .f32⟩ : BufTy).Contents (Elt F) → (⟨S8x225, .f32⟩ : BufTy).Contents (Elt F) → (⟨S8x225, .f32⟩ : BufTy).Contents (Elt F)),
    unary main_v149 main_v152 (broadcastInDim S8x225 ![0, 1] bcast_S8x1_S8x225_0_1 : (⟨S8x1, .f32⟩ : BufTy).Contents (Elt F) → (⟨S8x225, .f32⟩ : BufTy).Contents (Elt F)),
    binary main_v152 main_v151 main_v153 (mulf : (⟨S8x225, .f32⟩ : BufTy).Contents (Elt F) → (⟨S8x225, .f32⟩ : BufTy).Contents (Elt F) → (⟨S8x225, .f32⟩ : BufTy).Contents (Elt F)),
    nullary main_cst_35 (constant S_ .f32 0x00000000#32),
    nullary main_cst_36 (constant S_ .f32 0x3F7D70A4#32),
    TRef.unary (TRef.of (T := ⟨S_, .f32⟩) main_cst_35) (TRef.of (T := ⟨S_, .f32⟩) main_call5_v0) id,
    TRef.unary (TRef.of (T := ⟨S_, .f32⟩) main_call5_v0) (TRef.of (T := ⟨S8x225, .f32⟩) main_call5_v1) (broadcastInDim S8x225 ![] bcast_S_S8x225),
    TRef.binary (TRef.of (T := ⟨S8x225, .f32⟩) main_call5_v1) (TRef.of (T := ⟨S8x225, .f32⟩) main_v153) (TRef.of (T := ⟨S8x225, .f32⟩) main_call5_v2) maximumf ]
def C0_17 : List (HloOp τ sig (Elt F)) := L0_17
noncomputable def W0_17 : List (Ref sig .tc) := [main_v147, main_v148, main_v149, main_v150, main_v151, main_v152, main_v153, main_cst_35, main_cst_36, main_call5_v0, main_call5_v1, main_call5_v2]
set_option maxHeartbeats 4000000 in
theorem writes0_17 : (C0_17 (F := F)).Forall fun op => op.writes ⊆ (W0_17.map (Proc.devRef (τ := τ) .tc)).toFinset := by
  simp only [C0_17, L0_17, List.Forall, nullary_writes, unary_writes, binary_writes, ternary_writes, quaternary_writes, reshape_writes, nary_writes, unaryIndexed_writes, binaryIndexed_writes]
  repeat' apply And.intro
  all_goals exact sub_of_mem (by decide)
theorem skip0_17 (V : Valuation τ sig (Elt F)) {r : Ref sig .tc} (h : r ∉ W0_17) :
    StableHlo.after (C0_17 (F := F)) V (no_index (Proc.devRef .tc r)) = V (Proc.devRef .tc r) :=
  after_of_writes_sub _ V writes0_17 h
theorem open0_17 (V : Valuation τ sig (Elt F)) {r : Ref sig .tc} (h : r ∈ W0_17) :
    StableHlo.after (C0_17 (F := F)) V (no_index (Proc.devRef .tc r)) = StableHlo.after (L0_17 (F := F)) V (Proc.devRef .tc r) := rfl
noncomputable def U0_17 : List (Ref sig .tc) := [main_v147, main_v148, main_v149, main_v150, main_v151, main_v152, main_v153, main_cst_35, main_call5_v0, main_call5_v1]
theorem openU0_17 (V : Valuation τ sig (Elt F)) {r : Ref sig .tc} (h : r ∈ U0_17) :
    StableHlo.after (C0_17 (F := F)) V (no_index (Proc.devRef .tc r)) = StableHlo.after (L0_17 (F := F)) V (Proc.devRef .tc r) := rfl
set_option maxHeartbeats 4000000 in
theorem st_main_cst_36 (V : Valuation τ sig (Elt F)) :
    StableHlo.after (C0_17 (F := F)) (StableHlo.after (C0_16 (F := F)) (StableHlo.after (C0_15 (F := F)) (StableHlo.after (C0_14 (F := F)) (StableHlo.after (C0_13 (F := F)) (StableHlo.after (C0_12 (F := F)) (StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V))))))))))))))))) (no_index (Proc.devRef .tc main_cst_36))
      = Cert.ReferenceIdeal.Read.val_main_cst_36 (F := F) := by
  simp (disch := decide) only [skip0_0, skip0_1, skip0_2, skip0_3, skip0_4, skip0_5, skip0_6, skip0_7, skip0_8, skip0_9, skip0_10, skip0_11, skip0_12, skip0_13, skip0_14, skip0_15, skip0_16, open0_17, L0_17, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_call5_v2 (V : Valuation τ sig (Elt F)) :
    StableHlo.after (C0_17 (F := F)) (StableHlo.after (C0_16 (F := F)) (StableHlo.after (C0_15 (F := F)) (StableHlo.after (C0_14 (F := F)) (StableHlo.after (C0_13 (F := F)) (StableHlo.after (C0_12 (F := F)) (StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V))))))))))))))))) (no_index (Proc.devRef .tc main_call5_v2))
      = Cert.ReferenceIdeal.Read.val_main_call5_v2 (F := F) (V (Proc.devRef .tc main_arg0)) (V (Proc.devRef .tc main_arg1)) := by
  simp (disch := decide) only [skip0_0, skip0_1, skip0_2, skip0_3, skip0_4, skip0_5, skip0_6, skip0_7, skip0_8, skip0_9, skip0_10, skip0_11, skip0_12, skip0_13, skip0_14, skip0_15, skip0_16, open0_17, L0_17, st_main_v7, st_main_cst_34, st_main_v146, st_main_v5, st_main_v13, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

end Cert.Percept.RefChunks

end
-- ==== Proof.RefChunks4.lean ====
/-
  The reference's 335 host operations cut into short runs, and how one buffer is read after them.

  The operations are straight-line: each writes one buffer of its own. After a run of operations that does not write a
  buffer r, r holds what it held before (skip); after a run that does, r holds what the run's own operations leave (open).
  Each buffer that a later run reads holds, right after its run, its stage of the per-operation reading applied to the
  argument arrays (st_…): one run is opened per buffer, and what it reads from earlier runs is already a stage.
  (Runs 19 to 24 of 28.)
-/
import proofs.«134758_j41807211659417_2_alg».proof.Proof.RefChunks3

set_option maxRecDepth 16384

noncomputable section

namespace Cert.Percept.RefChunks

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

set_option maxHeartbeats 4000000 in
abbrev L0_18 : List (HloOp τ sig (Elt F)) :=
  [ TRef.unary (TRef.of (T := ⟨S_, .f32⟩) main_cst_36) (TRef.of (T := ⟨S_, .f32⟩) main_call5_v3) id,
    TRef.unary (TRef.of (T := ⟨S_, .f32⟩) main_call5_v3) (TRef.of (T := ⟨S8x225, .f32⟩) main_call5_v4) (broadcastInDim S8x225 ![] bcast_S_S8x225),
    TRef.binary (TRef.of (T := ⟨S8x225, .f32⟩) main_call5_v4) (TRef.of (T := ⟨S8x225, .f32⟩) main_call5_v2) (TRef.of (T := ⟨S8x225, .f32⟩) main_v154) minimumf,
    nullary main_cst_37 (constant S_ .f32 0x3E800000#32),
    unary main_cst_37 main_v155 (broadcastInDim S8x225 ![] bcast_S_S8x225 : (⟨S_, .f32⟩ : BufTy).Contents (Elt F) → (⟨S8x225, .f32⟩ : BufTy).Contents (Elt F)),
    binary main_v3 main_v155 main_v156 (cmpf .ogt : (⟨S8x225, .f32⟩ : BufTy).Contents (Elt F) → (⟨S8x225, .f32⟩ : BufTy).Contents (Elt F) → (⟨S8x225, .i1⟩ : BufTy).Contents (Elt F)),
    nullary main_cst_38 (constant S_ .f32 0x3727C5AC#32),
    unary main_cst_38 main_v157 (broadcastInDim S8x225 ![] bcast_S_S8x225 : (⟨S_, .f32⟩ : BufTy).Contents (Elt F) → (⟨S8x225, .f32⟩ : BufTy).Contents (Elt F)),
    binary main_v3 main_v157 main_v158 (maximumf : (⟨S8x225, .f32⟩ : BufTy).Contents (Elt F) → (⟨S8x225, .f32⟩ : BufTy).Contents (Elt F) → (⟨S8x225, .f32⟩ : BufTy).Contents (Elt F)),
    unary main_v10 main_v159 (broadcastInDim S8x225 ![0, 1] bcast_S8x1_S8x225_0_1 : (⟨S8x1, .f32⟩ : BufTy).Contents (Elt F) → (⟨S8x225, .f32⟩ : BufTy).Contents (Elt F)),
    binary main_v158 main_v159 main_v160 (Host.powf : (⟨S8x225, .f32⟩ : BufTy).Contents (Elt F) → (⟨S8x225, .f32⟩ : BufTy).Contents (Elt F) → (⟨S8x225, .f32⟩ : BufTy).Contents (Elt F)),
    unary main_v9 main_v161 (broadcastInDim S8x225 ![0, 1] bcast_S8x1_S8x225_0_1 : (⟨S8x1, .f32⟩ : BufTy).Contents (Elt F) → (⟨S8x225, .f32⟩ : BufTy).Contents (Elt F)) ]
def C0_18 : List (HloOp τ sig (Elt F)) := L0_18
noncomputable def W0_18 : List (Ref sig .tc) := [main_call5_v3, main_call5_v4, main_v154, main_cst_37, main_v155, main_v156, main_cst_38, main_v157, main_v158, main_v159, main_v160, main_v161]
set_option maxHeartbeats 4000000 in
theorem writes0_18 : (C0_18 (F := F)).Forall fun op => op.writes ⊆ (W0_18.map (Proc.devRef (τ := τ) .tc)).toFinset := by
  simp only [C0_18, L0_18, List.Forall, nullary_writes, unary_writes, binary_writes, ternary_writes, quaternary_writes, reshape_writes, nary_writes, unaryIndexed_writes, binaryIndexed_writes]
  repeat' apply And.intro
  all_goals exact sub_of_mem (by decide)
theorem skip0_18 (V : Valuation τ sig (Elt F)) {r : Ref sig .tc} (h : r ∉ W0_18) :
    StableHlo.after (C0_18 (F := F)) V (no_index (Proc.devRef .tc r)) = V (Proc.devRef .tc r) :=
  after_of_writes_sub _ V writes0_18 h
theorem open0_18 (V : Valuation τ sig (Elt F)) {r : Ref sig .tc} (h : r ∈ W0_18) :
    StableHlo.after (C0_18 (F := F)) V (no_index (Proc.devRef .tc r)) = StableHlo.after (L0_18 (F := F)) V (Proc.devRef .tc r) := rfl
noncomputable def U0_18 : List (Ref sig .tc) := [main_call5_v3, main_call5_v4, main_cst_37, main_v155, main_cst_38, main_v157, main_v158, main_v159]
theorem openU0_18 (V : Valuation τ sig (Elt F)) {r : Ref sig .tc} (h : r ∈ U0_18) :
    StableHlo.after (C0_18 (F := F)) V (no_index (Proc.devRef .tc r)) = StableHlo.after (L0_18 (F := F)) V (Proc.devRef .tc r) := rfl
set_option maxHeartbeats 4000000 in
theorem st_main_v154 (V : Valuation τ sig (Elt F)) :
    StableHlo.after (C0_18 (F := F)) (StableHlo.after (C0_17 (F := F)) (StableHlo.after (C0_16 (F := F)) (StableHlo.after (C0_15 (F := F)) (StableHlo.after (C0_14 (F := F)) (StableHlo.after (C0_13 (F := F)) (StableHlo.after (C0_12 (F := F)) (StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V)))))))))))))))))) (no_index (Proc.devRef .tc main_v154))
      = Cert.ReferenceIdeal.Read.val_main_v154 (F := F) (V (Proc.devRef .tc main_arg0)) (V (Proc.devRef .tc main_arg1)) := by
  simp (disch := decide) only [skip0_0, skip0_1, skip0_2, skip0_3, skip0_4, skip0_5, skip0_6, skip0_7, skip0_8, skip0_9, skip0_10, skip0_11, skip0_12, skip0_13, skip0_14, skip0_15, skip0_16, skip0_17, open0_18, L0_18, st_main_cst_36, st_main_call5_v2, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v156 (V : Valuation τ sig (Elt F)) :
    StableHlo.after (C0_18 (F := F)) (StableHlo.after (C0_17 (F := F)) (StableHlo.after (C0_16 (F := F)) (StableHlo.after (C0_15 (F := F)) (StableHlo.after (C0_14 (F := F)) (StableHlo.after (C0_13 (F := F)) (StableHlo.after (C0_12 (F := F)) (StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V)))))))))))))))))) (no_index (Proc.devRef .tc main_v156))
      = Cert.ReferenceIdeal.Read.val_main_v156 (F := F) (V (Proc.devRef .tc main_arg0)) := by
  simp (disch := decide) only [skip0_0, skip0_1, skip0_2, skip0_3, skip0_4, skip0_5, skip0_6, skip0_7, skip0_8, skip0_9, skip0_10, skip0_11, skip0_12, skip0_13, skip0_14, skip0_15, skip0_16, skip0_17, open0_18, L0_18, st_main_v3, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v160 (V : Valuation τ sig (Elt F)) :
    StableHlo.after (C0_18 (F := F)) (StableHlo.after (C0_17 (F := F)) (StableHlo.after (C0_16 (F := F)) (StableHlo.after (C0_15 (F := F)) (StableHlo.after (C0_14 (F := F)) (StableHlo.after (C0_13 (F := F)) (StableHlo.after (C0_12 (F := F)) (StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V)))))))))))))))))) (no_index (Proc.devRef .tc main_v160))
      = Cert.ReferenceIdeal.Read.val_main_v160 (F := F) (V (Proc.devRef .tc main_arg0)) (V (Proc.devRef .tc main_arg1)) := by
  simp (disch := decide) only [skip0_0, skip0_1, skip0_2, skip0_3, skip0_4, skip0_5, skip0_6, skip0_7, skip0_8, skip0_9, skip0_10, skip0_11, skip0_12, skip0_13, skip0_14, skip0_15, skip0_16, skip0_17, open0_18, L0_18, st_main_v3, st_main_v10, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v161 (V : Valuation τ sig (Elt F)) :
    StableHlo.after (C0_18 (F := F)) (StableHlo.after (C0_17 (F := F)) (StableHlo.after (C0_16 (F := F)) (StableHlo.after (C0_15 (F := F)) (StableHlo.after (C0_14 (F := F)) (StableHlo.after (C0_13 (F := F)) (StableHlo.after (C0_12 (F := F)) (StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V)))))))))))))))))) (no_index (Proc.devRef .tc main_v161))
      = Cert.ReferenceIdeal.Read.val_main_v161 (F := F) (V (Proc.devRef .tc main_arg1)) := by
  simp (disch := decide) only [skip0_0, skip0_1, skip0_2, skip0_3, skip0_4, skip0_5, skip0_6, skip0_7, skip0_8, skip0_9, skip0_10, skip0_11, skip0_12, skip0_13, skip0_14, skip0_15, skip0_16, skip0_17, open0_18, L0_18, st_main_v9, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L0_19 : List (HloOp τ sig (Elt F)) :=
  [ binary main_v161 main_v160 main_v162 (mulf : (⟨S8x225, .f32⟩ : BufTy).Contents (Elt F) → (⟨S8x225, .f32⟩ : BufTy).Contents (Elt F) → (⟨S8x225, .f32⟩ : BufTy).Contents (Elt F)),
    unary main_v11 main_v163 (broadcastInDim S8x225 ![0, 1] bcast_S8x1_S8x225_0_1 : (⟨S8x1, .f32⟩ : BufTy).Contents (Elt F) → (⟨S8x225, .f32⟩ : BufTy).Contents (Elt F)),
    binary main_v163 main_v1 main_v164 (mulf : (⟨S8x225, .f32⟩ : BufTy).Contents (Elt F) → (⟨S8x225, .f32⟩ : BufTy).Contents (Elt F) → (⟨S8x225, .f32⟩ : BufTy).Contents (Elt F)),
    binary main_v162 main_v164 main_v165 (addf : (⟨S8x225, .f32⟩ : BufTy).Contents (Elt F) → (⟨S8x225, .f32⟩ : BufTy).Contents (Elt F) → (⟨S8x225, .f32⟩ : BufTy).Contents (Elt F)),
    nullary main_cst_39 (constant S_ .f32 0x00000000#32),
    TRef.unary (TRef.of (T := ⟨S_, .f32⟩) main_cst_39) (TRef.of (T := ⟨S_, .f32⟩) main_call6_v0) id,
    TRef.unary (TRef.of (T := ⟨S_, .f32⟩) main_call6_v0) (TRef.of (T := ⟨S8x225, .f32⟩) main_call6_v1) (broadcastInDim S8x225 ![] bcast_S_S8x225),
    TRef.ternary (TRef.of (T := ⟨S8x225, .i1⟩) main_v156) (TRef.of (T := ⟨S8x225, .f32⟩) main_v165) (TRef.of (T := ⟨S8x225, .f32⟩) main_call6_v1) (TRef.of (T := ⟨S8x225, .f32⟩) main_v166) select,
    binary main_v154 main_v154 main_v167 (mulf : (⟨S8x225, .f32⟩ : BufTy).Contents (Elt F) → (⟨S8x225, .f32⟩ : BufTy).Contents (Elt F) → (⟨S8x225, .f32⟩ : BufTy).Contents (Elt F)),
    nullary main_cst_40 (constant S_ .f32 0x3F800000#32),
    unary main_cst_40 main_v168 (broadcastInDim S8x225 ![] bcast_S_S8x225 : (⟨S_, .f32⟩ : BufTy).Contents (Elt F) → (⟨S8x225, .f32⟩ : BufTy).Contents (Elt F)),
    binary main_v168 main_v167 main_v169 (subf : (⟨S8x225, .f32⟩ : BufTy).Contents (Elt F) → (⟨S8x225, .f32⟩ : BufTy).Contents (Elt F) → (⟨S8x225, .f32⟩ : BufTy).Contents (Elt F)) ]
def C0_19 : List (HloOp τ sig (Elt F)) := L0_19
noncomputable def W0_19 : List (Ref sig .tc) := [main_v162, main_v163, main_v164, main_v165, main_cst_39, main_call6_v0, main_call6_v1, main_v166, main_v167, main_cst_40, main_v168, main_v169]
set_option maxHeartbeats 4000000 in
theorem writes0_19 : (C0_19 (F := F)).Forall fun op => op.writes ⊆ (W0_19.map (Proc.devRef (τ := τ) .tc)).toFinset := by
  simp only [C0_19, L0_19, List.Forall, nullary_writes, unary_writes, binary_writes, ternary_writes, quaternary_writes, reshape_writes, nary_writes, unaryIndexed_writes, binaryIndexed_writes]
  repeat' apply And.intro
  all_goals exact sub_of_mem (by decide)
theorem skip0_19 (V : Valuation τ sig (Elt F)) {r : Ref sig .tc} (h : r ∉ W0_19) :
    StableHlo.after (C0_19 (F := F)) V (no_index (Proc.devRef .tc r)) = V (Proc.devRef .tc r) :=
  after_of_writes_sub _ V writes0_19 h
theorem open0_19 (V : Valuation τ sig (Elt F)) {r : Ref sig .tc} (h : r ∈ W0_19) :
    StableHlo.after (C0_19 (F := F)) V (no_index (Proc.devRef .tc r)) = StableHlo.after (L0_19 (F := F)) V (Proc.devRef .tc r) := rfl
noncomputable def U0_19 : List (Ref sig .tc) := [main_v162, main_v163, main_v164, main_v165, main_cst_39, main_call6_v0, main_call6_v1, main_v167, main_cst_40, main_v168]
theorem openU0_19 (V : Valuation τ sig (Elt F)) {r : Ref sig .tc} (h : r ∈ U0_19) :
    StableHlo.after (C0_19 (F := F)) V (no_index (Proc.devRef .tc r)) = StableHlo.after (L0_19 (F := F)) V (Proc.devRef .tc r) := rfl
set_option maxHeartbeats 4000000 in
theorem st_main_v166 (V : Valuation τ sig (Elt F)) :
    StableHlo.after (C0_19 (F := F)) (StableHlo.after (C0_18 (F := F)) (StableHlo.after (C0_17 (F := F)) (StableHlo.after (C0_16 (F := F)) (StableHlo.after (C0_15 (F := F)) (StableHlo.after (C0_14 (F := F)) (StableHlo.after (C0_13 (F := F)) (StableHlo.after (C0_12 (F := F)) (StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V))))))))))))))))))) (no_index (Proc.devRef .tc main_v166))
      = Cert.ReferenceIdeal.Read.val_main_v166 (F := F) (V (Proc.devRef .tc main_arg0)) (V (Proc.devRef .tc main_arg1)) := by
  simp (disch := decide) only [skip0_0, skip0_1, skip0_2, skip0_3, skip0_4, skip0_5, skip0_6, skip0_7, skip0_8, skip0_9, skip0_10, skip0_11, skip0_12, skip0_13, skip0_14, skip0_15, skip0_16, skip0_17, skip0_18, open0_19, L0_19, st_main_v156, st_main_v161, st_main_v160, st_main_v11, st_main_v1, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v169 (V : Valuation τ sig (Elt F)) :
    StableHlo.after (C0_19 (F := F)) (StableHlo.after (C0_18 (F := F)) (StableHlo.after (C0_17 (F := F)) (StableHlo.after (C0_16 (F := F)) (StableHlo.after (C0_15 (F := F)) (StableHlo.after (C0_14 (F := F)) (StableHlo.after (C0_13 (F := F)) (StableHlo.after (C0_12 (F := F)) (StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V))))))))))))))))))) (no_index (Proc.devRef .tc main_v169))
      = Cert.ReferenceIdeal.Read.val_main_v169 (F := F) (V (Proc.devRef .tc main_arg0)) (V (Proc.devRef .tc main_arg1)) := by
  simp (disch := decide) only [skip0_0, skip0_1, skip0_2, skip0_3, skip0_4, skip0_5, skip0_6, skip0_7, skip0_8, skip0_9, skip0_10, skip0_11, skip0_12, skip0_13, skip0_14, skip0_15, skip0_16, skip0_17, skip0_18, open0_19, L0_19, st_main_v154, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L0_20 : List (HloOp τ sig (Elt F)) :=
  [ unary main_v169 main_v170 (Host.sqrt : (⟨S8x225, .f32⟩ : BufTy).Contents (Elt F) → (⟨S8x225, .f32⟩ : BufTy).Contents (Elt F)),
    nullary main_cst_41 (constant S_ .f32 0x41490FDB#32),
    unary main_cst_41 main_v171 (broadcastInDim S8x225 ![] bcast_S_S8x225 : (⟨S_, .f32⟩ : BufTy).Contents (Elt F) → (⟨S8x225, .f32⟩ : BufTy).Contents (Elt F)),
    binary main_v171 main_v170 main_v172 (mulf : (⟨S8x225, .f32⟩ : BufTy).Contents (Elt F) → (⟨S8x225, .f32⟩ : BufTy).Contents (Elt F) → (⟨S8x225, .f32⟩ : BufTy).Contents (Elt F)),
    binary main_v145 main_v172 main_v173 (Host.divf : (⟨S8x225, .f32⟩ : BufTy).Contents (Elt F) → (⟨S8x225, .f32⟩ : BufTy).Contents (Elt F) → (⟨S8x225, .f32⟩ : BufTy).Contents (Elt F)),
    binary main_v145 main_v170 main_v174 (mulf : (⟨S8x225, .f32⟩ : BufTy).Contents (Elt F) → (⟨S8x225, .f32⟩ : BufTy).Contents (Elt F) → (⟨S8x225, .f32⟩ : BufTy).Contents (Elt F)),
    nullary main_cst_42 (constant S_ .f32 0x41490FDB#32),
    unary main_cst_42 main_v175 (broadcastInDim S8x225 ![] bcast_S_S8x225 : (⟨S_, .f32⟩ : BufTy).Contents (Elt F) → (⟨S8x225, .f32⟩ : BufTy).Contents (Elt F)),
    binary main_v174 main_v175 main_v176 (Host.divf : (⟨S8x225, .f32⟩ : BufTy).Contents (Elt F) → (⟨S8x225, .f32⟩ : BufTy).Contents (Elt F) → (⟨S8x225, .f32⟩ : BufTy).Contents (Elt F)),
    unary main_v139 main_v177 (Host.sin : (⟨S8x225, .f32⟩ : BufTy).Contents (Elt F) → (⟨S8x225, .f32⟩ : BufTy).Contents (Elt F)),
    unary main_v139 main_v178 (Host.cos : (⟨S8x225, .f32⟩ : BufTy).Contents (Elt F) → (⟨S8x225, .f32⟩ : BufTy).Contents (Elt F)),
    binary main_v176 main_v178 main_v179 (mulf : (⟨S8x225, .f32⟩ : BufTy).Contents (Elt F) → (⟨S8x225, .f32⟩ : BufTy).Contents (Elt F) → (⟨S8x225, .f32⟩ : BufTy).Contents (Elt F)) ]
def C0_20 : List (HloOp τ sig (Elt F)) := L0_20
noncomputable def W0_20 : List (Ref sig .tc) := [main_v170, main_cst_41, main_v171, main_v172, main_v173, main_v174, main_cst_42, main_v175, main_v176, main_v177, main_v178, main_v179]
set_option maxHeartbeats 4000000 in
theorem writes0_20 : (C0_20 (F := F)).Forall fun op => op.writes ⊆ (W0_20.map (Proc.devRef (τ := τ) .tc)).toFinset := by
  simp only [C0_20, L0_20, List.Forall, nullary_writes, unary_writes, binary_writes, ternary_writes, quaternary_writes, reshape_writes, nary_writes, unaryIndexed_writes, binaryIndexed_writes]
  repeat' apply And.intro
  all_goals exact sub_of_mem (by decide)
theorem skip0_20 (V : Valuation τ sig (Elt F)) {r : Ref sig .tc} (h : r ∉ W0_20) :
    StableHlo.after (C0_20 (F := F)) V (no_index (Proc.devRef .tc r)) = V (Proc.devRef .tc r) :=
  after_of_writes_sub _ V writes0_20 h
theorem open0_20 (V : Valuation τ sig (Elt F)) {r : Ref sig .tc} (h : r ∈ W0_20) :
    StableHlo.after (C0_20 (F := F)) V (no_index (Proc.devRef .tc r)) = StableHlo.after (L0_20 (F := F)) V (Proc.devRef .tc r) := rfl
noncomputable def U0_20 : List (Ref sig .tc) := [main_v170, main_cst_41, main_v171, main_v172, main_v174, main_cst_42, main_v175]
theorem openU0_20 (V : Valuation τ sig (Elt F)) {r : Ref sig .tc} (h : r ∈ U0_20) :
    StableHlo.after (C0_20 (F := F)) V (no_index (Proc.devRef .tc r)) = StableHlo.after (L0_20 (F := F)) V (Proc.devRef .tc r) := rfl
set_option maxHeartbeats 4000000 in
theorem st_main_v173 (V : Valuation τ sig (Elt F)) :
    StableHlo.after (C0_20 (F := F)) (StableHlo.after (C0_19 (F := F)) (StableHlo.after (C0_18 (F := F)) (StableHlo.after (C0_17 (F := F)) (StableHlo.after (C0_16 (F := F)) (StableHlo.after (C0_15 (F := F)) (StableHlo.after (C0_14 (F := F)) (StableHlo.after (C0_13 (F := F)) (StableHlo.after (C0_12 (F := F)) (StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V)))))))))))))))))))) (no_index (Proc.devRef .tc main_v173))
      = Cert.ReferenceIdeal.Read.val_main_v173 (F := F) (V (Proc.devRef .tc main_arg0)) (V (Proc.devRef .tc main_arg1)) := by
  simp (disch := decide) only [skip0_0, skip0_1, skip0_2, skip0_3, skip0_4, skip0_5, skip0_6, skip0_7, skip0_8, skip0_9, skip0_10, skip0_11, skip0_12, skip0_13, skip0_14, skip0_15, skip0_16, skip0_17, skip0_18, skip0_19, open0_20, L0_20, st_main_v145, st_main_v169, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v176 (V : Valuation τ sig (Elt F)) :
    StableHlo.after (C0_20 (F := F)) (StableHlo.after (C0_19 (F := F)) (StableHlo.after (C0_18 (F := F)) (StableHlo.after (C0_17 (F := F)) (StableHlo.after (C0_16 (F := F)) (StableHlo.after (C0_15 (F := F)) (StableHlo.after (C0_14 (F := F)) (StableHlo.after (C0_13 (F := F)) (StableHlo.after (C0_12 (F := F)) (StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V)))))))))))))))))))) (no_index (Proc.devRef .tc main_v176))
      = Cert.ReferenceIdeal.Read.val_main_v176 (F := F) (V (Proc.devRef .tc main_arg0)) (V (Proc.devRef .tc main_arg1)) := by
  simp (disch := decide) only [skip0_0, skip0_1, skip0_2, skip0_3, skip0_4, skip0_5, skip0_6, skip0_7, skip0_8, skip0_9, skip0_10, skip0_11, skip0_12, skip0_13, skip0_14, skip0_15, skip0_16, skip0_17, skip0_18, skip0_19, open0_20, L0_20, st_main_v145, st_main_v169, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v177 (V : Valuation τ sig (Elt F)) :
    StableHlo.after (C0_20 (F := F)) (StableHlo.after (C0_19 (F := F)) (StableHlo.after (C0_18 (F := F)) (StableHlo.after (C0_17 (F := F)) (StableHlo.after (C0_16 (F := F)) (StableHlo.after (C0_15 (F := F)) (StableHlo.after (C0_14 (F := F)) (StableHlo.after (C0_13 (F := F)) (StableHlo.after (C0_12 (F := F)) (StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V)))))))))))))))))))) (no_index (Proc.devRef .tc main_v177))
      = Cert.ReferenceIdeal.Read.val_main_v177 (F := F) (V (Proc.devRef .tc main_arg1)) (V (Proc.devRef .tc main_arg2)) (V (Proc.devRef .tc main_arg3)) (V (Proc.devRef .tc main_arg4)) := by
  simp (disch := decide) only [skip0_0, skip0_1, skip0_2, skip0_3, skip0_4, skip0_5, skip0_6, skip0_7, skip0_8, skip0_9, skip0_10, skip0_11, skip0_12, skip0_13, skip0_14, skip0_15, skip0_16, skip0_17, skip0_18, skip0_19, open0_20, L0_20, st_main_v139, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v178 (V : Valuation τ sig (Elt F)) :
    StableHlo.after (C0_20 (F := F)) (StableHlo.after (C0_19 (F := F)) (StableHlo.after (C0_18 (F := F)) (StableHlo.after (C0_17 (F := F)) (StableHlo.after (C0_16 (F := F)) (StableHlo.after (C0_15 (F := F)) (StableHlo.after (C0_14 (F := F)) (StableHlo.after (C0_13 (F := F)) (StableHlo.after (C0_12 (F := F)) (StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V)))))))))))))))))))) (no_index (Proc.devRef .tc main_v178))
      = Cert.ReferenceIdeal.Read.val_main_v178 (F := F) (V (Proc.devRef .tc main_arg1)) (V (Proc.devRef .tc main_arg2)) (V (Proc.devRef .tc main_arg3)) (V (Proc.devRef .tc main_arg4)) := by
  simp (disch := decide) only [skip0_0, skip0_1, skip0_2, skip0_3, skip0_4, skip0_5, skip0_6, skip0_7, skip0_8, skip0_9, skip0_10, skip0_11, skip0_12, skip0_13, skip0_14, skip0_15, skip0_16, skip0_17, skip0_18, skip0_19, open0_20, L0_20, st_main_v139, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v179 (V : Valuation τ sig (Elt F)) :
    StableHlo.after (C0_20 (F := F)) (StableHlo.after (C0_19 (F := F)) (StableHlo.after (C0_18 (F := F)) (StableHlo.after (C0_17 (F := F)) (StableHlo.after (C0_16 (F := F)) (StableHlo.after (C0_15 (F := F)) (StableHlo.after (C0_14 (F := F)) (StableHlo.after (C0_13 (F := F)) (StableHlo.after (C0_12 (F := F)) (StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V)))))))))))))))))))) (no_index (Proc.devRef .tc main_v179))
      = Cert.ReferenceIdeal.Read.val_main_v179 (F := F) (V (Proc.devRef .tc main_arg0)) (V (Proc.devRef .tc main_arg1)) (V (Proc.devRef .tc main_arg2)) (V (Proc.devRef .tc main_arg3)) (V (Proc.devRef .tc main_arg4)) := by
  simp (disch := decide) only [skip0_0, skip0_1, skip0_2, skip0_3, skip0_4, skip0_5, skip0_6, skip0_7, skip0_8, skip0_9, skip0_10, skip0_11, skip0_12, skip0_13, skip0_14, skip0_15, skip0_16, skip0_17, skip0_18, skip0_19, open0_20, L0_20, st_main_v145, st_main_v169, st_main_v139, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L0_21 : List (HloOp τ sig (Elt F)) :=
  [ binary main_v179 main_v178 main_v180 (mulf : (⟨S8x225, .f32⟩ : BufTy).Contents (Elt F) → (⟨S8x225, .f32⟩ : BufTy).Contents (Elt F) → (⟨S8x225, .f32⟩ : BufTy).Contents (Elt F)),
    binary main_v173 main_v177 main_v181 (mulf : (⟨S8x225, .f32⟩ : BufTy).Contents (Elt F) → (⟨S8x225, .f32⟩ : BufTy).Contents (Elt F) → (⟨S8x225, .f32⟩ : BufTy).Contents (Elt F)),
    binary main_v181 main_v177 main_v182 (mulf : (⟨S8x225, .f32⟩ : BufTy).Contents (Elt F) → (⟨S8x225, .f32⟩ : BufTy).Contents (Elt F) → (⟨S8x225, .f32⟩ : BufTy).Contents (Elt F)),
    binary main_v180 main_v182 main_v183 (addf : (⟨S8x225, .f32⟩ : BufTy).Contents (Elt F) → (⟨S8x225, .f32⟩ : BufTy).Contents (Elt F) → (⟨S8x225, .f32⟩ : BufTy).Contents (Elt F)),
    binary main_v176 main_v173 main_v184 (subf : (⟨S8x225, .f32⟩ : BufTy).Contents (Elt F) → (⟨S8x225, .f32⟩ : BufTy).Contents (Elt F) → (⟨S8x225, .f32⟩ : BufTy).Contents (Elt F)),
    binary main_v184 main_v177 main_v185 (mulf : (⟨S8x225, .f32⟩ : BufTy).Contents (Elt F) → (⟨S8x225, .f32⟩ : BufTy).Contents (Elt F) → (⟨S8x225, .f32⟩ : BufTy).Contents (Elt F)),
    binary main_v185 main_v178 main_v186 (mulf : (⟨S8x225, .f32⟩ : BufTy).Contents (Elt F) → (⟨S8x225, .f32⟩ : BufTy).Contents (Elt F) → (⟨S8x225, .f32⟩ : BufTy).Contents (Elt F)),
    binary main_v176 main_v177 main_v187 (mulf : (⟨S8x225, .f32⟩ : BufTy).Contents (Elt F) → (⟨S8x225, .f32⟩ : BufTy).Contents (Elt F) → (⟨S8x225, .f32⟩ : BufTy).Contents (Elt F)),
    binary main_v187 main_v177 main_v188 (mulf : (⟨S8x225, .f32⟩ : BufTy).Contents (Elt F) → (⟨S8x225, .f32⟩ : BufTy).Contents (Elt F) → (⟨S8x225, .f32⟩ : BufTy).Contents (Elt F)),
    binary main_v173 main_v178 main_v189 (mulf : (⟨S8x225, .f32⟩ : BufTy).Contents (Elt F) → (⟨S8x225, .f32⟩ : BufTy).Contents (Elt F) → (⟨S8x225, .f32⟩ : BufTy).Contents (Elt F)),
    binary main_v189 main_v178 main_v190 (mulf : (⟨S8x225, .f32⟩ : BufTy).Contents (Elt F) → (⟨S8x225, .f32⟩ : BufTy).Contents (Elt F) → (⟨S8x225, .f32⟩ : BufTy).Contents (Elt F)),
    binary main_v188 main_v190 main_v191 (addf : (⟨S8x225, .f32⟩ : BufTy).Contents (Elt F) → (⟨S8x225, .f32⟩ : BufTy).Contents (Elt F) → (⟨S8x225, .f32⟩ : BufTy).Contents (Elt F)) ]
def C0_21 : List (HloOp τ sig (Elt F)) := L0_21
noncomputable def W0_21 : List (Ref sig .tc) := [main_v180, main_v181, main_v182, main_v183, main_v184, main_v185, main_v186, main_v187, main_v188, main_v189, main_v190, main_v191]
set_option maxHeartbeats 4000000 in
theorem writes0_21 : (C0_21 (F := F)).Forall fun op => op.writes ⊆ (W0_21.map (Proc.devRef (τ := τ) .tc)).toFinset := by
  simp only [C0_21, L0_21, List.Forall, nullary_writes, unary_writes, binary_writes, ternary_writes, quaternary_writes, reshape_writes, nary_writes, unaryIndexed_writes, binaryIndexed_writes]
  repeat' apply And.intro
  all_goals exact sub_of_mem (by decide)
theorem skip0_21 (V : Valuation τ sig (Elt F)) {r : Ref sig .tc} (h : r ∉ W0_21) :
    StableHlo.after (C0_21 (F := F)) V (no_index (Proc.devRef .tc r)) = V (Proc.devRef .tc r) :=
  after_of_writes_sub _ V writes0_21 h
theorem open0_21 (V : Valuation τ sig (Elt F)) {r : Ref sig .tc} (h : r ∈ W0_21) :
    StableHlo.after (C0_21 (F := F)) V (no_index (Proc.devRef .tc r)) = StableHlo.after (L0_21 (F := F)) V (Proc.devRef .tc r) := rfl
noncomputable def U0_21 : List (Ref sig .tc) := [main_v180, main_v181, main_v182, main_v184, main_v185, main_v187, main_v188, main_v189, main_v190]
theorem openU0_21 (V : Valuation τ sig (Elt F)) {r : Ref sig .tc} (h : r ∈ U0_21) :
    StableHlo.after (C0_21 (F := F)) V (no_index (Proc.devRef .tc r)) = StableHlo.after (L0_21 (F := F)) V (Proc.devRef .tc r) := rfl
set_option maxHeartbeats 4000000 in
theorem st_main_v183 (V : Valuation τ sig (Elt F)) :
    StableHlo.after (C0_21 (F := F)) (StableHlo.after (C0_20 (F := F)) (StableHlo.after (C0_19 (F := F)) (StableHlo.after (C0_18 (F := F)) (StableHlo.after (C0_17 (F := F)) (StableHlo.after (C0_16 (F := F)) (StableHlo.after (C0_15 (F := F)) (StableHlo.after (C0_14 (F := F)) (StableHlo.after (C0_13 (F := F)) (StableHlo.after (C0_12 (F := F)) (StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V))))))))))))))))))))) (no_index (Proc.devRef .tc main_v183))
      = Cert.ReferenceIdeal.Read.val_main_v183 (F := F) (V (Proc.devRef .tc main_arg0)) (V (Proc.devRef .tc main_arg1)) (V (Proc.devRef .tc main_arg2)) (V (Proc.devRef .tc main_arg3)) (V (Proc.devRef .tc main_arg4)) := by
  simp (disch := decide) only [skip0_0, skip0_1, skip0_2, skip0_3, skip0_4, skip0_5, skip0_6, skip0_7, skip0_8, skip0_9, skip0_10, skip0_11, skip0_12, skip0_13, skip0_14, skip0_15, skip0_16, skip0_17, skip0_18, skip0_19, skip0_20, open0_21, L0_21, st_main_v179, st_main_v178, st_main_v173, st_main_v177, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v186 (V : Valuation τ sig (Elt F)) :
    StableHlo.after (C0_21 (F := F)) (StableHlo.after (C0_20 (F := F)) (StableHlo.after (C0_19 (F := F)) (StableHlo.after (C0_18 (F := F)) (StableHlo.after (C0_17 (F := F)) (StableHlo.after (C0_16 (F := F)) (StableHlo.after (C0_15 (F := F)) (StableHlo.after (C0_14 (F := F)) (StableHlo.after (C0_13 (F := F)) (StableHlo.after (C0_12 (F := F)) (StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V))))))))))))))))))))) (no_index (Proc.devRef .tc main_v186))
      = Cert.ReferenceIdeal.Read.val_main_v186 (F := F) (V (Proc.devRef .tc main_arg0)) (V (Proc.devRef .tc main_arg1)) (V (Proc.devRef .tc main_arg2)) (V (Proc.devRef .tc main_arg3)) (V (Proc.devRef .tc main_arg4)) := by
  simp (disch := decide) only [skip0_0, skip0_1, skip0_2, skip0_3, skip0_4, skip0_5, skip0_6, skip0_7, skip0_8, skip0_9, skip0_10, skip0_11, skip0_12, skip0_13, skip0_14, skip0_15, skip0_16, skip0_17, skip0_18, skip0_19, skip0_20, open0_21, L0_21, st_main_v176, st_main_v173, st_main_v177, st_main_v178, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v191 (V : Valuation τ sig (Elt F)) :
    StableHlo.after (C0_21 (F := F)) (StableHlo.after (C0_20 (F := F)) (StableHlo.after (C0_19 (F := F)) (StableHlo.after (C0_18 (F := F)) (StableHlo.after (C0_17 (F := F)) (StableHlo.after (C0_16 (F := F)) (StableHlo.after (C0_15 (F := F)) (StableHlo.after (C0_14 (F := F)) (StableHlo.after (C0_13 (F := F)) (StableHlo.after (C0_12 (F := F)) (StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V))))))))))))))))))))) (no_index (Proc.devRef .tc main_v191))
      = Cert.ReferenceIdeal.Read.val_main_v191 (F := F) (V (Proc.devRef .tc main_arg0)) (V (Proc.devRef .tc main_arg1)) (V (Proc.devRef .tc main_arg2)) (V (Proc.devRef .tc main_arg3)) (V (Proc.devRef .tc main_arg4)) := by
  simp (disch := decide) only [skip0_0, skip0_1, skip0_2, skip0_3, skip0_4, skip0_5, skip0_6, skip0_7, skip0_8, skip0_9, skip0_10, skip0_11, skip0_12, skip0_13, skip0_14, skip0_15, skip0_16, skip0_17, skip0_18, skip0_19, skip0_20, open0_21, L0_21, st_main_v176, st_main_v177, st_main_v173, st_main_v178, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L0_22 : List (HloOp τ sig (Elt F)) :=
  [ binary main_v183 main_v191 main_v192 (mulf : (⟨S8x225, .f32⟩ : BufTy).Contents (Elt F) → (⟨S8x225, .f32⟩ : BufTy).Contents (Elt F) → (⟨S8x225, .f32⟩ : BufTy).Contents (Elt F)),
    binary main_v186 main_v186 main_v193 (mulf : (⟨S8x225, .f32⟩ : BufTy).Contents (Elt F) → (⟨S8x225, .f32⟩ : BufTy).Contents (Elt F) → (⟨S8x225, .f32⟩ : BufTy).Contents (Elt F)),
    binary main_v192 main_v193 main_v194 (subf : (⟨S8x225, .f32⟩ : BufTy).Contents (Elt F) → (⟨S8x225, .f32⟩ : BufTy).Contents (Elt F) → (⟨S8x225, .f32⟩ : BufTy).Contents (Elt F)),
    binary main_v191 main_v194 main_v195 (Host.divf : (⟨S8x225, .f32⟩ : BufTy).Contents (Elt F) → (⟨S8x225, .f32⟩ : BufTy).Contents (Elt F) → (⟨S8x225, .f32⟩ : BufTy).Contents (Elt F)),
    unary main_v186 main_v196 (Host.negf : (⟨S8x225, .f32⟩ : BufTy).Contents (Elt F) → (⟨S8x225, .f32⟩ : BufTy).Contents (Elt F)),
    binary main_v196 main_v194 main_v197 (Host.divf : (⟨S8x225, .f32⟩ : BufTy).Contents (Elt F) → (⟨S8x225, .f32⟩ : BufTy).Contents (Elt F) → (⟨S8x225, .f32⟩ : BufTy).Contents (Elt F)),
    binary main_v183 main_v194 main_v198 (Host.divf : (⟨S8x225, .f32⟩ : BufTy).Contents (Elt F) → (⟨S8x225, .f32⟩ : BufTy).Contents (Elt F) → (⟨S8x225, .f32⟩ : BufTy).Contents (Elt F)),
    nullary main_cst_43 (constant S_ .f32 0x438C0000#32),
    unary main_cst_43 main_v199 (broadcastInDim S8x225 ![] bcast_S_S8x225 : (⟨S_, .f32⟩ : BufTy).Contents (Elt F) → (⟨S8x225, .f32⟩ : BufTy).Contents (Elt F)),
    binary main_v28 main_v199 main_v200 (Host.divf : (⟨S8x225, .f32⟩ : BufTy).Contents (Elt F) → (⟨S8x225, .f32⟩ : BufTy).Contents (Elt F) → (⟨S8x225, .f32⟩ : BufTy).Contents (Elt F)),
    nullary main_cst_44 (constant S_ .f32 0xC1700000#32),
    unary main_cst_44 main_v201 (broadcastInDim S8x225 ![] bcast_S_S8x225 : (⟨S_, .f32⟩ : BufTy).Contents (Elt F) → (⟨S8x225, .f32⟩ : BufTy).Contents (Elt F)) ]
def C0_22 : List (HloOp τ sig (Elt F)) := L0_22
noncomputable def W0_22 : List (Ref sig .tc) := [main_v192, main_v193, main_v194, main_v195, main_v196, main_v197, main_v198, main_cst_43, main_v199, main_v200, main_cst_44, main_v201]
set_option maxHeartbeats 4000000 in
theorem writes0_22 : (C0_22 (F := F)).Forall fun op => op.writes ⊆ (W0_22.map (Proc.devRef (τ := τ) .tc)).toFinset := by
  simp only [C0_22, L0_22, List.Forall, nullary_writes, unary_writes, binary_writes, ternary_writes, quaternary_writes, reshape_writes, nary_writes, unaryIndexed_writes, binaryIndexed_writes]
  repeat' apply And.intro
  all_goals exact sub_of_mem (by decide)
theorem skip0_22 (V : Valuation τ sig (Elt F)) {r : Ref sig .tc} (h : r ∉ W0_22) :
    StableHlo.after (C0_22 (F := F)) V (no_index (Proc.devRef .tc r)) = V (Proc.devRef .tc r) :=
  after_of_writes_sub _ V writes0_22 h
theorem open0_22 (V : Valuation τ sig (Elt F)) {r : Ref sig .tc} (h : r ∈ W0_22) :
    StableHlo.after (C0_22 (F := F)) V (no_index (Proc.devRef .tc r)) = StableHlo.after (L0_22 (F := F)) V (Proc.devRef .tc r) := rfl
noncomputable def U0_22 : List (Ref sig .tc) := [main_v192, main_v193, main_v194, main_v196, main_cst_43, main_v199, main_cst_44]
theorem openU0_22 (V : Valuation τ sig (Elt F)) {r : Ref sig .tc} (h : r ∈ U0_22) :
    StableHlo.after (C0_22 (F := F)) V (no_index (Proc.devRef .tc r)) = StableHlo.after (L0_22 (F := F)) V (Proc.devRef .tc r) := rfl
set_option maxHeartbeats 4000000 in
theorem st_main_v195 (V : Valuation τ sig (Elt F)) :
    StableHlo.after (C0_22 (F := F)) (StableHlo.after (C0_21 (F := F)) (StableHlo.after (C0_20 (F := F)) (StableHlo.after (C0_19 (F := F)) (StableHlo.after (C0_18 (F := F)) (StableHlo.after (C0_17 (F := F)) (StableHlo.after (C0_16 (F := F)) (StableHlo.after (C0_15 (F := F)) (StableHlo.after (C0_14 (F := F)) (StableHlo.after (C0_13 (F := F)) (StableHlo.after (C0_12 (F := F)) (StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V)))))))))))))))))))))) (no_index (Proc.devRef .tc main_v195))
      = Cert.ReferenceIdeal.Read.val_main_v195 (F := F) (V (Proc.devRef .tc main_arg0)) (V (Proc.devRef .tc main_arg1)) (V (Proc.devRef .tc main_arg2)) (V (Proc.devRef .tc main_arg3)) (V (Proc.devRef .tc main_arg4)) := by
  simp (disch := decide) only [skip0_0, skip0_1, skip0_2, skip0_3, skip0_4, skip0_5, skip0_6, skip0_7, skip0_8, skip0_9, skip0_10, skip0_11, skip0_12, skip0_13, skip0_14, skip0_15, skip0_16, skip0_17, skip0_18, skip0_19, skip0_20, skip0_21, open0_22, L0_22, st_main_v191, st_main_v183, st_main_v186, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v197 (V : Valuation τ sig (Elt F)) :
    StableHlo.after (C0_22 (F := F)) (StableHlo.after (C0_21 (F := F)) (StableHlo.after (C0_20 (F := F)) (StableHlo.after (C0_19 (F := F)) (StableHlo.after (C0_18 (F := F)) (StableHlo.after (C0_17 (F := F)) (StableHlo.after (C0_16 (F := F)) (StableHlo.after (C0_15 (F := F)) (StableHlo.after (C0_14 (F := F)) (StableHlo.after (C0_13 (F := F)) (StableHlo.after (C0_12 (F := F)) (StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V)))))))))))))))))))))) (no_index (Proc.devRef .tc main_v197))
      = Cert.ReferenceIdeal.Read.val_main_v197 (F := F) (V (Proc.devRef .tc main_arg0)) (V (Proc.devRef .tc main_arg1)) (V (Proc.devRef .tc main_arg2)) (V (Proc.devRef .tc main_arg3)) (V (Proc.devRef .tc main_arg4)) := by
  simp (disch := decide) only [skip0_0, skip0_1, skip0_2, skip0_3, skip0_4, skip0_5, skip0_6, skip0_7, skip0_8, skip0_9, skip0_10, skip0_11, skip0_12, skip0_13, skip0_14, skip0_15, skip0_16, skip0_17, skip0_18, skip0_19, skip0_20, skip0_21, open0_22, L0_22, st_main_v186, st_main_v183, st_main_v191, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v198 (V : Valuation τ sig (Elt F)) :
    StableHlo.after (C0_22 (F := F)) (StableHlo.after (C0_21 (F := F)) (StableHlo.after (C0_20 (F := F)) (StableHlo.after (C0_19 (F := F)) (StableHlo.after (C0_18 (F := F)) (StableHlo.after (C0_17 (F := F)) (StableHlo.after (C0_16 (F := F)) (StableHlo.after (C0_15 (F := F)) (StableHlo.after (C0_14 (F := F)) (StableHlo.after (C0_13 (F := F)) (StableHlo.after (C0_12 (F := F)) (StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V)))))))))))))))))))))) (no_index (Proc.devRef .tc main_v198))
      = Cert.ReferenceIdeal.Read.val_main_v198 (F := F) (V (Proc.devRef .tc main_arg0)) (V (Proc.devRef .tc main_arg1)) (V (Proc.devRef .tc main_arg2)) (V (Proc.devRef .tc main_arg3)) (V (Proc.devRef .tc main_arg4)) := by
  simp (disch := decide) only [skip0_0, skip0_1, skip0_2, skip0_3, skip0_4, skip0_5, skip0_6, skip0_7, skip0_8, skip0_9, skip0_10, skip0_11, skip0_12, skip0_13, skip0_14, skip0_15, skip0_16, skip0_17, skip0_18, skip0_19, skip0_20, skip0_21, open0_22, L0_22, st_main_v183, st_main_v191, st_main_v186, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v200 (V : Valuation τ sig (Elt F)) :
    StableHlo.after (C0_22 (F := F)) (StableHlo.after (C0_21 (F := F)) (StableHlo.after (C0_20 (F := F)) (StableHlo.after (C0_19 (F := F)) (StableHlo.after (C0_18 (F := F)) (StableHlo.after (C0_17 (F := F)) (StableHlo.after (C0_16 (F := F)) (StableHlo.after (C0_15 (F := F)) (StableHlo.after (C0_14 (F := F)) (StableHlo.after (C0_13 (F := F)) (StableHlo.after (C0_12 (F := F)) (StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V)))))))))))))))))))))) (no_index (Proc.devRef .tc main_v200))
      = Cert.ReferenceIdeal.Read.val_main_v200 (F := F) (V (Proc.devRef .tc main_arg1)) (V (Proc.devRef .tc main_arg2)) (V (Proc.devRef .tc main_arg3)) := by
  simp (disch := decide) only [skip0_0, skip0_1, skip0_2, skip0_3, skip0_4, skip0_5, skip0_6, skip0_7, skip0_8, skip0_9, skip0_10, skip0_11, skip0_12, skip0_13, skip0_14, skip0_15, skip0_16, skip0_17, skip0_18, skip0_19, skip0_20, skip0_21, open0_22, L0_22, st_main_v28, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v201 (V : Valuation τ sig (Elt F)) :
    StableHlo.after (C0_22 (F := F)) (StableHlo.after (C0_21 (F := F)) (StableHlo.after (C0_20 (F := F)) (StableHlo.after (C0_19 (F := F)) (StableHlo.after (C0_18 (F := F)) (StableHlo.after (C0_17 (F := F)) (StableHlo.after (C0_16 (F := F)) (StableHlo.after (C0_15 (F := F)) (StableHlo.after (C0_14 (F := F)) (StableHlo.after (C0_13 (F := F)) (StableHlo.after (C0_12 (F := F)) (StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V)))))))))))))))))))))) (no_index (Proc.devRef .tc main_v201))
      = Cert.ReferenceIdeal.Read.val_main_v201 (F := F) := by
  simp (disch := decide) only [skip0_0, skip0_1, skip0_2, skip0_3, skip0_4, skip0_5, skip0_6, skip0_7, skip0_8, skip0_9, skip0_10, skip0_11, skip0_12, skip0_13, skip0_14, skip0_15, skip0_16, skip0_17, skip0_18, skip0_19, skip0_20, skip0_21, open0_22, L0_22, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L0_23 : List (HloOp τ sig (Elt F)) :=
  [ binary main_v200 main_v201 main_v202 (subf : (⟨S8x225, .f32⟩ : BufTy).Contents (Elt F) → (⟨S8x225, .f32⟩ : BufTy).Contents (Elt F) → (⟨S8x225, .f32⟩ : BufTy).Contents (Elt F)),
    nullary main_cst_45 (constant S_ .f32 0x3E800000#32),
    unary main_cst_45 main_v203 (broadcastInDim S8x225 ![] bcast_S_S8x225 : (⟨S_, .f32⟩ : BufTy).Contents (Elt F) → (⟨S8x225, .f32⟩ : BufTy).Contents (Elt F)),
    binary main_v202 main_v203 main_v204 (Host.divf : (⟨S8x225, .f32⟩ : BufTy).Contents (Elt F) → (⟨S8x225, .f32⟩ : BufTy).Contents (Elt F) → (⟨S8x225, .f32⟩ : BufTy).Contents (Elt F)),
    nullary main_cst_46 (constant S_ .f32 0x438C0000#32),
    unary main_cst_46 main_v205 (broadcastInDim S8x225 ![] bcast_S_S8x225 : (⟨S_, .f32⟩ : BufTy).Contents (Elt F) → (⟨S8x225, .f32⟩ : BufTy).Contents (Elt F)),
    binary main_v37 main_v205 main_v206 (Host.divf : (⟨S8x225, .f32⟩ : BufTy).Contents (Elt F) → (⟨S8x225, .f32⟩ : BufTy).Contents (Elt F) → (⟨S8x225, .f32⟩ : BufTy).Contents (Elt F)),
    nullary main_cst_47 (constant S_ .f32 0xC1700000#32),
    unary main_cst_47 main_v207 (broadcastInDim S8x225 ![] bcast_S_S8x225 : (⟨S_, .f32⟩ : BufTy).Contents (Elt F) → (⟨S8x225, .f32⟩ : BufTy).Contents (Elt F)),
    binary main_v206 main_v207 main_v208 (subf : (⟨S8x225, .f32⟩ : BufTy).Contents (Elt F) → (⟨S8x225, .f32⟩ : BufTy).Contents (Elt F) → (⟨S8x225, .f32⟩ : BufTy).Contents (Elt F)),
    nullary main_cst_48 (constant S_ .f32 0x3E800000#32),
    unary main_cst_48 main_v209 (broadcastInDim S8x225 ![] bcast_S_S8x225 : (⟨S_, .f32⟩ : BufTy).Contents (Elt F) → (⟨S8x225, .f32⟩ : BufTy).Contents (Elt F)) ]
def C0_23 : List (HloOp τ sig (Elt F)) := L0_23
noncomputable def W0_23 : List (Ref sig .tc) := [main_v202, main_cst_45, main_v203, main_v204, main_cst_46, main_v205, main_v206, main_cst_47, main_v207, main_v208, main_cst_48, main_v209]
set_option maxHeartbeats 4000000 in
theorem writes0_23 : (C0_23 (F := F)).Forall fun op => op.writes ⊆ (W0_23.map (Proc.devRef (τ := τ) .tc)).toFinset := by
  simp only [C0_23, L0_23, List.Forall, nullary_writes, unary_writes, binary_writes, ternary_writes, quaternary_writes, reshape_writes, nary_writes, unaryIndexed_writes, binaryIndexed_writes]
  repeat' apply And.intro
  all_goals exact sub_of_mem (by decide)
theorem skip0_23 (V : Valuation τ sig (Elt F)) {r : Ref sig .tc} (h : r ∉ W0_23) :
    StableHlo.after (C0_23 (F := F)) V (no_index (Proc.devRef .tc r)) = V (Proc.devRef .tc r) :=
  after_of_writes_sub _ V writes0_23 h
theorem open0_23 (V : Valuation τ sig (Elt F)) {r : Ref sig .tc} (h : r ∈ W0_23) :
    StableHlo.after (C0_23 (F := F)) V (no_index (Proc.devRef .tc r)) = StableHlo.after (L0_23 (F := F)) V (Proc.devRef .tc r) := rfl
noncomputable def U0_23 : List (Ref sig .tc) := [main_v202, main_cst_45, main_v203, main_cst_46, main_v205, main_v206, main_cst_47, main_v207, main_cst_48]
theorem openU0_23 (V : Valuation τ sig (Elt F)) {r : Ref sig .tc} (h : r ∈ U0_23) :
    StableHlo.after (C0_23 (F := F)) V (no_index (Proc.devRef .tc r)) = StableHlo.after (L0_23 (F := F)) V (Proc.devRef .tc r) := rfl
set_option maxHeartbeats 4000000 in
theorem st_main_v204 (V : Valuation τ sig (Elt F)) :
    StableHlo.after (C0_23 (F := F)) (StableHlo.after (C0_22 (F := F)) (StableHlo.after (C0_21 (F := F)) (StableHlo.after (C0_20 (F := F)) (StableHlo.after (C0_19 (F := F)) (StableHlo.after (C0_18 (F := F)) (StableHlo.after (C0_17 (F := F)) (StableHlo.after (C0_16 (F := F)) (StableHlo.after (C0_15 (F := F)) (StableHlo.after (C0_14 (F := F)) (StableHlo.after (C0_13 (F := F)) (StableHlo.after (C0_12 (F := F)) (StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V))))))))))))))))))))))) (no_index (Proc.devRef .tc main_v204))
      = Cert.ReferenceIdeal.Read.val_main_v204 (F := F) (V (Proc.devRef .tc main_arg1)) (V (Proc.devRef .tc main_arg2)) (V (Proc.devRef .tc main_arg3)) := by
  simp (disch := decide) only [skip0_0, skip0_1, skip0_2, skip0_3, skip0_4, skip0_5, skip0_6, skip0_7, skip0_8, skip0_9, skip0_10, skip0_11, skip0_12, skip0_13, skip0_14, skip0_15, skip0_16, skip0_17, skip0_18, skip0_19, skip0_20, skip0_21, skip0_22, open0_23, L0_23, st_main_v200, st_main_v201, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v208 (V : Valuation τ sig (Elt F)) :
    StableHlo.after (C0_23 (F := F)) (StableHlo.after (C0_22 (F := F)) (StableHlo.after (C0_21 (F := F)) (StableHlo.after (C0_20 (F := F)) (StableHlo.after (C0_19 (F := F)) (StableHlo.after (C0_18 (F := F)) (StableHlo.after (C0_17 (F := F)) (StableHlo.after (C0_16 (F := F)) (StableHlo.after (C0_15 (F := F)) (StableHlo.after (C0_14 (F := F)) (StableHlo.after (C0_13 (F := F)) (StableHlo.after (C0_12 (F := F)) (StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V))))))))))))))))))))))) (no_index (Proc.devRef .tc main_v208))
      = Cert.ReferenceIdeal.Read.val_main_v208 (F := F) (V (Proc.devRef .tc main_arg1)) (V (Proc.devRef .tc main_arg2)) (V (Proc.devRef .tc main_arg3)) := by
  simp (disch := decide) only [skip0_0, skip0_1, skip0_2, skip0_3, skip0_4, skip0_5, skip0_6, skip0_7, skip0_8, skip0_9, skip0_10, skip0_11, skip0_12, skip0_13, skip0_14, skip0_15, skip0_16, skip0_17, skip0_18, skip0_19, skip0_20, skip0_21, skip0_22, open0_23, L0_23, st_main_v37, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v209 (V : Valuation τ sig (Elt F)) :
    StableHlo.after (C0_23 (F := F)) (StableHlo.after (C0_22 (F := F)) (StableHlo.after (C0_21 (F := F)) (StableHlo.after (C0_20 (F := F)) (StableHlo.after (C0_19 (F := F)) (StableHlo.after (C0_18 (F := F)) (StableHlo.after (C0_17 (F := F)) (StableHlo.after (C0_16 (F := F)) (StableHlo.after (C0_15 (F := F)) (StableHlo.after (C0_14 (F := F)) (StableHlo.after (C0_13 (F := F)) (StableHlo.after (C0_12 (F := F)) (StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V))))))))))))))))))))))) (no_index (Proc.devRef .tc main_v209))
      = Cert.ReferenceIdeal.Read.val_main_v209 (F := F) := by
  simp (disch := decide) only [skip0_0, skip0_1, skip0_2, skip0_3, skip0_4, skip0_5, skip0_6, skip0_7, skip0_8, skip0_9, skip0_10, skip0_11, skip0_12, skip0_13, skip0_14, skip0_15, skip0_16, skip0_17, skip0_18, skip0_19, skip0_20, skip0_21, skip0_22, open0_23, L0_23, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

end Cert.Percept.RefChunks

end
-- ==== Proof.RefChunks5.lean ====
/-
  The reference's 335 host operations cut into short runs, and how one buffer is read after them.

  The operations are straight-line: each writes one buffer of its own. After a run of operations that does not write a
  buffer r, r holds what it held before (skip); after a run that does, r holds what the run's own operations leave (open).
  Each buffer that a later run reads holds, right after its run, its stage of the per-operation reading applied to the
  argument arrays (st_…): one run is opened per buffer, and what it reads from earlier runs is already a stage.
  (Runs 25 to 28 of 28.)
-/
import proofs.«134758_j41807211659417_2_alg».proof.Proof.RefChunks4

set_option maxRecDepth 16384

noncomputable section

namespace Cert.Percept.RefChunks

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

set_option maxHeartbeats 4000000 in
abbrev L0_24 : List (HloOp τ sig (Elt F)) :=
  [ binary main_v208 main_v209 main_v210 (Host.divf : (⟨S8x225, .f32⟩ : BufTy).Contents (Elt F) → (⟨S8x225, .f32⟩ : BufTy).Contents (Elt F) → (⟨S8x225, .f32⟩ : BufTy).Contents (Elt F)),
    nullary main_cst_49 (constant S_ .f32 0x42F20000#32),
    unary main_cst_49 main_v211 (broadcastInDim S8x225 ![] bcast_S_S8x225 : (⟨S_, .f32⟩ : BufTy).Contents (Elt F) → (⟨S8x225, .f32⟩ : BufTy).Contents (Elt F)),
    binary main_v211 main_v210 main_v212 (subf : (⟨S8x225, .f32⟩ : BufTy).Contents (Elt F) → (⟨S8x225, .f32⟩ : BufTy).Contents (Elt F) → (⟨S8x225, .f32⟩ : BufTy).Contents (Elt F)),
    unary main_arg5 main_v213 ((extractStridedSlice S14641x1 ![0, 0] · slices_S14641x2_S14641x1_0_0) : (⟨S14641x2, .f32⟩ : BufTy).Contents (Elt F) → (⟨S14641x1, .f32⟩ : BufTy).Contents (Elt F)),
    reshape main_v213 main_v214 rfl shapeCasts_S14641x1_S14641,
    unary main_v214 main_v215 (broadcastInDim S14641x1x1 ![0] bcast_S14641_S14641x1x1_0 : (⟨S14641, .f32⟩ : BufTy).Contents (Elt F) → (⟨S14641x1x1, .f32⟩ : BufTy).Contents (Elt F)),
    unary main_v204 main_v216 (broadcastInDim S1x8x225 ![1, 2] bcast_S8x225_S1x8x225_1_2 : (⟨S8x225, .f32⟩ : BufTy).Contents (Elt F) → (⟨S1x8x225, .f32⟩ : BufTy).Contents (Elt F)),
    unary main_v215 main_v217 (broadcastInDim S14641x8x225 ![0, 1, 2] bcast_S14641x1x1_S14641x8x225_0_1_2 : (⟨S14641x1x1, .f32⟩ : BufTy).Contents (Elt F) → (⟨S14641x8x225, .f32⟩ : BufTy).Contents (Elt F)),
    unary main_v216 main_v218 (broadcastInDim S14641x8x225 ![0, 1, 2] bcast_S1x8x225_S14641x8x225_0_1_2 : (⟨S1x8x225, .f32⟩ : BufTy).Contents (Elt F) → (⟨S14641x8x225, .f32⟩ : BufTy).Contents (Elt F)),
    binary main_v217 main_v218 main_v219 (subf : (⟨S14641x8x225, .f32⟩ : BufTy).Contents (Elt F) → (⟨S14641x8x225, .f32⟩ : BufTy).Contents (Elt F) → (⟨S14641x8x225, .f32⟩ : BufTy).Contents (Elt F)),
    unary main_arg5 main_v220 ((extractStridedSlice S14641x1 ![0, 1] · slices_S14641x2_S14641x1_0_1) : (⟨S14641x2, .f32⟩ : BufTy).Contents (Elt F) → (⟨S14641x1, .f32⟩ : BufTy).Contents (Elt F)) ]
def C0_24 : List (HloOp τ sig (Elt F)) := L0_24
noncomputable def W0_24 : List (Ref sig .tc) := [main_v210, main_cst_49, main_v211, main_v212, main_v213, main_v214, main_v215, main_v216, main_v217, main_v218, main_v219, main_v220]
set_option maxHeartbeats 4000000 in
theorem writes0_24 : (C0_24 (F := F)).Forall fun op => op.writes ⊆ (W0_24.map (Proc.devRef (τ := τ) .tc)).toFinset := by
  simp only [C0_24, L0_24, List.Forall, nullary_writes, unary_writes, binary_writes, ternary_writes, quaternary_writes, reshape_writes, nary_writes, unaryIndexed_writes, binaryIndexed_writes]
  repeat' apply And.intro
  all_goals exact sub_of_mem (by decide)
theorem skip0_24 (V : Valuation τ sig (Elt F)) {r : Ref sig .tc} (h : r ∉ W0_24) :
    StableHlo.after (C0_24 (F := F)) V (no_index (Proc.devRef .tc r)) = V (Proc.devRef .tc r) :=
  after_of_writes_sub _ V writes0_24 h
theorem open0_24 (V : Valuation τ sig (Elt F)) {r : Ref sig .tc} (h : r ∈ W0_24) :
    StableHlo.after (C0_24 (F := F)) V (no_index (Proc.devRef .tc r)) = StableHlo.after (L0_24 (F := F)) V (Proc.devRef .tc r) := rfl
noncomputable def U0_24 : List (Ref sig .tc) := [main_v210, main_cst_49, main_v211, main_v213, main_v214, main_v215, main_v216, main_v217, main_v218]
theorem openU0_24 (V : Valuation τ sig (Elt F)) {r : Ref sig .tc} (h : r ∈ U0_24) :
    StableHlo.after (C0_24 (F := F)) V (no_index (Proc.devRef .tc r)) = StableHlo.after (L0_24 (F := F)) V (Proc.devRef .tc r) := rfl
set_option maxHeartbeats 4000000 in
theorem st_main_v212 (V : Valuation τ sig (Elt F)) :
    StableHlo.after (C0_24 (F := F)) (StableHlo.after (C0_23 (F := F)) (StableHlo.after (C0_22 (F := F)) (StableHlo.after (C0_21 (F := F)) (StableHlo.after (C0_20 (F := F)) (StableHlo.after (C0_19 (F := F)) (StableHlo.after (C0_18 (F := F)) (StableHlo.after (C0_17 (F := F)) (StableHlo.after (C0_16 (F := F)) (StableHlo.after (C0_15 (F := F)) (StableHlo.after (C0_14 (F := F)) (StableHlo.after (C0_13 (F := F)) (StableHlo.after (C0_12 (F := F)) (StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V)))))))))))))))))))))))) (no_index (Proc.devRef .tc main_v212))
      = Cert.ReferenceIdeal.Read.val_main_v212 (F := F) (V (Proc.devRef .tc main_arg1)) (V (Proc.devRef .tc main_arg2)) (V (Proc.devRef .tc main_arg3)) := by
  simp (disch := decide) only [skip0_0, skip0_1, skip0_2, skip0_3, skip0_4, skip0_5, skip0_6, skip0_7, skip0_8, skip0_9, skip0_10, skip0_11, skip0_12, skip0_13, skip0_14, skip0_15, skip0_16, skip0_17, skip0_18, skip0_19, skip0_20, skip0_21, skip0_22, skip0_23, open0_24, L0_24, st_main_v208, st_main_v209, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v219 (V : Valuation τ sig (Elt F)) :
    StableHlo.after (C0_24 (F := F)) (StableHlo.after (C0_23 (F := F)) (StableHlo.after (C0_22 (F := F)) (StableHlo.after (C0_21 (F := F)) (StableHlo.after (C0_20 (F := F)) (StableHlo.after (C0_19 (F := F)) (StableHlo.after (C0_18 (F := F)) (StableHlo.after (C0_17 (F := F)) (StableHlo.after (C0_16 (F := F)) (StableHlo.after (C0_15 (F := F)) (StableHlo.after (C0_14 (F := F)) (StableHlo.after (C0_13 (F := F)) (StableHlo.after (C0_12 (F := F)) (StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V)))))))))))))))))))))))) (no_index (Proc.devRef .tc main_v219))
      = Cert.ReferenceIdeal.Read.val_main_v219 (F := F) (V (Proc.devRef .tc main_arg1)) (V (Proc.devRef .tc main_arg2)) (V (Proc.devRef .tc main_arg3)) (V (Proc.devRef .tc main_arg5)) := by
  simp (disch := decide) only [skip0_0, skip0_1, skip0_2, skip0_3, skip0_4, skip0_5, skip0_6, skip0_7, skip0_8, skip0_9, skip0_10, skip0_11, skip0_12, skip0_13, skip0_14, skip0_15, skip0_16, skip0_17, skip0_18, skip0_19, skip0_20, skip0_21, skip0_22, skip0_23, open0_24, L0_24, st_main_v204, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v220 (V : Valuation τ sig (Elt F)) :
    StableHlo.after (C0_24 (F := F)) (StableHlo.after (C0_23 (F := F)) (StableHlo.after (C0_22 (F := F)) (StableHlo.after (C0_21 (F := F)) (StableHlo.after (C0_20 (F := F)) (StableHlo.after (C0_19 (F := F)) (StableHlo.after (C0_18 (F := F)) (StableHlo.after (C0_17 (F := F)) (StableHlo.after (C0_16 (F := F)) (StableHlo.after (C0_15 (F := F)) (StableHlo.after (C0_14 (F := F)) (StableHlo.after (C0_13 (F := F)) (StableHlo.after (C0_12 (F := F)) (StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V)))))))))))))))))))))))) (no_index (Proc.devRef .tc main_v220))
      = Cert.ReferenceIdeal.Read.val_main_v220 (F := F) (V (Proc.devRef .tc main_arg5)) := by
  simp (disch := decide) only [skip0_0, skip0_1, skip0_2, skip0_3, skip0_4, skip0_5, skip0_6, skip0_7, skip0_8, skip0_9, skip0_10, skip0_11, skip0_12, skip0_13, skip0_14, skip0_15, skip0_16, skip0_17, skip0_18, skip0_19, skip0_20, skip0_21, skip0_22, skip0_23, open0_24, L0_24, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L0_25 : List (HloOp τ sig (Elt F)) :=
  [ reshape main_v220 main_v221 rfl shapeCasts_S14641x1_S14641,
    unary main_v221 main_v222 (broadcastInDim S14641x1x1 ![0] bcast_S14641_S14641x1x1_0 : (⟨S14641, .f32⟩ : BufTy).Contents (Elt F) → (⟨S14641x1x1, .f32⟩ : BufTy).Contents (Elt F)),
    unary main_v212 main_v223 (broadcastInDim S1x8x225 ![1, 2] bcast_S8x225_S1x8x225_1_2 : (⟨S8x225, .f32⟩ : BufTy).Contents (Elt F) → (⟨S1x8x225, .f32⟩ : BufTy).Contents (Elt F)),
    unary main_v222 main_v224 (broadcastInDim S14641x8x225 ![0, 1, 2] bcast_S14641x1x1_S14641x8x225_0_1_2 : (⟨S14641x1x1, .f32⟩ : BufTy).Contents (Elt F) → (⟨S14641x8x225, .f32⟩ : BufTy).Contents (Elt F)),
    unary main_v223 main_v225 (broadcastInDim S14641x8x225 ![0, 1, 2] bcast_S1x8x225_S14641x8x225_0_1_2 : (⟨S1x8x225, .f32⟩ : BufTy).Contents (Elt F) → (⟨S14641x8x225, .f32⟩ : BufTy).Contents (Elt F)),
    binary main_v224 main_v225 main_v226 (subf : (⟨S14641x8x225, .f32⟩ : BufTy).Contents (Elt F) → (⟨S14641x8x225, .f32⟩ : BufTy).Contents (Elt F) → (⟨S14641x8x225, .f32⟩ : BufTy).Contents (Elt F)),
    binary main_v219 main_v219 main_v227 (mulf : (⟨S14641x8x225, .f32⟩ : BufTy).Contents (Elt F) → (⟨S14641x8x225, .f32⟩ : BufTy).Contents (Elt F) → (⟨S14641x8x225, .f32⟩ : BufTy).Contents (Elt F)),
    unary main_v195 main_v228 (broadcastInDim S1x8x225 ![1, 2] bcast_S8x225_S1x8x225_1_2 : (⟨S8x225, .f32⟩ : BufTy).Contents (Elt F) → (⟨S1x8x225, .f32⟩ : BufTy).Contents (Elt F)),
    unary main_v228 main_v229 (broadcastInDim S14641x8x225 ![0, 1, 2] bcast_S1x8x225_S14641x8x225_0_1_2 : (⟨S1x8x225, .f32⟩ : BufTy).Contents (Elt F) → (⟨S14641x8x225, .f32⟩ : BufTy).Contents (Elt F)),
    binary main_v227 main_v229 main_v230 (mulf : (⟨S14641x8x225, .f32⟩ : BufTy).Contents (Elt F) → (⟨S14641x8x225, .f32⟩ : BufTy).Contents (Elt F) → (⟨S14641x8x225, .f32⟩ : BufTy).Contents (Elt F)),
    nullary main_cst_50 (constant S_ .f32 0x40000000#32),
    unary main_cst_50 main_v231 (broadcastInDim S14641x8x225 ![] bcast_S_S14641x8x225 : (⟨S_, .f32⟩ : BufTy).Contents (Elt F) → (⟨S14641x8x225, .f32⟩ : BufTy).Contents (Elt F)) ]
def C0_25 : List (HloOp τ sig (Elt F)) := L0_25
noncomputable def W0_25 : List (Ref sig .tc) := [main_v221, main_v222, main_v223, main_v224, main_v225, main_v226, main_v227, main_v228, main_v229, main_v230, main_cst_50, main_v231]
set_option maxHeartbeats 4000000 in
theorem writes0_25 : (C0_25 (F := F)).Forall fun op => op.writes ⊆ (W0_25.map (Proc.devRef (τ := τ) .tc)).toFinset := by
  simp only [C0_25, L0_25, List.Forall, nullary_writes, unary_writes, binary_writes, ternary_writes, quaternary_writes, reshape_writes, nary_writes, unaryIndexed_writes, binaryIndexed_writes]
  repeat' apply And.intro
  all_goals exact sub_of_mem (by decide)
theorem skip0_25 (V : Valuation τ sig (Elt F)) {r : Ref sig .tc} (h : r ∉ W0_25) :
    StableHlo.after (C0_25 (F := F)) V (no_index (Proc.devRef .tc r)) = V (Proc.devRef .tc r) :=
  after_of_writes_sub _ V writes0_25 h
theorem open0_25 (V : Valuation τ sig (Elt F)) {r : Ref sig .tc} (h : r ∈ W0_25) :
    StableHlo.after (C0_25 (F := F)) V (no_index (Proc.devRef .tc r)) = StableHlo.after (L0_25 (F := F)) V (Proc.devRef .tc r) := rfl
noncomputable def U0_25 : List (Ref sig .tc) := [main_v221, main_v222, main_v223, main_v224, main_v225, main_v227, main_v228, main_v229, main_cst_50]
theorem openU0_25 (V : Valuation τ sig (Elt F)) {r : Ref sig .tc} (h : r ∈ U0_25) :
    StableHlo.after (C0_25 (F := F)) V (no_index (Proc.devRef .tc r)) = StableHlo.after (L0_25 (F := F)) V (Proc.devRef .tc r) := rfl
set_option maxHeartbeats 4000000 in
theorem st_main_v226 (V : Valuation τ sig (Elt F)) :
    StableHlo.after (C0_25 (F := F)) (StableHlo.after (C0_24 (F := F)) (StableHlo.after (C0_23 (F := F)) (StableHlo.after (C0_22 (F := F)) (StableHlo.after (C0_21 (F := F)) (StableHlo.after (C0_20 (F := F)) (StableHlo.after (C0_19 (F := F)) (StableHlo.after (C0_18 (F := F)) (StableHlo.after (C0_17 (F := F)) (StableHlo.after (C0_16 (F := F)) (StableHlo.after (C0_15 (F := F)) (StableHlo.after (C0_14 (F := F)) (StableHlo.after (C0_13 (F := F)) (StableHlo.after (C0_12 (F := F)) (StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V))))))))))))))))))))))))) (no_index (Proc.devRef .tc main_v226))
      = Cert.ReferenceIdeal.Read.val_main_v226 (F := F) (V (Proc.devRef .tc main_arg1)) (V (Proc.devRef .tc main_arg2)) (V (Proc.devRef .tc main_arg3)) (V (Proc.devRef .tc main_arg5)) := by
  simp (disch := decide) only [skip0_0, skip0_1, skip0_2, skip0_3, skip0_4, skip0_5, skip0_6, skip0_7, skip0_8, skip0_9, skip0_10, skip0_11, skip0_12, skip0_13, skip0_14, skip0_15, skip0_16, skip0_17, skip0_18, skip0_19, skip0_20, skip0_21, skip0_22, skip0_23, skip0_24, open0_25, L0_25, st_main_v220, st_main_v212, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v230 (V : Valuation τ sig (Elt F)) :
    StableHlo.after (C0_25 (F := F)) (StableHlo.after (C0_24 (F := F)) (StableHlo.after (C0_23 (F := F)) (StableHlo.after (C0_22 (F := F)) (StableHlo.after (C0_21 (F := F)) (StableHlo.after (C0_20 (F := F)) (StableHlo.after (C0_19 (F := F)) (StableHlo.after (C0_18 (F := F)) (StableHlo.after (C0_17 (F := F)) (StableHlo.after (C0_16 (F := F)) (StableHlo.after (C0_15 (F := F)) (StableHlo.after (C0_14 (F := F)) (StableHlo.after (C0_13 (F := F)) (StableHlo.after (C0_12 (F := F)) (StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V))))))))))))))))))))))))) (no_index (Proc.devRef .tc main_v230))
      = Cert.ReferenceIdeal.Read.val_main_v230 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  simp (disch := decide) only [skip0_0, skip0_1, skip0_2, skip0_3, skip0_4, skip0_5, skip0_6, skip0_7, skip0_8, skip0_9, skip0_10, skip0_11, skip0_12, skip0_13, skip0_14, skip0_15, skip0_16, skip0_17, skip0_18, skip0_19, skip0_20, skip0_21, skip0_22, skip0_23, skip0_24, open0_25, L0_25, st_main_v219, st_main_v195, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_v231 (V : Valuation τ sig (Elt F)) :
    StableHlo.after (C0_25 (F := F)) (StableHlo.after (C0_24 (F := F)) (StableHlo.after (C0_23 (F := F)) (StableHlo.after (C0_22 (F := F)) (StableHlo.after (C0_21 (F := F)) (StableHlo.after (C0_20 (F := F)) (StableHlo.after (C0_19 (F := F)) (StableHlo.after (C0_18 (F := F)) (StableHlo.after (C0_17 (F := F)) (StableHlo.after (C0_16 (F := F)) (StableHlo.after (C0_15 (F := F)) (StableHlo.after (C0_14 (F := F)) (StableHlo.after (C0_13 (F := F)) (StableHlo.after (C0_12 (F := F)) (StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V))))))))))))))))))))))))) (no_index (Proc.devRef .tc main_v231))
      = Cert.ReferenceIdeal.Read.val_main_v231 (F := F) := by
  simp (disch := decide) only [skip0_0, skip0_1, skip0_2, skip0_3, skip0_4, skip0_5, skip0_6, skip0_7, skip0_8, skip0_9, skip0_10, skip0_11, skip0_12, skip0_13, skip0_14, skip0_15, skip0_16, skip0_17, skip0_18, skip0_19, skip0_20, skip0_21, skip0_22, skip0_23, skip0_24, open0_25, L0_25, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L0_26 : List (HloOp τ sig (Elt F)) :=
  [ binary main_v231 main_v219 main_v232 (mulf : (⟨S14641x8x225, .f32⟩ : BufTy).Contents (Elt F) → (⟨S14641x8x225, .f32⟩ : BufTy).Contents (Elt F) → (⟨S14641x8x225, .f32⟩ : BufTy).Contents (Elt F)),
    binary main_v232 main_v226 main_v233 (mulf : (⟨S14641x8x225, .f32⟩ : BufTy).Contents (Elt F) → (⟨S14641x8x225, .f32⟩ : BufTy).Contents (Elt F) → (⟨S14641x8x225, .f32⟩ : BufTy).Contents (Elt F)),
    unary main_v197 main_v234 (broadcastInDim S1x8x225 ![1, 2] bcast_S8x225_S1x8x225_1_2 : (⟨S8x225, .f32⟩ : BufTy).Contents (Elt F) → (⟨S1x8x225, .f32⟩ : BufTy).Contents (Elt F)),
    unary main_v234 main_v235 (broadcastInDim S14641x8x225 ![0, 1, 2] bcast_S1x8x225_S14641x8x225_0_1_2 : (⟨S1x8x225, .f32⟩ : BufTy).Contents (Elt F) → (⟨S14641x8x225, .f32⟩ : BufTy).Contents (Elt F)),
    binary main_v233 main_v235 main_v236 (mulf : (⟨S14641x8x225, .f32⟩ : BufTy).Contents (Elt F) → (⟨S14641x8x225, .f32⟩ : BufTy).Contents (Elt F) → (⟨S14641x8x225, .f32⟩ : BufTy).Contents (Elt F)),
    binary main_v230 main_v236 main_v237 (addf : (⟨S14641x8x225, .f32⟩ : BufTy).Contents (Elt F) → (⟨S14641x8x225, .f32⟩ : BufTy).Contents (Elt F) → (⟨S14641x8x225, .f32⟩ : BufTy).Contents (Elt F)),
    binary main_v226 main_v226 main_v238 (mulf : (⟨S14641x8x225, .f32⟩ : BufTy).Contents (Elt F) → (⟨S14641x8x225, .f32⟩ : BufTy).Contents (Elt F) → (⟨S14641x8x225, .f32⟩ : BufTy).Contents (Elt F)),
    unary main_v198 main_v239 (broadcastInDim S1x8x225 ![1, 2] bcast_S8x225_S1x8x225_1_2 : (⟨S8x225, .f32⟩ : BufTy).Contents (Elt F) → (⟨S1x8x225, .f32⟩ : BufTy).Contents (Elt F)),
    unary main_v239 main_v240 (broadcastInDim S14641x8x225 ![0, 1, 2] bcast_S1x8x225_S14641x8x225_0_1_2 : (⟨S1x8x225, .f32⟩ : BufTy).Contents (Elt F) → (⟨S14641x8x225, .f32⟩ : BufTy).Contents (Elt F)),
    binary main_v238 main_v240 main_v241 (mulf : (⟨S14641x8x225, .f32⟩ : BufTy).Contents (Elt F) → (⟨S14641x8x225, .f32⟩ : BufTy).Contents (Elt F) → (⟨S14641x8x225, .f32⟩ : BufTy).Contents (Elt F)),
    binary main_v237 main_v241 main_v242 (addf : (⟨S14641x8x225, .f32⟩ : BufTy).Contents (Elt F) → (⟨S14641x8x225, .f32⟩ : BufTy).Contents (Elt F) → (⟨S14641x8x225, .f32⟩ : BufTy).Contents (Elt F)),
    nullary main_cst_51 (constant S_ .f32 0xBF000000#32) ]
def C0_26 : List (HloOp τ sig (Elt F)) := L0_26
noncomputable def W0_26 : List (Ref sig .tc) := [main_v232, main_v233, main_v234, main_v235, main_v236, main_v237, main_v238, main_v239, main_v240, main_v241, main_v242, main_cst_51]
set_option maxHeartbeats 4000000 in
theorem writes0_26 : (C0_26 (F := F)).Forall fun op => op.writes ⊆ (W0_26.map (Proc.devRef (τ := τ) .tc)).toFinset := by
  simp only [C0_26, L0_26, List.Forall, nullary_writes, unary_writes, binary_writes, ternary_writes, quaternary_writes, reshape_writes, nary_writes, unaryIndexed_writes, binaryIndexed_writes]
  repeat' apply And.intro
  all_goals exact sub_of_mem (by decide)
theorem skip0_26 (V : Valuation τ sig (Elt F)) {r : Ref sig .tc} (h : r ∉ W0_26) :
    StableHlo.after (C0_26 (F := F)) V (no_index (Proc.devRef .tc r)) = V (Proc.devRef .tc r) :=
  after_of_writes_sub _ V writes0_26 h
theorem open0_26 (V : Valuation τ sig (Elt F)) {r : Ref sig .tc} (h : r ∈ W0_26) :
    StableHlo.after (C0_26 (F := F)) V (no_index (Proc.devRef .tc r)) = StableHlo.after (L0_26 (F := F)) V (Proc.devRef .tc r) := rfl
noncomputable def U0_26 : List (Ref sig .tc) := [main_v232, main_v233, main_v234, main_v235, main_v236, main_v237, main_v238, main_v239, main_v240, main_v241]
theorem openU0_26 (V : Valuation τ sig (Elt F)) {r : Ref sig .tc} (h : r ∈ U0_26) :
    StableHlo.after (C0_26 (F := F)) V (no_index (Proc.devRef .tc r)) = StableHlo.after (L0_26 (F := F)) V (Proc.devRef .tc r) := rfl
set_option maxHeartbeats 4000000 in
theorem st_main_v242 (V : Valuation τ sig (Elt F)) :
    StableHlo.after (C0_26 (F := F)) (StableHlo.after (C0_25 (F := F)) (StableHlo.after (C0_24 (F := F)) (StableHlo.after (C0_23 (F := F)) (StableHlo.after (C0_22 (F := F)) (StableHlo.after (C0_21 (F := F)) (StableHlo.after (C0_20 (F := F)) (StableHlo.after (C0_19 (F := F)) (StableHlo.after (C0_18 (F := F)) (StableHlo.after (C0_17 (F := F)) (StableHlo.after (C0_16 (F := F)) (StableHlo.after (C0_15 (F := F)) (StableHlo.after (C0_14 (F := F)) (StableHlo.after (C0_13 (F := F)) (StableHlo.after (C0_12 (F := F)) (StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V)))))))))))))))))))))))))) (no_index (Proc.devRef .tc main_v242))
      = Cert.ReferenceIdeal.Read.val_main_v242 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  simp (disch := decide) only [skip0_0, skip0_1, skip0_2, skip0_3, skip0_4, skip0_5, skip0_6, skip0_7, skip0_8, skip0_9, skip0_10, skip0_11, skip0_12, skip0_13, skip0_14, skip0_15, skip0_16, skip0_17, skip0_18, skip0_19, skip0_20, skip0_21, skip0_22, skip0_23, skip0_24, skip0_25, open0_26, L0_26, st_main_v230, st_main_v231, st_main_v219, st_main_v226, st_main_v197, st_main_v198, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl
set_option maxHeartbeats 4000000 in
theorem st_main_cst_51 (V : Valuation τ sig (Elt F)) :
    StableHlo.after (C0_26 (F := F)) (StableHlo.after (C0_25 (F := F)) (StableHlo.after (C0_24 (F := F)) (StableHlo.after (C0_23 (F := F)) (StableHlo.after (C0_22 (F := F)) (StableHlo.after (C0_21 (F := F)) (StableHlo.after (C0_20 (F := F)) (StableHlo.after (C0_19 (F := F)) (StableHlo.after (C0_18 (F := F)) (StableHlo.after (C0_17 (F := F)) (StableHlo.after (C0_16 (F := F)) (StableHlo.after (C0_15 (F := F)) (StableHlo.after (C0_14 (F := F)) (StableHlo.after (C0_13 (F := F)) (StableHlo.after (C0_12 (F := F)) (StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V)))))))))))))))))))))))))) (no_index (Proc.devRef .tc main_cst_51))
      = Cert.ReferenceIdeal.Read.val_main_cst_51 (F := F) := by
  simp (disch := decide) only [skip0_0, skip0_1, skip0_2, skip0_3, skip0_4, skip0_5, skip0_6, skip0_7, skip0_8, skip0_9, skip0_10, skip0_11, skip0_12, skip0_13, skip0_14, skip0_15, skip0_16, skip0_17, skip0_18, skip0_19, skip0_20, skip0_21, skip0_22, skip0_23, skip0_24, skip0_25, open0_26, L0_26, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 4000000 in
abbrev L0_27 : List (HloOp τ sig (Elt F)) :=
  [ unary main_cst_51 main_v243 (broadcastInDim S14641x8x225 ![] bcast_S_S14641x8x225 : (⟨S_, .f32⟩ : BufTy).Contents (Elt F) → (⟨S14641x8x225, .f32⟩ : BufTy).Contents (Elt F)),
    binary main_v243 main_v242 main_v244 (mulf : (⟨S14641x8x225, .f32⟩ : BufTy).Contents (Elt F) → (⟨S14641x8x225, .f32⟩ : BufTy).Contents (Elt F) → (⟨S14641x8x225, .f32⟩ : BufTy).Contents (Elt F)),
    unary main_v244 main_v245 (Host.exp : (⟨S14641x8x225, .f32⟩ : BufTy).Contents (Elt F) → (⟨S14641x8x225, .f32⟩ : BufTy).Contents (Elt F)),
    unary main_v166 main_v246 (broadcastInDim S1x8x225 ![1, 2] bcast_S8x225_S1x8x225_1_2 : (⟨S8x225, .f32⟩ : BufTy).Contents (Elt F) → (⟨S1x8x225, .f32⟩ : BufTy).Contents (Elt F)),
    unary main_v246 main_v247 (broadcastInDim S14641x8x225 ![0, 1, 2] bcast_S1x8x225_S14641x8x225_0_1_2 : (⟨S1x8x225, .f32⟩ : BufTy).Contents (Elt F) → (⟨S14641x8x225, .f32⟩ : BufTy).Contents (Elt F)),
    binary main_v245 main_v247 main_v248 (mulf : (⟨S14641x8x225, .f32⟩ : BufTy).Contents (Elt F) → (⟨S14641x8x225, .f32⟩ : BufTy).Contents (Elt F) → (⟨S14641x8x225, .f32⟩ : BufTy).Contents (Elt F)),
    nullary main_cst_52 (constant S_ .f32 0x00000000#32),
    binary main_v248 main_cst_52 main_v249 ((fun x v => Host.reduceAdd x v reducesTo_S14641x8x225_S14641x8_d2 h_S_) : (⟨S14641x8x225, .f32⟩ : BufTy).Contents (Elt F) → (⟨S_, .f32⟩ : BufTy).Contents (Elt F) → (⟨S14641x8, .f32⟩ : BufTy).Contents (Elt F)),
    unary main_v249 main_v250 ((transpose S8x14641 [1, 0] · transposes_S14641x8_S8x14641_1_0) : (⟨S14641x8, .f32⟩ : BufTy).Contents (Elt F) → (⟨S8x14641, .f32⟩ : BufTy).Contents (Elt F)),
    reshape main_v250 main_v251 rfl shapeCasts_S8x14641_S8x121x121,
    TRef.unary (TRef.of (T := ⟨S8x121x121, .f32⟩) main_v251) (TRef.of (T := ⟨S8x121x121, .f32⟩) main_v252) (Host.reverse [1]) ]
def C0_27 : List (HloOp τ sig (Elt F)) := L0_27
noncomputable def W0_27 : List (Ref sig .tc) := [main_v243, main_v244, main_v245, main_v246, main_v247, main_v248, main_cst_52, main_v249, main_v250, main_v251, main_v252]
set_option maxHeartbeats 4000000 in
theorem writes0_27 : (C0_27 (F := F)).Forall fun op => op.writes ⊆ (W0_27.map (Proc.devRef (τ := τ) .tc)).toFinset := by
  simp only [C0_27, L0_27, List.Forall, nullary_writes, unary_writes, binary_writes, ternary_writes, quaternary_writes, reshape_writes, nary_writes, unaryIndexed_writes, binaryIndexed_writes]
  repeat' apply And.intro
  all_goals exact sub_of_mem (by decide)
theorem skip0_27 (V : Valuation τ sig (Elt F)) {r : Ref sig .tc} (h : r ∉ W0_27) :
    StableHlo.after (C0_27 (F := F)) V (no_index (Proc.devRef .tc r)) = V (Proc.devRef .tc r) :=
  after_of_writes_sub _ V writes0_27 h
theorem open0_27 (V : Valuation τ sig (Elt F)) {r : Ref sig .tc} (h : r ∈ W0_27) :
    StableHlo.after (C0_27 (F := F)) V (no_index (Proc.devRef .tc r)) = StableHlo.after (L0_27 (F := F)) V (Proc.devRef .tc r) := rfl
noncomputable def U0_27 : List (Ref sig .tc) := [main_v243, main_v244, main_v245, main_v246, main_v247, main_v248, main_cst_52, main_v249, main_v250, main_v251]
theorem openU0_27 (V : Valuation τ sig (Elt F)) {r : Ref sig .tc} (h : r ∈ U0_27) :
    StableHlo.after (C0_27 (F := F)) V (no_index (Proc.devRef .tc r)) = StableHlo.after (L0_27 (F := F)) V (Proc.devRef .tc r) := rfl
set_option maxHeartbeats 4000000 in
theorem st_main_v252 (V : Valuation τ sig (Elt F)) :
    StableHlo.after (C0_27 (F := F)) (StableHlo.after (C0_26 (F := F)) (StableHlo.after (C0_25 (F := F)) (StableHlo.after (C0_24 (F := F)) (StableHlo.after (C0_23 (F := F)) (StableHlo.after (C0_22 (F := F)) (StableHlo.after (C0_21 (F := F)) (StableHlo.after (C0_20 (F := F)) (StableHlo.after (C0_19 (F := F)) (StableHlo.after (C0_18 (F := F)) (StableHlo.after (C0_17 (F := F)) (StableHlo.after (C0_16 (F := F)) (StableHlo.after (C0_15 (F := F)) (StableHlo.after (C0_14 (F := F)) (StableHlo.after (C0_13 (F := F)) (StableHlo.after (C0_12 (F := F)) (StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V))))))))))))))))))))))))))) (no_index (Proc.devRef .tc main_v252))
      = Cert.ReferenceIdeal.Read.val_main_v252 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  simp (disch := decide) only [skip0_0, skip0_1, skip0_2, skip0_3, skip0_4, skip0_5, skip0_6, skip0_7, skip0_8, skip0_9, skip0_10, skip0_11, skip0_12, skip0_13, skip0_14, skip0_15, skip0_16, skip0_17, skip0_18, skip0_19, skip0_20, skip0_21, skip0_22, skip0_23, skip0_24, skip0_25, skip0_26, open0_27, L0_27, st_main_cst_51, st_main_v242, st_main_v166, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

end Cert.Percept.RefChunks

end
-- ==== Proof.RefChunks.lean ====
/-
  The whole list of operations is the concatenation of its runs (split0), so the fold over it is the fold of the folds
  (after_ops); the result buffer after all the operations is the last stage of the argument arrays (res_main_v252).
-/
import proofs.«134758_j41807211659417_2_alg».proof.Proof.RefChunks5

set_option maxRecDepth 16384

noncomputable section

namespace Cert.Percept.RefChunks

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

set_option maxHeartbeats 4000000 in
theorem split0 : (ops : List (HloOp τ sig (Elt F))) = C0_0 (F := F) ++ (C0_1 (F := F) ++ (C0_2 (F := F) ++ (C0_3 (F := F) ++ (C0_4 (F := F) ++ (C0_5 (F := F) ++ (C0_6 (F := F) ++ (C0_7 (F := F) ++ (C0_8 (F := F) ++ (C0_9 (F := F) ++ (C0_10 (F := F) ++ (C0_11 (F := F) ++ (C0_12 (F := F) ++ (C0_13 (F := F) ++ (C0_14 (F := F) ++ (C0_15 (F := F) ++ (C0_16 (F := F) ++ (C0_17 (F := F) ++ (C0_18 (F := F) ++ (C0_19 (F := F) ++ (C0_20 (F := F) ++ (C0_21 (F := F) ++ (C0_22 (F := F) ++ (C0_23 (F := F) ++ (C0_24 (F := F) ++ (C0_25 (F := F) ++ (C0_26 (F := F) ++ (C0_27 (F := F)))))))))))))))))))))))))))) := rfl

set_option maxHeartbeats 40000000 in
/-- The fold over all the operations is the fold over the runs, in order. -/
theorem after_ops (V : Valuation τ sig (Elt F)) :
    StableHlo.after (ops (F := F)) V = (StableHlo.after (C0_27 (F := F)) (StableHlo.after (C0_26 (F := F)) (StableHlo.after (C0_25 (F := F)) (StableHlo.after (C0_24 (F := F)) (StableHlo.after (C0_23 (F := F)) (StableHlo.after (C0_22 (F := F)) (StableHlo.after (C0_21 (F := F)) (StableHlo.after (C0_20 (F := F)) (StableHlo.after (C0_19 (F := F)) (StableHlo.after (C0_18 (F := F)) (StableHlo.after (C0_17 (F := F)) (StableHlo.after (C0_16 (F := F)) (StableHlo.after (C0_15 (F := F)) (StableHlo.after (C0_14 (F := F)) (StableHlo.after (C0_13 (F := F)) (StableHlo.after (C0_12 (F := F)) (StableHlo.after (C0_11 (F := F)) (StableHlo.after (C0_10 (F := F)) (StableHlo.after (C0_9 (F := F)) (StableHlo.after (C0_8 (F := F)) (StableHlo.after (C0_7 (F := F)) (StableHlo.after (C0_6 (F := F)) (StableHlo.after (C0_5 (F := F)) (StableHlo.after (C0_4 (F := F)) (StableHlo.after (C0_3 (F := F)) (StableHlo.after (C0_2 (F := F)) (StableHlo.after (C0_1 (F := F)) (StableHlo.after (C0_0 (F := F)) V)))))))))))))))))))))))))))) := by
  rw [split0]
  rfl

/-- The result buffer after all the operations is the last stage of the argument arrays. -/
theorem res_main_v252 (V : Valuation τ sig (Elt F)) :
    StableHlo.after (ops (F := F)) V (Proc.devRef .tc main_v252)
      = Cert.ReferenceIdeal.Read.val_main_v252 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [after_ops]
  exact st_main_v252 V

end Cert.Percept.RefChunks

end
-- ==== Proof.RefRunH.lean ====
/-
  The reference's run: every weakly fair execution of its @main (335 host operations in a row) terminates with the
  result buffer at the LAST STAGE of the per-operation reading (the flip of the reshaped [8,14641] array) of the six
  argument arrays, and the argument arrays unchanged — no operation writes an argument array.
-/
import proofs.«134758_j41807211659417_2_alg».proof.Proof.RefOps
import proofs.«134758_j41807211659417_2_alg».proof.Proof.RefChunks
import proofs.«134758_j41807211659417_2_alg».proof.Proof.RefRead

set_option maxRecDepth 16384

noncomputable section

namespace Cert.Percept.RefRunH

open Cert.ReferenceIdeal Cert.ReferenceIdeal.Gen Cert.ReferenceIdeal.Value Cert.ReferenceIdeal.Read Cert.Percept.RefChunks Idealize.ShloMosaic Idealize.ShloMosaic.TcCoe Idealize.SL.Sem Idealize.ShloMosaic.StableHlo

variable {F : FTy → Type} [FloatOps F]

/-- `op` writes none of the six argument arrays. -/
def KeepsArgs (op : HloOp τ sig (Elt F)) : Prop :=
  Proc.devRef .tc main_arg0 ∉ op.writes ∧ Proc.devRef .tc main_arg1 ∉ op.writes ∧ Proc.devRef .tc main_arg2 ∉ op.writes ∧ Proc.devRef .tc main_arg3 ∉ op.writes ∧ Proc.devRef .tc main_arg4 ∉ op.writes ∧ Proc.devRef .tc main_arg5 ∉ op.writes

set_option maxHeartbeats 40000000 in
/-- Every operation writes its own result buffer only, and no result buffer is an argument array. -/
theorem ops_keeps : (ops : List (HloOp τ sig (Elt F))).Forall KeepsArgs := by
  simp only [ops, List.Forall, KeepsArgs, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)

set_option maxHeartbeats 400000000 in
/-- The result buffer after the operations is the last stage of the arguments. -/
theorem res_val (m : (ℓ : Loc nD τ sig) → Buf (Elt F) ℓ) (c : Dev nD) :
    StableHlo.after (ops (F := F)) (launchContents m c) (Proc.devRef .tc main_v252)
      = val_main_v252 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  exact Cert.Percept.RefChunks.res_main_v252 (F := F) (launchContents m c)

set_option maxHeartbeats 40000000 in
/-- On every device, from any memory with zero counters: @main terminates with the result at the last stage of the
    arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v252) = val_main_v252 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v252).trans (res_val m c),
      (h c main_arg0).trans (StableHlo.after_of_forall_not_mem (b := Proc.devRef .tc main_arg0) _ _ (fun op hop => ((List.forall_iff_forall_mem.mp ops_keeps) op hop).1)),
      (h c main_arg1).trans (StableHlo.after_of_forall_not_mem (b := Proc.devRef .tc main_arg1) _ _ (fun op hop => ((List.forall_iff_forall_mem.mp ops_keeps) op hop).2.1)),
      (h c main_arg2).trans (StableHlo.after_of_forall_not_mem (b := Proc.devRef .tc main_arg2) _ _ (fun op hop => ((List.forall_iff_forall_mem.mp ops_keeps) op hop).2.2.1)),
      (h c main_arg3).trans (StableHlo.after_of_forall_not_mem (b := Proc.devRef .tc main_arg3) _ _ (fun op hop => ((List.forall_iff_forall_mem.mp ops_keeps) op hop).2.2.2.1)),
      (h c main_arg4).trans (StableHlo.after_of_forall_not_mem (b := Proc.devRef .tc main_arg4) _ _ (fun op hop => ((List.forall_iff_forall_mem.mp ops_keeps) op hop).2.2.2.2.1)),
      (h c main_arg5).trans (StableHlo.after_of_forall_not_mem (b := Proc.devRef .tc main_arg5) _ _ (fun op hop => ((List.forall_iff_forall_mem.mp ops_keeps) op hop).2.2.2.2.2))⟩)
    (run_seq scopedRefs_eq scopedSems_eq defs main (fun _ => ops) main_eq (fun _ => ops_sub) m ρ)

end Cert.Percept.RefRunH

end
-- ==== Proof.Claims.lean ====
/-
  The five claims.

  The kernel program's frame, at the word-level instance and at the ideal one, is the pipeline's frame run read at
  the six argument arrays. The reference's frame is its run with the result dropped. Nothing was rewritten by the
  idealization, so its preservation claim is trivial. For the algebraic claim both runs are posted at ONE value: on
  each core, the reference's last stage (the flip of the reshaped [8,14641] array of weighted sums) of the arguments.
  The kernel reaches it through the output array of its region — one function of the padded pixel grid, the coefficient
  array and the brightness (each a function of the arguments through the host operations before the region) — whose 14641
  real columns are the reference's array when the arguments are finite, followed by the same reshape and flip.
-/
import proofs.«134758_j41807211659417_2_alg».proof.Defs
import proofs.«134758_j41807211659417_2_alg».proof.Proof.FrameIdeal
import proofs.«134758_j41807211659417_2_alg».proof.Proof.FrameBits
import proofs.«134758_j41807211659417_2_alg».proof.Proof.KTail
import proofs.«134758_j41807211659417_2_alg».proof.Proof.HostK
import proofs.«134758_j41807211659417_2_alg».proof.Proof.Bridge
import proofs.«134758_j41807211659417_2_alg».proof.Proof.PreReal
import proofs.«134758_j41807211659417_2_alg».proof.Proof.Gen.Pre_finite_inputs
import proofs.«134758_j41807211659417_2_alg».proof.Proof.Gen.Kernel
import proofs.«134758_j41807211659417_2_alg».proof.Proof.Gen.KernelIdeal
import proofs.«134758_j41807211659417_2_alg».proof.Proof.Gen.ReferenceIdeal
import proofs.«134758_j41807211659417_2_alg».proof.Proof.RefRunH

set_option maxRecDepth 16384

noncomputable section

namespace Cert.Proof.Percept

open Idealize.ShloMosaic Idealize.ShloMosaic.TcCoe Idealize.SL.Sem

theorem frame_k : Cert.frame_Kernel := fun m ρ _ => Cert.Kernel.HFrame.frame m ρ
theorem frame_ki : Cert.frame_KernelIdeal := fun m ρ _ => Cert.KernelIdeal.HFrame.frame m ρ
theorem frame_ri : Cert.frame_ReferenceIdeal := fun m ρ _ =>
  (θ_run Cert.ReferenceIdeal.defs _ _).mono (fun _ h c => (h c).2) (Cert.Percept.RefRunH.run (F := Ideal) m ρ)
theorem preserves : Cert.preserves_Kernel_KernelIdeal := trivial

/-- The kernel program's result buffer on core c is the reference's last stage of the arguments. -/
theorem kernel_result (m : (ℓ : Loc Cert.KernelIdeal.nD Cert.KernelIdeal.τ Cert.KernelIdeal.sig) → Buf (Elt Ideal) ℓ) (hpre : Cert.Pre_KernelIdeal m) (c : Dev Cert.KernelIdeal.nD) :
    Pipeline.afterTail₀ Cert.KernelIdeal.cfgs (Cert.KernelIdeal.HFrame.dats m) 0 (Cert.KernelIdeal.HFrame.V0 m) [Cert.KernelIdeal.Gen.hostOps1, Cert.KernelIdeal.Gen.hostOps1_1] c Cert.KernelIdeal.main_v253
      = Cert.ReferenceIdeal.Read.val_main_v252 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  obtain ⟨h0, h1, h2, h3, h4, h5⟩ := Cert.Percept.Pre.real_of_pre _ _ _ _ _ _ (hpre c)
  rw [Cert.Percept.KVal.result_eq]
  rw [show Cert.KernelIdeal.HFrame.V m c Cert.KernelIdeal.main_v249 = _ from Cert.Percept.HostK.pix_val m c,
    show Cert.KernelIdeal.HFrame.V m c Cert.KernelIdeal.main_v248 = _ from Cert.Percept.HostK.coef_val m c,
    show Cert.KernelIdeal.HFrame.V m c Cert.KernelIdeal.main_v166 = _ from Cert.Percept.HostK.bright_val m c]
  show Cert.Percept.KVal.tail (extractStridedSlice _ _ (Cert.Percept.Bridge.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) _) = _
  rw [Cert.Percept.Bridge.slice_eq _ _ _ _ _ _ h0 h1 h2 h3 h4 h5]
  rfl

theorem algebraic : Cert.algebraic_KernelIdeal_ReferenceIdeal := by
  intro m ρ m' ρ' hpre hagree
  refine ⟨fun c => Cert.ReferenceIdeal.Read.val_main_v252 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.HFrame.run_main m ρ)
    exact ⟨((h c).2 Cert.KernelIdeal.main_v253 (Pipeline.mem_restRefs_of Cert.KernelIdeal.main_v253 (by decide) (by decide))).trans (kernel_result m hpre c),
      ((h c).2 Cert.KernelIdeal.main_arg0 (Pipeline.mem_restRefs_of Cert.KernelIdeal.main_arg0 (by decide) (by decide))).trans (Cert.KernelIdeal.HFrame.W_main_arg0 m (Cert.KernelIdeal.HFrame.dats m) c),
      ((h c).2 Cert.KernelIdeal.main_arg1 (Pipeline.mem_restRefs_of Cert.KernelIdeal.main_arg1 (by decide) (by decide))).trans (Cert.KernelIdeal.HFrame.W_main_arg1 m (Cert.KernelIdeal.HFrame.dats m) c),
      ((h c).2 Cert.KernelIdeal.main_arg2 (Pipeline.mem_restRefs_of Cert.KernelIdeal.main_arg2 (by decide) (by decide))).trans (Cert.KernelIdeal.HFrame.W_main_arg2 m (Cert.KernelIdeal.HFrame.dats m) c),
      ((h c).2 Cert.KernelIdeal.main_arg3 (Pipeline.mem_restRefs_of Cert.KernelIdeal.main_arg3 (by decide) (by decide))).trans (Cert.KernelIdeal.HFrame.W_main_arg3 m (Cert.KernelIdeal.HFrame.dats m) c),
      ((h c).2 Cert.KernelIdeal.main_arg4 (Pipeline.mem_restRefs_of Cert.KernelIdeal.main_arg4 (by decide) (by decide))).trans (Cert.KernelIdeal.HFrame.W_main_arg4 m (Cert.KernelIdeal.HFrame.dats m) c),
      ((h c).2 Cert.KernelIdeal.main_arg5 (Pipeline.mem_restRefs_of Cert.KernelIdeal.main_arg5 (by decide) (by decide))).trans (Cert.KernelIdeal.HFrame.W_main_arg5 m (Cert.KernelIdeal.HFrame.dats m) c)⟩
  · refine (θ_run Cert.ReferenceIdeal.defs _ _).mono (fun _ h c => ⟨(h c).1.trans ?_, (h c).2⟩) (Cert.Percept.RefRunH.run (F := Ideal) m' ρ')
    rw [(hagree c).1, (hagree c).2.1, (hagree c).2.2.1, (hagree c).2.2.2.1, (hagree c).2.2.2.2.1, (hagree c).2.2.2.2.2]

end Cert.Proof.Percept

end
-- ==== Proof.lean ====
/-
  The certificate: a Pallas kernel that renders the percepts of a retinal implant (for every pixel, batch and electrode
  a Gaussian blob exp(−½ · q) weighted by the electrode's brightness, summed over the electrodes) against its jnp reference.
  The kernel evaluates the quadratic form q as a contraction of six pixel monomials with six coefficients computed on
  the host; the reference evaluates it directly from the pixel-to-centre offsets. The claims are proved in
  Proof/Claims.lean; the witnesses of the programs' stated facts are the generated ones.
-/
import proofs.«134758_j41807211659417_2_alg».proof.Defs
import proofs.«134758_j41807211659417_2_alg».proof.Proof.Gen.Kernel
import proofs.«134758_j41807211659417_2_alg».proof.Proof.Gen.KernelIdeal
import proofs.«134758_j41807211659417_2_alg».proof.Proof.Gen.ReferenceIdeal
import proofs.«134758_j41807211659417_2_alg».proof.Proof.Gen.Pre_finite_inputs
import proofs.«134758_j41807211659417_2_alg».proof.Proof.Claims
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Cert.Proof.Percept.frame_k, Cert.Proof.Percept.frame_ki, Cert.Proof.Percept.frame_ri, Cert.Proof.Percept.preserves, Cert.Proof.Percept.algebraic⟩

end Cert.Proof

end
